-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S512x512 : Shape := ⟨2, ![512, 512]⟩
abbrev S15x32x512 : Shape := ⟨3, ![15, 32, 512]⟩
abbrev S30 : Shape := ⟨1, ![30]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S15x32x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  { ofTc nBuf bufTy 1 62 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_64 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : BitVec 32 := Scalar.subi v2 c1_i32_64
  let c16_i32_65 : BitVec 32 := 16#32
  let v71 : BitVec 32 := Scalar.addi v70 c16_i32_65
  let c16_i32_66 : BitVec 32 := 16#32
  let v72 : BitVec 32 := Scalar.remsi v71 c16_i32_66
  let c32_i32 : BitVec 32 := 32#32
  let v73 : BitVec 32 := Scalar.muli v72 c32_i32
  let c0_i32_74 : BitVec 32 := 0#32
  ![v73.toNat, 0]
def k0_dev16 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_64 : BitVec 32 := 1#32
  let v70 : BitVec 32 := Scalar.subi v2 c1_i32_64
  let c16_i32_65 : BitVec 32 := 16#32
  let v71 : BitVec 32 := Scalar.addi v70 c16_i32_65
  let c16_i32_66 : BitVec 32 := 16#32
  let v72 : BitVec 32 := Scalar.remsi v71 c16_i32_66
  let c1_i32_70 : BitVec 32 := 1#32
  let v74 : BitVec 32 := Scalar.muli v72 c1_i32_70
  let v75 : BitVec 32 := Scalar.addi c0_i32_71 v74
  v75.toNat
def k0_dev17 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_75 : BitVec 32 := 2#32
  let v83 : BitVec 32 := Scalar.subi v2 c2_i32_75
  let c16_i32_76 : BitVec 32 := 16#32
  let v84 : BitVec 32 := Scalar.addi v83 c16_i32_76
  let c16_i32_77 : BitVec 32 := 16#32
  let v85 : BitVec 32 := Scalar.remsi v84 c16_i32_77
  let c1_i32_82 : BitVec 32 := 1#32
  let v87 : BitVec 32 := Scalar.muli v85 c1_i32_82
  let v88 : BitVec 32 := Scalar.addi c0_i32_83 v87
  v88.toNat
def k0_dev18 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_87 : BitVec 32 := 3#32
  let v96 : BitVec 32 := Scalar.subi v2 c3_i32_87
  let c16_i32_88 : BitVec 32 := 16#32
  let v97 : BitVec 32 := Scalar.addi v96 c16_i32_88
  let c16_i32_89 : BitVec 32 := 16#32
  let v98 : BitVec 32 := Scalar.remsi v97 c16_i32_89
  let c1_i32_94 : BitVec 32 := 1#32
  let v100 : BitVec 32 := Scalar.muli v98 c1_i32_94
  let v101 : BitVec 32 := Scalar.addi c0_i32_95 v100
  v101.toNat
def k0_dev19 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_99 : BitVec 32 := 4#32
  let v109 : BitVec 32 := Scalar.subi v2 c4_i32_99
  let c16_i32_100 : BitVec 32 := 16#32
  let v110 : BitVec 32 := Scalar.addi v109 c16_i32_100
  let c16_i32_101 : BitVec 32 := 16#32
  let v111 : BitVec 32 := Scalar.remsi v110 c16_i32_101
  let c1_i32_106 : BitVec 32 := 1#32
  let v113 : BitVec 32 := Scalar.muli v111 c1_i32_106
  let v114 : BitVec 32 := Scalar.addi c0_i32_107 v113
  v114.toNat
def k0_dev20 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_111 : BitVec 32 := 5#32
  let v122 : BitVec 32 := Scalar.subi v2 c5_i32_111
  let c16_i32_112 : BitVec 32 := 16#32
  let v123 : BitVec 32 := Scalar.addi v122 c16_i32_112
  let c16_i32_113 : BitVec 32 := 16#32
  let v124 : BitVec 32 := Scalar.remsi v123 c16_i32_113
  let c1_i32_118 : BitVec 32 := 1#32
  let v126 : BitVec 32 := Scalar.muli v124 c1_i32_118
  let v127 : BitVec 32 := Scalar.addi c0_i32_119 v126
  v127.toNat
def k0_dev21 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_123 : BitVec 32 := 6#32
  let v135 : BitVec 32 := Scalar.subi v2 c6_i32_123
  let c16_i32_124 : BitVec 32 := 16#32
  let v136 : BitVec 32 := Scalar.addi v135 c16_i32_124
  let c16_i32_125 : BitVec 32 := 16#32
  let v137 : BitVec 32 := Scalar.remsi v136 c16_i32_125
  let c1_i32_130 : BitVec 32 := 1#32
  let v139 : BitVec 32 := Scalar.muli v137 c1_i32_130
  let v140 : BitVec 32 := Scalar.addi c0_i32_131 v139
  v140.toNat
def k0_dev22 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_135 : BitVec 32 := 7#32
  let v148 : BitVec 32 := Scalar.subi v2 c7_i32_135
  let c16_i32_136 : BitVec 32 := 16#32
  let v149 : BitVec 32 := Scalar.addi v148 c16_i32_136
  let c16_i32_137 : BitVec 32 := 16#32
  let v150 : BitVec 32 := Scalar.remsi v149 c16_i32_137
  let c1_i32_142 : BitVec 32 := 1#32
  let v152 : BitVec 32 := Scalar.muli v150 c1_i32_142
  let v153 : BitVec 32 := Scalar.addi c0_i32_143 v152
  v153.toNat
def k0_dev23 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_147 : BitVec 32 := 8#32
  let v161 : BitVec 32 := Scalar.subi v2 c8_i32_147
  let c16_i32_148 : BitVec 32 := 16#32
  let v162 : BitVec 32 := Scalar.addi v161 c16_i32_148
  let c16_i32_149 : BitVec 32 := 16#32
  let v163 : BitVec 32 := Scalar.remsi v162 c16_i32_149
  let c1_i32_154 : BitVec 32 := 1#32
  let v165 : BitVec 32 := Scalar.muli v163 c1_i32_154
  let v166 : BitVec 32 := Scalar.addi c0_i32_155 v165
  v166.toNat
def k0_dev24 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_159 : BitVec 32 := 9#32
  let v174 : BitVec 32 := Scalar.subi v2 c9_i32_159
  let c16_i32_160 : BitVec 32 := 16#32
  let v175 : BitVec 32 := Scalar.addi v174 c16_i32_160
  let c16_i32_161 : BitVec 32 := 16#32
  let v176 : BitVec 32 := Scalar.remsi v175 c16_i32_161
  let c1_i32_166 : BitVec 32 := 1#32
  let v178 : BitVec 32 := Scalar.muli v176 c1_i32_166
  let v179 : BitVec 32 := Scalar.addi c0_i32_167 v178
  v179.toNat
def k0_dev25 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_171 : BitVec 32 := 10#32
  let v187 : BitVec 32 := Scalar.subi v2 c10_i32_171
  let c16_i32_172 : BitVec 32 := 16#32
  let v188 : BitVec 32 := Scalar.addi v187 c16_i32_172
  let c16_i32_173 : BitVec 32 := 16#32
  let v189 : BitVec 32 := Scalar.remsi v188 c16_i32_173
  let c1_i32_178 : BitVec 32 := 1#32
  let v191 : BitVec 32 := Scalar.muli v189 c1_i32_178
  let v192 : BitVec 32 := Scalar.addi c0_i32_179 v191
  v192.toNat
def k0_dev26 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_183 : BitVec 32 := 11#32
  let v200 : BitVec 32 := Scalar.subi v2 c11_i32_183
  let c16_i32_184 : BitVec 32 := 16#32
  let v201 : BitVec 32 := Scalar.addi v200 c16_i32_184
  let c16_i32_185 : BitVec 32 := 16#32
  let v202 : BitVec 32 := Scalar.remsi v201 c16_i32_185
  let c1_i32_190 : BitVec 32 := 1#32
  let v204 : BitVec 32 := Scalar.muli v202 c1_i32_190
  let v205 : BitVec 32 := Scalar.addi c0_i32_191 v204
  v205.toNat
def k0_dev27 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_195 : BitVec 32 := 12#32
  let v213 : BitVec 32 := Scalar.subi v2 c12_i32_195
  let c16_i32_196 : BitVec 32 := 16#32
  let v214 : BitVec 32 := Scalar.addi v213 c16_i32_196
  let c16_i32_197 : BitVec 32 := 16#32
  let v215 : BitVec 32 := Scalar.remsi v214 c16_i32_197
  let c1_i32_202 : BitVec 32 := 1#32
  let v217 : BitVec 32 := Scalar.muli v215 c1_i32_202
  let v218 : BitVec 32 := Scalar.addi c0_i32_203 v217
  v218.toNat
def k0_dev28 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_207 : BitVec 32 := 13#32
  let v226 : BitVec 32 := Scalar.subi v2 c13_i32_207
  let c16_i32_208 : BitVec 32 := 16#32
  let v227 : BitVec 32 := Scalar.addi v226 c16_i32_208
  let c16_i32_209 : BitVec 32 := 16#32
  let v228 : BitVec 32 := Scalar.remsi v227 c16_i32_209
  let c1_i32_214 : BitVec 32 := 1#32
  let v230 : BitVec 32 := Scalar.muli v228 c1_i32_214
  let v231 : BitVec 32 := Scalar.addi c0_i32_215 v230
  v231.toNat
def k0_dev29 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_219 : BitVec 32 := 14#32
  let v239 : BitVec 32 := Scalar.subi v2 c14_i32_219
  let c16_i32_220 : BitVec 32 := 16#32
  let v240 : BitVec 32 := Scalar.addi v239 c16_i32_220
  let c16_i32_221 : BitVec 32 := 16#32
  let v241 : BitVec 32 := Scalar.remsi v240 c16_i32_221
  let c1_i32_226 : BitVec 32 := 1#32
  let v243 : BitVec 32 := Scalar.muli v241 c1_i32_226
  let v244 : BitVec 32 := Scalar.addi c0_i32_227 v243
  v244.toNat
def k0_dev30 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_231 : BitVec 32 := 15#32
  let v252 : BitVec 32 := Scalar.subi v2 c15_i32_231
  let c16_i32_232 : BitVec 32 := 16#32
  let v253 : BitVec 32 := Scalar.addi v252 c16_i32_232
  let c16_i32_233 : BitVec 32 := 16#32
  let v254 : BitVec 32 := Scalar.remsi v253 c16_i32_233
  let c1_i32_238 : BitVec 32 := 1#32
  let v256 : BitVec 32 := Scalar.muli v254 c1_i32_238
  let v257 : BitVec 32 := Scalar.addi c0_i32_239 v256
  v257.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_468 : BitVec 32 := 32#32
  let v445 : BitVec 32 := Scalar.muli v2 c32_i32_468
  let v446 : Index := Scalar.indexCast v445
  let c0_469 : Index := 0#32
  ![v446.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_506 : BitVec 32 := 32#32
  let v501 : BitVec 32 := Scalar.muli v2 c32_i32_506
  let c0_i32_511 : BitVec 32 := 0#32
  ![v501.toNat, 0]
def k0_dev31 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_503 : BitVec 32 := 1#32
  let v498 : BitVec 32 := Scalar.addi v2 c1_i32_503
  let c16_i32_504 : BitVec 32 := 16#32
  let v499 : BitVec 32 := Scalar.remsi v498 c16_i32_504
  let c1_i32_509 : BitVec 32 := 1#32
  let v502 : BitVec 32 := Scalar.muli v499 c1_i32_509
  let v503 : BitVec 32 := Scalar.addi c0_i32_510 v502
  v503.toNat
def k0_dev32 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_513 : BitVec 32 := 2#32
  let v510 : BitVec 32 := Scalar.addi v2 c2_i32_513
  let c16_i32_514 : BitVec 32 := 16#32
  let v511 : BitVec 32 := Scalar.remsi v510 c16_i32_514
  let c1_i32_519 : BitVec 32 := 1#32
  let v514 : BitVec 32 := Scalar.muli v511 c1_i32_519
  let v515 : BitVec 32 := Scalar.addi c0_i32_520 v514
  v515.toNat
def k0_dev33 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_523 : BitVec 32 := 3#32
  let v522 : BitVec 32 := Scalar.addi v2 c3_i32_523
  let c16_i32_524 : BitVec 32 := 16#32
  let v523 : BitVec 32 := Scalar.remsi v522 c16_i32_524
  let c1_i32_528 : BitVec 32 := 1#32
  let v526 : BitVec 32 := Scalar.muli v523 c1_i32_528
  let v527 : BitVec 32 := Scalar.addi c0_i32_529 v526
  v527.toNat
def k0_dev34 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_532 : BitVec 32 := 4#32
  let v534 : BitVec 32 := Scalar.addi v2 c4_i32_532
  let c16_i32_533 : BitVec 32 := 16#32
  let v535 : BitVec 32 := Scalar.remsi v534 c16_i32_533
  let c1_i32_537 : BitVec 32 := 1#32
  let v538 : BitVec 32 := Scalar.muli v535 c1_i32_537
  let v539 : BitVec 32 := Scalar.addi c0_i32_538 v538
  v539.toNat
def k0_dev35 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_541 : BitVec 32 := 5#32
  let v546 : BitVec 32 := Scalar.addi v2 c5_i32_541
  let c16_i32_542 : BitVec 32 := 16#32
  let v547 : BitVec 32 := Scalar.remsi v546 c16_i32_542
  let c1_i32_546 : BitVec 32 := 1#32
  let v550 : BitVec 32 := Scalar.muli v547 c1_i32_546
  let v551 : BitVec 32 := Scalar.addi c0_i32_547 v550
  v551.toNat
def k0_dev36 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_550 : BitVec 32 := 6#32
  let v558 : BitVec 32 := Scalar.addi v2 c6_i32_550
  let c16_i32_551 : BitVec 32 := 16#32
  let v559 : BitVec 32 := Scalar.remsi v558 c16_i32_551
  let c1_i32_555 : BitVec 32 := 1#32
  let v562 : BitVec 32 := Scalar.muli v559 c1_i32_555
  let v563 : BitVec 32 := Scalar.addi c0_i32_556 v562
  v563.toNat
def k0_dev37 (d0 : Dev nD) : Nat :=
  let c0_i32_565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_559 : BitVec 32 := 7#32
  let v570 : BitVec 32 := Scalar.addi v2 c7_i32_559
  let c16_i32_560 : BitVec 32 := 16#32
  let v571 : BitVec 32 := Scalar.remsi v570 c16_i32_560
  let c1_i32_564 : BitVec 32 := 1#32
  let v574 : BitVec 32 := Scalar.muli v571 c1_i32_564
  let v575 : BitVec 32 := Scalar.addi c0_i32_565 v574
  v575.toNat
def k0_dev38 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_568 : BitVec 32 := 8#32
  let v582 : BitVec 32 := Scalar.addi v2 c8_i32_568
  let c16_i32_569 : BitVec 32 := 16#32
  let v583 : BitVec 32 := Scalar.remsi v582 c16_i32_569
  let c1_i32_573 : BitVec 32 := 1#32
  let v586 : BitVec 32 := Scalar.muli v583 c1_i32_573
  let v587 : BitVec 32 := Scalar.addi c0_i32_574 v586
  v587.toNat
def k0_dev39 (d0 : Dev nD) : Nat :=
  let c0_i32_583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_577 : BitVec 32 := 9#32
  let v594 : BitVec 32 := Scalar.addi v2 c9_i32_577
  let c16_i32_578 : BitVec 32 := 16#32
  let v595 : BitVec 32 := Scalar.remsi v594 c16_i32_578
  let c1_i32_582 : BitVec 32 := 1#32
  let v598 : BitVec 32 := Scalar.muli v595 c1_i32_582
  let v599 : BitVec 32 := Scalar.addi c0_i32_583 v598
  v599.toNat
def k0_dev40 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_586 : BitVec 32 := 10#32
  let v606 : BitVec 32 := Scalar.addi v2 c10_i32_586
  let c16_i32_587 : BitVec 32 := 16#32
  let v607 : BitVec 32 := Scalar.remsi v606 c16_i32_587
  let c1_i32_591 : BitVec 32 := 1#32
  let v610 : BitVec 32 := Scalar.muli v607 c1_i32_591
  let v611 : BitVec 32 := Scalar.addi c0_i32_592 v610
  v611.toNat
def k0_dev41 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_595 : BitVec 32 := 11#32
  let v618 : BitVec 32 := Scalar.addi v2 c11_i32_595
  let c16_i32_596 : BitVec 32 := 16#32
  let v619 : BitVec 32 := Scalar.remsi v618 c16_i32_596
  let c1_i32_600 : BitVec 32 := 1#32
  let v622 : BitVec 32 := Scalar.muli v619 c1_i32_600
  let v623 : BitVec 32 := Scalar.addi c0_i32_601 v622
  v623.toNat
def k0_dev42 (d0 : Dev nD) : Nat :=
  let c0_i32_610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_604 : BitVec 32 := 12#32
  let v630 : BitVec 32 := Scalar.addi v2 c12_i32_604
  let c16_i32_605 : BitVec 32 := 16#32
  let v631 : BitVec 32 := Scalar.remsi v630 c16_i32_605
  let c1_i32_609 : BitVec 32 := 1#32
  let v634 : BitVec 32 := Scalar.muli v631 c1_i32_609
  let v635 : BitVec 32 := Scalar.addi c0_i32_610 v634
  v635.toNat
def k0_dev43 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_613 : BitVec 32 := 13#32
  let v642 : BitVec 32 := Scalar.addi v2 c13_i32_613
  let c16_i32_614 : BitVec 32 := 16#32
  let v643 : BitVec 32 := Scalar.remsi v642 c16_i32_614
  let c1_i32_618 : BitVec 32 := 1#32
  let v646 : BitVec 32 := Scalar.muli v643 c1_i32_618
  let v647 : BitVec 32 := Scalar.addi c0_i32_619 v646
  v647.toNat
def k0_dev44 (d0 : Dev nD) : Nat :=
  let c0_i32_628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_622 : BitVec 32 := 14#32
  let v654 : BitVec 32 := Scalar.addi v2 c14_i32_622
  let c16_i32_623 : BitVec 32 := 16#32
  let v655 : BitVec 32 := Scalar.remsi v654 c16_i32_623
  let c1_i32_627 : BitVec 32 := 1#32
  let v658 : BitVec 32 := Scalar.muli v655 c1_i32_627
  let v659 : BitVec 32 := Scalar.addi c0_i32_628 v658
  v659.toNat
def k0_dev45 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_631 : BitVec 32 := 15#32
  let v666 : BitVec 32 := Scalar.addi v2 c15_i32_631
  let c16_i32_632 : BitVec 32 := 16#32
  let v667 : BitVec 32 := Scalar.remsi v666 c16_i32_632
  let c1_i32_636 : BitVec 32 := 1#32
  let v670 : BitVec 32 := Scalar.muli v667 c1_i32_636
  let v671 : BitVec 32 := Scalar.addi c0_i32_637 v670
  v671.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_15 : (15#32 : BitVec 32).msb = false
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S30_S1_0 : ∀ a, (![0] : Fin 1 → Nat) a + S1.size a ≤ S30.size a
  squeezes_S1_S_ : S1.Squeezes S_
  inb_S15x32x512_S1x32x512_0_0_0 : ∀ a, (![0, 0, 0] : Fin 3 → Nat) a + S1x32x512.size a ≤ S15x32x512.size a
  squeezes_S1x32x512_S32x512 : S1x32x512.Squeezes S32x512
  wordsbf16_S15x32x512_S1x32x512_0_0_0 : (Rect.unit (s := S15x32x512) ![0, 0, 0] S1x32x512.size inb_S15x32x512_S1x32x512_0_0_0).WholeWords (EltTy.packing .bf16)
  inb_S30_S1_1 : ∀ a, (![1] : Fin 1 → Nat) a + S1.size a ≤ S30.size a
  inb_S15x32x512_S1x32x512_1_0_0 : ∀ a, (![1, 0, 0] : Fin 3 → Nat) a + S1x32x512.size a ≤ S15x32x512.size a
  wordsbf16_S15x32x512_S1x32x512_1_0_0 : (Rect.unit (s := S15x32x512) ![1, 0, 0] S1x32x512.size inb_S15x32x512_S1x32x512_1_0_0).WholeWords (EltTy.packing .bf16)
  inb_S30_S1_2 : ∀ a, (![2] : Fin 1 → Nat) a + S1.size a ≤ S30.size a
  inb_S15x32x512_S1x32x512_2_0_0 : ∀ a, (![2, 0, 0] : Fin 3 → Nat) a + S1x32x512.size a ≤ S15x32x512.size a
  wordsbf16_S15x32x512_S1x32x512_2_0_0 : (Rect.unit (s := S15x32x512) ![2, 0, 0] S1x32x512.size inb_S15x32x512_S1x32x512_2_0_0).WholeWords (EltTy.packing .bf16)
  inb_S30_S1_3 : ∀ a, (![3] : Fin 1 → Nat) a + S1.size a ≤ S30.size a
  inb_S15x32x512_S1x32x512_3_0_0 : ∀ a, (![3, 0, 0] : Fin 3 → Nat) a + S1x32x512.size a ≤ S15x32x512.size a
  wordsbf16_S15x32x512_S1x32x512_3_0_0 : (Rect.unit (s := S15x32x512) ![3, 0, 0] S1x32x512.size inb_S15x32x512_S1x32x512_3_0_0).WholeWords (EltTy.packing .bf16)
  inb_S30_S1_4 : ∀ a, (![4] : Fin 1 → Nat) a + S1.size a ≤ S30.size a
  inb_S15x32x512_S1x32x512_4_0_0 : ∀ a, (![4, 0, 0] : Fin 3 → Nat) a + S1x32x512.size a ≤ S15x32x512.size a
  wordsbf16_S15x32x512_S1x32x512_4_0_0 : (Rect.unit (s := S15x32x512) ![4, 0, 0] S1x32x512.size inb_S15x32x512_S1x32x512_4_0_0).WholeWords (EltTy.packing .bf16)
  inb_S30_S1_5 : ∀ a, (![5] : Fin 1 → Nat) a + S1.size a ≤ S30.size a
  inb_S15x32x512_S1x32x512_5_0_0 : ∀ a, (![5, 0, 0] : Fin 3 → Nat) a + S1x32x512.size a ≤ S15x32x512.size a
  wordsbf16_S15x32x512_S1x32x512_5_0_0 : (Rect.unit (s := S15x32x512) ![5, 0, 0] S1x32x512.size inb_S15x32x512_S1x32x512_5_0_0).WholeWords (EltTy.packing .bf16)
  inb_S30_S1_6 : ∀ a, (![6] : Fin 1 → Nat) a + S1.size a ≤ S30.size a
  inb_S15x32x512_S1x32x512_6_0_0 : ∀ a, (![6, 0, 0] : Fin 3 → Nat) a + S1x32x512.size a ≤ S15x32x512.size a
  wordsbf16_S15x32x512_S1x32x512_6_0_0 : (Rect.unit (s := S15x32x512) ![6, 0, 0] S1x32x512.size inb_S15x32x512_S1x32x512_6_0_0).WholeWords (EltTy.packing .bf16)
  inb_S30_S1_7 : ∀ a, (![7] : Fin 1 → Nat) a + S1.size a ≤ S30.size a
  inb_S15x32x512_S1x32x512_7_0_0 : ∀ a, (![7, 0, 0] : Fin 3 → Nat) a + S1x32x512.size a ≤ S15x32x512.size a
  wordsbf16_S15x32x512_S1x32x512_7_0_0 : (Rect.unit (s := S15x32x512) ![7, 0, 0] S1x32x512.size inb_S15x32x512_S1x32x512_7_0_0).WholeWords (EltTy.packing .bf16)
  inb_S30_S1_8 : ∀ a, (![8] : Fin 1 → Nat) a + S1.size a ≤ S30.size a
  inb_S15x32x512_S1x32x512_8_0_0 : ∀ a, (![8, 0, 0] : Fin 3 → Nat) a + S1x32x512.size a ≤ S15x32x512.size a
  wordsbf16_S15x32x512_S1x32x512_8_0_0 : (Rect.unit (s := S15x32x512) ![8, 0, 0] S1x32x512.size inb_S15x32x512_S1x32x512_8_0_0).WholeWords (EltTy.packing .bf16)
  inb_S30_S1_9 : ∀ a, (![9] : Fin 1 → Nat) a + S1.size a ≤ S30.size a
  inb_S15x32x512_S1x32x512_9_0_0 : ∀ a, (![9, 0, 0] : Fin 3 → Nat) a + S1x32x512.size a ≤ S15x32x512.size a
  wordsbf16_S15x32x512_S1x32x512_9_0_0 : (Rect.unit (s := S15x32x512) ![9, 0, 0] S1x32x512.size inb_S15x32x512_S1x32x512_9_0_0).WholeWords (EltTy.packing .bf16)
  inb_S30_S1_10 : ∀ a, (![10] : Fin 1 → Nat) a + S1.size a ≤ S30.size a
  inb_S15x32x512_S1x32x512_10_0_0 : ∀ a, (![10, 0, 0] : Fin 3 → Nat) a + S1x32x512.size a ≤ S15x32x512.size a
  wordsbf16_S15x32x512_S1x32x512_10_0_0 : (Rect.unit (s := S15x32x512) ![10, 0, 0] S1x32x512.size inb_S15x32x512_S1x32x512_10_0_0).WholeWords (EltTy.packing .bf16)
  inb_S30_S1_11 : ∀ a, (![11] : Fin 1 → Nat) a + S1.size a ≤ S30.size a
  inb_S15x32x512_S1x32x512_11_0_0 : ∀ a, (![11, 0, 0] : Fin 3 → Nat) a + S1x32x512.size a ≤ S15x32x512.size a
  wordsbf16_S15x32x512_S1x32x512_11_0_0 : (Rect.unit (s := S15x32x512) ![11, 0, 0] S1x32x512.size inb_S15x32x512_S1x32x512_11_0_0).WholeWords (EltTy.packing .bf16)
  inb_S30_S1_12 : ∀ a, (![12] : Fin 1 → Nat) a + S1.size a ≤ S30.size a
  inb_S15x32x512_S1x32x512_12_0_0 : ∀ a, (![12, 0, 0] : Fin 3 → Nat) a + S1x32x512.size a ≤ S15x32x512.size a
  wordsbf16_S15x32x512_S1x32x512_12_0_0 : (Rect.unit (s := S15x32x512) ![12, 0, 0] S1x32x512.size inb_S15x32x512_S1x32x512_12_0_0).WholeWords (EltTy.packing .bf16)
  inb_S30_S1_13 : ∀ a, (![13] : Fin 1 → Nat) a + S1.size a ≤ S30.size a
  inb_S15x32x512_S1x32x512_13_0_0 : ∀ a, (![13, 0, 0] : Fin 3 → Nat) a + S1x32x512.size a ≤ S15x32x512.size a
  wordsbf16_S15x32x512_S1x32x512_13_0_0 : (Rect.unit (s := S15x32x512) ![13, 0, 0] S1x32x512.size inb_S15x32x512_S1x32x512_13_0_0).WholeWords (EltTy.packing .bf16)
  inb_S30_S1_14 : ∀ a, (![14] : Fin 1 → Nat) a + S1.size a ≤ S30.size a
  inb_S15x32x512_S1x32x512_14_0_0 : ∀ a, (![14, 0, 0] : Fin 3 → Nat) a + S1x32x512.size a ≤ S15x32x512.size a
  wordsbf16_S15x32x512_S1x32x512_14_0_0 : (Rect.unit (s := S15x32x512) ![14, 0, 0] S1x32x512.size inb_S15x32x512_S1x32x512_14_0_0).WholeWords (EltTy.packing .bf16)
  h_S32x512 : 0 < S32x512.numel
  h_S1x32x512 : 0 < S1x32x512.numel
  shapeCasts_S1x32x512_S32x512 : S1x32x512.ShapeCasts S32x512
  shapeCasts_S32x512_S32x512 : S32x512.ShapeCasts S32x512
  inb_S30_S1_15 : ∀ a, (![15] : Fin 1 → Nat) a + S1.size a ≤ S30.size a
  inb_S30_S1_16 : ∀ a, (![16] : Fin 1 → Nat) a + S1.size a ≤ S30.size a
  inb_S30_S1_17 : ∀ a, (![17] : Fin 1 → Nat) a + S1.size a ≤ S30.size a
  inb_S30_S1_18 : ∀ a, (![18] : Fin 1 → Nat) a + S1.size a ≤ S30.size a
  inb_S30_S1_19 : ∀ a, (![19] : Fin 1 → Nat) a + S1.size a ≤ S30.size a
  inb_S30_S1_20 : ∀ a, (![20] : Fin 1 → Nat) a + S1.size a ≤ S30.size a
  inb_S30_S1_21 : ∀ a, (![21] : Fin 1 → Nat) a + S1.size a ≤ S30.size a
  inb_S30_S1_22 : ∀ a, (![22] : Fin 1 → Nat) a + S1.size a ≤ S30.size a
  inb_S30_S1_23 : ∀ a, (![23] : Fin 1 → Nat) a + S1.size a ≤ S30.size a
  inb_S30_S1_24 : ∀ a, (![24] : Fin 1 → Nat) a + S1.size a ≤ S30.size a
  inb_S30_S1_25 : ∀ a, (![25] : Fin 1 → Nat) a + S1.size a ≤ S30.size a
  inb_S30_S1_26 : ∀ a, (![26] : Fin 1 → Nat) a + S1.size a ≤ S30.size a
  inb_S30_S1_27 : ∀ a, (![27] : Fin 1 → Nat) a + S1.size a ≤ S30.size a
  inb_S30_S1_28 : ∀ a, (![28] : Fin 1 → Nat) a + S1.size a ≤ S30.size a
  inb_S30_S1_29 : ∀ a, (![29] : Fin 1 → Nat) a + S1.size a ≤ S30.size a
  hcc0_scratch2 : 2 + S30.numel ≤ 62
  hcc0_scratch3 : 32 + S30.numel ≤ 62
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ (r : Fin 15), ∀ a, (k0_off1 d0 (BitVec.ofNat 32 (1 + r.val))) a + S32x512.size a ≤ S512x512.size a
  k0_off1_wordsbf16 : ∀ d0 : Dev nD, ∀ (r : Fin 15), (Rect.unit (s := S512x512) (k0_off1 d0 (BitVec.ofNat 32 (1 + r.val))) S32x512.size (k0_off1_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off2_inb : ∀ d0 : Dev nD, ∀ a, (k0_off2 d0) a + S32x512.size a ≤ S512x512.size a
  k0_off2_packedbf16 : ∀ d0 : Dev nD, (Rect.unit (s := S512x512) (k0_off2 d0) S32x512.size (k0_off2_inb d0)).PackedRows (EltTy.packing .bf16)
  k0_off3_inb : ∀ d0 : Dev nD, ∀ a, (k0_off3 d0) a + S32x512.size a ≤ S512x512.size a
  k0_off3_wordsbf16 : ∀ d0 : Dev nD, (Rect.unit (s := S512x512) (k0_off3 d0) S32x512.size (k0_off3_inb d0)).WholeWords (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole

variable [Facts₀]

abbrev cc0_scratch2 : DmaSems sig S30 := SemArray.consecutive 2 S30 hcc0_scratch2
abbrev cc0_scratch3 : DmaSems sig S30 := SemArray.consecutive 32 S30 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S16x512x512 : Shape := ⟨3, ![16, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S16x512x512, .f32⟩
  | .hbm, ⟨2, _⟩ => ⟨S_, .f32⟩
  | .hbm, ⟨3, _⟩ => ⟨S512x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S8192x512_S16x512x512 : S8192x512.ShapeCasts S16x512x512
  reducesTo_S16x512x512_S512x512_d0 : S16x512x512.ReducesTo [0] S512x512
  h_S_ : 0 < S_.numel

variable [Facts₀]

class Facts : Prop extends Facts₀ where

variable [Facts]
-- ==== Proof.Ring.lean ====
import proofs.«900470_g7700000000000471_dist_rs_then_ag_i_m512_n512_v7x_i16_f32_1_alg».proof.Proof.Gen.KernelIdeal
import proofs.«900470_g7700000000000471_dist_rs_then_ag_i_m512_n512_v7x_i16_f32_1_alg».proof.Proof.Gen.KernelIdeal.Skeleton
import proofs.«900470_g7700000000000471_dist_rs_then_ag_i_m512_n512_v7x_i16_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and one copy of the rounds algebra with fifteen duty names -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The sixteen devices as a ring: `peer c o` is the device `o` places after `c` -/

def peer (c : Dev nD) (o : ℕ) : Dev nD := ⟨(c.val + o) % 16, Nat.mod_lt _ (by decide)⟩

theorem peer_val (c : Dev nD) (o : ℕ) : (peer c o).val = (c.val + o) % 16 := rfl
theorem peer_peer (c : Dev nD) (a b : ℕ) : peer (peer c a) b = peer c (a + b) := by
  apply Fin.ext; simp only [peer_val]; omega
theorem peer_of_mod (c : Dev nD) (a : ℕ) (h : a % 16 = 0) : peer c a = c := by
  apply Fin.ext; have h16 : c.val < 16 := c.isLt; simp only [peer_val]; omega
theorem peer_inj (c : Dev nD) {a b : ℕ} (ha : a < 16) (hb : b < 16) (h : peer c a = peer c b) : a = b := by
  have h1 : (c.val + a) % 16 = (c.val + b) % 16 := congrArg Fin.val h
  have h16 : c.val < 16 := c.isLt; omega

/-- The device chains the body computes, in closed form: the fifteen signals go to `peer c 1 … peer c 15`, the
    fifteen transfers of the reduce-scatter to `peer c 15 … peer c 1`, those of the all-gather to `peer c 1 … peer c 15`. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 15 := Fin.ext (k0_dev16_eq c)
theorem dev17_eq (c : Dev nD) : (⟨k0_dev17 c, k0_dev17_lt c⟩ : Dev nD) = peer c 14 := Fin.ext (k0_dev17_eq c)
theorem dev18_eq (c : Dev nD) : (⟨k0_dev18 c, k0_dev18_lt c⟩ : Dev nD) = peer c 13 := Fin.ext (k0_dev18_eq c)
theorem dev19_eq (c : Dev nD) : (⟨k0_dev19 c, k0_dev19_lt c⟩ : Dev nD) = peer c 12 := Fin.ext (k0_dev19_eq c)
theorem dev20_eq (c : Dev nD) : (⟨k0_dev20 c, k0_dev20_lt c⟩ : Dev nD) = peer c 11 := Fin.ext (k0_dev20_eq c)
theorem dev21_eq (c : Dev nD) : (⟨k0_dev21 c, k0_dev21_lt c⟩ : Dev nD) = peer c 10 := Fin.ext (k0_dev21_eq c)
theorem dev22_eq (c : Dev nD) : (⟨k0_dev22 c, k0_dev22_lt c⟩ : Dev nD) = peer c 9 := Fin.ext (k0_dev22_eq c)
theorem dev23_eq (c : Dev nD) : (⟨k0_dev23 c, k0_dev23_lt c⟩ : Dev nD) = peer c 8 := Fin.ext (k0_dev23_eq c)
theorem dev24_eq (c : Dev nD) : (⟨k0_dev24 c, k0_dev24_lt c⟩ : Dev nD) = peer c 7 := Fin.ext (k0_dev24_eq c)
theorem dev25_eq (c : Dev nD) : (⟨k0_dev25 c, k0_dev25_lt c⟩ : Dev nD) = peer c 6 := Fin.ext (k0_dev25_eq c)
theorem dev26_eq (c : Dev nD) : (⟨k0_dev26 c, k0_dev26_lt c⟩ : Dev nD) = peer c 5 := Fin.ext (k0_dev26_eq c)
theorem dev27_eq (c : Dev nD) : (⟨k0_dev27 c, k0_dev27_lt c⟩ : Dev nD) = peer c 4 := Fin.ext (k0_dev27_eq c)
theorem dev28_eq (c : Dev nD) : (⟨k0_dev28 c, k0_dev28_lt c⟩ : Dev nD) = peer c 3 := Fin.ext (k0_dev28_eq c)
theorem dev29_eq (c : Dev nD) : (⟨k0_dev29 c, k0_dev29_lt c⟩ : Dev nD) = peer c 2 := Fin.ext (k0_dev29_eq c)
theorem dev30_eq (c : Dev nD) : (⟨k0_dev30 c, k0_dev30_lt c⟩ : Dev nD) = peer c 1 := Fin.ext (k0_dev30_eq c)
theorem dev31_eq (c : Dev nD) : (⟨k0_dev31 c, k0_dev31_lt c⟩ : Dev nD) = peer c 1 := Fin.ext (k0_dev31_eq c)
theorem dev32_eq (c : Dev nD) : (⟨k0_dev32 c, k0_dev32_lt c⟩ : Dev nD) = peer c 2 := Fin.ext (k0_dev32_eq c)
theorem dev33_eq (c : Dev nD) : (⟨k0_dev33 c, k0_dev33_lt c⟩ : Dev nD) = peer c 3 := Fin.ext (k0_dev33_eq c)
theorem dev34_eq (c : Dev nD) : (⟨k0_dev34 c, k0_dev34_lt c⟩ : Dev nD) = peer c 4 := Fin.ext (k0_dev34_eq c)
theorem dev35_eq (c : Dev nD) : (⟨k0_dev35 c, k0_dev35_lt c⟩ : Dev nD) = peer c 5 := Fin.ext (k0_dev35_eq c)
theorem dev36_eq (c : Dev nD) : (⟨k0_dev36 c, k0_dev36_lt c⟩ : Dev nD) = peer c 6 := Fin.ext (k0_dev36_eq c)
theorem dev37_eq (c : Dev nD) : (⟨k0_dev37 c, k0_dev37_lt c⟩ : Dev nD) = peer c 7 := Fin.ext (k0_dev37_eq c)
theorem dev38_eq (c : Dev nD) : (⟨k0_dev38 c, k0_dev38_lt c⟩ : Dev nD) = peer c 8 := Fin.ext (k0_dev38_eq c)
theorem dev39_eq (c : Dev nD) : (⟨k0_dev39 c, k0_dev39_lt c⟩ : Dev nD) = peer c 9 := Fin.ext (k0_dev39_eq c)
theorem dev40_eq (c : Dev nD) : (⟨k0_dev40 c, k0_dev40_lt c⟩ : Dev nD) = peer c 10 := Fin.ext (k0_dev40_eq c)
theorem dev41_eq (c : Dev nD) : (⟨k0_dev41 c, k0_dev41_lt c⟩ : Dev nD) = peer c 11 := Fin.ext (k0_dev41_eq c)
theorem dev42_eq (c : Dev nD) : (⟨k0_dev42 c, k0_dev42_lt c⟩ : Dev nD) = peer c 12 := Fin.ext (k0_dev42_eq c)
theorem dev43_eq (c : Dev nD) : (⟨k0_dev43 c, k0_dev43_lt c⟩ : Dev nD) = peer c 13 := Fin.ext (k0_dev43_eq c)
theorem dev44_eq (c : Dev nD) : (⟨k0_dev44 c, k0_dev44_lt c⟩ : Dev nD) = peer c 14 := Fin.ext (k0_dev44_eq c)
theorem dev45_eq (c : Dev nD) : (⟨k0_dev45 c, k0_dev45_lt c⟩ : Dev nD) = peer c 15 := Fin.ext (k0_dev45_eq c)

/-! ## Memrefs, semaphores and cells -/

abbrev xM : Memref sig .tc .vmem S512x512 .f32 := Memref.whole cc0_stg0_0
abbrev oM : Memref sig .tc .vmem S512x512 .f32 := Memref.whole cc0_stg1_0
abbrev wM : Memref sig .tc .vmem S512x512 .bf16 := Memref.whole cc0_scratch0
abbrev cM : Memref sig .tc .vmem S15x32x512 .bf16 := Memref.whole cc0_scratch1

theorem slot_inb (j : Fin 15) : ∀ a, (![j.val, 0, 0] : Fin 3 → Nat) a + S1x32x512.size a ≤ S15x32x512.size a := by
  revert j; decide

/-- Slot `j` of the receive scratch, as a [32, 512] memref. -/
abbrev slot (j : Fin 15) : Memref sig .tc .vmem S32x512 .bf16 :=
  (cM.slice (Rect.unit (s := S15x32x512) ![j.val, 0, 0] S1x32x512.size (slot_inb j)) (fun _ => rfl)).squeeze S32x512 squeezes_S1x32x512_S32x512

/-- The 32 rows of the work scratch at an offset vector. -/
abbrev wAt (off : Fin 2 → Nat) (h : ∀ a, off a + S32x512.size a ≤ S512x512.size a) : Memref sig .tc .vmem S32x512 .bf16 :=
  wM.slice (Rect.unit (s := S512x512) off S32x512.size h) (fun _ => rfl)

/-- Chunk `p` of the work scratch: rows `32 p … 32 p + 31`. -/
abbrev chunk (p : Dev nD) : Memref sig .tc .vmem S32x512 .bf16 := wAt (k0_off3 p) (k0_off3_inb p)

abbrev barS : Sem sig := (SemArray.scalar (sig.barrier 0 rfl) : Sems sig S_).sem

abbrev dsem (n : ℕ) (h : n < 62) : DmaSem sig := ⟨n, h⟩

abbrev barCell (c : Dev nD) : GSem nD τ sig := ((c : Thread nD τ), .reg barS)
/-- The send and receive cells of the reduce-scatter (`s1`, `r1`) and of the all-gather (`s2`, `r2`), by copy number less one. -/
abbrev s1Cell (c : Dev nD) (j : Fin 15) : GSem nD τ sig := ((c : Thread nD τ), .dma (dsem (2 + j.val) (by omega)))
abbrev s2Cell (c : Dev nD) (j : Fin 15) : GSem nD τ sig := ((c : Thread nD τ), .dma (dsem (17 + j.val) (by omega)))
abbrev r1Cell (c : Dev nD) (j : Fin 15) : GSem nD τ sig := ((c : Thread nD τ), .dma (dsem (32 + j.val) (by omega)))
abbrev r2Cell (c : Dev nD) (j : Fin 15) : GSem nD τ sig := ((c : Thread nD τ), .dma (dsem (47 + j.val) (by omega)))

/-- The credit of one [32, 512] bf16 transfer. -/
abbrev N : ℕ := 1024

/-! ## Contents -/

/-- The device's block of the argument as the pipeline stages it. -/
def xstg (c : Dev nD) : (cc0_stg0_0 : Ref sig .tc).ty.Contents (Elt F) :=
  (win0_0.blk (0 : Fin 1)).view.read (Elt F) (m ((c : Thread nD τ).loc main_arg0))

/-- The work scratch after the first store: the block in the narrower format. -/
def W (c : Dev nD) : (cc0_scratch0 : Ref sig .tc).ty.Contents (Elt F) := k0_pay2 (xstg m c)

/-- Contents nobody reads: what a slice is written over in a canonical statement of a landing. -/
def junkW : (cc0_scratch0 : Ref sig .tc).ty.Contents (Elt F) := fun _ => Classical.arbitrary _
def junkC : (cc0_scratch1 : Ref sig .tc).ty.Contents (Elt F) := fun _ => Classical.arbitrary _

/-- Slot `j` of device `c`'s receive scratch once `peer c (j+1)`'s chunk `c` has landed in it. -/
def slotC (c : Dev nD) (j : Fin 15) : (cc0_scratch1 : Ref sig .tc).ty.Contents (Elt F) :=
  (slot j).view.write (Elt F) junkC ((chunk c).view.read (Elt F) (W m (peer c (j.val + 1)))) Finset.univ

abbrev cRect (j : Fin 15) : Rect S15x32x512 := Rect.unit (s := S15x32x512) ![j.val, 0, 0] S1x32x512.size (slot_inb j)

/-- The device's own chunk of its work scratch, and slot `j` of its receive scratch, as the body loads them. -/
def ownV (c : Dev nD) : Vec F S32x512 .bf16 :=
  wM.view.readAt (Elt F) (Rect.unit (s := S512x512) (k0_off2 c) S32x512.size (k0_off2_inb c)).toLoadRect (W m c)
def slotV (c : Dev nD) (j : Fin 15) : Vec F S1x32x512 .bf16 := cM.view.readAt (Elt F) (cRect j).toLoadRect (slotC m c j)

/-- Chunk `c` summed over the sixteen devices, in the order the body adds: the own chunk, then slots 0 … 14. -/
def accOf (c : Dev nD) : FVec F S32x512 .bf16 :=
  k0_pay5 (k0_pay4 (k0_pay3 (ownV m c) (slotV m c 0) (slotV m c 1) (slotV m c 2))
      (slotV m c 3) (slotV m c 4) (slotV m c 5) (slotV m c 6) (slotV m c 7) (slotV m c 8) (slotV m c 9) (slotV m c 10) (slotV m c 11) (slotV m c 12))
    (slotV m c 13) (slotV m c 14)

/-- The work scratch after the sum is stored into the own chunk. -/
def W' (c : Dev nD) : (cc0_scratch0 : Ref sig .tc).ty.Contents (Elt F) :=
  (wM.access (Rect.unit (s := S512x512) (k0_off2 c) S32x512.size (k0_off2_inb c))).write (Elt F) (W m c) (accOf m c) Finset.univ

/-- Chunk `p` holding device `p`'s sum, in a canonical statement (on any device's work scratch). -/
def chunkC (p : Dev nD) : (cc0_scratch0 : Ref sig .tc).ty.Contents (Elt F) :=
  (chunk p).view.write (Elt F) junkW (accOf m p) Finset.univ

/-- The work scratch after the all-gather, the same on every device: chunk `p` holds device `p`'s sum. -/
def workFinal : (cc0_scratch0 : Ref sig .tc).ty.Contents (Elt F) :=
  fun idx => chunkC m (⟨(idx 0).val / 32, by have := (idx 0).isLt; change (idx 0).val < 512 at this; change _ < 16; omega⟩ : Dev nD) idx

/-- The result, on every device. -/
def outAt : (cc0_stg1_0 : Ref sig .tc).ty.Contents (Elt F) := k0_pay1 (workFinal m)

/-! ## The schedule: one round per cell -/

/-- What device `peer c (15 - d)`'s signal hands `c` with duty `d` of its barrier cell: slot `d` of that device's
    receive scratch, where `c`'s copy number `d + 1` of the reduce-scatter lands. -/
def barPay (c : Dev nD) (d : Fin 15) : sProp 𝕄 :=
  iprop(∃ f, (slot d).view.loc (peer c (15 - d.val) : Thread nD τ) ↦[(slot d).view.set]{fullShare} f)
/-- The landing of `peer c (j+1)`'s chunk `c` in slot `j`, and with it that device's rows of chunk `c` to write later. -/
def r1Pay (c : Dev nD) (j : Fin 15) : sProp 𝕄 :=
  iprop(((slot j).view.loc (c : Thread nD τ) ↦[(slot j).view.set]{fullShare} slotC m c j)
    ∗ ((chunk c).view.loc (peer c (j.val + 1) : Thread nD τ) ↦[(chunk c).view.set]{fullShare} W m (peer c (j.val + 1))))
/-- The read share of the own chunk lent to copy `j + 1` of the all-gather. -/
def s2Pay (c : Dev nD) (j : Fin 15) : sProp 𝕄 :=
  iprop((chunk c).view.loc (c : Thread nD τ) ↦[(chunk c).view.set]{Transfers.shareTok fullShare 15 j} W' m c)
/-- The landing of device `peer c (15 - j)`'s sum in its chunk of `c`'s work scratch. -/
def r2Pay (c : Dev nD) (j : Fin 15) : sProp 𝕄 :=
  iprop((chunk (peer c (15 - j.val))).view.loc (c : Thread nD τ) ↦[(chunk (peer c (15 - j.val))).view.set]{fullShare} chunkC m (peer c (15 - j.val)))

def dmaPay (c : Dev nD) (n : ℕ) : sProp 𝕄 :=
  if h : 17 ≤ n ∧ n < 32 then s2Pay m c ⟨n - 17, by omega⟩
  else if h : 32 ≤ n ∧ n < 47 then r1Pay m c ⟨n - 32, by omega⟩
  else if h : 47 ≤ n ∧ n < 62 then r2Pay m c ⟨n - 47, by omega⟩
  else iprop(emp)

def Rd : Rounds.Schedule (GSem nD τ sig) (Fin 15) 𝕄 where
  duties g r := if r = 0 ∧ g.1.2 = .tc then
      (match g.2 with | .reg _ => Finset.univ | .dma q => if 2 ≤ q.val then {0} else ∅)
    else ∅
  unitless _ := False
  amount g _ _ := match g.2 with | .reg _ => 1 | .dma _ => N
  payload g _ d := match g.2 with | .reg _ => barPay g.1.1 d | .dma q => dmaPay m g.1.1 q.val
  amount_pos g _ _ _ := by rcases g with ⟨t, s | s⟩; exacts [Nat.one_pos, (by show 0 < 1024; omega)]

section Tables
variable (c : Dev nD) (j : Fin 15)

theorem duties_bar : (Rd (F := F) m).duties (barCell c) 0 = Finset.univ := by dsimp only [Rd]; rw [if_pos ⟨rfl, rfl⟩]
theorem duties_s1 : (Rd (F := F) m).duties (s1Cell c j) 0 = {0} := by dsimp only [Rd]; rw [if_pos ⟨rfl, rfl⟩, if_pos (by show 2 ≤ 2 + j.val; omega)]
theorem duties_s2 : (Rd (F := F) m).duties (s2Cell c j) 0 = {0} := by dsimp only [Rd]; rw [if_pos ⟨rfl, rfl⟩, if_pos (by show 2 ≤ 17 + j.val; omega)]
theorem duties_r1 : (Rd (F := F) m).duties (r1Cell c j) 0 = {0} := by dsimp only [Rd]; rw [if_pos ⟨rfl, rfl⟩, if_pos (by show 2 ≤ 32 + j.val; omega)]
theorem duties_r2 : (Rd (F := F) m).duties (r2Cell c j) 0 = {0} := by dsimp only [Rd]; rw [if_pos ⟨rfl, rfl⟩, if_pos (by show 2 ≤ 47 + j.val; omega)]
theorem duties_later (g : GSem nD τ sig) : ∀ r, 1 ≤ r → (Rd (F := F) m).duties g r = ∅ :=
  fun r hr => by dsimp only [Rd]; rw [if_neg fun h => by omega]

theorem amount_bar (d : Fin 15) : (Rd (F := F) m).amount (barCell c) 0 d = 1 := rfl
theorem amount_s1 (d : Fin 15) : (Rd (F := F) m).amount (s1Cell c j) 0 d = N := rfl
theorem amount_s2 (d : Fin 15) : (Rd (F := F) m).amount (s2Cell c j) 0 d = N := rfl
theorem amount_r1 (d : Fin 15) : (Rd (F := F) m).amount (r1Cell c j) 0 d = N := rfl
theorem amount_r2 (d : Fin 15) : (Rd (F := F) m).amount (r2Cell c j) 0 d = N := rfl

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_s1 : (Rd (F := F) m).expect (s1Cell c j) 0 = N := by
  unfold Schedule.expect Schedule.amountOf; rw [duties_s1, Finset.sum_singleton, amount_s1]
theorem expect_s2 : (Rd (F := F) m).expect (s2Cell c j) 0 = N := by
  unfold Schedule.expect Schedule.amountOf; rw [duties_s2, Finset.sum_singleton, amount_s2]
theorem expect_r1 : (Rd (F := F) m).expect (r1Cell c j) 0 = N := by
  unfold Schedule.expect Schedule.amountOf; rw [duties_r1, Finset.sum_singleton, amount_r1]
theorem expect_r2 : (Rd (F := F) m).expect (r2Cell c j) 0 = N := by
  unfold Schedule.expect Schedule.amountOf; rw [duties_r2, Finset.sum_singleton, amount_r2]

end Tables

instance Rd_payload_storable (g : GSem nD τ sig) (r : ℕ) (d : Fin 15) :
    BI.Storable (upEmb : UEmb _ 𝕄) ((Rd (F := F) m).payload g r d) := by
  rcases g with ⟨t, s | q⟩
  · show BI.Storable upEmb (barPay t.1 d)
    unfold barPay; infer_instance
  · show BI.Storable upEmb (dmaPay m t.1 q.val)
    unfold dmaPay s2Pay r1Pay r2Pay
    (repeat' split) <;> infer_instance

/-! ## What each device owes at launch, and the levels -/

/-- Device `c` owes every other device's barrier cell a unit, the receive cell of each of its fifteen copies of the
    reduce-scatter and of its fifteen copies of the all-gather the transfer's credit — summed so that the body's
    payments peel the summands from the right, in program order. -/
def O₀ (c : Dev nD) : CellTallies nD τ sig Unit :=
  tallyAt (r2Cell (peer c 15) 14) () N
    + tallyAt (r2Cell (peer c 14) 13) () N
    + tallyAt (r2Cell (peer c 13) 12) () N
    + tallyAt (r2Cell (peer c 12) 11) () N
    + tallyAt (r2Cell (peer c 11) 10) () N
    + tallyAt (r2Cell (peer c 10) 9) () N
    + tallyAt (r2Cell (peer c 9) 8) () N
    + tallyAt (r2Cell (peer c 8) 7) () N
    + tallyAt (r2Cell (peer c 7) 6) () N
    + tallyAt (r2Cell (peer c 6) 5) () N
    + tallyAt (r2Cell (peer c 5) 4) () N
    + tallyAt (r2Cell (peer c 4) 3) () N
    + tallyAt (r2Cell (peer c 3) 2) () N
    + tallyAt (r2Cell (peer c 2) 1) () N
    + tallyAt (r2Cell (peer c 1) 0) () N
    + tallyAt (r1Cell (peer c 1) 14) () N
    + tallyAt (r1Cell (peer c 2) 13) () N
    + tallyAt (r1Cell (peer c 3) 12) () N
    + tallyAt (r1Cell (peer c 4) 11) () N
    + tallyAt (r1Cell (peer c 5) 10) () N
    + tallyAt (r1Cell (peer c 6) 9) () N
    + tallyAt (r1Cell (peer c 7) 8) () N
    + tallyAt (r1Cell (peer c 8) 7) () N
    + tallyAt (r1Cell (peer c 9) 6) () N
    + tallyAt (r1Cell (peer c 10) 5) () N
    + tallyAt (r1Cell (peer c 11) 4) () N
    + tallyAt (r1Cell (peer c 12) 3) () N
    + tallyAt (r1Cell (peer c 13) 2) () N
    + tallyAt (r1Cell (peer c 14) 1) () N
    + tallyAt (r1Cell (peer c 15) 0) () N
    + tallyAt (barCell (peer c 15)) () 1
    + tallyAt (barCell (peer c 14)) () 1
    + tallyAt (barCell (peer c 13)) () 1
    + tallyAt (barCell (peer c 12)) () 1
    + tallyAt (barCell (peer c 11)) () 1
    + tallyAt (barCell (peer c 10)) () 1
    + tallyAt (barCell (peer c 9)) () 1
    + tallyAt (barCell (peer c 8)) () 1
    + tallyAt (barCell (peer c 7)) () 1
    + tallyAt (barCell (peer c 6)) () 1
    + tallyAt (barCell (peer c 5)) () 1
    + tallyAt (barCell (peer c 4)) () 1
    + tallyAt (barCell (peer c 3)) () 1
    + tallyAt (barCell (peer c 2)) () 1
    + tallyAt (barCell (peer c 1)) () 1

def L (g : GSem nD τ sig) : Finset Unit := if g.1.2 = .tc then {()} else ∅
/-- Staging cells at 0, the barrier cell at 1, the cells of the reduce-scatter at 2, those of the all-gather at 3:
    every wait of the body is at a level strictly below everything the device still owes then. -/
def lv (g : GSem nD τ sig) (_ : Unit) : ℕ :=
  match g.2 with
  | .reg _ => 1
  | .dma q => if q.val < 2 then 0 else if q.val < 17 then 2 else if q.val < 32 then 3 else if q.val < 47 then 2 else 3

theorem L_of_ne (g : GSem nD τ sig) (h : g.1.2 ≠ .tc) : L g = ∅ := if_neg h
theorem L_tc (c : Dev nD) (sm : SemLoc sig) : L ((c : Thread nD τ), sm) = {()} := if_pos rfl

/-! ## The cells by number, their invariants' names, and what a device starts from -/

/-- The 61 cells of a device by number: the barrier cell, then the sixty transfer cells in the order of their semaphores. -/
abbrev csem (k : Fin 61) : SemLoc sig := if h : k.val = 0 then .reg barS else .dma (dsem (k.val + 1) (by omega))
abbrev kcell (ck : Dev nD × Fin 61) : GSem nD τ sig := ((ck.1 : Thread nD τ), csem ck.2)

/-- Every cell's invariant, under the names `K`, and that round 0 of every cell is reached: known to every device. -/
def records (K : Dev nD × Fin 61 → ℕ) : sProp 𝕄 :=
  iprop((bigSep Finset.univ fun ck : Dev nD × Fin 61 => cellInv ER (Rd m) (K ck) (kcell ck))
    ∗ bigSep Finset.univ fun ck : Dev nD × Fin 61 => reached ER (kcell ck) 0)

instance records_persistent (K : Dev nD × Fin 61 → ℕ) : BI.Persistent (records m K) := by unfold records; infer_instance

/-- The tokens of the duties device `c` pays: a unit on every other device's barrier cell (duty `j` on `peer c (j+1)`'s),
    its own thirty send cells' duties, the receive cells its reduce-scatter copies land on (copy `j+1` on
    `peer c (15 - j)`'s cell `j`) and those its all-gather copies land on (copy `j+1` on `peer c (j+1)`'s cell `j`). -/
def payToks (c : Dev nD) : sProp 𝕄 :=
  iprop((bigSep Finset.univ fun j : Fin 15 => dutyTok ER (barCell (peer c (j.val + 1))) 0 j)
    ∗ (bigSep Finset.univ fun j : Fin 15 => dutyTok ER (s1Cell c j) 0 (0 : Fin 15))
    ∗ (bigSep Finset.univ fun j : Fin 15 => dutyTok ER (s2Cell c j) 0 (0 : Fin 15))
    ∗ (bigSep Finset.univ fun j : Fin 15 => dutyTok ER (r1Cell (peer c (15 - j.val)) j) 0 (0 : Fin 15))
    ∗ (bigSep Finset.univ fun j : Fin 15 => dutyTok ER (r2Cell (peer c (j.val + 1)) j) 0 (0 : Fin 15)))

/-- What stays with device `c` alone: its position at round 0 of each of its 61 cells, and the tokens it pays with. -/
def linear (c : Dev nD) : sProp 𝕄 :=
  iprop((bigSep Finset.univ fun k : Fin 61 => atPos ER (kcell (c, k)) 0 ∅ 0) ∗ payToks (F := F) c)

def ghost (K : Dev nD × Fin 61 → ℕ) (c : Dev nD) : sProp 𝕄 := iprop(records m K ∗ linear (F := F) c)

/-- What device `c`'s body starts from: the ghost state at some names, the credit the other devices owe its cells (fifteen
    units on the barrier cell, a transfer's credit on each receive cell) and the level facts. -/
def start (c : Dev nD) : sProp 𝕄 :=
  iprop((∃ K, ghost m K c) ∗ cred (tallyAt (barCell c) () 15)
    ∗ (bigSep Finset.univ fun j : Fin 15 => cred (tallyAt (r1Cell c j) () N))
    ∗ (bigSep Finset.univ fun j : Fin 15 => cred (tallyAt (r2Cell c j) () N))
    ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch (F := F) c)
/-- After the point: the scratch buffers at some contents, the sixty transfer cells' counters at zero, closed. -/
def Φ₁ (c : Dev nD) : sProp 𝕄 :=
  iprop(scratch (F := F) c ∗ bigSep Finset.univ fun k : Fin 60 => semVal (kcell (c, ⟨k.val + 1, by omega⟩)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdeal.RS

end
-- ==== Proof.Launch.lean ====
/-
# The launch of the reduce-scatter / all-gather kernel on its sixteen devices

Every device runs the same body; what joins the sixteen bodies into one run of @main is the accounting of who
signals or copies onto whose semaphore. A device has 61 cells: its barrier cell, with fifteen unit duties (duty `d`
paid by the device `d + 1` places before it), and sixty transfer cells of one duty each — the send and receive
cells of its fifteen copies of the reduce-scatter and of its fifteen copies of the all-gather. Receive cell `j` of
the reduce-scatter is paid by the device `j + 1` places after its owner, receive cell `j` of the all-gather by the
device `j + 1` places before it, a send cell by its owner.

This module sets up the launch for that accounting: the ghost element of all 16 · 61 cells and their duty tokens,
dealt first to the cells' owners and then — once every cell's invariant is allocated, for all devices under one
update, because a barrier cell is shared by the sixteen devices that touch it — to the duties' payers; the credit
the launch hands each device for what the other fifteen owe its cells (fifteen units on the barrier cell, one
transfer's credit on each receive cell); the levels, with the staging cells below everything owed; and the run of
@main from the body obligation of every device, each array's final contents named.
-/
import proofs.«900470_g7700000000000471_dist_rs_then_ag_i_m512_n512_v7x_i16_f32_1_alg».proof.Proof.Ring
import proofs.«900470_g7700000000000471_dist_rs_then_ag_i_m512_n512_v7x_i16_f32_1_alg».proof.Proof.Gen.KernelIdeal.Points

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells of the sixteen devices told apart -/

theorem cell_eq_iff (a b : Dev nD) (s s' : SemLoc sig) :
    (((a : Thread nD τ), s) : GSem nD τ sig) = ((b : Thread nD τ), s') ↔ a = b ∧ s = s' :=
  ⟨fun h => ⟨congrArg (fun g : GSem nD τ sig => g.1.1) h, congrArg Prod.snd h⟩, fun ⟨h1, h2⟩ => by rw [h1, h2]⟩

theorem dma_eq_iff (a b : ℕ) (ha : a < 62) (hb : b < 62) : (SemLoc.dma (dsem a ha) : SemLoc sig) = .dma (dsem b hb) ↔ a = b :=
  ⟨fun h => by injection h with h; exact congrArg Fin.val h, fun h => by subst h; rfl⟩

theorem reg_ne_dma (s : Sem sig) (q : DmaSem sig) : ((SemLoc.reg s : SemLoc sig) = .dma q) ↔ False := ⟨fun h => (by cases h), False.elim⟩
theorem dma_ne_reg (s : Sem sig) (q : DmaSem sig) : ((SemLoc.dma q : SemLoc sig) = .reg s) ↔ False := ⟨fun h => (by cases h), False.elim⟩

/-! ## Iterated separating conjunctions over the devices and their cells, regrouped -/

omit [FloatOps F] in
/-- Two nested conjunctions over whole finite types commute. -/
theorem bigSep_univ_comm {α β : Type} [Fintype α] [Fintype β] (Φ : α → β → sProp 𝕄) :
    bigSep Finset.univ (fun a => bigSep Finset.univ fun b => Φ a b)
      = bigSep Finset.univ (fun b => bigSep Finset.univ fun a => Φ a b) := by
  rw [← bigSep_univ_prod (fun x : α × β => Φ x.1 x.2), ← bigSep_univ_prod (fun x : β × α => Φ x.2 x.1),
    bigSep_univ_equiv (Equiv.prodComm β α) (fun x : α × β => Φ x.1 x.2)]
  rfl

omit [FloatOps F] in
/-- Summand `(a, b)` of a nested conjunction handed to `e b a`, for a bijection `e b` of the outer index that may depend
    on the inner one. -/
theorem bigSep_univ_deal {α β : Type} [Fintype α] [Fintype β] (e : β → α ≃ α) (Φ : α → β → sProp 𝕄) :
    bigSep Finset.univ (fun a => bigSep Finset.univ fun b => Φ a b)
      = bigSep Finset.univ (fun a => bigSep Finset.univ fun b => Φ (e b a) b) := by
  rw [bigSep_univ_comm Φ, bigSep_univ_comm (fun a b => Φ (e b a) b)]
  exact bigSep_congr fun b _ => bigSep_univ_equiv (e b) (fun a => Φ a b)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
/-- A device's 61 cells: the barrier cell first, then the sixty transfer cells. -/
theorem bigSep_fin61_succ (Φ : Fin 61 → sProp 𝕄) :
    bigSep Finset.univ Φ = iprop(Φ 0 ∗ bigSep Finset.univ fun k : Fin 60 => Φ ⟨k.val + 1, by omega⟩) := by
  rw [Fin.univ_succ, Finset.cons_eq_insert, bigSep_insert (by simp [Fin.succ_ne_zero]), bigSep_map]
  rfl

/-- The ring turned by `o` places. -/
def rot (o : ℕ) : Dev nD ≃ Dev nD where
  toFun c := peer c o
  invFun c := peer c (16 - o % 16)
  left_inv c := by show peer (peer c o) (16 - o % 16) = c; rw [peer_peer]; exact peer_of_mod c _ (by omega)
  right_inv c := by show peer (peer c (16 - o % 16)) o = c; rw [peer_peer]; exact peer_of_mod c _ (by omega)

/-! ## The launch's ghost element: the cells and the duty tokens of all sixteen devices -/

theorem csem_injective : Function.Injective (csem : Fin 61 → SemLoc sig) := by
  intro k k' h
  unfold csem at h
  by_cases hk : k.val = 0 <;> by_cases hk' : k'.val = 0
  · exact Fin.ext (hk.trans hk'.symm)
  · rw [dif_pos hk, dif_neg hk'] at h; cases h
  · rw [dif_neg hk, dif_pos hk'] at h; cases h
  · rw [dif_neg hk, dif_neg hk'] at h; have := (dma_eq_iff _ _ _ _).mp h; exact Fin.ext (by omega)

theorem kcell_injective : Function.Injective (kcell : Dev nD × Fin 61 → GSem nD τ sig) := by
  rintro ⟨c, k⟩ ⟨c', k'⟩ h
  obtain ⟨h1, h2⟩ := (cell_eq_iff c c' (csem k) (csem k')).mp h
  rw [h1, csem_injective h2]

def ringCells : Finset (GSem nD τ sig) := Finset.univ.map ⟨kcell, kcell_injective⟩

/-- The duty tokens as minted, by kind of cell and number: the fifteen duties of the barrier cell, and the one duty of each
    send and receive cell of the reduce-scatter and of the all-gather — the semaphore and the duty's name. -/
abbrev tokSem (x : Fin 5 × Fin 15) : SemLoc sig × Fin 15 :=
  match x.1 with
  | 0 => (.reg barS, x.2)
  | 1 => (.dma (dsem (2 + x.2.val) (by omega)), 0)
  | 2 => (.dma (dsem (17 + x.2.val) (by omega)), 0)
  | 3 => (.dma (dsem (32 + x.2.val) (by omega)), 0)
  | 4 => (.dma (dsem (47 + x.2.val) (by omega)), 0)

theorem tokSem_injective : Function.Injective tokSem := by decide

abbrev tokOf (x : Dev nD × (Fin 5 × Fin 15)) : GSem nD τ sig × ℕ × Fin 15 :=
  (((x.1 : Thread nD τ), (tokSem x.2).1), 0, (tokSem x.2).2)

theorem tokOf_injective : Function.Injective tokOf := by
  rintro ⟨c, x⟩ ⟨c', x'⟩ h
  have h1 : c = c' := congrArg (fun y : GSem nD τ sig × ℕ × Fin 15 => y.1.1.1) h
  have h2 : tokSem x = tokSem x' :=
    Prod.ext (congrArg (fun y : GSem nD τ sig × ℕ × Fin 15 => y.1.2) h) (congrArg (fun y : GSem nD τ sig × ℕ × Fin 15 => y.2.2) h)
  rw [h1, tokSem_injective h2]

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 15 => dutyTok ER (barCell c) 0 j)
    ∗ (bigSep Finset.univ fun j : Fin 15 => dutyTok ER (s1Cell c j) 0 (0 : Fin 15))
    ∗ (bigSep Finset.univ fun j : Fin 15 => dutyTok ER (s2Cell c j) 0 (0 : Fin 15))
    ∗ (bigSep Finset.univ fun j : Fin 15 => dutyTok ER (r1Cell c j) 0 (0 : Fin 15))
    ∗ (bigSep Finset.univ fun j : Fin 15 => dutyTok ER (r2Cell c j) 0 (0 : Fin 15)))

/-- What the launch element deals device `c`: the round state, the position and the reached round of each of its 61
    cells, and the tokens of their duties. -/
def G (c : Dev nD) : sProp 𝕄 :=
  iprop((bigSep Finset.univ fun k : Fin 61 => roundState ER (Rd m) (kcell (c, k)) 0)
    ∗ (bigSep Finset.univ fun k : Fin 61 => iprop(atPos ER (kcell (c, k)) 0 ∅ 0 ∗ reached ER (kcell (c, k)) 0)) ∗ toks (F := F) c)

/-- What the global step makes of it: the ghost state the body starts from, at some names. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 61 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin5]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

/-- The kernel's own (scoped) semaphores: the sixty transfer semaphores, in the order of the cells. -/
abbrev osem : Fin 60 → SemLoc sig := fun k => csem ⟨k.val + 1, by omega⟩

theorem osem_injective : Function.Injective osem := fun k k' h => by
  have := csem_injective h
  exact Fin.ext (by have := congrArg Fin.val this; simp only at this; omega)

theorem ownSemFacts : Pipeline.OwnSemFacts cfg0.spec osem := ⟨by decide, osem_injective, by decide⟩

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 61 => semVal (kcell (c, k)) 0 : sProp 𝕄) := by
  rw [unscopedSems0_eq, bigSep_fin61_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 61 => semVal (kcell (c, k)) 0) ∗ bigSep Finset.univ fun k : Fin 61 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 61 → ℕ) (c : Dev nD) : iprop(records m K ∗ linear (F := F) c) ⊢ G' m c := by
  unfold G' ghost
  iintro H
  iexists K
  iexact H

omit [FloatOps F] in
/-- The tokens dealt to their payers: duty `j` of a barrier cell and the duty of receive cell `j` of the all-gather go to
    the device `j + 1` places before the cell's, the duty of receive cell `j` of the reduce-scatter to the device `j + 1`
    places after it; a send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_deal (fun j : Fin 15 => rot (j.val + 1)) (fun (c : Dev nD) (j : Fin 15) => (dutyTok ER (barCell c) 0 j : sProp 𝕄)),
    bigSep_univ_deal (fun j : Fin 15 => rot (15 - j.val)) (fun (c : Dev nD) (j : Fin 15) => (dutyTok ER (r1Cell c j) 0 (0 : Fin 15) : sProp 𝕄)),
    bigSep_univ_deal (fun j : Fin 15 => rot (j.val + 1)) (fun (c : Dev nD) (j : Fin 15) => (dutyTok ER (r2Cell c j) 0 (0 : Fin 15) : sProp 𝕄))]
  exact BI.Entails.refl _

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 61 => iprop(∃ κ : ℕ, cellInv ER (Rd m) κ (kcell ck))),
    bigSep_congr (s := Finset.univ) (fun (c : Dev nD) _ => bigSep_sep' Finset.univ (fun k : Fin 61 => (atPos ER (kcell (c, k)) 0 ∅ 0 : sProp 𝕄)) (fun k => reached ER (kcell (c, k)) 0)),
    bigSep_sep', ← bigSep_univ_prod (fun ck : Dev nD × Fin 61 => (reached ER (kcell ck) 0 : sProp 𝕄))]
  iintro ⟨HI, ⟨Hat, #HR⟩, Htok⟩
  ihave HK := (BI.bigSep_exists_pi Finset.univ (fun (ck : Dev nD × Fin 61) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => bigSep Finset.univ fun k : Fin 61 => (atPos ER (kcell (c, k)) 0 ∅ 0 : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the sixteen devices together owe each cell of a device -/

/-- Device `d` owes device `c`'s barrier cell one unit unless it is `c` itself: exactly one of its fifteen signals goes there. -/
theorem owed_bar (d c : Dev nD) : O₀ d (barCell c) () = if d = c then 0 else 1 := by
  unfold O₀
  simp only [Pi.add_apply, Finsupp.add_apply, tallyAt_apply, cell_eq_iff, reg_ne_dma, dma_ne_reg, and_false, false_and, and_true, if_false, Nat.zero_add, Nat.add_zero]
  revert d c; decide

/-- Receive cell `j` of the reduce-scatter on device `c` is owed the transfer's credit by the one device `j + 1` places after `c`. -/
theorem owed_r1 (d c : Dev nD) (j : Fin 15) : O₀ d (r1Cell c j) () = if d = peer c (j.val + 1) then N else 0 := by
  unfold O₀
  simp only [Pi.add_apply, Finsupp.add_apply, tallyAt_apply, cell_eq_iff, reg_ne_dma, dma_ne_reg, dma_eq_iff, and_false, false_and, and_true, if_false, Nat.zero_add, Nat.add_zero]
  revert d c j; decide

/-- Receive cell `j` of the all-gather on device `c` is owed the transfer's credit by the one device `j + 1` places before `c`. -/
theorem owed_r2 (d c : Dev nD) (j : Fin 15) : O₀ d (r2Cell c j) () = if d = peer c (15 - j.val) then N else 0 := by
  unfold O₀
  simp only [Pi.add_apply, Finsupp.add_apply, tallyAt_apply, cell_eq_iff, reg_ne_dma, dma_ne_reg, dma_eq_iff, and_false, false_and, and_true, if_false, Nat.zero_add, Nat.add_zero]
  revert d c j; decide

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_r1 (c : Dev nD) (j : Fin 15) :
    tallyOn (r1Cell c j) (launchCredit (Pipeline.owing O₀) 0 (r1Cell c j)) = (tallyAt (r1Cell c j) () N : CellTallies nD τ sig Unit) := by
  unfold tallyAt; refine congrArg _ (Finsupp.ext fun u => ?_); cases u
  rw [Pipeline.launchCredit_owing, Finsupp.single_eq_same, Finset.sum_congr rfl fun d _ => owed_r1 d c j,
    Finset.sum_ite_eq' Finset.univ (peer c (j.val + 1)) fun _ => N, if_pos (Finset.mem_univ _)]

theorem launch_r2 (c : Dev nD) (j : Fin 15) :
    tallyOn (r2Cell c j) (launchCredit (Pipeline.owing O₀) 0 (r2Cell c j)) = (tallyAt (r2Cell c j) () N : CellTallies nD τ sig Unit) := by
  unfold tallyAt; refine congrArg _ (Finsupp.ext fun u => ?_); cases u
  rw [Pipeline.launchCredit_owing, Finsupp.single_eq_same, Finset.sum_congr rfl fun d _ => owed_r2 d c j,
    Finset.sum_ite_eq' Finset.univ (peer c (15 - j.val)) fun _ => N, if_pos (Finset.mem_univ _)]

/-- The semaphores a device is owed on at launch: its barrier semaphore and its thirty receive semaphores. -/
abbrev credSem : Unit ⊕ (Fin 15 ⊕ Fin 15) → SemLoc sig
  | .inl _ => .reg barS
  | .inr (.inl j) => .dma (dsem (32 + j.val) (by omega))
  | .inr (.inr j) => .dma (dsem (47 + j.val) (by omega))

theorem credSem_injective : Function.Injective credSem := by
  rintro (_ | j | j) (_ | j' | j') h
  · rfl
  · exact absurd h (fun h => by cases h)
  · exact absurd h (fun h => by cases h)
  · exact absurd h (fun h => by cases h)
  · have := (dma_eq_iff _ _ _ _).mp h; exact congrArg _ (congrArg _ (Fin.ext (by omega)))
  · have := (dma_eq_iff _ _ _ _).mp h; omega
  · exact absurd h (fun h => by cases h)
  · have := (dma_eq_iff _ _ _ _).mp h; omega
  · have := (dma_eq_iff _ _ _ _).mp h; exact congrArg _ (congrArg _ (Fin.ext (by omega)))

omit [FloatOps F] in
/-- The launch deals device `c` the credit of what the others owe its cells: fifteen units on its barrier cell and a
    transfer's credit on each of its thirty receive cells. -/
theorem creds (c : Dev nD) :
    (Pipeline.launchCred O₀ c : sProp 𝕄) ⊢ iprop(cred (tallyAt (barCell c) () 15)
      ∗ (bigSep Finset.univ fun j : Fin 15 => cred (tallyAt (r1Cell c j) () N))
      ∗ (bigSep Finset.univ fun j : Fin 15 => cred (tallyAt (r2Cell c j) () N))) := by
  unfold Pipeline.launchCred
  refine (bigSep_subset (Finset.subset_univ (Finset.univ.map ⟨credSem, credSem_injective⟩))).trans ?_
  rw [bigSep_map, bigSep_univ_sum, bigSep_univ_sum, bigSep_univ_of_subsingleton ()]
  exact sep_mono (Entails.of_eq (congrArg cred (launch_bar c)))
    (sep_mono (bigSep_mono fun j _ => Entails.of_eq (congrArg cred (launch_r1 c j)))
      (bigSep_mono fun j _ => Entails.of_eq (congrArg cred (launch_r2 c j))))

/-! ## The levels: the staging cells sit below everything a device owes -/

theorem lv_pos_of_dma (t : Thread nD τ) (q : DmaSem sig) (h : 2 ≤ q.val) : 0 < lv (t, .dma q) () := by
  simp only [lv]; split_ifs <;> omega

/-- Whatever a device owes at launch is owed on a TensorCore's barrier cell or on a receive cell: never at level 0. -/
theorem O₀_pos {c : Dev nD} {g : GSem nD τ sig} {u : Unit} (h : 0 < O₀ c g u) : g.1.2 = .tc ∧ 0 < lv g u := by
  by_contra hn
  have key : ∀ (g' : GSem nD τ sig) (k : ℕ), (g'.1.2 = .tc ∧ 0 < lv g' ()) → tallyAt g' () k g u = 0 := fun g' k hg' => by
    rw [tallyAt_ne_cell (fun e => hn (by rw [e]; exact hg'))]; rfl
  have kbar : ∀ (x : Dev nD) (k : ℕ), tallyAt (barCell x) () k g u = 0 := fun x k => key _ k ⟨rfl, Nat.one_pos⟩
  have kr1 : ∀ (x : Dev nD) (j : Fin 15) (k : ℕ), tallyAt (r1Cell x j) () k g u = 0 := fun x j k =>
    key _ k ⟨rfl, lv_pos_of_dma _ _ (by show 2 ≤ 32 + j.val; omega)⟩
  have kr2 : ∀ (x : Dev nD) (j : Fin 15) (k : ℕ), tallyAt (r2Cell x j) () k g u = 0 := fun x j k =>
    key _ k ⟨rfl, lv_pos_of_dma _ _ (by show 2 ≤ 47 + j.val; omega)⟩
  unfold O₀ at h
  simp only [Pi.add_apply, Finsupp.add_apply, kbar, kr1, kr2, Nat.add_zero, Nat.lt_irrefl] at h

omit [FloatOps F] in
/-- A wait on a staging cell is allowed whatever of its launch dues the device still owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; simp only [lv, if_pos hq]; exact le_refl _)
      (fun g u hg => (O₀_pos hg).2)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H1, H2⟩
  imodintro
  unfold start G'
  isplitl
  · isplitl [HG]; · iexact HG
    isplitl [HB]; · iexact HB
    isplitl [H1]; · iexact H1
    isplitl [H2]; · iexact H2
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq]
  unfold Φ₁ scratch Pipeline.ownSems0
  iintro ⟨Hr, Hz⟩
  isplitr; · iempintro
  isplitl [Hz]; · iexact Hz
  iexact Hr

/-! ## The run -/

set_option maxRecDepth 8000 in
/-- At the compiled mesh of sixteen devices, for any float values, from any memory with zero counters, GIVEN the body of
    every device: every weakly fair execution of @main — the sixteen kernels handshaking on the barrier semaphore, then
    exchanging chunks twice — terminates, and every final state has each window's array on each device at the contents
    the proof data names. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.RS.run_main' depends on axioms: [propext, Classical.choice, Quot.sound] -/
#guard_msgs in #print axioms run_main

/-! ## The arrays after the run -/

/-- The argument array after the run holds what it held. -/
theorem finalA_x (c : Dev nD) : (dats m 0 c).arrAt (0 : Fin 2) cfg0.N = m (win0_0.arr.view.loc (c : Thread nD τ)) :=
  (dats (F := F) m 0 c).arrAt_in (0 : Fin 2) rfl _

/-- The result window's index map at its one point: block (0, 0). -/
theorem idx_out : ∀ t : Fin cfg0.N, win0_1.index t (0 : Fin 2) = 0 ∧ win0_1.index t (1 : Fin 2) = 0 :=
  (by decide +kernel : ∀ t : Fin grid0.N, _)

/-- The result window's one block is the whole [512, 512] array: what the point writes back is `outAt` read through it, -/
theorem flushed_out (c : Dev nD) (t : Fin cfg0.N) :
    (dats m 0 c).flushed (1 : Fin 2) t = ((cfg0.win 1).blk t).view.read (Elt F) (outAt m) := by
  funext j
  show outAt m ((cfg0.win 1).xinj (grid0.coords t) j) = outAt m (((cfg0.win 1).blk t).view.emb j)
  refine congrArg (outAt m) (funext fun a => Fin.ext ?_)
  match a with
  | ⟨0, _⟩ => show (j 0).val = win0_1.index t (0 : Fin 2) * 512 + 1 * (j 0).val; rw [(idx_out t).1]; omega
  | ⟨1, _⟩ => show (j 1).val = win0_1.index t (1 : Fin 2) * 512 + 1 * (j 1).val; rw [(idx_out t).2]; omega

/-- and every index of the array lies in it. -/
theorem mem_blk_out (t : Fin cfg0.N) (i : S512x512.Idx) : i ∈ ((cfg0.win 1).blk t).view.set := by
  show i ∈ ((View.whole main_v1).slice (win0_1.rect t)).set
  rw [View.set_slice_whole, Rect.mem_set_unit]
  intro a
  match a with
  | ⟨0, _⟩ =>
    show win0_1.index t (0 : Fin 2) * 512 ≤ (i 0).val ∧ (i 0).val < win0_1.index t (0 : Fin 2) * 512 + 512
    have hi : (i 0).val < 512 := (i 0).isLt
    rw [(idx_out t).1]; omega
  | ⟨1, _⟩ =>
    show win0_1.index t (1 : Fin 2) * 512 ≤ (i 1).val ∧ (i 1).val < win0_1.index t (1 : Fin 2) * 512 + 512
    have hi : (i 1).val < 512 := (i 1).isLt
    rw [(idx_out t).2]; omega

/-- The result array after the run, on every device: the work scratch after the all-gather, widened. -/
theorem finalA_out (c : Dev nD) : (dats m 0 c).arrAt (1 : Fin 2) cfg0.N = outAt m :=
  (dats (F := F) m 0 c).arrAt_eq_of_cover (1 : Fin 2) (outAt m) (fun t _ => flushed_out m c t)
    (fun i => ⟨t₀, flush0_1 t₀, mem_blk_out t₀ i⟩)

end Cert.KernelIdeal.RS

end
-- ==== Proof.KRing.lean ====
import proofs.«900470_g7700000000000471_dist_rs_then_ag_i_m512_n512_v7x_i16_f32_1_alg».proof.Proof.Gen.Kernel
import proofs.«900470_g7700000000000471_dist_rs_then_ag_i_m512_n512_v7x_i16_f32_1_alg».proof.Proof.Gen.Kernel.Skeleton
import proofs.«900470_g7700000000000471_dist_rs_then_ag_i_m512_n512_v7x_i16_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and one copy of the rounds algebra with fifteen duty names -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The sixteen devices as a ring: `peer c o` is the device `o` places after `c` -/

def peer (c : Dev nD) (o : ℕ) : Dev nD := ⟨(c.val + o) % 16, Nat.mod_lt _ (by decide)⟩

theorem peer_val (c : Dev nD) (o : ℕ) : (peer c o).val = (c.val + o) % 16 := rfl
theorem peer_peer (c : Dev nD) (a b : ℕ) : peer (peer c a) b = peer c (a + b) := by
  apply Fin.ext; simp only [peer_val]; omega
theorem peer_of_mod (c : Dev nD) (a : ℕ) (h : a % 16 = 0) : peer c a = c := by
  apply Fin.ext; have h16 : c.val < 16 := c.isLt; simp only [peer_val]; omega
theorem peer_inj (c : Dev nD) {a b : ℕ} (ha : a < 16) (hb : b < 16) (h : peer c a = peer c b) : a = b := by
  have h1 : (c.val + a) % 16 = (c.val + b) % 16 := congrArg Fin.val h
  have h16 : c.val < 16 := c.isLt; omega

/-- The device chains the body computes, in closed form: the fifteen signals go to `peer c 1 … peer c 15`, the
    fifteen transfers of the reduce-scatter to `peer c 15 … peer c 1`, those of the all-gather to `peer c 1 … peer c 15`. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 4 := Fin.ext (k0_dev4_eq c)
theorem dev5_eq (c : Dev nD) : (⟨k0_dev5 c, k0_dev5_lt c⟩ : Dev nD) = peer c 5 := Fin.ext (k0_dev5_eq c)
theorem dev6_eq (c : Dev nD) : (⟨k0_dev6 c, k0_dev6_lt c⟩ : Dev nD) = peer c 6 := Fin.ext (k0_dev6_eq c)
theorem dev7_eq (c : Dev nD) : (⟨k0_dev7 c, k0_dev7_lt c⟩ : Dev nD) = peer c 7 := Fin.ext (k0_dev7_eq c)
theorem dev8_eq (c : Dev nD) : (⟨k0_dev8 c, k0_dev8_lt c⟩ : Dev nD) = peer c 8 := Fin.ext (k0_dev8_eq c)
theorem dev9_eq (c : Dev nD) : (⟨k0_dev9 c, k0_dev9_lt c⟩ : Dev nD) = peer c 9 := Fin.ext (k0_dev9_eq c)
theorem dev10_eq (c : Dev nD) : (⟨k0_dev10 c, k0_dev10_lt c⟩ : Dev nD) = peer c 10 := Fin.ext (k0_dev10_eq c)
theorem dev11_eq (c : Dev nD) : (⟨k0_dev11 c, k0_dev11_lt c⟩ : Dev nD) = peer c 11 := Fin.ext (k0_dev11_eq c)
theorem dev12_eq (c : Dev nD) : (⟨k0_dev12 c, k0_dev12_lt c⟩ : Dev nD) = peer c 12 := Fin.ext (k0_dev12_eq c)
theorem dev13_eq (c : Dev nD) : (⟨k0_dev13 c, k0_dev13_lt c⟩ : Dev nD) = peer c 13 := Fin.ext (k0_dev13_eq c)
theorem dev14_eq (c : Dev nD) : (⟨k0_dev14 c, k0_dev14_lt c⟩ : Dev nD) = peer c 14 := Fin.ext (k0_dev14_eq c)
theorem dev15_eq (c : Dev nD) : (⟨k0_dev15 c, k0_dev15_lt c⟩ : Dev nD) = peer c 15 := Fin.ext (k0_dev15_eq c)
theorem dev16_eq (c : Dev nD) : (⟨k0_dev16 c, k0_dev16_lt c⟩ : Dev nD) = peer c 15 := Fin.ext (k0_dev16_eq c)
theorem dev17_eq (c : Dev nD) : (⟨k0_dev17 c, k0_dev17_lt c⟩ : Dev nD) = peer c 14 := Fin.ext (k0_dev17_eq c)
theorem dev18_eq (c : Dev nD) : (⟨k0_dev18 c, k0_dev18_lt c⟩ : Dev nD) = peer c 13 := Fin.ext (k0_dev18_eq c)
theorem dev19_eq (c : Dev nD) : (⟨k0_dev19 c, k0_dev19_lt c⟩ : Dev nD) = peer c 12 := Fin.ext (k0_dev19_eq c)
theorem dev20_eq (c : Dev nD) : (⟨k0_dev20 c, k0_dev20_lt c⟩ : Dev nD) = peer c 11 := Fin.ext (k0_dev20_eq c)
theorem dev21_eq (c : Dev nD) : (⟨k0_dev21 c, k0_dev21_lt c⟩ : Dev nD) = peer c 10 := Fin.ext (k0_dev21_eq c)
theorem dev22_eq (c : Dev nD) : (⟨k0_dev22 c, k0_dev22_lt c⟩ : Dev nD) = peer c 9 := Fin.ext (k0_dev22_eq c)
theorem dev23_eq (c : Dev nD) : (⟨k0_dev23 c, k0_dev23_lt c⟩ : Dev nD) = peer c 8 := Fin.ext (k0_dev23_eq c)
theorem dev24_eq (c : Dev nD) : (⟨k0_dev24 c, k0_dev24_lt c⟩ : Dev nD) = peer c 7 := Fin.ext (k0_dev24_eq c)
theorem dev25_eq (c : Dev nD) : (⟨k0_dev25 c, k0_dev25_lt c⟩ : Dev nD) = peer c 6 := Fin.ext (k0_dev25_eq c)
theorem dev26_eq (c : Dev nD) : (⟨k0_dev26 c, k0_dev26_lt c⟩ : Dev nD) = peer c 5 := Fin.ext (k0_dev26_eq c)
theorem dev27_eq (c : Dev nD) : (⟨k0_dev27 c, k0_dev27_lt c⟩ : Dev nD) = peer c 4 := Fin.ext (k0_dev27_eq c)
theorem dev28_eq (c : Dev nD) : (⟨k0_dev28 c, k0_dev28_lt c⟩ : Dev nD) = peer c 3 := Fin.ext (k0_dev28_eq c)
theorem dev29_eq (c : Dev nD) : (⟨k0_dev29 c, k0_dev29_lt c⟩ : Dev nD) = peer c 2 := Fin.ext (k0_dev29_eq c)
theorem dev30_eq (c : Dev nD) : (⟨k0_dev30 c, k0_dev30_lt c⟩ : Dev nD) = peer c 1 := Fin.ext (k0_dev30_eq c)
theorem dev31_eq (c : Dev nD) : (⟨k0_dev31 c, k0_dev31_lt c⟩ : Dev nD) = peer c 1 := Fin.ext (k0_dev31_eq c)
theorem dev32_eq (c : Dev nD) : (⟨k0_dev32 c, k0_dev32_lt c⟩ : Dev nD) = peer c 2 := Fin.ext (k0_dev32_eq c)
theorem dev33_eq (c : Dev nD) : (⟨k0_dev33 c, k0_dev33_lt c⟩ : Dev nD) = peer c 3 := Fin.ext (k0_dev33_eq c)
theorem dev34_eq (c : Dev nD) : (⟨k0_dev34 c, k0_dev34_lt c⟩ : Dev nD) = peer c 4 := Fin.ext (k0_dev34_eq c)
theorem dev35_eq (c : Dev nD) : (⟨k0_dev35 c, k0_dev35_lt c⟩ : Dev nD) = peer c 5 := Fin.ext (k0_dev35_eq c)
theorem dev36_eq (c : Dev nD) : (⟨k0_dev36 c, k0_dev36_lt c⟩ : Dev nD) = peer c 6 := Fin.ext (k0_dev36_eq c)
theorem dev37_eq (c : Dev nD) : (⟨k0_dev37 c, k0_dev37_lt c⟩ : Dev nD) = peer c 7 := Fin.ext (k0_dev37_eq c)
theorem dev38_eq (c : Dev nD) : (⟨k0_dev38 c, k0_dev38_lt c⟩ : Dev nD) = peer c 8 := Fin.ext (k0_dev38_eq c)
theorem dev39_eq (c : Dev nD) : (⟨k0_dev39 c, k0_dev39_lt c⟩ : Dev nD) = peer c 9 := Fin.ext (k0_dev39_eq c)
theorem dev40_eq (c : Dev nD) : (⟨k0_dev40 c, k0_dev40_lt c⟩ : Dev nD) = peer c 10 := Fin.ext (k0_dev40_eq c)
theorem dev41_eq (c : Dev nD) : (⟨k0_dev41 c, k0_dev41_lt c⟩ : Dev nD) = peer c 11 := Fin.ext (k0_dev41_eq c)
theorem dev42_eq (c : Dev nD) : (⟨k0_dev42 c, k0_dev42_lt c⟩ : Dev nD) = peer c 12 := Fin.ext (k0_dev42_eq c)
theorem dev43_eq (c : Dev nD) : (⟨k0_dev43 c, k0_dev43_lt c⟩ : Dev nD) = peer c 13 := Fin.ext (k0_dev43_eq c)
theorem dev44_eq (c : Dev nD) : (⟨k0_dev44 c, k0_dev44_lt c⟩ : Dev nD) = peer c 14 := Fin.ext (k0_dev44_eq c)
theorem dev45_eq (c : Dev nD) : (⟨k0_dev45 c, k0_dev45_lt c⟩ : Dev nD) = peer c 15 := Fin.ext (k0_dev45_eq c)

/-! ## Memrefs, semaphores and cells -/

abbrev xM : Memref sig .tc .vmem S512x512 .f32 := Memref.whole cc0_stg0_0
abbrev oM : Memref sig .tc .vmem S512x512 .f32 := Memref.whole cc0_stg1_0
abbrev wM : Memref sig .tc .vmem S512x512 .bf16 := Memref.whole cc0_scratch0
abbrev cM : Memref sig .tc .vmem S15x32x512 .bf16 := Memref.whole cc0_scratch1

theorem slot_inb (j : Fin 15) : ∀ a, (![j.val, 0, 0] : Fin 3 → Nat) a + S1x32x512.size a ≤ S15x32x512.size a := by
  revert j; decide

/-- Slot `j` of the receive scratch, as a [32, 512] memref. -/
abbrev slot (j : Fin 15) : Memref sig .tc .vmem S32x512 .bf16 :=
  (cM.slice (Rect.unit (s := S15x32x512) ![j.val, 0, 0] S1x32x512.size (slot_inb j)) (fun _ => rfl)).squeeze S32x512 squeezes_S1x32x512_S32x512

/-- The 32 rows of the work scratch at an offset vector. -/
abbrev wAt (off : Fin 2 → Nat) (h : ∀ a, off a + S32x512.size a ≤ S512x512.size a) : Memref sig .tc .vmem S32x512 .bf16 :=
  wM.slice (Rect.unit (s := S512x512) off S32x512.size h) (fun _ => rfl)

/-- Chunk `p` of the work scratch: rows `32 p … 32 p + 31`. -/
abbrev chunk (p : Dev nD) : Memref sig .tc .vmem S32x512 .bf16 := wAt (k0_off3 p) (k0_off3_inb p)

abbrev barS : Sem sig := (SemArray.scalar (sig.barrier 0 rfl) : Sems sig S_).sem

abbrev dsem (n : ℕ) (h : n < 62) : DmaSem sig := ⟨n, h⟩

abbrev barCell (c : Dev nD) : GSem nD τ sig := ((c : Thread nD τ), .reg barS)
/-- The send and receive cells of the reduce-scatter (`s1`, `r1`) and of the all-gather (`s2`, `r2`), by copy number less one. -/
abbrev s1Cell (c : Dev nD) (j : Fin 15) : GSem nD τ sig := ((c : Thread nD τ), .dma (dsem (2 + j.val) (by omega)))
abbrev s2Cell (c : Dev nD) (j : Fin 15) : GSem nD τ sig := ((c : Thread nD τ), .dma (dsem (17 + j.val) (by omega)))
abbrev r1Cell (c : Dev nD) (j : Fin 15) : GSem nD τ sig := ((c : Thread nD τ), .dma (dsem (32 + j.val) (by omega)))
abbrev r2Cell (c : Dev nD) (j : Fin 15) : GSem nD τ sig := ((c : Thread nD τ), .dma (dsem (47 + j.val) (by omega)))

/-- The credit of one [32, 512] bf16 transfer. -/
abbrev N : ℕ := 1024

/-! ## Contents -/

/-- The device's block of the argument as the pipeline stages it. -/
def xstg (c : Dev nD) : (cc0_stg0_0 : Ref sig .tc).ty.Contents (Elt F) :=
  (win0_0.blk (0 : Fin 1)).view.read (Elt F) (m ((c : Thread nD τ).loc main_arg0))

/-- The work scratch after the first store: the block in the narrower format. -/
def W (c : Dev nD) : (cc0_scratch0 : Ref sig .tc).ty.Contents (Elt F) := k0_pay2 (xstg m c)

/-- Contents nobody reads: what a slice is written over in a canonical statement of a landing. -/
def junkW : (cc0_scratch0 : Ref sig .tc).ty.Contents (Elt F) := fun _ => Classical.arbitrary _
def junkC : (cc0_scratch1 : Ref sig .tc).ty.Contents (Elt F) := fun _ => Classical.arbitrary _

/-- Slot `j` of device `c`'s receive scratch once `peer c (j+1)`'s chunk `c` has landed in it. -/
def slotC (c : Dev nD) (j : Fin 15) : (cc0_scratch1 : Ref sig .tc).ty.Contents (Elt F) :=
  (slot j).view.write (Elt F) junkC ((chunk c).view.read (Elt F) (W m (peer c (j.val + 1)))) Finset.univ

abbrev cRect (j : Fin 15) : Rect S15x32x512 := Rect.unit (s := S15x32x512) ![j.val, 0, 0] S1x32x512.size (slot_inb j)

/-- The device's own chunk of its work scratch, and slot `j` of its receive scratch, as the body loads them. -/
def ownV (c : Dev nD) : Vec F S32x512 .bf16 :=
  wM.view.readAt (Elt F) (Rect.unit (s := S512x512) (k0_off2 c) S32x512.size (k0_off2_inb c)).toLoadRect (W m c)
def slotV (c : Dev nD) (j : Fin 15) : Vec F S1x32x512 .bf16 := cM.view.readAt (Elt F) (cRect j).toLoadRect (slotC m c j)

/-- Chunk `c` summed over the sixteen devices, in the order the body adds: the own chunk, then slots 0 … 14. -/
def accOf (c : Dev nD) : FVec F S32x512 .bf16 :=
  k0_pay5 (k0_pay4 (k0_pay3 (ownV m c) (slotV m c 0) (slotV m c 1) (slotV m c 2))
      (slotV m c 3) (slotV m c 4) (slotV m c 5) (slotV m c 6) (slotV m c 7) (slotV m c 8) (slotV m c 9) (slotV m c 10) (slotV m c 11) (slotV m c 12))
    (slotV m c 13) (slotV m c 14)

/-- The work scratch after the sum is stored into the own chunk. -/
def W' (c : Dev nD) : (cc0_scratch0 : Ref sig .tc).ty.Contents (Elt F) :=
  (wM.access (Rect.unit (s := S512x512) (k0_off2 c) S32x512.size (k0_off2_inb c))).write (Elt F) (W m c) (accOf m c) Finset.univ

/-- Chunk `p` holding device `p`'s sum, in a canonical statement (on any device's work scratch). -/
def chunkC (p : Dev nD) : (cc0_scratch0 : Ref sig .tc).ty.Contents (Elt F) :=
  (chunk p).view.write (Elt F) junkW (accOf m p) Finset.univ

/-- The work scratch after the all-gather, the same on every device: chunk `p` holds device `p`'s sum. -/
def workFinal : (cc0_scratch0 : Ref sig .tc).ty.Contents (Elt F) :=
  fun idx => chunkC m (⟨(idx 0).val / 32, by have := (idx 0).isLt; change (idx 0).val < 512 at this; change _ < 16; omega⟩ : Dev nD) idx

/-- The result, on every device. -/
def outAt : (cc0_stg1_0 : Ref sig .tc).ty.Contents (Elt F) := k0_pay1 (workFinal m)

/-! ## The schedule: one round per cell -/

/-- What device `peer c (15 - d)`'s signal hands `c` with duty `d` of its barrier cell: slot `d` of that device's
    receive scratch, where `c`'s copy number `d + 1` of the reduce-scatter lands. -/
def barPay (c : Dev nD) (d : Fin 15) : sProp 𝕄 :=
  iprop(∃ f, (slot d).view.loc (peer c (15 - d.val) : Thread nD τ) ↦[(slot d).view.set]{fullShare} f)
/-- The landing of `peer c (j+1)`'s chunk `c` in slot `j`, and with it that device's rows of chunk `c` to write later. -/
def r1Pay (c : Dev nD) (j : Fin 15) : sProp 𝕄 :=
  iprop(((slot j).view.loc (c : Thread nD τ) ↦[(slot j).view.set]{fullShare} slotC m c j)
    ∗ ((chunk c).view.loc (peer c (j.val + 1) : Thread nD τ) ↦[(chunk c).view.set]{fullShare} W m (peer c (j.val + 1))))
/-- The read share of the own chunk lent to copy `j + 1` of the all-gather. -/
def s2Pay (c : Dev nD) (j : Fin 15) : sProp 𝕄 :=
  iprop((chunk c).view.loc (c : Thread nD τ) ↦[(chunk c).view.set]{Transfers.shareTok fullShare 15 j} W' m c)
/-- The landing of device `peer c (15 - j)`'s sum in its chunk of `c`'s work scratch. -/
def r2Pay (c : Dev nD) (j : Fin 15) : sProp 𝕄 :=
  iprop((chunk (peer c (15 - j.val))).view.loc (c : Thread nD τ) ↦[(chunk (peer c (15 - j.val))).view.set]{fullShare} chunkC m (peer c (15 - j.val)))

def dmaPay (c : Dev nD) (n : ℕ) : sProp 𝕄 :=
  if h : 17 ≤ n ∧ n < 32 then s2Pay m c ⟨n - 17, by omega⟩
  else if h : 32 ≤ n ∧ n < 47 then r1Pay m c ⟨n - 32, by omega⟩
  else if h : 47 ≤ n ∧ n < 62 then r2Pay m c ⟨n - 47, by omega⟩
  else iprop(emp)

def Rd : Rounds.Schedule (GSem nD τ sig) (Fin 15) 𝕄 where
  duties g r := if r = 0 ∧ g.1.2 = .tc then
      (match g.2 with | .reg _ => Finset.univ | .dma q => if 2 ≤ q.val then {0} else ∅)
    else ∅
  unitless _ := False
  amount g _ _ := match g.2 with | .reg _ => 1 | .dma _ => N
  payload g _ d := match g.2 with | .reg _ => barPay g.1.1 d | .dma q => dmaPay m g.1.1 q.val
  amount_pos g _ _ _ := by rcases g with ⟨t, s | s⟩; exacts [Nat.one_pos, (by show 0 < 1024; omega)]

section Tables
variable (c : Dev nD) (j : Fin 15)

theorem duties_bar : (Rd (F := F) m).duties (barCell c) 0 = Finset.univ := by dsimp only [Rd]; rw [if_pos ⟨rfl, rfl⟩]
theorem duties_s1 : (Rd (F := F) m).duties (s1Cell c j) 0 = {0} := by dsimp only [Rd]; rw [if_pos ⟨rfl, rfl⟩, if_pos (by show 2 ≤ 2 + j.val; omega)]
theorem duties_s2 : (Rd (F := F) m).duties (s2Cell c j) 0 = {0} := by dsimp only [Rd]; rw [if_pos ⟨rfl, rfl⟩, if_pos (by show 2 ≤ 17 + j.val; omega)]
theorem duties_r1 : (Rd (F := F) m).duties (r1Cell c j) 0 = {0} := by dsimp only [Rd]; rw [if_pos ⟨rfl, rfl⟩, if_pos (by show 2 ≤ 32 + j.val; omega)]
theorem duties_r2 : (Rd (F := F) m).duties (r2Cell c j) 0 = {0} := by dsimp only [Rd]; rw [if_pos ⟨rfl, rfl⟩, if_pos (by show 2 ≤ 47 + j.val; omega)]
theorem duties_later (g : GSem nD τ sig) : ∀ r, 1 ≤ r → (Rd (F := F) m).duties g r = ∅ :=
  fun r hr => by dsimp only [Rd]; rw [if_neg fun h => by omega]

theorem amount_bar (d : Fin 15) : (Rd (F := F) m).amount (barCell c) 0 d = 1 := rfl
theorem amount_s1 (d : Fin 15) : (Rd (F := F) m).amount (s1Cell c j) 0 d = N := rfl
theorem amount_s2 (d : Fin 15) : (Rd (F := F) m).amount (s2Cell c j) 0 d = N := rfl
theorem amount_r1 (d : Fin 15) : (Rd (F := F) m).amount (r1Cell c j) 0 d = N := rfl
theorem amount_r2 (d : Fin 15) : (Rd (F := F) m).amount (r2Cell c j) 0 d = N := rfl

theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_s1 : (Rd (F := F) m).expect (s1Cell c j) 0 = N := by
  unfold Schedule.expect Schedule.amountOf; rw [duties_s1, Finset.sum_singleton, amount_s1]
theorem expect_s2 : (Rd (F := F) m).expect (s2Cell c j) 0 = N := by
  unfold Schedule.expect Schedule.amountOf; rw [duties_s2, Finset.sum_singleton, amount_s2]
theorem expect_r1 : (Rd (F := F) m).expect (r1Cell c j) 0 = N := by
  unfold Schedule.expect Schedule.amountOf; rw [duties_r1, Finset.sum_singleton, amount_r1]
theorem expect_r2 : (Rd (F := F) m).expect (r2Cell c j) 0 = N := by
  unfold Schedule.expect Schedule.amountOf; rw [duties_r2, Finset.sum_singleton, amount_r2]

end Tables

instance Rd_payload_storable (g : GSem nD τ sig) (r : ℕ) (d : Fin 15) :
    BI.Storable (upEmb : UEmb _ 𝕄) ((Rd (F := F) m).payload g r d) := by
  rcases g with ⟨t, s | q⟩
  · show BI.Storable upEmb (barPay t.1 d)
    unfold barPay; infer_instance
  · show BI.Storable upEmb (dmaPay m t.1 q.val)
    unfold dmaPay s2Pay r1Pay r2Pay
    (repeat' split) <;> infer_instance

/-! ## What each device owes at launch, and the levels -/

/-- Device `c` owes every other device's barrier cell a unit, the receive cell of each of its fifteen copies of the
    reduce-scatter and of its fifteen copies of the all-gather the transfer's credit — summed so that the body's
    payments peel the summands from the right, in program order. -/
def O₀ (c : Dev nD) : CellTallies nD τ sig Unit :=
  tallyAt (r2Cell (peer c 15) 14) () N
    + tallyAt (r2Cell (peer c 14) 13) () N
    + tallyAt (r2Cell (peer c 13) 12) () N
    + tallyAt (r2Cell (peer c 12) 11) () N
    + tallyAt (r2Cell (peer c 11) 10) () N
    + tallyAt (r2Cell (peer c 10) 9) () N
    + tallyAt (r2Cell (peer c 9) 8) () N
    + tallyAt (r2Cell (peer c 8) 7) () N
    + tallyAt (r2Cell (peer c 7) 6) () N
    + tallyAt (r2Cell (peer c 6) 5) () N
    + tallyAt (r2Cell (peer c 5) 4) () N
    + tallyAt (r2Cell (peer c 4) 3) () N
    + tallyAt (r2Cell (peer c 3) 2) () N
    + tallyAt (r2Cell (peer c 2) 1) () N
    + tallyAt (r2Cell (peer c 1) 0) () N
    + tallyAt (r1Cell (peer c 1) 14) () N
    + tallyAt (r1Cell (peer c 2) 13) () N
    + tallyAt (r1Cell (peer c 3) 12) () N
    + tallyAt (r1Cell (peer c 4) 11) () N
    + tallyAt (r1Cell (peer c 5) 10) () N
    + tallyAt (r1Cell (peer c 6) 9) () N
    + tallyAt (r1Cell (peer c 7) 8) () N
    + tallyAt (r1Cell (peer c 8) 7) () N
    + tallyAt (r1Cell (peer c 9) 6) () N
    + tallyAt (r1Cell (peer c 10) 5) () N
    + tallyAt (r1Cell (peer c 11) 4) () N
    + tallyAt (r1Cell (peer c 12) 3) () N
    + tallyAt (r1Cell (peer c 13) 2) () N
    + tallyAt (r1Cell (peer c 14) 1) () N
    + tallyAt (r1Cell (peer c 15) 0) () N
    + tallyAt (barCell (peer c 15)) () 1
    + tallyAt (barCell (peer c 14)) () 1
    + tallyAt (barCell (peer c 13)) () 1
    + tallyAt (barCell (peer c 12)) () 1
    + tallyAt (barCell (peer c 11)) () 1
    + tallyAt (barCell (peer c 10)) () 1
    + tallyAt (barCell (peer c 9)) () 1
    + tallyAt (barCell (peer c 8)) () 1
    + tallyAt (barCell (peer c 7)) () 1
    + tallyAt (barCell (peer c 6)) () 1
    + tallyAt (barCell (peer c 5)) () 1
    + tallyAt (barCell (peer c 4)) () 1
    + tallyAt (barCell (peer c 3)) () 1
    + tallyAt (barCell (peer c 2)) () 1
    + tallyAt (barCell (peer c 1)) () 1

def L (g : GSem nD τ sig) : Finset Unit := if g.1.2 = .tc then {()} else ∅
/-- Staging cells at 0, the barrier cell at 1, the cells of the reduce-scatter at 2, those of the all-gather at 3:
    every wait of the body is at a level strictly below everything the device still owes then. -/
def lv (g : GSem nD τ sig) (_ : Unit) : ℕ :=
  match g.2 with
  | .reg _ => 1
  | .dma q => if q.val < 2 then 0 else if q.val < 17 then 2 else if q.val < 32 then 3 else if q.val < 47 then 2 else 3

theorem L_of_ne (g : GSem nD τ sig) (h : g.1.2 ≠ .tc) : L g = ∅ := if_neg h
theorem L_tc (c : Dev nD) (sm : SemLoc sig) : L ((c : Thread nD τ), sm) = {()} := if_pos rfl

/-! ## The cells by number, their invariants' names, and what a device starts from -/

/-- The 61 cells of a device by number: the barrier cell, then the sixty transfer cells in the order of their semaphores. -/
abbrev csem (k : Fin 61) : SemLoc sig := if h : k.val = 0 then .reg barS else .dma (dsem (k.val + 1) (by omega))
abbrev kcell (ck : Dev nD × Fin 61) : GSem nD τ sig := ((ck.1 : Thread nD τ), csem ck.2)

/-- Every cell's invariant, under the names `K`, and that round 0 of every cell is reached: known to every device. -/
def records (K : Dev nD × Fin 61 → ℕ) : sProp 𝕄 :=
  iprop((bigSep Finset.univ fun ck : Dev nD × Fin 61 => cellInv ER (Rd m) (K ck) (kcell ck))
    ∗ bigSep Finset.univ fun ck : Dev nD × Fin 61 => reached ER (kcell ck) 0)

instance records_persistent (K : Dev nD × Fin 61 → ℕ) : BI.Persistent (records m K) := by unfold records; infer_instance

/-- The tokens of the duties device `c` pays: a unit on every other device's barrier cell (duty `j` on `peer c (j+1)`'s),
    its own thirty send cells' duties, the receive cells its reduce-scatter copies land on (copy `j+1` on
    `peer c (15 - j)`'s cell `j`) and those its all-gather copies land on (copy `j+1` on `peer c (j+1)`'s cell `j`). -/
def payToks (c : Dev nD) : sProp 𝕄 :=
  iprop((bigSep Finset.univ fun j : Fin 15 => dutyTok ER (barCell (peer c (j.val + 1))) 0 j)
    ∗ (bigSep Finset.univ fun j : Fin 15 => dutyTok ER (s1Cell c j) 0 (0 : Fin 15))
    ∗ (bigSep Finset.univ fun j : Fin 15 => dutyTok ER (s2Cell c j) 0 (0 : Fin 15))
    ∗ (bigSep Finset.univ fun j : Fin 15 => dutyTok ER (r1Cell (peer c (15 - j.val)) j) 0 (0 : Fin 15))
    ∗ (bigSep Finset.univ fun j : Fin 15 => dutyTok ER (r2Cell (peer c (j.val + 1)) j) 0 (0 : Fin 15)))

/-- What stays with device `c` alone: its position at round 0 of each of its 61 cells, and the tokens it pays with. -/
def linear (c : Dev nD) : sProp 𝕄 :=
  iprop((bigSep Finset.univ fun k : Fin 61 => atPos ER (kcell (c, k)) 0 ∅ 0) ∗ payToks (F := F) c)

def ghost (K : Dev nD × Fin 61 → ℕ) (c : Dev nD) : sProp 𝕄 := iprop(records m K ∗ linear (F := F) c)

/-- What device `c`'s body starts from: the ghost state at some names, the credit the other devices owe its cells (fifteen
    units on the barrier cell, a transfer's credit on each receive cell) and the level facts. -/
def start (c : Dev nD) : sProp 𝕄 :=
  iprop((∃ K, ghost m K c) ∗ cred (tallyAt (barCell c) () 15)
    ∗ (bigSep Finset.univ fun j : Fin 15 => cred (tallyAt (r1Cell c j) () N))
    ∗ (bigSep Finset.univ fun j : Fin 15 => cred (tallyAt (r2Cell c j) () N))
    ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch (F := F) c)
/-- After the point: the scratch buffers at some contents, the sixty transfer cells' counters at zero, closed. -/
def Φ₁ (c : Dev nD) : sProp 𝕄 :=
  iprop(scratch (F := F) c ∗ bigSep Finset.univ fun k : Fin 60 => semVal (kcell (c, ⟨k.val + 1, by omega⟩)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.Kernel.RS

end
-- ==== Proof.KLaunch.lean ====
/-
# The launch of the reduce-scatter / all-gather kernel on its sixteen devices

Every device runs the same body; what joins the sixteen bodies into one run of @main is the accounting of who
signals or copies onto whose semaphore. A device has 61 cells: its barrier cell, with fifteen unit duties (duty `d`
paid by the device `d + 1` places before it), and sixty transfer cells of one duty each — the send and receive
cells of its fifteen copies of the reduce-scatter and of its fifteen copies of the all-gather. Receive cell `j` of
the reduce-scatter is paid by the device `j + 1` places after its owner, receive cell `j` of the all-gather by the
device `j + 1` places before it, a send cell by its owner.

This module sets up the launch for that accounting: the ghost element of all 16 · 61 cells and their duty tokens,
dealt first to the cells' owners and then — once every cell's invariant is allocated, for all devices under one
update, because a barrier cell is shared by the sixteen devices that touch it — to the duties' payers; the credit
the launch hands each device for what the other fifteen owe its cells (fifteen units on the barrier cell, one
transfer's credit on each receive cell); the levels, with the staging cells below everything owed; and the run of
@main from the body obligation of every device, each array's final contents named.
-/
import proofs.«900470_g7700000000000471_dist_rs_then_ag_i_m512_n512_v7x_i16_f32_1_alg».proof.Proof.KRing
import proofs.«900470_g7700000000000471_dist_rs_then_ag_i_m512_n512_v7x_i16_f32_1_alg».proof.Proof.Gen.Kernel.Points

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells of the sixteen devices told apart -/

theorem cell_eq_iff (a b : Dev nD) (s s' : SemLoc sig) :
    (((a : Thread nD τ), s) : GSem nD τ sig) = ((b : Thread nD τ), s') ↔ a = b ∧ s = s' :=
  ⟨fun h => ⟨congrArg (fun g : GSem nD τ sig => g.1.1) h, congrArg Prod.snd h⟩, fun ⟨h1, h2⟩ => by rw [h1, h2]⟩

theorem dma_eq_iff (a b : ℕ) (ha : a < 62) (hb : b < 62) : (SemLoc.dma (dsem a ha) : SemLoc sig) = .dma (dsem b hb) ↔ a = b :=
  ⟨fun h => by injection h with h; exact congrArg Fin.val h, fun h => by subst h; rfl⟩

theorem reg_ne_dma (s : Sem sig) (q : DmaSem sig) : ((SemLoc.reg s : SemLoc sig) = .dma q) ↔ False := ⟨fun h => (by cases h), False.elim⟩
theorem dma_ne_reg (s : Sem sig) (q : DmaSem sig) : ((SemLoc.dma q : SemLoc sig) = .reg s) ↔ False := ⟨fun h => (by cases h), False.elim⟩

/-! ## Iterated separating conjunctions over the devices and their cells, regrouped -/

omit [FloatOps F] in
/-- Two nested conjunctions over whole finite types commute. -/
theorem bigSep_univ_comm {α β : Type} [Fintype α] [Fintype β] (Φ : α → β → sProp 𝕄) :
    bigSep Finset.univ (fun a => bigSep Finset.univ fun b => Φ a b)
      = bigSep Finset.univ (fun b => bigSep Finset.univ fun a => Φ a b) := by
  rw [← bigSep_univ_prod (fun x : α × β => Φ x.1 x.2), ← bigSep_univ_prod (fun x : β × α => Φ x.2 x.1),
    bigSep_univ_equiv (Equiv.prodComm β α) (fun x : α × β => Φ x.1 x.2)]
  rfl

omit [FloatOps F] in
/-- Summand `(a, b)` of a nested conjunction handed to `e b a`, for a bijection `e b` of the outer index that may depend
    on the inner one. -/
theorem bigSep_univ_deal {α β : Type} [Fintype α] [Fintype β] (e : β → α ≃ α) (Φ : α → β → sProp 𝕄) :
    bigSep Finset.univ (fun a => bigSep Finset.univ fun b => Φ a b)
      = bigSep Finset.univ (fun a => bigSep Finset.univ fun b => Φ (e b a) b) := by
  rw [bigSep_univ_comm Φ, bigSep_univ_comm (fun a b => Φ (e b a) b)]
  exact bigSep_congr fun b _ => bigSep_univ_equiv (e b) (fun a => Φ a b)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
/-- A device's 61 cells: the barrier cell first, then the sixty transfer cells. -/
theorem bigSep_fin61_succ (Φ : Fin 61 → sProp 𝕄) :
    bigSep Finset.univ Φ = iprop(Φ 0 ∗ bigSep Finset.univ fun k : Fin 60 => Φ ⟨k.val + 1, by omega⟩) := by
  rw [Fin.univ_succ, Finset.cons_eq_insert, bigSep_insert (by simp [Fin.succ_ne_zero]), bigSep_map]
  rfl

/-- The ring turned by `o` places. -/
def rot (o : ℕ) : Dev nD ≃ Dev nD where
  toFun c := peer c o
  invFun c := peer c (16 - o % 16)
  left_inv c := by show peer (peer c o) (16 - o % 16) = c; rw [peer_peer]; exact peer_of_mod c _ (by omega)
  right_inv c := by show peer (peer c (16 - o % 16)) o = c; rw [peer_peer]; exact peer_of_mod c _ (by omega)

/-! ## The launch's ghost element: the cells and the duty tokens of all sixteen devices -/

theorem csem_injective : Function.Injective (csem : Fin 61 → SemLoc sig) := by
  intro k k' h
  unfold csem at h
  by_cases hk : k.val = 0 <;> by_cases hk' : k'.val = 0
  · exact Fin.ext (hk.trans hk'.symm)
  · rw [dif_pos hk, dif_neg hk'] at h; cases h
  · rw [dif_neg hk, dif_pos hk'] at h; cases h
  · rw [dif_neg hk, dif_neg hk'] at h; have := (dma_eq_iff _ _ _ _).mp h; exact Fin.ext (by omega)

theorem kcell_injective : Function.Injective (kcell : Dev nD × Fin 61 → GSem nD τ sig) := by
  rintro ⟨c, k⟩ ⟨c', k'⟩ h
  obtain ⟨h1, h2⟩ := (cell_eq_iff c c' (csem k) (csem k')).mp h
  rw [h1, csem_injective h2]

def ringCells : Finset (GSem nD τ sig) := Finset.univ.map ⟨kcell, kcell_injective⟩

/-- The duty tokens as minted, by kind of cell and number: the fifteen duties of the barrier cell, and the one duty of each
    send and receive cell of the reduce-scatter and of the all-gather — the semaphore and the duty's name. -/
abbrev tokSem (x : Fin 5 × Fin 15) : SemLoc sig × Fin 15 :=
  match x.1 with
  | 0 => (.reg barS, x.2)
  | 1 => (.dma (dsem (2 + x.2.val) (by omega)), 0)
  | 2 => (.dma (dsem (17 + x.2.val) (by omega)), 0)
  | 3 => (.dma (dsem (32 + x.2.val) (by omega)), 0)
  | 4 => (.dma (dsem (47 + x.2.val) (by omega)), 0)

theorem tokSem_injective : Function.Injective tokSem := by decide

abbrev tokOf (x : Dev nD × (Fin 5 × Fin 15)) : GSem nD τ sig × ℕ × Fin 15 :=
  (((x.1 : Thread nD τ), (tokSem x.2).1), 0, (tokSem x.2).2)

theorem tokOf_injective : Function.Injective tokOf := by
  rintro ⟨c, x⟩ ⟨c', x'⟩ h
  have h1 : c = c' := congrArg (fun y : GSem nD τ sig × ℕ × Fin 15 => y.1.1.1) h
  have h2 : tokSem x = tokSem x' :=
    Prod.ext (congrArg (fun y : GSem nD τ sig × ℕ × Fin 15 => y.1.2) h) (congrArg (fun y : GSem nD τ sig × ℕ × Fin 15 => y.2.2) h)
  rw [h1, tokSem_injective h2]

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 15 => dutyTok ER (barCell c) 0 j)
    ∗ (bigSep Finset.univ fun j : Fin 15 => dutyTok ER (s1Cell c j) 0 (0 : Fin 15))
    ∗ (bigSep Finset.univ fun j : Fin 15 => dutyTok ER (s2Cell c j) 0 (0 : Fin 15))
    ∗ (bigSep Finset.univ fun j : Fin 15 => dutyTok ER (r1Cell c j) 0 (0 : Fin 15))
    ∗ (bigSep Finset.univ fun j : Fin 15 => dutyTok ER (r2Cell c j) 0 (0 : Fin 15)))

/-- What the launch element deals device `c`: the round state, the position and the reached round of each of its 61
    cells, and the tokens of their duties. -/
def G (c : Dev nD) : sProp 𝕄 :=
  iprop((bigSep Finset.univ fun k : Fin 61 => roundState ER (Rd m) (kcell (c, k)) 0)
    ∗ (bigSep Finset.univ fun k : Fin 61 => iprop(atPos ER (kcell (c, k)) 0 ∅ 0 ∗ reached ER (kcell (c, k)) 0)) ∗ toks (F := F) c)

/-- What the global step makes of it: the ghost state the body starts from, at some names. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 61 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod, bigSep_fin5]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the tokens dealt to their payers -/

/-- The kernel's own (scoped) semaphores: the sixty transfer semaphores, in the order of the cells. -/
abbrev osem : Fin 60 → SemLoc sig := fun k => csem ⟨k.val + 1, by omega⟩

theorem osem_injective : Function.Injective osem := fun k k' h => by
  have := csem_injective h
  exact Fin.ext (by have := congrArg Fin.val this; simp only at this; omega)

theorem ownSemFacts : Pipeline.OwnSemFacts cfg0.spec osem := ⟨by decide, osem_injective, by decide⟩

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 61 => semVal (kcell (c, k)) 0 : sProp 𝕄) := by
  rw [unscopedSems0_eq, bigSep_fin61_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 61 => semVal (kcell (c, k)) 0) ∗ bigSep Finset.univ fun k : Fin 61 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 61 → ℕ) (c : Dev nD) : iprop(records m K ∗ linear (F := F) c) ⊢ G' m c := by
  unfold G' ghost
  iintro H
  iexists K
  iexact H

omit [FloatOps F] in
/-- The tokens dealt to their payers: duty `j` of a barrier cell and the duty of receive cell `j` of the all-gather go to
    the device `j + 1` places before the cell's, the duty of receive cell `j` of the reduce-scatter to the device `j + 1`
    places after it; a send cell's token stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_deal (fun j : Fin 15 => rot (j.val + 1)) (fun (c : Dev nD) (j : Fin 15) => (dutyTok ER (barCell c) 0 j : sProp 𝕄)),
    bigSep_univ_deal (fun j : Fin 15 => rot (15 - j.val)) (fun (c : Dev nD) (j : Fin 15) => (dutyTok ER (r1Cell c j) 0 (0 : Fin 15) : sProp 𝕄)),
    bigSep_univ_deal (fun j : Fin 15 => rot (j.val + 1)) (fun (c : Dev nD) (j : Fin 15) => (dutyTok ER (r2Cell c j) 0 (0 : Fin 15) : sProp 𝕄))]
  exact BI.Entails.refl _

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 61 => iprop(∃ κ : ℕ, cellInv ER (Rd m) κ (kcell ck))),
    bigSep_congr (s := Finset.univ) (fun (c : Dev nD) _ => bigSep_sep' Finset.univ (fun k : Fin 61 => (atPos ER (kcell (c, k)) 0 ∅ 0 : sProp 𝕄)) (fun k => reached ER (kcell (c, k)) 0)),
    bigSep_sep', ← bigSep_univ_prod (fun ck : Dev nD × Fin 61 => (reached ER (kcell ck) 0 : sProp 𝕄))]
  iintro ⟨HI, ⟨Hat, #HR⟩, Htok⟩
  ihave HK := (BI.bigSep_exists_pi Finset.univ (fun (ck : Dev nD × Fin 61) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · iapply (Entails.of_eq (bigSep_sep' Finset.univ (fun c : Dev nD => bigSep Finset.univ fun k : Fin 61 => (atPos ER (kcell (c, k)) 0 ∅ 0 : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the sixteen devices together owe each cell of a device -/

/-- Device `d` owes device `c`'s barrier cell one unit unless it is `c` itself: exactly one of its fifteen signals goes there. -/
theorem owed_bar (d c : Dev nD) : O₀ d (barCell c) () = if d = c then 0 else 1 := by
  unfold O₀
  simp only [Pi.add_apply, Finsupp.add_apply, tallyAt_apply, cell_eq_iff, reg_ne_dma, dma_ne_reg, and_false, false_and, and_true, if_false, Nat.zero_add, Nat.add_zero]
  revert d c; decide

/-- Receive cell `j` of the reduce-scatter on device `c` is owed the transfer's credit by the one device `j + 1` places after `c`. -/
theorem owed_r1 (d c : Dev nD) (j : Fin 15) : O₀ d (r1Cell c j) () = if d = peer c (j.val + 1) then N else 0 := by
  unfold O₀
  simp only [Pi.add_apply, Finsupp.add_apply, tallyAt_apply, cell_eq_iff, reg_ne_dma, dma_ne_reg, dma_eq_iff, and_false, false_and, and_true, if_false, Nat.zero_add, Nat.add_zero]
  revert d c j; decide

/-- Receive cell `j` of the all-gather on device `c` is owed the transfer's credit by the one device `j + 1` places before `c`. -/
theorem owed_r2 (d c : Dev nD) (j : Fin 15) : O₀ d (r2Cell c j) () = if d = peer c (15 - j.val) then N else 0 := by
  unfold O₀
  simp only [Pi.add_apply, Finsupp.add_apply, tallyAt_apply, cell_eq_iff, reg_ne_dma, dma_ne_reg, dma_eq_iff, and_false, false_and, and_true, if_false, Nat.zero_add, Nat.add_zero]
  revert d c j; decide

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_r1 (c : Dev nD) (j : Fin 15) :
    tallyOn (r1Cell c j) (launchCredit (Pipeline.owing O₀) 0 (r1Cell c j)) = (tallyAt (r1Cell c j) () N : CellTallies nD τ sig Unit) := by
  unfold tallyAt; refine congrArg _ (Finsupp.ext fun u => ?_); cases u
  rw [Pipeline.launchCredit_owing, Finsupp.single_eq_same, Finset.sum_congr rfl fun d _ => owed_r1 d c j,
    Finset.sum_ite_eq' Finset.univ (peer c (j.val + 1)) fun _ => N, if_pos (Finset.mem_univ _)]

theorem launch_r2 (c : Dev nD) (j : Fin 15) :
    tallyOn (r2Cell c j) (launchCredit (Pipeline.owing O₀) 0 (r2Cell c j)) = (tallyAt (r2Cell c j) () N : CellTallies nD τ sig Unit) := by
  unfold tallyAt; refine congrArg _ (Finsupp.ext fun u => ?_); cases u
  rw [Pipeline.launchCredit_owing, Finsupp.single_eq_same, Finset.sum_congr rfl fun d _ => owed_r2 d c j,
    Finset.sum_ite_eq' Finset.univ (peer c (15 - j.val)) fun _ => N, if_pos (Finset.mem_univ _)]

/-- The semaphores a device is owed on at launch: its barrier semaphore and its thirty receive semaphores. -/
abbrev credSem : Unit ⊕ (Fin 15 ⊕ Fin 15) → SemLoc sig
  | .inl _ => .reg barS
  | .inr (.inl j) => .dma (dsem (32 + j.val) (by omega))
  | .inr (.inr j) => .dma (dsem (47 + j.val) (by omega))

theorem credSem_injective : Function.Injective credSem := by
  rintro (_ | j | j) (_ | j' | j') h
  · rfl
  · exact absurd h (fun h => by cases h)
  · exact absurd h (fun h => by cases h)
  · exact absurd h (fun h => by cases h)
  · have := (dma_eq_iff _ _ _ _).mp h; exact congrArg _ (congrArg _ (Fin.ext (by omega)))
  · have := (dma_eq_iff _ _ _ _).mp h; omega
  · exact absurd h (fun h => by cases h)
  · have := (dma_eq_iff _ _ _ _).mp h; omega
  · have := (dma_eq_iff _ _ _ _).mp h; exact congrArg _ (congrArg _ (Fin.ext (by omega)))

omit [FloatOps F] in
/-- The launch deals device `c` the credit of what the others owe its cells: fifteen units on its barrier cell and a
    transfer's credit on each of its thirty receive cells. -/
theorem creds (c : Dev nD) :
    (Pipeline.launchCred O₀ c : sProp 𝕄) ⊢ iprop(cred (tallyAt (barCell c) () 15)
      ∗ (bigSep Finset.univ fun j : Fin 15 => cred (tallyAt (r1Cell c j) () N))
      ∗ (bigSep Finset.univ fun j : Fin 15 => cred (tallyAt (r2Cell c j) () N))) := by
  unfold Pipeline.launchCred
  refine (bigSep_subset (Finset.subset_univ (Finset.univ.map ⟨credSem, credSem_injective⟩))).trans ?_
  rw [bigSep_map, bigSep_univ_sum, bigSep_univ_sum, bigSep_univ_of_subsingleton ()]
  exact sep_mono (Entails.of_eq (congrArg cred (launch_bar c)))
    (sep_mono (bigSep_mono fun j _ => Entails.of_eq (congrArg cred (launch_r1 c j)))
      (bigSep_mono fun j _ => Entails.of_eq (congrArg cred (launch_r2 c j))))

/-! ## The levels: the staging cells sit below everything a device owes -/

theorem lv_pos_of_dma (t : Thread nD τ) (q : DmaSem sig) (h : 2 ≤ q.val) : 0 < lv (t, .dma q) () := by
  simp only [lv]; split_ifs <;> omega

/-- Whatever a device owes at launch is owed on a TensorCore's barrier cell or on a receive cell: never at level 0. -/
theorem O₀_pos {c : Dev nD} {g : GSem nD τ sig} {u : Unit} (h : 0 < O₀ c g u) : g.1.2 = .tc ∧ 0 < lv g u := by
  by_contra hn
  have key : ∀ (g' : GSem nD τ sig) (k : ℕ), (g'.1.2 = .tc ∧ 0 < lv g' ()) → tallyAt g' () k g u = 0 := fun g' k hg' => by
    rw [tallyAt_ne_cell (fun e => hn (by rw [e]; exact hg'))]; rfl
  have kbar : ∀ (x : Dev nD) (k : ℕ), tallyAt (barCell x) () k g u = 0 := fun x k => key _ k ⟨rfl, Nat.one_pos⟩
  have kr1 : ∀ (x : Dev nD) (j : Fin 15) (k : ℕ), tallyAt (r1Cell x j) () k g u = 0 := fun x j k =>
    key _ k ⟨rfl, lv_pos_of_dma _ _ (by show 2 ≤ 32 + j.val; omega)⟩
  have kr2 : ∀ (x : Dev nD) (j : Fin 15) (k : ℕ), tallyAt (r2Cell x j) () k g u = 0 := fun x j k =>
    key _ k ⟨rfl, lv_pos_of_dma _ _ (by show 2 ≤ 47 + j.val; omega)⟩
  unfold O₀ at h
  simp only [Pi.add_apply, Finsupp.add_apply, kbar, kr1, kr2, Nat.add_zero, Nat.lt_irrefl] at h

omit [FloatOps F] in
/-- A wait on a staging cell is allowed whatever of its launch dues the device still owes. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; simp only [lv, if_pos hq]; exact le_refl _)
      (fun g u hg => (O₀_pos hg).2)
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, H1, H2⟩
  imodintro
  unfold start G'
  isplitl
  · isplitl [HG]; · iexact HG
    isplitl [HB]; · iexact HB
    isplitl [H1]; · iexact H1
    isplitl [H2]; · iexact H2
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq]
  unfold Φ₁ scratch Pipeline.ownSems0
  iintro ⟨Hr, Hz⟩
  isplitr; · iempintro
  isplitl [Hz]; · iexact Hz
  iexact Hr

/-! ## The run -/

set_option maxRecDepth 8000 in
/-- At the compiled mesh of sixteen devices, for any float values, from any memory with zero counters, GIVEN the body of
    every device: every weakly fair execution of @main — the sixteen kernels handshaking on the barrier semaphore, then
    exchanging chunks twice — terminates, and every final state has each window's array on each device at the contents
    the proof data names. -/
theorem run_main (hbody : ∀ c, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.RS.run_main' depends on axioms: [propext, Classical.choice, Quot.sound] -/
#guard_msgs in #print axioms run_main

/-! ## The arrays after the run -/

/-- The argument array after the run holds what it held. -/
theorem finalA_x (c : Dev nD) : (dats m 0 c).arrAt (0 : Fin 2) cfg0.N = m (win0_0.arr.view.loc (c : Thread nD τ)) :=
  (dats (F := F) m 0 c).arrAt_in (0 : Fin 2) rfl _

/-- The result window's index map at its one point: block (0, 0). -/
theorem idx_out : ∀ t : Fin cfg0.N, win0_1.index t (0 : Fin 2) = 0 ∧ win0_1.index t (1 : Fin 2) = 0 :=
  (by decide +kernel : ∀ t : Fin grid0.N, _)

/-- The result window's one block is the whole [512, 512] array: what the point writes back is `outAt` read through it, -/
theorem flushed_out (c : Dev nD) (t : Fin cfg0.N) :
    (dats m 0 c).flushed (1 : Fin 2) t = ((cfg0.win 1).blk t).view.read (Elt F) (outAt m) := by
  funext j
  show outAt m ((cfg0.win 1).xinj (grid0.coords t) j) = outAt m (((cfg0.win 1).blk t).view.emb j)
  refine congrArg (outAt m) (funext fun a => Fin.ext ?_)
  match a with
  | ⟨0, _⟩ => show (j 0).val = win0_1.index t (0 : Fin 2) * 512 + 1 * (j 0).val; rw [(idx_out t).1]; omega
  | ⟨1, _⟩ => show (j 1).val = win0_1.index t (1 : Fin 2) * 512 + 1 * (j 1).val; rw [(idx_out t).2]; omega

/-- and every index of the array lies in it. -/
theorem mem_blk_out (t : Fin cfg0.N) (i : S512x512.Idx) : i ∈ ((cfg0.win 1).blk t).view.set := by
  show i ∈ ((View.whole main_v1).slice (win0_1.rect t)).set
  rw [View.set_slice_whole, Rect.mem_set_unit]
  intro a
  match a with
  | ⟨0, _⟩ =>
    show win0_1.index t (0 : Fin 2) * 512 ≤ (i 0).val ∧ (i 0).val < win0_1.index t (0 : Fin 2) * 512 + 512
    have hi : (i 0).val < 512 := (i 0).isLt
    rw [(idx_out t).1]; omega
  | ⟨1, _⟩ =>
    show win0_1.index t (1 : Fin 2) * 512 ≤ (i 1).val ∧ (i 1).val < win0_1.index t (1 : Fin 2) * 512 + 512
    have hi : (i 1).val < 512 := (i 1).isLt
    rw [(idx_out t).2]; omega

/-- The result array after the run, on every device: the work scratch after the all-gather, widened. -/
theorem finalA_out (c : Dev nD) : (dats m 0 c).arrAt (1 : Fin 2) cfg0.N = outAt m :=
  (dats (F := F) m 0 c).arrAt_eq_of_cover (1 : Fin 2) (outAt m) (fun t _ => flushed_out m c t)
    (fun i => ⟨t₀, flush0_1 t₀, mem_blk_out t₀ i⟩)

end Cert.Kernel.RS

end
-- ==== Proof.FrameOf.lean ====
/-
  From the launch's run to the frame.

  The launch proves that every weakly fair execution ends with each windowed array holding what the
  proof data says it holds after the last grid point.  The argument window is an input, never written
  back, so that array is the argument as launched: the program's frame (it runs to the end, faults
  nowhere, leaves its argument unchanged) is the launch's run with the result forgotten.
-/
import proofs.«900470_g7700000000000471_dist_rs_then_ag_i_m512_n512_v7x_i16_f32_1_alg».proof.Proof.Ring

noncomputable section

namespace Cert.KernelIdeal.RS

open Cert.KernelIdeal Cert.KernelIdeal.Gen
open Idealize.ShloMosaic Idealize.ShloMosaic.TcCoe Idealize.SL.Sem

/-- The frame from a run that names every windowed array's final contents, given that the argument
    window's array ends as launched. -/
theorem frame_of_run {F : FTy → Type} [FloatOps F]
    (m : (ℓ : Loc nD τ sig) → Buf (Elt F) ℓ) (ρ : Dev nD → PrngReg)
    (hrun : θ_run (defs (F := F)) (onTc (τ := τ) (main (F := F))) ⟨m, fun _ => 0, ρ⟩
      (fun r => ∀ c : Dev nD, ∀ w : Fin cfg0.W,
        r.2.mem ((cfg0.win w).arr.view.loc (c : Thread nD τ)) = (dats m 0 c).arrAt w cfg0.N))
    (hin : ∀ c : Dev nD, (dats m 0 c).arrAt (0 : Fin 2) cfg0.N = m ((c : Thread nD τ).loc main_arg0)) :
    θ_run (defs (F := F)) (onTc (τ := τ) (main (F := F))) ⟨m, fun _ => 0, ρ⟩
      (fun r => ∀ c : Dev nD,
        r.2.mem ((c.tc : Thread nD τ).loc main_arg0) = m ((c.tc : Thread nD τ).loc main_arg0)) :=
  (θ_run (defs (F := F)) _ _).mono (fun r h c => (h c (0 : Fin 2)).trans (hin c)) hrun

end Cert.KernelIdeal.RS

end
-- ==== Proof.KFrameOf.lean ====
/-
  From the launch's run to the frame.

  The launch proves that every weakly fair execution ends with each windowed array holding what the
  proof data says it holds after the last grid point.  The argument window is an input, never written
  back, so that array is the argument as launched: the program's frame (it runs to the end, faults
  nowhere, leaves its argument unchanged) is the launch's run with the result forgotten.
-/
import proofs.«900470_g7700000000000471_dist_rs_then_ag_i_m512_n512_v7x_i16_f32_1_alg».proof.Proof.KRing

noncomputable section

namespace Cert.Kernel.RS

open Cert.Kernel Cert.Kernel.Gen
open Idealize.ShloMosaic Idealize.ShloMosaic.TcCoe Idealize.SL.Sem

/-- The frame from a run that names every windowed array's final contents, given that the argument
    window's array ends as launched. -/
theorem frame_of_run {F : FTy → Type} [FloatOps F]
    (m : (ℓ : Loc nD τ sig) → Buf (Elt F) ℓ) (ρ : Dev nD → PrngReg)
    (hrun : θ_run (defs (F := F)) (onTc (τ := τ) (main (F := F))) ⟨m, fun _ => 0, ρ⟩
      (fun r => ∀ c : Dev nD, ∀ w : Fin cfg0.W,
        r.2.mem ((cfg0.win w).arr.view.loc (c : Thread nD τ)) = (dats m 0 c).arrAt w cfg0.N))
    (hin : ∀ c : Dev nD, (dats m 0 c).arrAt (0 : Fin 2) cfg0.N = m ((c : Thread nD τ).loc main_arg0)) :
    θ_run (defs (F := F)) (onTc (τ := τ) (main (F := F))) ⟨m, fun _ => 0, ρ⟩
      (fun r => ∀ c : Dev nD,
        r.2.mem ((c.tc : Thread nD τ).loc main_arg0) = m ((c.tc : Thread nD τ).loc main_arg0)) :=
  (θ_run (defs (F := F)) _ _).mono (fun r h c => (h c (0 : Fin 2)).trans (hin c)) hrun

end Cert.Kernel.RS

end
-- ==== Proof.Steps.lean ====
import proofs.«900470_g7700000000000471_dist_rs_then_ag_i_m512_n512_v7x_i16_f32_1_alg».proof.Proof.Gen.KernelIdeal
import proofs.«900470_g7700000000000471_dist_rs_then_ag_i_m512_n512_v7x_i16_f32_1_alg».proof.Proof.Gen.KernelIdeal.Skeleton
import proofs.«900470_g7700000000000471_dist_rs_then_ag_i_m512_n512_v7x_i16_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.Ring

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The records read at a cell -/

section Records
variable (K : Dev nD × Fin 61 → ℕ)

theorem inv_at0 (ck : Dev nD × Fin 61) :
    (bigSep Finset.univ fun ck : Dev nD × Fin 61 => (cellInv ER (Rd m) (K ck) (kcell ck) : sProp 𝕄)) ⊢ cellInv ER (Rd m) (K ck) (kcell ck) :=
  bigSep_elim (Finset.mem_univ ck)
theorem reached_at0 (ck : Dev nD × Fin 61) :
    (bigSep Finset.univ fun ck : Dev nD × Fin 61 => (reached ER (kcell ck) 0 : sProp 𝕄)) ⊢ reached ER (kcell ck) 0 :=
  bigSep_elim (Finset.mem_univ ck)

theorem inv_at (ck : Dev nD × Fin 61) : records m K ⊢ cellInv ER (Rd m) (K ck) (kcell ck) := by
  unfold records
  iintro ⟨HI, -⟩
  iapply (inv_at0 m K ck)
  iexact HI

theorem reached_at (ck : Dev nD × Fin 61) : records m K ⊢ reached ER (kcell ck) 0 := by
  unfold records
  iintro ⟨-, HR⟩
  iapply (reached_at0 (F := F) ck)
  iexact HR

/-- The numbers of a device's cells: the barrier cell 0, then the send cells of the reduce-scatter and of the all-gather,
    then the receive cells of each. -/
abbrev kS1 (j : Fin 15) : Fin 61 := ⟨j.val + 1, by omega⟩
abbrev kS2 (j : Fin 15) : Fin 61 := ⟨j.val + 16, by omega⟩
abbrev kR1 (j : Fin 15) : Fin 61 := ⟨j.val + 31, by omega⟩
abbrev kR2 (j : Fin 15) : Fin 61 := ⟨j.val + 46, by omega⟩

theorem kcell_bar (a : Dev nD) : kcell (a, (0 : Fin 61)) = barCell a := rfl
theorem kcell_s1 (a : Dev nD) (j : Fin 15) : kcell (a, kS1 j) = s1Cell a j := by
  show ((a : Thread nD τ), csem (kS1 j)) = _
  unfold csem; rw [dif_neg (by show ¬ (j.val + 1 = 0); omega)]
  exact congrArg (fun q => ((a : Thread nD τ), SemLoc.dma q)) (Fin.ext (by show j.val + 1 + 1 = 2 + j.val; omega))
theorem kcell_s2 (a : Dev nD) (j : Fin 15) : kcell (a, kS2 j) = s2Cell a j := by
  show ((a : Thread nD τ), csem (kS2 j)) = _
  unfold csem; rw [dif_neg (by show ¬ (j.val + 16 = 0); omega)]
  exact congrArg (fun q => ((a : Thread nD τ), SemLoc.dma q)) (Fin.ext (by show j.val + 16 + 1 = 17 + j.val; omega))
theorem kcell_r1 (a : Dev nD) (j : Fin 15) : kcell (a, kR1 j) = r1Cell a j := by
  show ((a : Thread nD τ), csem (kR1 j)) = _
  unfold csem; rw [dif_neg (by show ¬ (j.val + 31 = 0); omega)]
  exact congrArg (fun q => ((a : Thread nD τ), SemLoc.dma q)) (Fin.ext (by show j.val + 31 + 1 = 32 + j.val; omega))
theorem kcell_r2 (a : Dev nD) (j : Fin 15) : kcell (a, kR2 j) = r2Cell a j := by
  show ((a : Thread nD τ), csem (kR2 j)) = _
  unfold csem; rw [dif_neg (by show ¬ (j.val + 46 = 0); omega)]
  exact congrArg (fun q => ((a : Thread nD τ), SemLoc.dma q)) (Fin.ext (by show j.val + 46 + 1 = 47 + j.val; omega))

theorem inv_bar (a : Dev nD) : records m K ⊢ cellInv ER (Rd m) (K (a, 0)) (barCell a) := inv_at m K (a, 0)
theorem inv_s1 (a : Dev nD) (j : Fin 15) : records m K ⊢ cellInv ER (Rd m) (K (a, kS1 j)) (s1Cell a j) := by rw [← kcell_s1]; exact inv_at m K _
theorem inv_s2 (a : Dev nD) (j : Fin 15) : records m K ⊢ cellInv ER (Rd m) (K (a, kS2 j)) (s2Cell a j) := by rw [← kcell_s2]; exact inv_at m K _
theorem inv_r1 (a : Dev nD) (j : Fin 15) : records m K ⊢ cellInv ER (Rd m) (K (a, kR1 j)) (r1Cell a j) := by rw [← kcell_r1]; exact inv_at m K _
theorem inv_r2 (a : Dev nD) (j : Fin 15) : records m K ⊢ cellInv ER (Rd m) (K (a, kR2 j)) (r2Cell a j) := by rw [← kcell_r2]; exact inv_at m K _
theorem reached_bar (a : Dev nD) : records m K ⊢ reached ER (barCell a) 0 := reached_at m K (a, 0)
theorem reached_s1 (a : Dev nD) (j : Fin 15) : records m K ⊢ reached ER (s1Cell a j) 0 := by rw [← kcell_s1]; exact reached_at m K _
theorem reached_s2 (a : Dev nD) (j : Fin 15) : records m K ⊢ reached ER (s2Cell a j) 0 := by rw [← kcell_s2]; exact reached_at m K _
theorem reached_r1 (a : Dev nD) (j : Fin 15) : records m K ⊢ reached ER (r1Cell a j) 0 := by rw [← kcell_r1]; exact reached_at m K _
theorem reached_r2 (a : Dev nD) (j : Fin 15) : records m K ⊢ reached ER (r2Cell a j) 0 := by rw [← kcell_r2]; exact reached_at m K _

end Records

/-! ## Levels: what a device still owes lies above the cell it waits on -/

/-- Everything owed in `O` is owed to a TensorCore cell at a level above `b`. -/
def Above (b : ℕ) (O : CellTallies nD τ sig Unit) : Prop := ∀ g i, 0 < O g i → g.1.2 = .tc ∧ b < lv g i

theorem Above.zero (b : ℕ) : Above b (0 : CellTallies nD τ sig Unit) := fun g i h => absurd h (Nat.lt_irrefl 0)
theorem Above.add {b : ℕ} {O₁ O₂ : CellTallies nD τ sig Unit} (h₁ : Above b O₁) (h₂ : Above b O₂) : Above b (O₁ + O₂) :=
  fun g i h => (Pipeline.add_pos_cases h).elim (h₁ g i) (h₂ g i)
theorem Above.tally {b : ℕ} (g : GSem nD τ sig) (k : ℕ) (hg : g.1.2 = .tc) (hb : b < lv g ()) : Above b (tallyAt g () k) := fun g' i h => by
  rw [tallyAt_apply] at h
  by_cases e : g' = g ∧ i = ()
  · rw [e.1]; exact ⟨hg, hb⟩
  · rw [if_neg e] at h; exact absurd h (Nat.lt_irrefl 0)

theorem mayWait_of_above {b : ℕ} (c : Dev nD) (s : SemLoc sig) {O : CellTallies nD τ sig Unit} (hs : lv ((c : Thread nD τ), s) () ≤ b) (h : Above b O) :
    (levAts L lv : sProp 𝕄) ⊢ MayWait (c : Thread nD τ) s () O :=
  Pipeline.mayWait_of_levAts (by rw [L_tc]; exact Finset.mem_singleton_self _)
    (fun g i hg => ⟨by rw [L, if_pos (h g i hg).1]; exact Finset.mem_singleton_self _, lt_of_le_of_lt hs (h g i hg).2⟩)

/-! ## The body's remote steps, each once at a symbolic device and copy number -/

section Steps
variable (K : Dev nD × Fin 61 → ℕ)

theorem peer_back (c : Dev nD) (d : Fin 15) : peer (peer c (d.val + 1)) (15 - d.val) = c := by
  rw [peer_peer]; exact peer_of_mod c _ (by have := d.isLt; omega)
theorem peer_back' (c : Dev nD) (d : Fin 15) : peer (peer c (15 - d.val)) (d.val + 1) = c := by
  rw [peer_peer]; exact peer_of_mod c _ (by have := d.isLt; omega)

theorem payload_bar (a : Dev nD) (d : Fin 15) : (Rd m).payload (barCell a) 0 d = barPay (F := F) a d := rfl

/-- A slot of the receive scratch in hand makes the barrier duty's payload of the device it is handed to. -/
theorem barPay_intro (a c : Dev nD) (d : Fin 15) (h : peer a (15 - d.val) = c) (f : Buf (Elt F) ((slot d).view.loc (c : Thread nD τ))) :
    ((slot d).view.loc (c : Thread nD τ) ↦[(slot d).view.set]{fullShare} f : sProp 𝕄) ⊢ barPay (F := F) a d := by
  subst h; unfold barPay; iintro H; iexists f; iexact H

/-- Signal number `d + 1`: a unit on `peer c (d+1)`'s barrier cell, handing that device slot `d` of `c`'s receive scratch. -/
theorem wp_signal_bar (c n : Dev nD) (d : Fin 15) (hn : n = peer c (d.val + 1))
    {α : Type} {Q : α → sProp 𝕄} {k : PUnit → Prog (TpuEff nD τ sig (Elt F) Λ₀ .tc) α}
    (O : CellTallies nD τ sig Unit) (W : Waits sig Unit) (f : Buf (Elt F) ((slot d).view.loc (c : Thread nD τ))) :
    iprop(records m K ∗ owes (c : Thread nD τ) (O + tallyAt (barCell (peer c (d.val + 1))) () 1) W
        ∗ dutyTok ER (barCell (peer c (d.val + 1))) 0 d
        ∗ ((slot d).view.loc (c : Thread nD τ) ↦[(slot d).view.set]{fullShare} f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, HO, Htok, Hs⟩
  iapply (Rounds.wp_signal 𝒱₀ ER (Rd m) (c : Thread nD τ) none (dst := (peer c (d.val + 1) : Thread nD τ)) (κ := K (peer c (d.val + 1), 0))
      (d := d) (by rw [duties_bar]; exact Finset.mem_univ _) (amount_bar m _ d) () O rfl) $$ [HO Htok Hs]
  isplitr; · iapply (inv_bar m K); iexact HR
  isplitl [HO]; · iexact HO
  isplitl [Htok]; · iexact Htok
  isplitl [Hs]
  · rw [payload_bar]; iapply (barPay_intro (F := F) (peer c (d.val + 1)) c d (peer_back c d) f); iexact Hs
  · iapply (reached_bar m K); iexact HR

/-- The wait for fifteen units on the own barrier cell: every other device's slot for the reduce-scatter comes with it. -/
theorem wp_wait_bar (c : Dev nD) {α : Type} {Q : α → sProp 𝕄} {k : PUnit → Prog (TpuEff nD τ sig (Elt F) Λ₀ .tc) α}
    (O : CellTallies nD τ sig Unit) (W : Waits sig Unit) (hO : Above 1 O) :
    iprop(records m K ∗ cred (tallyAt (barCell c) () 15) ∗ owes (c : Thread nD τ) O W ∗ levAts L lv ∗ atPos ER (barCell c) 0 ∅ 0)
      ⊢ iprop(((owes (c : Thread nD τ) O (insert (SemLoc.reg barS, ()) W) ∗ atPos ER (barCell c) 1 ∅ 0
              ∗ bigSep Finset.univ (fun d : Fin 15 => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#HR, Hc, HO, #Hlev, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iapply (inv_bar m K); iexact HR
    isplitl [Hc]; · iexact Hc
    isplitl [HO]; · iexact HO
    isplitr; · iapply (mayWait_of_above c (.reg barS) (b := 1) (Nat.le_refl _) hO); iexact Hlev
    iexact Hat
  iintro ⟨HO, Hat, -, Hpay⟩
  iapply Hk
  isplitl [HO]; · iexact HO
  isplitl [Hat]; · iexact Hat
  rw [Finset.sdiff_empty, duties_bar]
  iexact Hpay

end Steps

/-! ## Transfers -/

section Sends
variable (K : Dev nD × Fin 61 → ℕ)

theorem pointsTo_congr (ℓ : Loc nD τ sig) (I : Finset (Idx ℓ)) (q : PosShare TreeShare) (f g : Buf (Elt F) ℓ) (h : ∀ i ∈ I, f i = g i) :
    (ℓ ↦[I]{q} f : sProp 𝕄) = (ℓ ↦[I]{q} g) :=
  BI.Region.is_congr (ι := (memEmb (Ix := Unit) (Name := ℕ) (U := UU) (Lvl := ℕ)).toEmb) (k := ℓ) (q := q) (I := I) h

/-- What a full write through a view leaves on the view's own elements does not depend on what it was written over. -/
theorem write_congr_on_set {κ : Kind} {sp : Space} {s : Shape} {e : EltTy} (v : View sig κ sp s e) (fd fd' : v.ty.Contents (Elt F)) (x : s.Idx → Elt F e) :
    ∀ i ∈ v.set, v.write (Elt F) fd x Finset.univ i = v.write (Elt F) fd' x Finset.univ i := by
  intro i hi
  obtain ⟨y, rfl⟩ := View.exists_emb_of_mem_set v hi
  rw [View.write_emb_of_mem _ _ (Finset.mem_univ y), View.write_emb_of_mem _ _ (Finset.mem_univ y)]

theorem payload_s1 (c : Dev nD) (j d : Fin 15) : (Rd m).payload (s1Cell c j) 0 d = (iprop(emp) : sProp 𝕄) := by
  show dmaPay m c (2 + j.val) = _
  unfold dmaPay; rw [dif_neg (by omega), dif_neg (by omega), dif_neg (by omega)]
theorem payload_s2 (c : Dev nD) (j d : Fin 15) : (Rd m).payload (s2Cell c j) 0 d = s2Pay m c j := by
  show dmaPay m c (17 + j.val) = _
  unfold dmaPay; rw [dif_pos (by omega)]
  exact congrArg (s2Pay m c) (Fin.ext (by show 17 + j.val - 17 = j.val; omega))
theorem payload_r1 (c : Dev nD) (j d : Fin 15) : (Rd m).payload (r1Cell c j) 0 d = r1Pay m c j := by
  show dmaPay m c (32 + j.val) = _
  unfold dmaPay; rw [dif_neg (by omega), dif_pos (by omega)]
  exact congrArg (r1Pay m c) (Fin.ext (by show 32 + j.val - 32 = j.val; omega))
theorem payload_r2 (c : Dev nD) (j d : Fin 15) : (Rd m).payload (r2Cell c j) 0 d = r2Pay m c j := by
  show dmaPay m c (47 + j.val) = _
  unfold dmaPay; rw [dif_neg (by omega), dif_neg (by omega), dif_pos (by omega)]
  exact congrArg (r2Pay m c) (Fin.ext (by show 47 + j.val - 47 = j.val; omega))

/-- The rows copy number `j + 1` of the reduce-scatter reads on device `c` are chunk `peer c (15 - j)`. -/
theorem off1_eq_chunk (c : Dev nD) (j : Fin 15) : k0_off1 c (BitVec.ofNat 32 (1 + j.val)) = k0_off3 (peer c (15 - j.val)) := by
  rw [k0_off1_eq, k0_off3_eq]
  have h16 : c.val < 16 := c.isLt
  have hj := j.isLt
  have : (c.val + 15 - j.val) % 16 = (peer c (15 - j.val)).val := by rw [peer_val]; omega
  rw [this]

theorem wAt_congr {off off' : Fin 2 → Nat} (e : off = off') (h : ∀ a, off a + S32x512.size a ≤ S512x512.size a) (h' : ∀ a, off' a + S32x512.size a ≤ S512x512.size a) :
    wAt off h = wAt off' h' := by subst e; rfl

/-- The source of copy number `j + 1` of the reduce-scatter, as the body spells it, is chunk `peer c (15 - j)`. -/
theorem src1_eq (c : Dev nD) (j : Fin 15) : wAt (k0_off1 c (BitVec.ofNat 32 (1 + j.val))) (k0_off1_inb c j) = chunk (peer c (15 - j.val)) :=
  wAt_congr (off1_eq_chunk c j) _ _

theorem slot_credit (j : Fin 15) (sm : SemLoc sig) (h : sm.isDma = true) : (slot j).view.amount sm = N := by
  cases sm with
  | reg s => cases h
  | dma q => rfl
theorem chunk_credit (p : Dev nD) (sm : SemLoc sig) (h : sm.isDma = true) : (chunk p).view.amount sm = N := by
  cases sm with
  | reg s => cases h
  | dma q => rfl

/-- The landing of copy `j + 1` of the reduce-scatter, as the rule leaves it, is the receive cell's payload. -/
theorem r1Pay_intro (a c : Dev nD) (j : Fin 15) (hc : peer a (j.val + 1) = c)
    (fd : Buf (Elt F) ((slot j).view.loc (a : Thread nD τ))) :
    iprop(((slot j).view.loc (a : Thread nD τ) ↦[(slot j).view.set]{fullShare}
            (slot j).view.write (Elt F) fd ((chunk a).view.read (Elt F) (W m c)) Finset.univ)
        ∗ ((chunk a).view.loc (c : Thread nD τ) ↦[(chunk a).view.set]{fullShare} W m c))
      ⊢ r1Pay m a j := by
  subst hc
  unfold r1Pay slotC
  rw [pointsTo_congr _ _ _ _ _ (write_congr_on_set (slot j).view fd junkC _)]

/-- Copy number `j + 1` of the reduce-scatter: chunk `peer c (15 - j)` of the work scratch into slot `j` of that device, the
    rows themselves travelling with the landing. -/
theorem wp_send1 (c n : Dev nD) (j : Fin 15) (hn : n = peer c (15 - j.val))
    {src dst : Memref sig .tc .vmem S32x512 .bf16} (esrc : src = chunk (peer c (15 - j.val))) (edst : dst = slot j)
    {sS sR : DmaSem sig} (eS : sS = dsem (2 + j.val) (by omega)) (eR : sR = dsem (32 + j.val) (by omega))
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fd : Buf (Elt F) ((slot j).view.loc (peer c (15 - j.val) : Thread nD τ))) (O : CellTallies nD τ sig Unit) (W₀ : Waits sig Unit) :
    iprop(records m K
        ∗ ((chunk (peer c (15 - j.val))).view.loc (c : Thread nD τ) ↦[(chunk (peer c (15 - j.val))).view.set]{fullShare} W m c)
        ∗ ((slot j).view.loc (peer c (15 - j.val) : Thread nD τ) ↦[(slot j).view.set]{fullShare} fd)
        ∗ owes (c : Thread nD τ) (O + tallyAt (r1Cell (peer c (15 - j.val)) j) () N) W₀
        ∗ dutyTok ER (s1Cell c j) 0 (0 : Fin 15) ∗ dutyTok ER (r1Cell (peer c (15 - j.val)) j) 0 (0 : Fin 15))
      ⊢ iprop(((cred (tallyAt (s1Cell c j) () N) ∗ owes (c : Thread nD τ) O W₀) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn; subst esrc; subst edst; subst eS; subst eR
  iintro ⟨#HR, Hsrc, Hdst, HO, HtS, HtR⟩
  iapply (Rounds.wp_send_landing_pointsTo 𝒱₀ ER (Rd m) (c : Thread nD τ) none (κ₁ := K (c, kS1 j)) (κ₂ := K (peer c (15 - j.val), kR1 j))
    (r₁ := 0) (r₂ := 0) (d₁ := (0 : Fin 15)) (d₂ := (0 : Fin 15)) (fd := fd) (fs := W m c) (q := fullShare)
    (src := chunk (peer c (15 - j.val))) (dst := slot j) (c' := (peer c (15 - j.val) : Thread nD τ))
    (by rw [duties_s1]; exact Finset.mem_singleton_self _) (by rw [duties_r1]; exact Finset.mem_singleton_self _)
    () () N (slot_credit j _ rfl) (amount_s1 m c j 0) (amount_r1 m _ j 0) O rfl (W := W₀)
    (by rw [payload_s1])
    (by rw [payload_r1]; exact r1Pay_intro m (peer c (15 - j.val)) c j (peer_back' c j) fd)) $$ [Hsrc Hdst HO HtS HtR]
  isplitr; · iapply (inv_s1 m K); iexact HR
  isplitr; · iapply (inv_r1 m K); iexact HR
  isplitl [Hsrc]; · iexact Hsrc
  isplitl [Hdst]; · iexact Hdst
  isplitl [HO]; · iexact HO
  isplitl [HtS]; · iexact HtS
  isplitr; · iapply (reached_s1 m K); iexact HR
  isplitl [HtR]; · iexact HtR
  iapply (reached_r1 m K); iexact HR

/-- The landing of copy `j + 1` of the all-gather, as the rule leaves it, is the receive cell's payload. -/
theorem r2Pay_intro (n c : Dev nD) (j : Fin 15) (hc : peer n (15 - j.val) = c) (hread : (chunk c).view.read (Elt F) (W' m c) = accOf m c)
    (fd : Buf (Elt F) ((chunk c).view.loc (n : Thread nD τ))) :
    ((chunk c).view.loc (n : Thread nD τ) ↦[(chunk c).view.set]{fullShare}
        (chunk c).view.write (Elt F) fd ((chunk c).view.read (Elt F) (W' m c)) Finset.univ : sProp 𝕄)
      ⊢ r2Pay m n j := by
  subst hc
  unfold r2Pay chunkC
  rw [hread, pointsTo_congr _ _ _ _ _ (write_congr_on_set (chunk (peer n (15 - j.val))).view fd junkW _)]

/-- Copy number `j + 1` of the all-gather: the own chunk, holding the sum, into the same rows of `peer c (j+1)`'s work
    scratch; a read share of the source is lent and comes back with the send cell. -/
theorem wp_send2 (c n : Dev nD) (j : Fin 15) (hn : n = peer c (j.val + 1)) (hread : (chunk c).view.read (Elt F) (W' m c) = accOf m c)
    {src dst : Memref sig .tc .vmem S32x512 .bf16} (esrc : src = chunk c) (edst : dst = chunk c)
    {sS sR : DmaSem sig} (eS : sS = dsem (17 + j.val) (by omega)) (eR : sR = dsem (47 + j.val) (by omega))
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fd : Buf (Elt F) ((chunk c).view.loc (peer c (j.val + 1) : Thread nD τ))) (O : CellTallies nD τ sig Unit) (W₀ : Waits sig Unit) :
    iprop(records m K
        ∗ ((chunk c).view.loc (c : Thread nD τ) ↦[(chunk c).view.set]{Transfers.shareTok fullShare 15 j} W' m c)
        ∗ ((chunk c).view.loc (peer c (j.val + 1) : Thread nD τ) ↦[(chunk c).view.set]{fullShare} fd)
        ∗ owes (c : Thread nD τ) (O + tallyAt (r2Cell (peer c (j.val + 1)) j) () N) W₀
        ∗ dutyTok ER (s2Cell c j) 0 (0 : Fin 15) ∗ dutyTok ER (r2Cell (peer c (j.val + 1)) j) 0 (0 : Fin 15))
      ⊢ iprop(((cred (tallyAt (s2Cell c j) () N) ∗ owes (c : Thread nD τ) O W₀) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn; subst esrc; subst edst; subst eS; subst eR
  iintro ⟨#HR, Hsrc, Hdst, HO, HtS, HtR⟩
  iapply (Rounds.wp_send_pointsTo 𝒱₀ ER (Rd m) (c : Thread nD τ) none (κ₁ := K (c, kS2 j)) (κ₂ := K (peer c (j.val + 1), kR2 j))
    (r₁ := 0) (r₂ := 0) (d₁ := (0 : Fin 15)) (d₂ := (0 : Fin 15)) (fd := fd) (fs := W' m c) (q := Transfers.shareTok fullShare 15 j)
    (src := chunk c) (dst := chunk c) (c' := (peer c (j.val + 1) : Thread nD τ))
    (by rw [duties_s2]; exact Finset.mem_singleton_self _) (by rw [duties_r2]; exact Finset.mem_singleton_self _)
    () () N (chunk_credit c _ rfl) (amount_s2 m c j 0) (amount_r2 m _ j 0) O rfl (W := W₀)
    (by rw [payload_s2]; exact BI.Entails.refl _)
    (by rw [payload_r2]; exact r2Pay_intro m (peer c (j.val + 1)) c j (peer_back c j) hread fd)) $$ [Hsrc Hdst HO HtS HtR]
  isplitr; · iapply (inv_s2 m K); iexact HR
  isplitr; · iapply (inv_r2 m K); iexact HR
  isplitl [Hsrc]; · iexact Hsrc
  isplitl [Hdst]; · iexact Hdst
  isplitl [HO]; · iexact HO
  isplitl [HtS]; · iexact HtS
  isplitr; · iapply (reached_s2 m K); iexact HR
  isplitl [HtR]; · iexact HtR
  iapply (reached_r2 m K); iexact HR

/-- A wait on one of the own transfer cells (one duty, the transfer's credit): the cell's payload comes with it. -/
theorem wp_wait_dma {b : ℕ} (c : Dev nD) (q : DmaSem sig) (κ : ℕ) (P : sProp 𝕄)
    (hd : (Rd m).duties ((c : Thread nD τ), .dma q) 0 = {0}) (hpay : (Rd m).payload ((c : Thread nD τ), .dma q) 0 0 = P)
    (hlv : lv ((c : Thread nD τ), .dma q) () ≤ b)
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above b O) :
    iprop(cellInv ER (Rd m) κ ((c : Thread nD τ), .dma q) ∗ cred (tallyAt ((c : Thread nD τ), .dma q) () N) ∗ owes (c : Thread nD τ) O W₀ ∗ levAts L lv
        ∗ atPos ER ((c : Thread nD τ), .dma q) 0 ∅ 0)
      ⊢ iprop(((owes (c : Thread nD τ) O (insert (SemLoc.dma q, ()) W₀) ∗ atPos ER ((c : Thread nD τ), .dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hexp : (Rd m).expect ((c : Thread nD τ), .dma q) 0 = N := by
    unfold Schedule.expect Schedule.amountOf; rw [hd, Finset.sum_singleton]; rfl
  have hP : (bigSep ((Rd m).duties ((c : Thread nD τ), .dma q) 0 \ ∅) fun d => (Rd m).payload ((c : Thread nD τ), .dma q) 0 d) ⊢ P := by
    rw [Finset.sdiff_empty, hd, bigSep_singleton, hpay]
  iintro ⟨#HI, Hc, HO, #Hlev, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W₀) (R := 0) (m := 0) (T := ∅)
      (by rw [hexp, hcr, Nat.zero_add])) $$ [Hc HO Hat]
  · isplitr; · iexact HI
    isplitl [Hc]; · rw [hcr]; iexact Hc
    isplitl [HO]; · iexact HO
    isplitr; · iapply (mayWait_of_above c (.dma q) hlv hO); iexact Hlev
    iexact Hat
  iintro ⟨HO, Hat, -, Hpay⟩
  iapply Hk
  isplitl [HO]; · iexact HO
  isplitl [Hat]; · iexact Hat
  iapply hP
  iexact Hpay

end Sends

end Cert.KernelIdeal.RS

end
-- ==== Proof.BodyDefs.lean ====
import proofs.«900470_g7700000000000471_dist_rs_then_ag_i_m512_n512_v7x_i16_f32_1_alg».proof.Proof.Gen.KernelIdeal
import proofs.«900470_g7700000000000471_dist_rs_then_ag_i_m512_n512_v7x_i16_f32_1_alg».proof.Proof.Gen.KernelIdeal.Skeleton
import proofs.«900470_g7700000000000471_dist_rs_then_ag_i_m512_n512_v7x_i16_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.Steps

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
variable {F : FTy → Type} [FloatOps F]
local notation "𝕄" => MT nD τ sig Unit (Elt F) ℕ UU ℕ
variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin61 (Φ : Fin 61 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60] (by decide) (by decide) Φ

theorem bigSep_fin60 (Φ : Fin 60 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59] (by decide) (by decide) Φ

theorem fetch_0 (t : Fin cfg0.N) : (cfg0.win (0 : Fin 2)).fetch t = true := by rw [fin_N t]; rfl

def bodyPre (K : Dev nD × Fin 61 → ℕ) (c : Dev nD) : sProp 𝕄 :=
  iprop((ghost m K c ∗ cred (tallyAt (barCell c) () 15)
      ∗ (bigSep Finset.univ fun j : Fin 15 => cred (tallyAt (r1Cell c j) () N))
      ∗ (bigSep Finset.univ fun j : Fin 15 => cred (tallyAt (r2Cell c j) () N))
      ∗ levAts L lv ∗ scratch (F := F) c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m))

end Cert.KernelIdeal.RS

end
-- ==== Proof.Post.lean ====
/-
  After the body: closing the transfer cells, and the body obligation in the launch's form.

  Every one of a device's sixty transfer cells has duties in round 0 only.  Once the device stands at
  round 1 of such a cell, having taken and consumed nothing of that round, no contribution can land on
  it any more, so the cell can be closed and its counter is handed back at zero.  The cells'
  invariants are shared knowledge (persistent), so they serve all sixty closings at once.

  The launch asks for the body's proof in its own form: from the proof data's assertion before the
  one grid point, what the device still owes, and the two staging buffers, run the body to the
  assertion after the point.  That is the body lemma with the launch's assertion regrouped into the
  body's precondition; nothing here is about what the body computes.
-/
import proofs.«900470_g7700000000000471_dist_rs_then_ag_i_m512_n512_v7x_i16_f32_1_alg».proof.Proof.BodyDefs

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
variable {F : FTy → Type} [FloatOps F]
local notation "𝕄" => MT nD τ sig Unit (Elt F) ℕ UU ℕ
variable (m : (ℓ : Loc nD τ sig) → Buf (Elt F) ℓ)

/-! ## Closing the sixty transfer cells -/

/-- A persistent assertion beside a family serves every member's passage. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  induction S using Finset.induction_on with
  | empty =>
    rw [bigSep_empty, bigSep_empty]
    iintro ⟨-, -⟩
    iempintro
  | insert i S hi ih =>
    have hhead : iprop(R ∗ Φ i) ⊢ Ψ i := h i (Finset.mem_insert_self i S)
    have htail : iprop(R ∗ bigSep S Φ) ⊢ bigSep S Ψ := ih fun j hj => h j (Finset.mem_insert_of_mem hj)
    have eΦ : bigSep (insert i S) Φ = iprop(Φ i ∗ bigSep S Φ) := bigSep_insert hi
    have eΨ : bigSep (insert i S) Ψ = iprop(Ψ i ∗ bigSep S Ψ) := bigSep_insert hi
    rw [eΦ, eΨ]
    iintro ⟨#HR, Hi, HS⟩
    isplitl [Hi]
    · iapply hhead
      isplitr
      · iexact HR
      · iexact Hi
    · iapply htail
      isplitr
      · iexact HR
      · iexact HS

/-- One transfer cell, at round 1 with nothing taken: no round from 1 on has a duty, so the cell closes
    and its counter comes back at zero. -/
theorem close_cell (K : Dev nD × Fin 61 → ℕ) (ck : Dev nD × Fin 61) :
    iprop(records m K ∗ atPos ER (kcell ck) 1 ∅ 0) ⊢ |={Set.univ}=> (semVal (kcell ck) 0 : sProp 𝕄) :=
  (sep_mono_left (inv_at m K ck)).trans
    (Rounds.cell_close ER (Rd m) (Set.mem_univ (K ck)) (fun h => h) (R := 1) (duties_later m (kcell ck)))

/-- All sixty at once. -/
theorem close_cells (K : Dev nD × Fin 61 → ℕ) (c : Dev nD) :
    iprop(records m K ∗ bigSep Finset.univ fun k : Fin 60 => atPos ER (kcell (c, ⟨k.val + 1, by omega⟩)) 1 ∅ 0)
      ⊢ |={Set.univ}=> (bigSep Finset.univ fun k : Fin 60 => semVal (kcell (c, ⟨k.val + 1, by omega⟩)) 0 : sProp 𝕄) :=
  (bigSep_beside fun k _ => close_cell m K (c, ⟨k.val + 1, by omega⟩)).trans (bigSep_fupd _ _)

/-! ## The body obligation -/

/-- Owning a whole buffer at contents `X`: the buffer points to some contents, and they are `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one grid point, as the launch states it. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The launch's body obligation on device `c`, from the body lemma. -/
theorem body_obligation
    (hsound : ∀ (K : Dev nD × Fin 61 → ℕ) (c : Dev nD) (Kt : PUnit → sProp 𝕄),
      iprop(bodyPre m K c ∗ (bodyPost m c -∗ Kt ⟨⟩)) ⊢ wp frame (wpE (defs₀ (F := F)) 𝒱₀ c none) Set.univ
        (cc0_body (F := F) xM (Memref.isWhole_whole _) oM (Memref.isWhole_whole _) wM (Memref.isWhole_whole _)
          cM (Memref.isWhole_whole _) cc0_scratch2 cc0_scratch3) Kt)
    (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (F := F) xM (Memref.isWhole_whole _) oM (Memref.isWhole_whole _) wM (Memref.isWhole_whole _)
      cM (Memref.isWhole_whole _) cc0_scratch2 cc0_scratch3) (fun _ => bodyPost m c)
  unfold bodyPre' Φ₀ start
  iintro ⟨⟨⟨⟨%K, Hg⟩, Hrest⟩, Hscr⟩, Ho, Hx, Hout⟩
  iapply (hsound K c fun _ => bodyPost m c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Cert.KernelIdeal.RS

end
-- ==== Proof.KSteps.lean ====
import proofs.«900470_g7700000000000471_dist_rs_then_ag_i_m512_n512_v7x_i16_f32_1_alg».proof.Proof.Gen.Kernel
import proofs.«900470_g7700000000000471_dist_rs_then_ag_i_m512_n512_v7x_i16_f32_1_alg».proof.Proof.Gen.Kernel.Skeleton
import proofs.«900470_g7700000000000471_dist_rs_then_ag_i_m512_n512_v7x_i16_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.KRing

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The records read at a cell -/

section Records
variable (K : Dev nD × Fin 61 → ℕ)

theorem inv_at0 (ck : Dev nD × Fin 61) :
    (bigSep Finset.univ fun ck : Dev nD × Fin 61 => (cellInv ER (Rd m) (K ck) (kcell ck) : sProp 𝕄)) ⊢ cellInv ER (Rd m) (K ck) (kcell ck) :=
  bigSep_elim (Finset.mem_univ ck)
theorem reached_at0 (ck : Dev nD × Fin 61) :
    (bigSep Finset.univ fun ck : Dev nD × Fin 61 => (reached ER (kcell ck) 0 : sProp 𝕄)) ⊢ reached ER (kcell ck) 0 :=
  bigSep_elim (Finset.mem_univ ck)

theorem inv_at (ck : Dev nD × Fin 61) : records m K ⊢ cellInv ER (Rd m) (K ck) (kcell ck) := by
  unfold records
  iintro ⟨HI, -⟩
  iapply (inv_at0 m K ck)
  iexact HI

theorem reached_at (ck : Dev nD × Fin 61) : records m K ⊢ reached ER (kcell ck) 0 := by
  unfold records
  iintro ⟨-, HR⟩
  iapply (reached_at0 (F := F) ck)
  iexact HR

/-- The numbers of a device's cells: the barrier cell 0, then the send cells of the reduce-scatter and of the all-gather,
    then the receive cells of each. -/
abbrev kS1 (j : Fin 15) : Fin 61 := ⟨j.val + 1, by omega⟩
abbrev kS2 (j : Fin 15) : Fin 61 := ⟨j.val + 16, by omega⟩
abbrev kR1 (j : Fin 15) : Fin 61 := ⟨j.val + 31, by omega⟩
abbrev kR2 (j : Fin 15) : Fin 61 := ⟨j.val + 46, by omega⟩

theorem kcell_bar (a : Dev nD) : kcell (a, (0 : Fin 61)) = barCell a := rfl
theorem kcell_s1 (a : Dev nD) (j : Fin 15) : kcell (a, kS1 j) = s1Cell a j := by
  show ((a : Thread nD τ), csem (kS1 j)) = _
  unfold csem; rw [dif_neg (by show ¬ (j.val + 1 = 0); omega)]
  exact congrArg (fun q => ((a : Thread nD τ), SemLoc.dma q)) (Fin.ext (by show j.val + 1 + 1 = 2 + j.val; omega))
theorem kcell_s2 (a : Dev nD) (j : Fin 15) : kcell (a, kS2 j) = s2Cell a j := by
  show ((a : Thread nD τ), csem (kS2 j)) = _
  unfold csem; rw [dif_neg (by show ¬ (j.val + 16 = 0); omega)]
  exact congrArg (fun q => ((a : Thread nD τ), SemLoc.dma q)) (Fin.ext (by show j.val + 16 + 1 = 17 + j.val; omega))
theorem kcell_r1 (a : Dev nD) (j : Fin 15) : kcell (a, kR1 j) = r1Cell a j := by
  show ((a : Thread nD τ), csem (kR1 j)) = _
  unfold csem; rw [dif_neg (by show ¬ (j.val + 31 = 0); omega)]
  exact congrArg (fun q => ((a : Thread nD τ), SemLoc.dma q)) (Fin.ext (by show j.val + 31 + 1 = 32 + j.val; omega))
theorem kcell_r2 (a : Dev nD) (j : Fin 15) : kcell (a, kR2 j) = r2Cell a j := by
  show ((a : Thread nD τ), csem (kR2 j)) = _
  unfold csem; rw [dif_neg (by show ¬ (j.val + 46 = 0); omega)]
  exact congrArg (fun q => ((a : Thread nD τ), SemLoc.dma q)) (Fin.ext (by show j.val + 46 + 1 = 47 + j.val; omega))

theorem inv_bar (a : Dev nD) : records m K ⊢ cellInv ER (Rd m) (K (a, 0)) (barCell a) := inv_at m K (a, 0)
theorem inv_s1 (a : Dev nD) (j : Fin 15) : records m K ⊢ cellInv ER (Rd m) (K (a, kS1 j)) (s1Cell a j) := by rw [← kcell_s1]; exact inv_at m K _
theorem inv_s2 (a : Dev nD) (j : Fin 15) : records m K ⊢ cellInv ER (Rd m) (K (a, kS2 j)) (s2Cell a j) := by rw [← kcell_s2]; exact inv_at m K _
theorem inv_r1 (a : Dev nD) (j : Fin 15) : records m K ⊢ cellInv ER (Rd m) (K (a, kR1 j)) (r1Cell a j) := by rw [← kcell_r1]; exact inv_at m K _
theorem inv_r2 (a : Dev nD) (j : Fin 15) : records m K ⊢ cellInv ER (Rd m) (K (a, kR2 j)) (r2Cell a j) := by rw [← kcell_r2]; exact inv_at m K _
theorem reached_bar (a : Dev nD) : records m K ⊢ reached ER (barCell a) 0 := reached_at m K (a, 0)
theorem reached_s1 (a : Dev nD) (j : Fin 15) : records m K ⊢ reached ER (s1Cell a j) 0 := by rw [← kcell_s1]; exact reached_at m K _
theorem reached_s2 (a : Dev nD) (j : Fin 15) : records m K ⊢ reached ER (s2Cell a j) 0 := by rw [← kcell_s2]; exact reached_at m K _
theorem reached_r1 (a : Dev nD) (j : Fin 15) : records m K ⊢ reached ER (r1Cell a j) 0 := by rw [← kcell_r1]; exact reached_at m K _
theorem reached_r2 (a : Dev nD) (j : Fin 15) : records m K ⊢ reached ER (r2Cell a j) 0 := by rw [← kcell_r2]; exact reached_at m K _

end Records

/-! ## Levels: what a device still owes lies above the cell it waits on -/

/-- Everything owed in `O` is owed to a TensorCore cell at a level above `b`. -/
def Above (b : ℕ) (O : CellTallies nD τ sig Unit) : Prop := ∀ g i, 0 < O g i → g.1.2 = .tc ∧ b < lv g i

theorem Above.zero (b : ℕ) : Above b (0 : CellTallies nD τ sig Unit) := fun g i h => absurd h (Nat.lt_irrefl 0)
theorem Above.add {b : ℕ} {O₁ O₂ : CellTallies nD τ sig Unit} (h₁ : Above b O₁) (h₂ : Above b O₂) : Above b (O₁ + O₂) :=
  fun g i h => (Pipeline.add_pos_cases h).elim (h₁ g i) (h₂ g i)
theorem Above.tally {b : ℕ} (g : GSem nD τ sig) (k : ℕ) (hg : g.1.2 = .tc) (hb : b < lv g ()) : Above b (tallyAt g () k) := fun g' i h => by
  rw [tallyAt_apply] at h
  by_cases e : g' = g ∧ i = ()
  · rw [e.1]; exact ⟨hg, hb⟩
  · rw [if_neg e] at h; exact absurd h (Nat.lt_irrefl 0)

theorem mayWait_of_above {b : ℕ} (c : Dev nD) (s : SemLoc sig) {O : CellTallies nD τ sig Unit} (hs : lv ((c : Thread nD τ), s) () ≤ b) (h : Above b O) :
    (levAts L lv : sProp 𝕄) ⊢ MayWait (c : Thread nD τ) s () O :=
  Pipeline.mayWait_of_levAts (by rw [L_tc]; exact Finset.mem_singleton_self _)
    (fun g i hg => ⟨by rw [L, if_pos (h g i hg).1]; exact Finset.mem_singleton_self _, lt_of_le_of_lt hs (h g i hg).2⟩)

/-! ## The body's remote steps, each once at a symbolic device and copy number -/

section Steps
variable (K : Dev nD × Fin 61 → ℕ)

theorem peer_back (c : Dev nD) (d : Fin 15) : peer (peer c (d.val + 1)) (15 - d.val) = c := by
  rw [peer_peer]; exact peer_of_mod c _ (by have := d.isLt; omega)
theorem peer_back' (c : Dev nD) (d : Fin 15) : peer (peer c (15 - d.val)) (d.val + 1) = c := by
  rw [peer_peer]; exact peer_of_mod c _ (by have := d.isLt; omega)

theorem payload_bar (a : Dev nD) (d : Fin 15) : (Rd m).payload (barCell a) 0 d = barPay (F := F) a d := rfl

/-- A slot of the receive scratch in hand makes the barrier duty's payload of the device it is handed to. -/
theorem barPay_intro (a c : Dev nD) (d : Fin 15) (h : peer a (15 - d.val) = c) (f : Buf (Elt F) ((slot d).view.loc (c : Thread nD τ))) :
    ((slot d).view.loc (c : Thread nD τ) ↦[(slot d).view.set]{fullShare} f : sProp 𝕄) ⊢ barPay (F := F) a d := by
  subst h; unfold barPay; iintro H; iexists f; iexact H

/-- Signal number `d + 1`: a unit on `peer c (d+1)`'s barrier cell, handing that device slot `d` of `c`'s receive scratch. -/
theorem wp_signal_bar (c n : Dev nD) (d : Fin 15) (hn : n = peer c (d.val + 1))
    {α : Type} {Q : α → sProp 𝕄} {k : PUnit → Prog (TpuEff nD τ sig (Elt F) Λ₀ .tc) α}
    (O : CellTallies nD τ sig Unit) (W : Waits sig Unit) (f : Buf (Elt F) ((slot d).view.loc (c : Thread nD τ))) :
    iprop(records m K ∗ owes (c : Thread nD τ) (O + tallyAt (barCell (peer c (d.val + 1))) () 1) W
        ∗ dutyTok ER (barCell (peer c (d.val + 1))) 0 d
        ∗ ((slot d).view.loc (c : Thread nD τ) ↦[(slot d).view.set]{fullShare} f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  iintro ⟨#HR, HO, Htok, Hs⟩
  iapply (Rounds.wp_signal 𝒱₀ ER (Rd m) (c : Thread nD τ) none (dst := (peer c (d.val + 1) : Thread nD τ)) (κ := K (peer c (d.val + 1), 0))
      (d := d) (by rw [duties_bar]; exact Finset.mem_univ _) (amount_bar m _ d) () O rfl) $$ [HO Htok Hs]
  isplitr; · iapply (inv_bar m K); iexact HR
  isplitl [HO]; · iexact HO
  isplitl [Htok]; · iexact Htok
  isplitl [Hs]
  · rw [payload_bar]; iapply (barPay_intro (F := F) (peer c (d.val + 1)) c d (peer_back c d) f); iexact Hs
  · iapply (reached_bar m K); iexact HR

/-- The wait for fifteen units on the own barrier cell: every other device's slot for the reduce-scatter comes with it. -/
theorem wp_wait_bar (c : Dev nD) {α : Type} {Q : α → sProp 𝕄} {k : PUnit → Prog (TpuEff nD τ sig (Elt F) Λ₀ .tc) α}
    (O : CellTallies nD τ sig Unit) (W : Waits sig Unit) (hO : Above 1 O) :
    iprop(records m K ∗ cred (tallyAt (barCell c) () 15) ∗ owes (c : Thread nD τ) O W ∗ levAts L lv ∗ atPos ER (barCell c) 0 ∅ 0)
      ⊢ iprop(((owes (c : Thread nD τ) O (insert (SemLoc.reg barS, ()) W) ∗ atPos ER (barCell c) 1 ∅ 0
              ∗ bigSep Finset.univ (fun d : Fin 15 => barPay (F := F) c d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 15) k) Q) := by
  iintro ⟨#HR, Hc, HO, #Hlev, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iapply (inv_bar m K); iexact HR
    isplitl [Hc]; · iexact Hc
    isplitl [HO]; · iexact HO
    isplitr; · iapply (mayWait_of_above c (.reg barS) (b := 1) (Nat.le_refl _) hO); iexact Hlev
    iexact Hat
  iintro ⟨HO, Hat, -, Hpay⟩
  iapply Hk
  isplitl [HO]; · iexact HO
  isplitl [Hat]; · iexact Hat
  rw [Finset.sdiff_empty, duties_bar]
  iexact Hpay

end Steps

/-! ## Transfers -/

section Sends
variable (K : Dev nD × Fin 61 → ℕ)

theorem pointsTo_congr (ℓ : Loc nD τ sig) (I : Finset (Idx ℓ)) (q : PosShare TreeShare) (f g : Buf (Elt F) ℓ) (h : ∀ i ∈ I, f i = g i) :
    (ℓ ↦[I]{q} f : sProp 𝕄) = (ℓ ↦[I]{q} g) :=
  BI.Region.is_congr (ι := (memEmb (Ix := Unit) (Name := ℕ) (U := UU) (Lvl := ℕ)).toEmb) (k := ℓ) (q := q) (I := I) h

/-- What a full write through a view leaves on the view's own elements does not depend on what it was written over. -/
theorem write_congr_on_set {κ : Kind} {sp : Space} {s : Shape} {e : EltTy} (v : View sig κ sp s e) (fd fd' : v.ty.Contents (Elt F)) (x : s.Idx → Elt F e) :
    ∀ i ∈ v.set, v.write (Elt F) fd x Finset.univ i = v.write (Elt F) fd' x Finset.univ i := by
  intro i hi
  obtain ⟨y, rfl⟩ := View.exists_emb_of_mem_set v hi
  rw [View.write_emb_of_mem _ _ (Finset.mem_univ y), View.write_emb_of_mem _ _ (Finset.mem_univ y)]

theorem payload_s1 (c : Dev nD) (j d : Fin 15) : (Rd m).payload (s1Cell c j) 0 d = (iprop(emp) : sProp 𝕄) := by
  show dmaPay m c (2 + j.val) = _
  unfold dmaPay; rw [dif_neg (by omega), dif_neg (by omega), dif_neg (by omega)]
theorem payload_s2 (c : Dev nD) (j d : Fin 15) : (Rd m).payload (s2Cell c j) 0 d = s2Pay m c j := by
  show dmaPay m c (17 + j.val) = _
  unfold dmaPay; rw [dif_pos (by omega)]
  exact congrArg (s2Pay m c) (Fin.ext (by show 17 + j.val - 17 = j.val; omega))
theorem payload_r1 (c : Dev nD) (j d : Fin 15) : (Rd m).payload (r1Cell c j) 0 d = r1Pay m c j := by
  show dmaPay m c (32 + j.val) = _
  unfold dmaPay; rw [dif_neg (by omega), dif_pos (by omega)]
  exact congrArg (r1Pay m c) (Fin.ext (by show 32 + j.val - 32 = j.val; omega))
theorem payload_r2 (c : Dev nD) (j d : Fin 15) : (Rd m).payload (r2Cell c j) 0 d = r2Pay m c j := by
  show dmaPay m c (47 + j.val) = _
  unfold dmaPay; rw [dif_neg (by omega), dif_neg (by omega), dif_pos (by omega)]
  exact congrArg (r2Pay m c) (Fin.ext (by show 47 + j.val - 47 = j.val; omega))

/-- The rows copy number `j + 1` of the reduce-scatter reads on device `c` are chunk `peer c (15 - j)`. -/
theorem off1_eq_chunk (c : Dev nD) (j : Fin 15) : k0_off1 c (BitVec.ofNat 32 (1 + j.val)) = k0_off3 (peer c (15 - j.val)) := by
  rw [k0_off1_eq, k0_off3_eq]
  have h16 : c.val < 16 := c.isLt
  have hj := j.isLt
  have : (c.val + 15 - j.val) % 16 = (peer c (15 - j.val)).val := by rw [peer_val]; omega
  rw [this]

theorem wAt_congr {off off' : Fin 2 → Nat} (e : off = off') (h : ∀ a, off a + S32x512.size a ≤ S512x512.size a) (h' : ∀ a, off' a + S32x512.size a ≤ S512x512.size a) :
    wAt off h = wAt off' h' := by subst e; rfl

/-- The source of copy number `j + 1` of the reduce-scatter, as the body spells it, is chunk `peer c (15 - j)`. -/
theorem src1_eq (c : Dev nD) (j : Fin 15) : wAt (k0_off1 c (BitVec.ofNat 32 (1 + j.val))) (k0_off1_inb c j) = chunk (peer c (15 - j.val)) :=
  wAt_congr (off1_eq_chunk c j) _ _

theorem slot_credit (j : Fin 15) (sm : SemLoc sig) (h : sm.isDma = true) : (slot j).view.amount sm = N := by
  cases sm with
  | reg s => cases h
  | dma q => rfl
theorem chunk_credit (p : Dev nD) (sm : SemLoc sig) (h : sm.isDma = true) : (chunk p).view.amount sm = N := by
  cases sm with
  | reg s => cases h
  | dma q => rfl

/-- The landing of copy `j + 1` of the reduce-scatter, as the rule leaves it, is the receive cell's payload. -/
theorem r1Pay_intro (a c : Dev nD) (j : Fin 15) (hc : peer a (j.val + 1) = c)
    (fd : Buf (Elt F) ((slot j).view.loc (a : Thread nD τ))) :
    iprop(((slot j).view.loc (a : Thread nD τ) ↦[(slot j).view.set]{fullShare}
            (slot j).view.write (Elt F) fd ((chunk a).view.read (Elt F) (W m c)) Finset.univ)
        ∗ ((chunk a).view.loc (c : Thread nD τ) ↦[(chunk a).view.set]{fullShare} W m c))
      ⊢ r1Pay m a j := by
  subst hc
  unfold r1Pay slotC
  rw [pointsTo_congr _ _ _ _ _ (write_congr_on_set (slot j).view fd junkC _)]

/-- Copy number `j + 1` of the reduce-scatter: chunk `peer c (15 - j)` of the work scratch into slot `j` of that device, the
    rows themselves travelling with the landing. -/
theorem wp_send1 (c n : Dev nD) (j : Fin 15) (hn : n = peer c (15 - j.val))
    {src dst : Memref sig .tc .vmem S32x512 .bf16} (esrc : src = chunk (peer c (15 - j.val))) (edst : dst = slot j)
    {sS sR : DmaSem sig} (eS : sS = dsem (2 + j.val) (by omega)) (eR : sR = dsem (32 + j.val) (by omega))
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fd : Buf (Elt F) ((slot j).view.loc (peer c (15 - j.val) : Thread nD τ))) (O : CellTallies nD τ sig Unit) (W₀ : Waits sig Unit) :
    iprop(records m K
        ∗ ((chunk (peer c (15 - j.val))).view.loc (c : Thread nD τ) ↦[(chunk (peer c (15 - j.val))).view.set]{fullShare} W m c)
        ∗ ((slot j).view.loc (peer c (15 - j.val) : Thread nD τ) ↦[(slot j).view.set]{fullShare} fd)
        ∗ owes (c : Thread nD τ) (O + tallyAt (r1Cell (peer c (15 - j.val)) j) () N) W₀
        ∗ dutyTok ER (s1Cell c j) 0 (0 : Fin 15) ∗ dutyTok ER (r1Cell (peer c (15 - j.val)) j) 0 (0 : Fin 15))
      ⊢ iprop(((cred (tallyAt (s1Cell c j) () N) ∗ owes (c : Thread nD τ) O W₀) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn; subst esrc; subst edst; subst eS; subst eR
  iintro ⟨#HR, Hsrc, Hdst, HO, HtS, HtR⟩
  iapply (Rounds.wp_send_landing_pointsTo 𝒱₀ ER (Rd m) (c : Thread nD τ) none (κ₁ := K (c, kS1 j)) (κ₂ := K (peer c (15 - j.val), kR1 j))
    (r₁ := 0) (r₂ := 0) (d₁ := (0 : Fin 15)) (d₂ := (0 : Fin 15)) (fd := fd) (fs := W m c) (q := fullShare)
    (src := chunk (peer c (15 - j.val))) (dst := slot j) (c' := (peer c (15 - j.val) : Thread nD τ))
    (by rw [duties_s1]; exact Finset.mem_singleton_self _) (by rw [duties_r1]; exact Finset.mem_singleton_self _)
    () () N (slot_credit j _ rfl) (amount_s1 m c j 0) (amount_r1 m _ j 0) O rfl (W := W₀)
    (by rw [payload_s1])
    (by rw [payload_r1]; exact r1Pay_intro m (peer c (15 - j.val)) c j (peer_back' c j) fd)) $$ [Hsrc Hdst HO HtS HtR]
  isplitr; · iapply (inv_s1 m K); iexact HR
  isplitr; · iapply (inv_r1 m K); iexact HR
  isplitl [Hsrc]; · iexact Hsrc
  isplitl [Hdst]; · iexact Hdst
  isplitl [HO]; · iexact HO
  isplitl [HtS]; · iexact HtS
  isplitr; · iapply (reached_s1 m K); iexact HR
  isplitl [HtR]; · iexact HtR
  iapply (reached_r1 m K); iexact HR

/-- The landing of copy `j + 1` of the all-gather, as the rule leaves it, is the receive cell's payload. -/
theorem r2Pay_intro (n c : Dev nD) (j : Fin 15) (hc : peer n (15 - j.val) = c) (hread : (chunk c).view.read (Elt F) (W' m c) = accOf m c)
    (fd : Buf (Elt F) ((chunk c).view.loc (n : Thread nD τ))) :
    ((chunk c).view.loc (n : Thread nD τ) ↦[(chunk c).view.set]{fullShare}
        (chunk c).view.write (Elt F) fd ((chunk c).view.read (Elt F) (W' m c)) Finset.univ : sProp 𝕄)
      ⊢ r2Pay m n j := by
  subst hc
  unfold r2Pay chunkC
  rw [hread, pointsTo_congr _ _ _ _ _ (write_congr_on_set (chunk (peer n (15 - j.val))).view fd junkW _)]

/-- Copy number `j + 1` of the all-gather: the own chunk, holding the sum, into the same rows of `peer c (j+1)`'s work
    scratch; a read share of the source is lent and comes back with the send cell. -/
theorem wp_send2 (c n : Dev nD) (j : Fin 15) (hn : n = peer c (j.val + 1)) (hread : (chunk c).view.read (Elt F) (W' m c) = accOf m c)
    {src dst : Memref sig .tc .vmem S32x512 .bf16} (esrc : src = chunk c) (edst : dst = chunk c)
    {sS sR : DmaSem sig} (eS : sS = dsem (17 + j.val) (by omega)) (eR : sR = dsem (47 + j.val) (by omega))
    {hsc : (dst : Memref sig (Dev.tc n : Thread nD τ).2.kind .vmem S32x512 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (fd : Buf (Elt F) ((chunk c).view.loc (peer c (j.val + 1) : Thread nD τ))) (O : CellTallies nD τ sig Unit) (W₀ : Waits sig Unit) :
    iprop(records m K
        ∗ ((chunk c).view.loc (c : Thread nD τ) ↦[(chunk c).view.set]{Transfers.shareTok fullShare 15 j} W' m c)
        ∗ ((chunk c).view.loc (peer c (j.val + 1) : Thread nD τ) ↦[(chunk c).view.set]{fullShare} fd)
        ∗ owes (c : Thread nD τ) (O + tallyAt (r2Cell (peer c (j.val + 1)) j) () N) W₀
        ∗ dutyTok ER (s2Cell c j) 0 (0 : Fin 15) ∗ dutyTok ER (r2Cell (peer c (j.val + 1)) j) 0 (0 : Fin 15))
      ⊢ iprop(((cred (tallyAt (s2Cell c j) () N) ∗ owes (c : Thread nD τ) O W₀) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn; subst esrc; subst edst; subst eS; subst eR
  iintro ⟨#HR, Hsrc, Hdst, HO, HtS, HtR⟩
  iapply (Rounds.wp_send_pointsTo 𝒱₀ ER (Rd m) (c : Thread nD τ) none (κ₁ := K (c, kS2 j)) (κ₂ := K (peer c (j.val + 1), kR2 j))
    (r₁ := 0) (r₂ := 0) (d₁ := (0 : Fin 15)) (d₂ := (0 : Fin 15)) (fd := fd) (fs := W' m c) (q := Transfers.shareTok fullShare 15 j)
    (src := chunk c) (dst := chunk c) (c' := (peer c (j.val + 1) : Thread nD τ))
    (by rw [duties_s2]; exact Finset.mem_singleton_self _) (by rw [duties_r2]; exact Finset.mem_singleton_self _)
    () () N (chunk_credit c _ rfl) (amount_s2 m c j 0) (amount_r2 m _ j 0) O rfl (W := W₀)
    (by rw [payload_s2]; exact BI.Entails.refl _)
    (by rw [payload_r2]; exact r2Pay_intro m (peer c (j.val + 1)) c j (peer_back c j) hread fd)) $$ [Hsrc Hdst HO HtS HtR]
  isplitr; · iapply (inv_s2 m K); iexact HR
  isplitr; · iapply (inv_r2 m K); iexact HR
  isplitl [Hsrc]; · iexact Hsrc
  isplitl [Hdst]; · iexact Hdst
  isplitl [HO]; · iexact HO
  isplitl [HtS]; · iexact HtS
  isplitr; · iapply (reached_s2 m K); iexact HR
  isplitl [HtR]; · iexact HtR
  iapply (reached_r2 m K); iexact HR

/-- A wait on one of the own transfer cells (one duty, the transfer's credit): the cell's payload comes with it. -/
theorem wp_wait_dma {b : ℕ} (c : Dev nD) (q : DmaSem sig) (κ : ℕ) (P : sProp 𝕄)
    (hd : (Rd m).duties ((c : Thread nD τ), .dma q) 0 = {0}) (hpay : (Rd m).payload ((c : Thread nD τ), .dma q) 0 0 = P)
    (hlv : lv ((c : Thread nD τ), .dma q) () ≤ b)
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above b O) :
    iprop(cellInv ER (Rd m) κ ((c : Thread nD τ), .dma q) ∗ cred (tallyAt ((c : Thread nD τ), .dma q) () N) ∗ owes (c : Thread nD τ) O W₀ ∗ levAts L lv
        ∗ atPos ER ((c : Thread nD τ), .dma q) 0 ∅ 0)
      ⊢ iprop(((owes (c : Thread nD τ) O (insert (SemLoc.dma q, ()) W₀) ∗ atPos ER ((c : Thread nD τ), .dma q) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hexp : (Rd m).expect ((c : Thread nD τ), .dma q) 0 = N := by
    unfold Schedule.expect Schedule.amountOf; rw [hd, Finset.sum_singleton]; rfl
  have hP : (bigSep ((Rd m).duties ((c : Thread nD τ), .dma q) 0 \ ∅) fun d => (Rd m).payload ((c : Thread nD τ), .dma q) 0 d) ⊢ P := by
    rw [Finset.sdiff_empty, hd, bigSep_singleton, hpay]
  iintro ⟨#HI, Hc, HO, #Hlev, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W₀) (R := 0) (m := 0) (T := ∅)
      (by rw [hexp, hcr, Nat.zero_add])) $$ [Hc HO Hat]
  · isplitr; · iexact HI
    isplitl [Hc]; · rw [hcr]; iexact Hc
    isplitl [HO]; · iexact HO
    isplitr; · iapply (mayWait_of_above c (.dma q) hlv hO); iexact Hlev
    iexact Hat
  iintro ⟨HO, Hat, -, Hpay⟩
  iapply Hk
  isplitl [HO]; · iexact HO
  isplitl [Hat]; · iexact Hat
  iapply hP
  iexact Hpay

end Sends

end Cert.Kernel.RS

end
-- ==== Proof.KBodyDefs.lean ====
import proofs.«900470_g7700000000000471_dist_rs_then_ag_i_m512_n512_v7x_i16_f32_1_alg».proof.Proof.Gen.Kernel
import proofs.«900470_g7700000000000471_dist_rs_then_ag_i_m512_n512_v7x_i16_f32_1_alg».proof.Proof.Gen.Kernel.Skeleton
import proofs.«900470_g7700000000000471_dist_rs_then_ag_i_m512_n512_v7x_i16_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.KSteps

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
variable {F : FTy → Type} [FloatOps F]
local notation "𝕄" => MT nD τ sig Unit (Elt F) ℕ UU ℕ
variable (m : (ℓ : Loc nD τ sig) → Buf (Elt F) ℓ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep_fin61 (Φ : Fin 61 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60] (by decide) (by decide) Φ

theorem bigSep_fin60 (Φ : Fin 60 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59) :=
  bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59] (by decide) (by decide) Φ

theorem fetch_0 (t : Fin cfg0.N) : (cfg0.win (0 : Fin 2)).fetch t = true := by rw [fin_N t]; rfl

def bodyPre (K : Dev nD × Fin 61 → ℕ) (c : Dev nD) : sProp 𝕄 :=
  iprop((ghost m K c ∗ cred (tallyAt (barCell c) () 15)
      ∗ (bigSep Finset.univ fun j : Fin 15 => cred (tallyAt (r1Cell c j) () N))
      ∗ (bigSep Finset.univ fun j : Fin 15 => cred (tallyAt (r2Cell c j) () N))
      ∗ levAts L lv ∗ scratch (F := F) c)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outAt m))

end Cert.Kernel.RS

end
-- ==== Proof.KPost.lean ====
/-
  After the body: closing the transfer cells, and the body obligation in the launch's form.

  Every one of a device's sixty transfer cells has duties in round 0 only.  Once the device stands at
  round 1 of such a cell, having taken and consumed nothing of that round, no contribution can land on
  it any more, so the cell can be closed and its counter is handed back at zero.  The cells'
  invariants are shared knowledge (persistent), so they serve all sixty closings at once.

  The launch asks for the body's proof in its own form: from the proof data's assertion before the
  one grid point, what the device still owes, and the two staging buffers, run the body to the
  assertion after the point.  That is the body lemma with the launch's assertion regrouped into the
  body's precondition; nothing here is about what the body computes.
-/
import proofs.«900470_g7700000000000471_dist_rs_then_ag_i_m512_n512_v7x_i16_f32_1_alg».proof.Proof.KBodyDefs

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
variable {F : FTy → Type} [FloatOps F]
local notation "𝕄" => MT nD τ sig Unit (Elt F) ℕ UU ℕ
variable (m : (ℓ : Loc nD τ sig) → Buf (Elt F) ℓ)

/-! ## Closing the sixty transfer cells -/

/-- A persistent assertion beside a family serves every member's passage. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  induction S using Finset.induction_on with
  | empty =>
    rw [bigSep_empty, bigSep_empty]
    iintro ⟨-, -⟩
    iempintro
  | insert i S hi ih =>
    have hhead : iprop(R ∗ Φ i) ⊢ Ψ i := h i (Finset.mem_insert_self i S)
    have htail : iprop(R ∗ bigSep S Φ) ⊢ bigSep S Ψ := ih fun j hj => h j (Finset.mem_insert_of_mem hj)
    have eΦ : bigSep (insert i S) Φ = iprop(Φ i ∗ bigSep S Φ) := bigSep_insert hi
    have eΨ : bigSep (insert i S) Ψ = iprop(Ψ i ∗ bigSep S Ψ) := bigSep_insert hi
    rw [eΦ, eΨ]
    iintro ⟨#HR, Hi, HS⟩
    isplitl [Hi]
    · iapply hhead
      isplitr
      · iexact HR
      · iexact Hi
    · iapply htail
      isplitr
      · iexact HR
      · iexact HS

/-- One transfer cell, at round 1 with nothing taken: no round from 1 on has a duty, so the cell closes
    and its counter comes back at zero. -/
theorem close_cell (K : Dev nD × Fin 61 → ℕ) (ck : Dev nD × Fin 61) :
    iprop(records m K ∗ atPos ER (kcell ck) 1 ∅ 0) ⊢ |={Set.univ}=> (semVal (kcell ck) 0 : sProp 𝕄) :=
  (sep_mono_left (inv_at m K ck)).trans
    (Rounds.cell_close ER (Rd m) (Set.mem_univ (K ck)) (fun h => h) (R := 1) (duties_later m (kcell ck)))

/-- All sixty at once. -/
theorem close_cells (K : Dev nD × Fin 61 → ℕ) (c : Dev nD) :
    iprop(records m K ∗ bigSep Finset.univ fun k : Fin 60 => atPos ER (kcell (c, ⟨k.val + 1, by omega⟩)) 1 ∅ 0)
      ⊢ |={Set.univ}=> (bigSep Finset.univ fun k : Fin 60 => semVal (kcell (c, ⟨k.val + 1, by omega⟩)) 0 : sProp 𝕄) :=
  (bigSep_beside fun k _ => close_cell m K (c, ⟨k.val + 1, by omega⟩)).trans (bigSep_fupd _ _)

/-! ## The body obligation -/

/-- Owning a whole buffer at contents `X`: the buffer points to some contents, and they are `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The obligation's precondition at the one grid point, as the launch states it. -/
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- The launch's body obligation on device `c`, from the body lemma. -/
theorem body_obligation
    (hsound : ∀ (K : Dev nD × Fin 61 → ℕ) (c : Dev nD) (Kt : PUnit → sProp 𝕄),
      iprop(bodyPre m K c ∗ (bodyPost m c -∗ Kt ⟨⟩)) ⊢ wp frame (wpE (defs₀ (F := F)) 𝒱₀ c none) Set.univ
        (cc0_body (F := F) xM (Memref.isWhole_whole _) oM (Memref.isWhole_whole _) wM (Memref.isWhole_whole _)
          cM (Memref.isWhole_whole _) cc0_scratch2 cc0_scratch3) Kt)
    (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (F := F) xM (Memref.isWhole_whole _) oM (Memref.isWhole_whole _) wM (Memref.isWhole_whole _)
      cM (Memref.isWhole_whole _) cc0_scratch2 cc0_scratch3) (fun _ => bodyPost m c)
  unfold bodyPre' Φ₀ start
  iintro ⟨⟨⟨⟨%K, Hg⟩, Hrest⟩, Hscr⟩, Ho, Hx, Hout⟩
  iapply (hsound K c fun _ => bodyPost m c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

end Cert.Kernel.RS

end
-- ==== Proof.Steps2.lean ====
import proofs.«900470_g7700000000000471_dist_rs_then_ag_i_m512_n512_v7x_i16_f32_1_alg».proof.Proof.Gen.KernelIdeal
import proofs.«900470_g7700000000000471_dist_rs_then_ag_i_m512_n512_v7x_i16_f32_1_alg».proof.Proof.Gen.KernelIdeal.Skeleton
import proofs.«900470_g7700000000000471_dist_rs_then_ag_i_m512_n512_v7x_i16_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.BodyDefs

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The levels of the cells, by kind -/

theorem lv_bar (a : Dev nD) : lv (barCell a) () = 1 := rfl
theorem lv_s1 (a : Dev nD) (j : Fin 15) : lv (s1Cell a j) () = 2 := by
  show (if 2 + j.val < 2 then 0 else if 2 + j.val < 17 then 2 else if 2 + j.val < 32 then 3 else if 2 + j.val < 47 then 2 else 3) = 2
  rw [if_neg (by omega), if_pos (by omega)]
theorem lv_s2 (a : Dev nD) (j : Fin 15) : lv (s2Cell a j) () = 3 := by
  show (if 17 + j.val < 2 then 0 else if 17 + j.val < 17 then 2 else if 17 + j.val < 32 then 3 else if 17 + j.val < 47 then 2 else 3) = 3
  rw [if_neg (by omega), if_neg (by omega), if_pos (by omega)]
theorem lv_r1 (a : Dev nD) (j : Fin 15) : lv (r1Cell a j) () = 2 := by
  show (if 32 + j.val < 2 then 0 else if 32 + j.val < 17 then 2 else if 32 + j.val < 32 then 3 else if 32 + j.val < 47 then 2 else 3) = 2
  rw [if_neg (by omega), if_neg (by omega), if_neg (by omega), if_pos (by omega)]
theorem lv_r2 (a : Dev nD) (j : Fin 15) : lv (r2Cell a j) () = 3 := by
  show (if 47 + j.val < 2 then 0 else if 47 + j.val < 17 then 2 else if 47 + j.val < 32 then 3 else if 47 + j.val < 47 then 2 else 3) = 3
  rw [if_neg (by omega), if_neg (by omega), if_neg (by omega), if_neg (by omega)]

/-! ## The waits on the own transfer cells, by kind -/

theorem wp_wait_s1 (K : Dev nD × Fin 61 → ℕ) (c : Dev nD) (j : Fin 15) {q : DmaSem sig} (eq : q = dsem (2 + j.val) (by omega))
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above 2 O) :
    iprop(records m K ∗ cred (tallyAt (s1Cell c j) () N) ∗ owes (c : Thread nD τ) O W₀ ∗ levAts L lv ∗ atPos ER (s1Cell c j) 0 ∅ 0)
      ⊢ iprop(((owes (c : Thread nD τ) O (insert (SemLoc.dma q, ()) W₀) ∗ atPos ER (s1Cell c j) 1 ∅ 0 ∗ (iprop(emp) : sProp 𝕄))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  iintro ⟨#HR, Hc, HO, #Hlev, Hat⟩
  iapply (wp_wait_dma m c _ (K (c, kS1 j)) _ (duties_s1 m c j) (payload_s1 m c j 0) (Nat.le_of_eq (lv_s1 c j)) hcr O W₀ hO) $$ [Hc HO Hat]
  isplitr; · iapply (inv_s1 m K); iexact HR
  isplitl [Hc]; · iexact Hc
  isplitl [HO]; · iexact HO
  isplitr; · iexact Hlev
  iexact Hat

/-- info: 'Cert.KernelIdeal.RS.wp_wait_s1' depends on axioms: [propext, Classical.choice, Quot.sound] -/
#guard_msgs in #print axioms wp_wait_s1

theorem wp_wait_r1 (K : Dev nD × Fin 61 → ℕ) (c : Dev nD) (j : Fin 15) {q : DmaSem sig} (eq : q = dsem (32 + j.val) (by omega))
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above 2 O) :
    iprop(records m K ∗ cred (tallyAt (r1Cell c j) () N) ∗ owes (c : Thread nD τ) O W₀ ∗ levAts L lv ∗ atPos ER (r1Cell c j) 0 ∅ 0)
      ⊢ iprop(((owes (c : Thread nD τ) O (insert (SemLoc.dma q, ()) W₀) ∗ atPos ER (r1Cell c j) 1 ∅ 0 ∗ r1Pay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  iintro ⟨#HR, Hc, HO, #Hlev, Hat⟩
  iapply (wp_wait_dma m c _ (K (c, kR1 j)) _ (duties_r1 m c j) (payload_r1 m c j 0) (Nat.le_of_eq (lv_r1 c j)) hcr O W₀ hO) $$ [Hc HO Hat]
  isplitr; · iapply (inv_r1 m K); iexact HR
  isplitl [Hc]; · iexact Hc
  isplitl [HO]; · iexact HO
  isplitr; · iexact Hlev
  iexact Hat

/-- info: 'Cert.KernelIdeal.RS.wp_wait_r1' depends on axioms: [propext, Classical.choice, Quot.sound] -/
#guard_msgs in #print axioms wp_wait_r1

theorem wp_wait_s2 (K : Dev nD × Fin 61 → ℕ) (c : Dev nD) (j : Fin 15) {q : DmaSem sig} (eq : q = dsem (17 + j.val) (by omega))
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above 3 O) :
    iprop(records m K ∗ cred (tallyAt (s2Cell c j) () N) ∗ owes (c : Thread nD τ) O W₀ ∗ levAts L lv ∗ atPos ER (s2Cell c j) 0 ∅ 0)
      ⊢ iprop(((owes (c : Thread nD τ) O (insert (SemLoc.dma q, ()) W₀) ∗ atPos ER (s2Cell c j) 1 ∅ 0 ∗ s2Pay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  iintro ⟨#HR, Hc, HO, #Hlev, Hat⟩
  iapply (wp_wait_dma m c _ (K (c, kS2 j)) _ (duties_s2 m c j) (payload_s2 m c j 0) (Nat.le_of_eq (lv_s2 c j)) hcr O W₀ hO) $$ [Hc HO Hat]
  isplitr; · iapply (inv_s2 m K); iexact HR
  isplitl [Hc]; · iexact Hc
  isplitl [HO]; · iexact HO
  isplitr; · iexact Hlev
  iexact Hat

/-- info: 'Cert.KernelIdeal.RS.wp_wait_s2' depends on axioms: [propext, Classical.choice, Quot.sound] -/
#guard_msgs in #print axioms wp_wait_s2

theorem wp_wait_r2 (K : Dev nD × Fin 61 → ℕ) (c : Dev nD) (j : Fin 15) {q : DmaSem sig} (eq : q = dsem (47 + j.val) (by omega))
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above 3 O) :
    iprop(records m K ∗ cred (tallyAt (r2Cell c j) () N) ∗ owes (c : Thread nD τ) O W₀ ∗ levAts L lv ∗ atPos ER (r2Cell c j) 0 ∅ 0)
      ⊢ iprop(((owes (c : Thread nD τ) O (insert (SemLoc.dma q, ()) W₀) ∗ atPos ER (r2Cell c j) 1 ∅ 0 ∗ r2Pay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  iintro ⟨#HR, Hc, HO, #Hlev, Hat⟩
  iapply (wp_wait_dma m c _ (K (c, kR2 j)) _ (duties_r2 m c j) (payload_r2 m c j 0) (Nat.le_of_eq (lv_r2 c j)) hcr O W₀ hO) $$ [Hc HO Hat]
  isplitr; · iapply (inv_r2 m K); iexact HR
  isplitl [Hc]; · iexact Hc
  isplitl [HO]; · iexact HO
  isplitr; · iexact Hlev
  iexact Hat

/-- info: 'Cert.KernelIdeal.RS.wp_wait_r2' depends on axioms: [propext, Classical.choice, Quot.sound] -/
#guard_msgs in #print axioms wp_wait_r2

end Cert.KernelIdeal.RS

end
-- ==== Proof.Tables.lean ====
import proofs.«900470_g7700000000000471_dist_rs_then_ag_i_m512_n512_v7x_i16_f32_1_alg».proof.Proof.Gen.KernelIdeal
import proofs.«900470_g7700000000000471_dist_rs_then_ag_i_m512_n512_v7x_i16_f32_1_alg».proof.Proof.Gen.KernelIdeal.Skeleton
import proofs.«900470_g7700000000000471_dist_rs_then_ag_i_m512_n512_v7x_i16_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.Steps2

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The barrier cells' tables as the device that PAYS a duty reads them

Device `c` pays duty `o - 1` of the barrier cell of the device `o` places on. That cell is named here from `c`'s side, and
its table entries are stated in `c`'s own terms: the payload is slot `o - 1` of `c`'s own receive scratch (the device
`15 - (o - 1)` places on from the device `o` places on is `c` again). -/

/-- The barrier cell of the device `o` places on, as the payer names it. -/
def barOf (c : Dev nD) (o : ℕ) : GSem nD τ sig := barCell (peer c o)

theorem payload_barOf_1 (c : Dev nD) : (Rd (F := F) m).payload (barOf c 1) 0 0 = (iprop(∃ f, (slot 0).view.loc (c : Thread nD τ) ↦[(slot 0).view.set]{fullShare} f) : sProp 𝕄) := by
  show barPay (F := F) (peer c 1) 0 = _
  unfold barPay
  have h : peer (peer c 1) (15 - (0 : Fin 15).val) = c := peer_back c 0
  rw [h]
theorem duties_barOf_1 (c : Dev nD) : (Rd (F := F) m).duties (barOf c 1) 0 = Finset.univ := duties_bar m _
theorem amount_barOf_1 (c : Dev nD) (d : Fin 15) : (Rd (F := F) m).amount (barOf c 1) 0 d = 1 := rfl
theorem payload_barOf_2 (c : Dev nD) : (Rd (F := F) m).payload (barOf c 2) 0 1 = (iprop(∃ f, (slot 1).view.loc (c : Thread nD τ) ↦[(slot 1).view.set]{fullShare} f) : sProp 𝕄) := by
  show barPay (F := F) (peer c 2) 1 = _
  unfold barPay
  have h : peer (peer c 2) (15 - (1 : Fin 15).val) = c := peer_back c 1
  rw [h]
theorem duties_barOf_2 (c : Dev nD) : (Rd (F := F) m).duties (barOf c 2) 0 = Finset.univ := duties_bar m _
theorem amount_barOf_2 (c : Dev nD) (d : Fin 15) : (Rd (F := F) m).amount (barOf c 2) 0 d = 1 := rfl
theorem payload_barOf_3 (c : Dev nD) : (Rd (F := F) m).payload (barOf c 3) 0 2 = (iprop(∃ f, (slot 2).view.loc (c : Thread nD τ) ↦[(slot 2).view.set]{fullShare} f) : sProp 𝕄) := by
  show barPay (F := F) (peer c 3) 2 = _
  unfold barPay
  have h : peer (peer c 3) (15 - (2 : Fin 15).val) = c := peer_back c 2
  rw [h]
theorem duties_barOf_3 (c : Dev nD) : (Rd (F := F) m).duties (barOf c 3) 0 = Finset.univ := duties_bar m _
theorem amount_barOf_3 (c : Dev nD) (d : Fin 15) : (Rd (F := F) m).amount (barOf c 3) 0 d = 1 := rfl
theorem payload_barOf_4 (c : Dev nD) : (Rd (F := F) m).payload (barOf c 4) 0 3 = (iprop(∃ f, (slot 3).view.loc (c : Thread nD τ) ↦[(slot 3).view.set]{fullShare} f) : sProp 𝕄) := by
  show barPay (F := F) (peer c 4) 3 = _
  unfold barPay
  have h : peer (peer c 4) (15 - (3 : Fin 15).val) = c := peer_back c 3
  rw [h]
theorem duties_barOf_4 (c : Dev nD) : (Rd (F := F) m).duties (barOf c 4) 0 = Finset.univ := duties_bar m _
theorem amount_barOf_4 (c : Dev nD) (d : Fin 15) : (Rd (F := F) m).amount (barOf c 4) 0 d = 1 := rfl
theorem payload_barOf_5 (c : Dev nD) : (Rd (F := F) m).payload (barOf c 5) 0 4 = (iprop(∃ f, (slot 4).view.loc (c : Thread nD τ) ↦[(slot 4).view.set]{fullShare} f) : sProp 𝕄) := by
  show barPay (F := F) (peer c 5) 4 = _
  unfold barPay
  have h : peer (peer c 5) (15 - (4 : Fin 15).val) = c := peer_back c 4
  rw [h]
theorem duties_barOf_5 (c : Dev nD) : (Rd (F := F) m).duties (barOf c 5) 0 = Finset.univ := duties_bar m _
theorem amount_barOf_5 (c : Dev nD) (d : Fin 15) : (Rd (F := F) m).amount (barOf c 5) 0 d = 1 := rfl
theorem payload_barOf_6 (c : Dev nD) : (Rd (F := F) m).payload (barOf c 6) 0 5 = (iprop(∃ f, (slot 5).view.loc (c : Thread nD τ) ↦[(slot 5).view.set]{fullShare} f) : sProp 𝕄) := by
  show barPay (F := F) (peer c 6) 5 = _
  unfold barPay
  have h : peer (peer c 6) (15 - (5 : Fin 15).val) = c := peer_back c 5
  rw [h]
theorem duties_barOf_6 (c : Dev nD) : (Rd (F := F) m).duties (barOf c 6) 0 = Finset.univ := duties_bar m _
theorem amount_barOf_6 (c : Dev nD) (d : Fin 15) : (Rd (F := F) m).amount (barOf c 6) 0 d = 1 := rfl
theorem payload_barOf_7 (c : Dev nD) : (Rd (F := F) m).payload (barOf c 7) 0 6 = (iprop(∃ f, (slot 6).view.loc (c : Thread nD τ) ↦[(slot 6).view.set]{fullShare} f) : sProp 𝕄) := by
  show barPay (F := F) (peer c 7) 6 = _
  unfold barPay
  have h : peer (peer c 7) (15 - (6 : Fin 15).val) = c := peer_back c 6
  rw [h]
theorem duties_barOf_7 (c : Dev nD) : (Rd (F := F) m).duties (barOf c 7) 0 = Finset.univ := duties_bar m _
theorem amount_barOf_7 (c : Dev nD) (d : Fin 15) : (Rd (F := F) m).amount (barOf c 7) 0 d = 1 := rfl
theorem payload_barOf_8 (c : Dev nD) : (Rd (F := F) m).payload (barOf c 8) 0 7 = (iprop(∃ f, (slot 7).view.loc (c : Thread nD τ) ↦[(slot 7).view.set]{fullShare} f) : sProp 𝕄) := by
  show barPay (F := F) (peer c 8) 7 = _
  unfold barPay
  have h : peer (peer c 8) (15 - (7 : Fin 15).val) = c := peer_back c 7
  rw [h]
theorem duties_barOf_8 (c : Dev nD) : (Rd (F := F) m).duties (barOf c 8) 0 = Finset.univ := duties_bar m _
theorem amount_barOf_8 (c : Dev nD) (d : Fin 15) : (Rd (F := F) m).amount (barOf c 8) 0 d = 1 := rfl
theorem payload_barOf_9 (c : Dev nD) : (Rd (F := F) m).payload (barOf c 9) 0 8 = (iprop(∃ f, (slot 8).view.loc (c : Thread nD τ) ↦[(slot 8).view.set]{fullShare} f) : sProp 𝕄) := by
  show barPay (F := F) (peer c 9) 8 = _
  unfold barPay
  have h : peer (peer c 9) (15 - (8 : Fin 15).val) = c := peer_back c 8
  rw [h]
theorem duties_barOf_9 (c : Dev nD) : (Rd (F := F) m).duties (barOf c 9) 0 = Finset.univ := duties_bar m _
theorem amount_barOf_9 (c : Dev nD) (d : Fin 15) : (Rd (F := F) m).amount (barOf c 9) 0 d = 1 := rfl
theorem payload_barOf_10 (c : Dev nD) : (Rd (F := F) m).payload (barOf c 10) 0 9 = (iprop(∃ f, (slot 9).view.loc (c : Thread nD τ) ↦[(slot 9).view.set]{fullShare} f) : sProp 𝕄) := by
  show barPay (F := F) (peer c 10) 9 = _
  unfold barPay
  have h : peer (peer c 10) (15 - (9 : Fin 15).val) = c := peer_back c 9
  rw [h]
theorem duties_barOf_10 (c : Dev nD) : (Rd (F := F) m).duties (barOf c 10) 0 = Finset.univ := duties_bar m _
theorem amount_barOf_10 (c : Dev nD) (d : Fin 15) : (Rd (F := F) m).amount (barOf c 10) 0 d = 1 := rfl
theorem payload_barOf_11 (c : Dev nD) : (Rd (F := F) m).payload (barOf c 11) 0 10 = (iprop(∃ f, (slot 10).view.loc (c : Thread nD τ) ↦[(slot 10).view.set]{fullShare} f) : sProp 𝕄) := by
  show barPay (F := F) (peer c 11) 10 = _
  unfold barPay
  have h : peer (peer c 11) (15 - (10 : Fin 15).val) = c := peer_back c 10
  rw [h]
theorem duties_barOf_11 (c : Dev nD) : (Rd (F := F) m).duties (barOf c 11) 0 = Finset.univ := duties_bar m _
theorem amount_barOf_11 (c : Dev nD) (d : Fin 15) : (Rd (F := F) m).amount (barOf c 11) 0 d = 1 := rfl
theorem payload_barOf_12 (c : Dev nD) : (Rd (F := F) m).payload (barOf c 12) 0 11 = (iprop(∃ f, (slot 11).view.loc (c : Thread nD τ) ↦[(slot 11).view.set]{fullShare} f) : sProp 𝕄) := by
  show barPay (F := F) (peer c 12) 11 = _
  unfold barPay
  have h : peer (peer c 12) (15 - (11 : Fin 15).val) = c := peer_back c 11
  rw [h]
theorem duties_barOf_12 (c : Dev nD) : (Rd (F := F) m).duties (barOf c 12) 0 = Finset.univ := duties_bar m _
theorem amount_barOf_12 (c : Dev nD) (d : Fin 15) : (Rd (F := F) m).amount (barOf c 12) 0 d = 1 := rfl
theorem payload_barOf_13 (c : Dev nD) : (Rd (F := F) m).payload (barOf c 13) 0 12 = (iprop(∃ f, (slot 12).view.loc (c : Thread nD τ) ↦[(slot 12).view.set]{fullShare} f) : sProp 𝕄) := by
  show barPay (F := F) (peer c 13) 12 = _
  unfold barPay
  have h : peer (peer c 13) (15 - (12 : Fin 15).val) = c := peer_back c 12
  rw [h]
theorem duties_barOf_13 (c : Dev nD) : (Rd (F := F) m).duties (barOf c 13) 0 = Finset.univ := duties_bar m _
theorem amount_barOf_13 (c : Dev nD) (d : Fin 15) : (Rd (F := F) m).amount (barOf c 13) 0 d = 1 := rfl
theorem payload_barOf_14 (c : Dev nD) : (Rd (F := F) m).payload (barOf c 14) 0 13 = (iprop(∃ f, (slot 13).view.loc (c : Thread nD τ) ↦[(slot 13).view.set]{fullShare} f) : sProp 𝕄) := by
  show barPay (F := F) (peer c 14) 13 = _
  unfold barPay
  have h : peer (peer c 14) (15 - (13 : Fin 15).val) = c := peer_back c 13
  rw [h]
theorem duties_barOf_14 (c : Dev nD) : (Rd (F := F) m).duties (barOf c 14) 0 = Finset.univ := duties_bar m _
theorem amount_barOf_14 (c : Dev nD) (d : Fin 15) : (Rd (F := F) m).amount (barOf c 14) 0 d = 1 := rfl
theorem payload_barOf_15 (c : Dev nD) : (Rd (F := F) m).payload (barOf c 15) 0 14 = (iprop(∃ f, (slot 14).view.loc (c : Thread nD τ) ↦[(slot 14).view.set]{fullShare} f) : sProp 𝕄) := by
  show barPay (F := F) (peer c 15) 14 = _
  unfold barPay
  have h : peer (peer c 15) (15 - (14 : Fin 15).val) = c := peer_back c 14
  rw [h]
theorem duties_barOf_15 (c : Dev nD) : (Rd (F := F) m).duties (barOf c 15) 0 = Finset.univ := duties_bar m _
theorem amount_barOf_15 (c : Dev nD) (d : Fin 15) : (Rd (F := F) m).amount (barOf c 15) 0 d = 1 := rfl

/-- The owner's reading of its own barrier cell's payloads: duty `d` brings slot `d` of the device `15 - d` places on. -/
theorem payload_bar_owner (c : Dev nD) (d : Fin 15) : (Rd (F := F) m).payload (barCell c) 0 d = (iprop(∃ f, (slot d).view.loc (peer c (15 - d.val) : Thread nD τ) ↦[(slot d).view.set]{fullShare} f) : sProp 𝕄) := rfl

end Cert.KernelIdeal.RS

end
-- ==== Proof.Cut.lean ====
import proofs.«900470_g7700000000000471_dist_rs_then_ag_i_m512_n512_v7x_i16_f32_1_alg».proof.Proof.Ring
import Idealize.ShloMosaic.Lib.Pipeline.Value

/-! # Cutting the two scratch buffers into the pieces the protocol passes around, and joining them again

Pure separation-logic facts: the fifteen slots tile the receive scratch, the sixteen 32-row chunks tile the work
scratch, the other fifteen devices of the ring are the peers at distances 1 … 15, and a write through a view is
determined on the view's own elements by its payload alone. -/

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Which elements lie in which piece -/

/-- An element of the work scratch lies in chunk `p` exactly when its row is one of the 32 rows from `32 p`. -/
theorem mem_chunk_set (p : Dev nD) (idx : (cc0_scratch0 : Ref sig .tc).ty.Idx) :
    idx ∈ (chunk p).view.set ↔ (idx 0).val / 32 = p.val := by
  have h0 : (idx 0).val < 512 := (idx 0).isLt
  have h1 : (idx 1).val < 512 := (idx 1).isLt
  have hp : p.val < 16 := p.isLt
  rw [View.set_slice_whole, Rect.mem_set_unit, k0_off3_eq]
  constructor
  · intro h
    have a : 32 * p.val ≤ (idx 0).val := (h 0).1
    have b : (idx 0).val < 32 * p.val + 32 := (h 0).2
    omega
  · intro h
    refine Fin.forall_fin_two.mpr ⟨⟨?_, ?_⟩, ⟨Nat.zero_le _, ?_⟩⟩
    · show 32 * p.val ≤ (idx 0).val; omega
    · show (idx 0).val < 32 * p.val + 32; omega
    · show (idx 1).val < 0 + 512; omega

theorem slot_set_eq (j : Fin 15) : (slot j).view.set = (cRect j).set :=
  (View.set_reshape _ _).trans (View.set_slice_whole cc0_scratch1 (cRect j))

/-- An element of the receive scratch lies in slot `j` exactly when its leading coordinate is `j`. -/
theorem mem_slot_set (j : Fin 15) (idx : (cc0_scratch1 : Ref sig .tc).ty.Idx) :
    idx ∈ (slot j).view.set ↔ (idx 0).val = j.val := by
  have h0 : (idx 0).val < 15 := (idx 0).isLt
  have h1 : (idx 1).val < 32 := (idx 1).isLt
  have h2 : (idx 2).val < 512 := (idx 2).isLt
  rw [slot_set_eq, Rect.mem_set_unit]
  constructor
  · intro h
    have a : j.val ≤ (idx 0).val := (h 0).1
    have b : (idx 0).val < j.val + 1 := (h 0).2
    omega
  · intro h
    refine Fin.forall_fin_succ.mpr ⟨⟨?_, ?_⟩, Fin.forall_fin_two.mpr ⟨⟨Nat.zero_le _, ?_⟩, ⟨Nat.zero_le _, ?_⟩⟩⟩
    · show j.val ≤ (idx 0).val; omega
    · show (idx 0).val < j.val + 1; omega
    · show (idx 1).val < 0 + 32; omega
    · show (idx 2).val < 0 + 512; omega

theorem chunk_disjoint (p p' : Dev nD) (h : p ≠ p') : Disjoint (chunk p).view.set (chunk p').view.set :=
  Finset.disjoint_left.mpr fun idx h1 h2 =>
    h (Fin.ext (((mem_chunk_set p idx).mp h1).symm.trans ((mem_chunk_set p' idx).mp h2)))

theorem slot_disjoint (j j' : Fin 15) (h : j ≠ j') : Disjoint (slot j).view.set (slot j').view.set :=
  Finset.disjoint_left.mpr fun idx h1 h2 =>
    h (Fin.ext (((mem_slot_set j idx).mp h1).symm.trans ((mem_slot_set j' idx).mp h2)))

theorem chunk_of (idx : (cc0_scratch0 : Ref sig .tc).ty.Idx) : ∃ p : Dev nD, idx ∈ (chunk p).view.set := by
  have h0 : (idx 0).val < 512 := (idx 0).isLt
  have h16 : (idx 0).val / 32 < 16 := by omega
  exact ⟨⟨(idx 0).val / 32, h16⟩, (mem_chunk_set ⟨(idx 0).val / 32, h16⟩ idx).mpr rfl⟩

theorem chunk_cover : Finset.biUnion (β := (cc0_scratch0 : Ref sig .tc).ty.Idx) (Finset.univ : Finset (Dev nD)) (fun p => (chunk p).view.set) = Finset.univ :=
  Finset.eq_univ_iff_forall.mpr fun idx =>
    let ⟨p, hp⟩ := chunk_of idx
    Finset.mem_biUnion.mpr ⟨p, Finset.mem_univ p, hp⟩

theorem slot_cover : Finset.biUnion (β := (cc0_scratch1 : Ref sig .tc).ty.Idx) (Finset.univ : Finset (Fin 15)) (fun j => (slot j).view.set) = Finset.univ := by
  ext idx
  simp only [Finset.mem_biUnion, Finset.mem_univ, true_and, iff_true]
  have h0 : (idx 0).val < 15 := (idx 0).isLt
  exact ⟨⟨(idx 0).val, h0⟩, (mem_slot_set _ idx).mpr rfl⟩

/-! ## The two buffers as the separating conjunction of their pieces -/

/-- The sixteen 32-row chunks tile the work scratch. -/
theorem work_cut_eq (c : Dev nD) (q : PosShare TreeShare) (f : Buf (Elt F) ((c : Thread nD τ).loc cc0_scratch0)) :
    (((c : Thread nD τ).loc cc0_scratch0) ↦{q} f : sProp 𝕄)
      = bigSep Finset.univ (fun p : Dev nD => (chunk p).view.loc (c : Thread nD τ) ↦[(chunk p).view.set]{q} f) := by
  have h := pointsTo_biUnion (ℓ := (c : Thread nD τ).loc cc0_scratch0) (q := q) (f := f) (Val := Elt F) (Ix := Unit) (Name := ℕ) (U := UU) (Lvl := ℕ)
    (Finset.univ : Finset (Dev nD)) (fun p => (chunk p).view.set) (fun p _ p' _ hne => chunk_disjoint p p' hne)
  exact (congrArg (fun S : Finset (Idx ((c : Thread nD τ).loc cc0_scratch0)) => (((c : Thread nD τ).loc cc0_scratch0) ↦[S]{q} f : sProp 𝕄)) chunk_cover.symm).trans h

theorem work_cut (c : Dev nD) (q : PosShare TreeShare) (f : Buf (Elt F) ((c : Thread nD τ).loc cc0_scratch0)) :
    (((c : Thread nD τ).loc cc0_scratch0) ↦{q} f : sProp 𝕄)
      ⊣⊢ bigSep Finset.univ (fun p : Dev nD => (chunk p).view.loc (c : Thread nD τ) ↦[(chunk p).view.set]{q} f) :=
  ⟨Entails.of_eq (work_cut_eq c q f), Entails.of_eq (work_cut_eq c q f).symm⟩

/-- The fifteen slots tile the receive scratch. -/
theorem comm_cut_eq (c : Dev nD) (q : PosShare TreeShare) (f : Buf (Elt F) ((c : Thread nD τ).loc cc0_scratch1)) :
    (((c : Thread nD τ).loc cc0_scratch1) ↦{q} f : sProp 𝕄)
      = bigSep Finset.univ (fun j : Fin 15 => (slot j).view.loc (c : Thread nD τ) ↦[(slot j).view.set]{q} f) := by
  have h := pointsTo_biUnion (ℓ := (c : Thread nD τ).loc cc0_scratch1) (q := q) (f := f) (Val := Elt F) (Ix := Unit) (Name := ℕ) (U := UU) (Lvl := ℕ)
    (Finset.univ : Finset (Fin 15)) (fun j => (slot j).view.set) (fun j _ j' _ hne => slot_disjoint j j' hne)
  exact (congrArg (fun S : Finset (Idx ((c : Thread nD τ).loc cc0_scratch1)) => (((c : Thread nD τ).loc cc0_scratch1) ↦[S]{q} f : sProp 𝕄)) slot_cover.symm).trans h

theorem comm_cut (c : Dev nD) (f : Buf (Elt F) ((c : Thread nD τ).loc cc0_scratch1)) :
    (((c : Thread nD τ).loc cc0_scratch1) ↦{fullShare} f : sProp 𝕄)
      ⊣⊢ bigSep Finset.univ (fun j : Fin 15 => (slot j).view.loc (c : Thread nD τ) ↦[(slot j).view.set]{fullShare} f) :=
  ⟨Entails.of_eq (comm_cut_eq c fullShare f), Entails.of_eq (comm_cut_eq c fullShare f).symm⟩

/-- Fifteen slots at contents of their own join to the whole receive scratch at some contents. -/
theorem comm_join (c : Dev nD) (g : Fin 15 → Buf (Elt F) ((c : Thread nD τ).loc cc0_scratch1)) :
    bigSep Finset.univ (fun j : Fin 15 => (slot j).view.loc (c : Thread nD τ) ↦[(slot j).view.set]{fullShare} g j)
      ⊢ (iprop(∃ f, ((c : Thread nD τ).loc cc0_scratch1) ↦{fullShare} f) : sProp 𝕄) := by
  have h := pointsTo_biUnion_join (ℓ := (c : Thread nD τ).loc cc0_scratch1) (q := fullShare) (Val := Elt F) (Ix := Unit) (Name := ℕ) (U := UU) (Lvl := ℕ)
    (Finset.univ : Finset (Fin 15)) (fun j => (slot j).view.set) g (g 0) (fun j _ j' _ hne => slot_disjoint j j' hne)
  have e : ∀ f : Buf (Elt F) ((c : Thread nD τ).loc cc0_scratch1),
      (((c : Thread nD τ).loc cc0_scratch1) ↦[Finset.biUnion (β := Idx ((c : Thread nD τ).loc cc0_scratch1)) Finset.univ fun j : Fin 15 => (slot j).view.set]{fullShare} f : sProp 𝕄)
      ⊢ (((c : Thread nD τ).loc cc0_scratch1) ↦{fullShare} f) := fun f => Entails.of_eq
    (congrArg (fun S : Finset (Idx ((c : Thread nD τ).loc cc0_scratch1)) => (((c : Thread nD τ).loc cc0_scratch1) ↦[S]{fullShare} f : sProp 𝕄)) slot_cover)
  refine h.trans ?_
  iintro ⟨%f, -, H⟩
  iexists f
  iapply (e f)
  iexact H

/-! ## The ring seen from one device -/

theorem peer_ne_self (c : Dev nD) {o : ℕ} (h1 : 1 ≤ o) (h2 : o < 16) : peer c o ≠ c := by
  intro h
  have hv : (c.val + o) % 16 = c.val := congrArg Fin.val h
  have h16 : c.val < 16 := c.isLt
  omega

/-- The sixteen devices are `c` and its peers at fifteen different distances between 1 and 15. -/
theorem ring_split_of (c : Dev nD) (g : Fin 15 → ℕ) (hg : ∀ j, 1 ≤ g j ∧ g j < 16) (hinj : Function.Injective g)
    (Φ : Dev nD → sProp 𝕄) :
    bigSep Finset.univ Φ = iprop(Φ c ∗ bigSep Finset.univ (fun j : Fin 15 => Φ (peer c (g j)))) := by
  classical
  let e : Fin 15 ↪ Dev nD := ⟨fun j => peer c (g j), fun a b h => hinj (peer_inj c (hg a).2 (hg b).2 h)⟩
  have hm : (Finset.univ : Finset (Fin 15)).map e = Finset.univ.erase c := by
    apply Finset.eq_of_subset_of_card_le
    · intro p hp
      obtain ⟨j, -, rfl⟩ := Finset.mem_map.mp hp
      exact Finset.mem_erase.mpr ⟨peer_ne_self c (hg j).1 (hg j).2, Finset.mem_univ _⟩
    · rw [Finset.card_map, Finset.card_erase_of_mem (Finset.mem_univ c), Finset.card_univ, Finset.card_univ,
        Fintype.card_fin, Fintype.card_fin]
      decide
  rw [bigSep_univ_split c, ← hm, bigSep_map]
  rfl

/-- The other fifteen devices are `peer c (15 - j)`, `j : Fin 15`. -/
theorem ring_split (c : Dev nD) (Φ : Dev nD → sProp 𝕄) :
    bigSep Finset.univ Φ = iprop(Φ c ∗ bigSep Finset.univ (fun j : Fin 15 => Φ (peer c (15 - j.val)))) :=
  ring_split_of c (fun j => 15 - j.val) (fun j => by have := j.isLt; constructor <;> omega)
    (fun a b h => by have := a.isLt; have := b.isLt; exact Fin.ext (by simp only at h; omega)) Φ

/-- The other fifteen devices are `peer c (j + 1)`, `j : Fin 15`. -/
theorem ring_split' (c : Dev nD) (Φ : Dev nD → sProp 𝕄) :
    bigSep Finset.univ Φ = iprop(Φ c ∗ bigSep Finset.univ (fun j : Fin 15 => Φ (peer c (j.val + 1)))) :=
  ring_split_of c (fun j => j.val + 1) (fun j => by have := j.isLt; constructor <;> omega)
    (fun a b h => by exact Fin.ext (by simp only at h; omega)) Φ

/-! ## A write through a view, on the view's own elements -/

/-- On the view's own elements a full write through it is its payload, whatever it is written over. -/
theorem view_write_congr_on_set {κ : Kind} {sp : Space} {s : Shape} {e : EltTy} (v : View sig κ sp s e)
    (fd fd' : v.ty.Contents (Elt F)) (x : s.Idx → Elt F e) :
    ∀ i ∈ v.set, v.write (Elt F) fd x Finset.univ i = v.write (Elt F) fd' x Finset.univ i := by
  intro i hi
  obtain ⟨y, rfl⟩ := View.exists_emb_of_mem_set v hi
  rw [View.write_emb_of_mem _ _ (Finset.mem_univ y), View.write_emb_of_mem _ _ (Finset.mem_univ y)]

theorem pointsTo_view_write_congr (t : Thread nD τ) {sp : Space} {s : Shape} {e : EltTy} (v : View sig t.2.kind sp s e)
    (q : PosShare TreeShare) (fd fd' : v.ty.Contents (Elt F)) (x : s.Idx → Elt F e) :
    (v.loc t ↦[v.set]{q} v.write (Elt F) fd x Finset.univ : sProp 𝕄)
      = (v.loc t ↦[v.set]{q} v.write (Elt F) fd' x Finset.univ) :=
  pointsTo_congr (view_write_congr_on_set v fd fd' x)

/-! ## The work scratch after the sum is stored, and after the all-gather -/

variable (m : (ℓ : Loc nD τ sig) → Buf (Elt F) ℓ)

/-- The store of the sum goes through chunk `c`'s own view: the two rectangles are the same. -/
theorem W'_eq (c : Dev nD) : W' m c = (chunk c).view.write (Elt F) (W m c) (accOf m c) Finset.univ := by
  have key : ∀ (off : Fin 2 → Nat) (h : ∀ a, off a + S32x512.size a ≤ S512x512.size a), off = k0_off3 c →
      (wM.access (Rect.unit (s := S512x512) off S32x512.size h)).write (Elt F) (W m c) (accOf m c) Finset.univ
        = (chunk c).view.write (Elt F) (W m c) (accOf m c) Finset.univ := by
    intro off h e; subst e; rfl
  exact key _ _ ((k0_off2_eq c).trans (k0_off3_eq c).symm)

theorem read_chunk_W' (c : Dev nD) : (chunk c).view.read (Elt F) (W' m c) = accOf m c := by
  rw [W'_eq]; exact View.read_write_univ _ _

/-- The own chunk after the store, stated canonically. -/
theorem chunk_own (c : Dev nD) :
    ((chunk c).view.loc (c : Thread nD τ) ↦[(chunk c).view.set]{fullShare} W' m c : sProp 𝕄)
      = ((chunk c).view.loc (c : Thread nD τ) ↦[(chunk c).view.set]{fullShare} chunkC m c) := by
  rw [W'_eq]; exact pointsTo_view_write_congr (c : Thread nD τ) (chunk c).view fullShare (W m c) junkW (accOf m c)

/-- On chunk `p`'s elements the final contents are chunk `p`'s canonical contents. -/
theorem workFinal_on_chunk (p : Dev nD) (idx : (cc0_scratch0 : Ref sig .tc).ty.Idx) (h : idx ∈ (chunk p).view.set) :
    chunkC m p idx = workFinal m idx := by
  have hp := (mem_chunk_set p idx).mp h
  have h0 : (idx 0).val < 512 := (idx 0).isLt
  exact (congrArg (fun p' : Dev nD => chunkC m p' idx)
    (Fin.ext hp : (⟨(idx 0).val / 32, by show _ < 16; omega⟩ : Dev nD) = p)).symm

/-- The sixteen chunks, each at its device's sum, are the work scratch at its final contents. -/
theorem work_final_join (c : Dev nD) :
    bigSep Finset.univ (fun p : Dev nD => (chunk p).view.loc (c : Thread nD τ) ↦[(chunk p).view.set]{fullShare} chunkC m p)
      ⊢ (((c : Thread nD τ).loc cc0_scratch0) ↦{fullShare} workFinal m : sProp 𝕄) := by
  rw [work_cut_eq c fullShare (workFinal m)]
  exact Entails.of_eq (bigSep_congr fun p _ => pointsTo_congr (workFinal_on_chunk m p))

/-! ## Loads and stores through the whole buffers at a piece's rectangle -/

/-- A load of slot `j` through the whole receive scratch reads the slot's own elements. -/
theorem slot_load_set (j : Fin 15) : cM.view.setOn (cRect j).toLoadRect.set = (slot j).view.set := by
  rw [slot_set_eq]
  exact Finset.map_refl

theorem slot_load_subset (j : Fin 15) : cM.view.setOn (cRect j).toLoadRect.set ⊆ (slot j).view.set :=
  (slot_load_set j).subset

/-- The rectangle the body loads and stores the own chunk through is chunk `c`'s. -/
theorem rect_off2_set (c : Dev nD) :
    (Rect.unit (s := S512x512) (k0_off2 c) S32x512.size (k0_off2_inb c)).set = (chunk c).view.set := by
  have key : ∀ (off : Fin 2 → Nat) (h : ∀ a, off a + S32x512.size a ≤ S512x512.size a), off = k0_off3 c →
      (Rect.unit (s := S512x512) off S32x512.size h).set = (chunk c).view.set := by
    intro off h e; subst e; exact (View.set_slice_whole cc0_scratch0 _).symm
  exact key _ _ ((k0_off2_eq c).trans (k0_off3_eq c).symm)

theorem chunk_load_set (c : Dev nD) :
    wM.view.setOn (Rect.unit (s := S512x512) (k0_off2 c) S32x512.size (k0_off2_inb c)).toLoadRect.set = (chunk c).view.set := by
  rw [← rect_off2_set]
  exact Finset.map_refl

theorem chunk_load_subset (c : Dev nD) :
    wM.view.setOn (Rect.unit (s := S512x512) (k0_off2 c) S32x512.size (k0_off2_inb c)).toLoadRect.set ⊆ (chunk c).view.set :=
  (chunk_load_set c).subset

theorem chunk_store_set (c : Dev nD) :
    (wM.access (Rect.unit (s := S512x512) (k0_off2 c) S32x512.size (k0_off2_inb c))).setOn Finset.univ = (chunk c).view.set := by
  rw [View.setOn_univ, ← rect_off2_set]
  exact View.set_slice_whole cc0_scratch0 _

theorem chunk_store_subset (c : Dev nD) :
    (wM.access (Rect.unit (s := S512x512) (k0_off2 c) S32x512.size (k0_off2_inb c))).setOn Finset.univ ⊆ (chunk c).view.set :=
  (chunk_store_set c).subset

/-- A full store through that rectangle is a full write through chunk `c`'s view, at every element. -/
theorem chunk_store_write (c : Dev nD) (f : (cc0_scratch0 : Ref sig .tc).ty.Contents (Elt F)) (w : FVec F S32x512 .bf16) :
    (wM.access (Rect.unit (s := S512x512) (k0_off2 c) S32x512.size (k0_off2_inb c))).write (Elt F) f w Finset.univ
      = (chunk c).view.write (Elt F) f w Finset.univ := by
  have key : ∀ (off : Fin 2 → Nat) (h : ∀ a, off a + S32x512.size a ≤ S512x512.size a), off = k0_off3 c →
      (wM.access (Rect.unit (s := S512x512) off S32x512.size h)).write (Elt F) f w Finset.univ
        = (chunk c).view.write (Elt F) f w Finset.univ := by
    intro off h e; subst e; rfl
  exact key _ _ ((k0_off2_eq c).trans (k0_off3_eq c).symm)

theorem chunk_store_eq (c : Dev nD) (f : (cc0_scratch0 : Ref sig .tc).ty.Contents (Elt F)) (w : FVec F S32x512 .bf16) :
    ∀ i ∈ (chunk c).view.set,
      (wM.access (Rect.unit (s := S512x512) (k0_off2 c) S32x512.size (k0_off2_inb c))).write (Elt F) f w Finset.univ i
        = (chunk c).view.write (Elt F) f w Finset.univ i :=
  fun i _ => congrFun (chunk_store_write c f w) i

/-- A piece's location is its whole buffer's. -/
theorem slot_loc (c : Dev nD) (j : Fin 15) : (slot j).view.loc (c : Thread nD τ) = cM.view.loc (c : Thread nD τ) := rfl
theorem chunk_loc (c p : Dev nD) : (chunk p).view.loc (c : Thread nD τ) = wM.view.loc (c : Thread nD τ) := rfl

/-- info: 'Cert.KernelIdeal.RS.work_cut_eq' depends on axioms: [propext, Classical.choice, Quot.sound] -/
#guard_msgs in #print axioms work_cut_eq
/-- info: 'Cert.KernelIdeal.RS.comm_join' depends on axioms: [propext, Classical.choice, Quot.sound] -/
#guard_msgs in #print axioms comm_join
/-- info: 'Cert.KernelIdeal.RS.ring_split' depends on axioms: [propext, Classical.choice, Quot.sound] -/
#guard_msgs in #print axioms ring_split
/-- info: 'Cert.KernelIdeal.RS.work_final_join' depends on axioms: [propext, Classical.choice, Quot.sound] -/
#guard_msgs in #print axioms work_final_join
/-- info: 'Cert.KernelIdeal.RS.chunk_own' depends on axioms: [propext, Classical.choice, Quot.sound] -/
#guard_msgs in #print axioms chunk_own

end Cert.KernelIdeal.RS

end
-- ==== Proof.Glue.lean ====
import proofs.«900470_g7700000000000471_dist_rs_then_ag_i_m512_n512_v7x_i16_f32_1_alg».proof.Proof.Cut
import proofs.«900470_g7700000000000471_dist_rs_then_ag_i_m512_n512_v7x_i16_f32_1_alg».proof.Proof.BodyDefs

/-! # The cuts of the two scratch buffers, written out piece by piece

Each statement is one entailment between a whole buffer (or a whole chunk) and the separating conjunction of its
fifteen or sixteen pieces, the pieces in the order of their numbers. -/

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A conjunction over the sixteen devices, written out from device `c`: `c` itself, then its peers at distances 15, 14, …, 1. -/
theorem ring_chain (c : Dev nD) (Φ : Dev nD → sProp 𝕄) :
    bigSep Finset.univ Φ = iprop(Φ c
      ∗ Φ (peer c (15 - (0 : Fin 15).val))
      ∗ Φ (peer c (15 - (1 : Fin 15).val))
      ∗ Φ (peer c (15 - (2 : Fin 15).val))
      ∗ Φ (peer c (15 - (3 : Fin 15).val))
      ∗ Φ (peer c (15 - (4 : Fin 15).val))
      ∗ Φ (peer c (15 - (5 : Fin 15).val))
      ∗ Φ (peer c (15 - (6 : Fin 15).val))
      ∗ Φ (peer c (15 - (7 : Fin 15).val))
      ∗ Φ (peer c (15 - (8 : Fin 15).val))
      ∗ Φ (peer c (15 - (9 : Fin 15).val))
      ∗ Φ (peer c (15 - (10 : Fin 15).val))
      ∗ Φ (peer c (15 - (11 : Fin 15).val))
      ∗ Φ (peer c (15 - (12 : Fin 15).val))
      ∗ Φ (peer c (15 - (13 : Fin 15).val))
      ∗ Φ (peer c (15 - (14 : Fin 15).val))) := by
  rw [ring_split c Φ, bigSep_fin15]

/-- The receive scratch as its fifteen slots. -/
theorem comm_to_slots (c : Dev nD) (f : Buf (Elt F) ((c : Thread nD τ).loc cc0_scratch1)) :
    (((c : Thread nD τ).loc cc0_scratch1) ↦{fullShare} f : sProp 𝕄) ⊢ iprop(
      ((slot (0 : Fin 15)).view.loc (c : Thread nD τ) ↦[(slot (0 : Fin 15)).view.set]{fullShare} f)
      ∗ ((slot (1 : Fin 15)).view.loc (c : Thread nD τ) ↦[(slot (1 : Fin 15)).view.set]{fullShare} f)
      ∗ ((slot (2 : Fin 15)).view.loc (c : Thread nD τ) ↦[(slot (2 : Fin 15)).view.set]{fullShare} f)
      ∗ ((slot (3 : Fin 15)).view.loc (c : Thread nD τ) ↦[(slot (3 : Fin 15)).view.set]{fullShare} f)
      ∗ ((slot (4 : Fin 15)).view.loc (c : Thread nD τ) ↦[(slot (4 : Fin 15)).view.set]{fullShare} f)
      ∗ ((slot (5 : Fin 15)).view.loc (c : Thread nD τ) ↦[(slot (5 : Fin 15)).view.set]{fullShare} f)
      ∗ ((slot (6 : Fin 15)).view.loc (c : Thread nD τ) ↦[(slot (6 : Fin 15)).view.set]{fullShare} f)
      ∗ ((slot (7 : Fin 15)).view.loc (c : Thread nD τ) ↦[(slot (7 : Fin 15)).view.set]{fullShare} f)
      ∗ ((slot (8 : Fin 15)).view.loc (c : Thread nD τ) ↦[(slot (8 : Fin 15)).view.set]{fullShare} f)
      ∗ ((slot (9 : Fin 15)).view.loc (c : Thread nD τ) ↦[(slot (9 : Fin 15)).view.set]{fullShare} f)
      ∗ ((slot (10 : Fin 15)).view.loc (c : Thread nD τ) ↦[(slot (10 : Fin 15)).view.set]{fullShare} f)
      ∗ ((slot (11 : Fin 15)).view.loc (c : Thread nD τ) ↦[(slot (11 : Fin 15)).view.set]{fullShare} f)
      ∗ ((slot (12 : Fin 15)).view.loc (c : Thread nD τ) ↦[(slot (12 : Fin 15)).view.set]{fullShare} f)
      ∗ ((slot (13 : Fin 15)).view.loc (c : Thread nD τ) ↦[(slot (13 : Fin 15)).view.set]{fullShare} f)
      ∗ ((slot (14 : Fin 15)).view.loc (c : Thread nD τ) ↦[(slot (14 : Fin 15)).view.set]{fullShare} f)) :=
  Entails.of_eq ((comm_cut_eq c fullShare f).trans (bigSep_fin15 _))

/-- Fifteen slots, each at contents of its own, as the receive scratch at some contents. -/
theorem slots_to_comm (c : Dev nD) (g : Fin 15 → Buf (Elt F) ((c : Thread nD τ).loc cc0_scratch1)) :
    (iprop(
      ((slot (0 : Fin 15)).view.loc (c : Thread nD τ) ↦[(slot (0 : Fin 15)).view.set]{fullShare} g (0 : Fin 15))
      ∗ ((slot (1 : Fin 15)).view.loc (c : Thread nD τ) ↦[(slot (1 : Fin 15)).view.set]{fullShare} g (1 : Fin 15))
      ∗ ((slot (2 : Fin 15)).view.loc (c : Thread nD τ) ↦[(slot (2 : Fin 15)).view.set]{fullShare} g (2 : Fin 15))
      ∗ ((slot (3 : Fin 15)).view.loc (c : Thread nD τ) ↦[(slot (3 : Fin 15)).view.set]{fullShare} g (3 : Fin 15))
      ∗ ((slot (4 : Fin 15)).view.loc (c : Thread nD τ) ↦[(slot (4 : Fin 15)).view.set]{fullShare} g (4 : Fin 15))
      ∗ ((slot (5 : Fin 15)).view.loc (c : Thread nD τ) ↦[(slot (5 : Fin 15)).view.set]{fullShare} g (5 : Fin 15))
      ∗ ((slot (6 : Fin 15)).view.loc (c : Thread nD τ) ↦[(slot (6 : Fin 15)).view.set]{fullShare} g (6 : Fin 15))
      ∗ ((slot (7 : Fin 15)).view.loc (c : Thread nD τ) ↦[(slot (7 : Fin 15)).view.set]{fullShare} g (7 : Fin 15))
      ∗ ((slot (8 : Fin 15)).view.loc (c : Thread nD τ) ↦[(slot (8 : Fin 15)).view.set]{fullShare} g (8 : Fin 15))
      ∗ ((slot (9 : Fin 15)).view.loc (c : Thread nD τ) ↦[(slot (9 : Fin 15)).view.set]{fullShare} g (9 : Fin 15))
      ∗ ((slot (10 : Fin 15)).view.loc (c : Thread nD τ) ↦[(slot (10 : Fin 15)).view.set]{fullShare} g (10 : Fin 15))
      ∗ ((slot (11 : Fin 15)).view.loc (c : Thread nD τ) ↦[(slot (11 : Fin 15)).view.set]{fullShare} g (11 : Fin 15))
      ∗ ((slot (12 : Fin 15)).view.loc (c : Thread nD τ) ↦[(slot (12 : Fin 15)).view.set]{fullShare} g (12 : Fin 15))
      ∗ ((slot (13 : Fin 15)).view.loc (c : Thread nD τ) ↦[(slot (13 : Fin 15)).view.set]{fullShare} g (13 : Fin 15))
      ∗ ((slot (14 : Fin 15)).view.loc (c : Thread nD τ) ↦[(slot (14 : Fin 15)).view.set]{fullShare} g (14 : Fin 15))) : sProp 𝕄)
      ⊢ iprop(∃ f, ((c : Thread nD τ).loc cc0_scratch1) ↦{fullShare} f) :=
  (Entails.of_eq (bigSep_fin15 (fun j : Fin 15 => ((slot j).view.loc (c : Thread nD τ) ↦[(slot j).view.set]{fullShare} g j : sProp 𝕄))).symm).trans
    (comm_join c g)

/-- The work scratch as the device's own chunk and the fifteen others', in the order their landings are awaited. -/
theorem work_to_chunks (c : Dev nD) (f : Buf (Elt F) ((c : Thread nD τ).loc cc0_scratch0)) :
    (((c : Thread nD τ).loc cc0_scratch0) ↦{fullShare} f : sProp 𝕄) ⊢ iprop(
      ((chunk c).view.loc (c : Thread nD τ) ↦[(chunk c).view.set]{fullShare} f)
      ∗ ((chunk (peer c (15 - (0 : Fin 15).val))).view.loc (c : Thread nD τ) ↦[(chunk (peer c (15 - (0 : Fin 15).val))).view.set]{fullShare} f)
      ∗ ((chunk (peer c (15 - (1 : Fin 15).val))).view.loc (c : Thread nD τ) ↦[(chunk (peer c (15 - (1 : Fin 15).val))).view.set]{fullShare} f)
      ∗ ((chunk (peer c (15 - (2 : Fin 15).val))).view.loc (c : Thread nD τ) ↦[(chunk (peer c (15 - (2 : Fin 15).val))).view.set]{fullShare} f)
      ∗ ((chunk (peer c (15 - (3 : Fin 15).val))).view.loc (c : Thread nD τ) ↦[(chunk (peer c (15 - (3 : Fin 15).val))).view.set]{fullShare} f)
      ∗ ((chunk (peer c (15 - (4 : Fin 15).val))).view.loc (c : Thread nD τ) ↦[(chunk (peer c (15 - (4 : Fin 15).val))).view.set]{fullShare} f)
      ∗ ((chunk (peer c (15 - (5 : Fin 15).val))).view.loc (c : Thread nD τ) ↦[(chunk (peer c (15 - (5 : Fin 15).val))).view.set]{fullShare} f)
      ∗ ((chunk (peer c (15 - (6 : Fin 15).val))).view.loc (c : Thread nD τ) ↦[(chunk (peer c (15 - (6 : Fin 15).val))).view.set]{fullShare} f)
      ∗ ((chunk (peer c (15 - (7 : Fin 15).val))).view.loc (c : Thread nD τ) ↦[(chunk (peer c (15 - (7 : Fin 15).val))).view.set]{fullShare} f)
      ∗ ((chunk (peer c (15 - (8 : Fin 15).val))).view.loc (c : Thread nD τ) ↦[(chunk (peer c (15 - (8 : Fin 15).val))).view.set]{fullShare} f)
      ∗ ((chunk (peer c (15 - (9 : Fin 15).val))).view.loc (c : Thread nD τ) ↦[(chunk (peer c (15 - (9 : Fin 15).val))).view.set]{fullShare} f)
      ∗ ((chunk (peer c (15 - (10 : Fin 15).val))).view.loc (c : Thread nD τ) ↦[(chunk (peer c (15 - (10 : Fin 15).val))).view.set]{fullShare} f)
      ∗ ((chunk (peer c (15 - (11 : Fin 15).val))).view.loc (c : Thread nD τ) ↦[(chunk (peer c (15 - (11 : Fin 15).val))).view.set]{fullShare} f)
      ∗ ((chunk (peer c (15 - (12 : Fin 15).val))).view.loc (c : Thread nD τ) ↦[(chunk (peer c (15 - (12 : Fin 15).val))).view.set]{fullShare} f)
      ∗ ((chunk (peer c (15 - (13 : Fin 15).val))).view.loc (c : Thread nD τ) ↦[(chunk (peer c (15 - (13 : Fin 15).val))).view.set]{fullShare} f)
      ∗ ((chunk (peer c (15 - (14 : Fin 15).val))).view.loc (c : Thread nD τ) ↦[(chunk (peer c (15 - (14 : Fin 15).val))).view.set]{fullShare} f)) :=
  Entails.of_eq ((work_cut_eq c fullShare f).trans
    (ring_chain c (fun p : Dev nD => ((chunk p).view.loc (c : Thread nD τ) ↦[(chunk p).view.set]{fullShare} f : sProp 𝕄))))

variable (m : (ℓ : Loc nD τ sig) → Buf (Elt F) ℓ)

/-- The own chunk after the store and the fifteen landed chunks are the work scratch at its final contents. -/
theorem chunks_to_work (c : Dev nD) :
    (iprop(
      ((chunk c).view.loc (c : Thread nD τ) ↦[(chunk c).view.set]{fullShare} W' m c)
      ∗ ((chunk (peer c (15 - (0 : Fin 15).val))).view.loc (c : Thread nD τ) ↦[(chunk (peer c (15 - (0 : Fin 15).val))).view.set]{fullShare} chunkC m (peer c (15 - (0 : Fin 15).val)))
      ∗ ((chunk (peer c (15 - (1 : Fin 15).val))).view.loc (c : Thread nD τ) ↦[(chunk (peer c (15 - (1 : Fin 15).val))).view.set]{fullShare} chunkC m (peer c (15 - (1 : Fin 15).val)))
      ∗ ((chunk (peer c (15 - (2 : Fin 15).val))).view.loc (c : Thread nD τ) ↦[(chunk (peer c (15 - (2 : Fin 15).val))).view.set]{fullShare} chunkC m (peer c (15 - (2 : Fin 15).val)))
      ∗ ((chunk (peer c (15 - (3 : Fin 15).val))).view.loc (c : Thread nD τ) ↦[(chunk (peer c (15 - (3 : Fin 15).val))).view.set]{fullShare} chunkC m (peer c (15 - (3 : Fin 15).val)))
      ∗ ((chunk (peer c (15 - (4 : Fin 15).val))).view.loc (c : Thread nD τ) ↦[(chunk (peer c (15 - (4 : Fin 15).val))).view.set]{fullShare} chunkC m (peer c (15 - (4 : Fin 15).val)))
      ∗ ((chunk (peer c (15 - (5 : Fin 15).val))).view.loc (c : Thread nD τ) ↦[(chunk (peer c (15 - (5 : Fin 15).val))).view.set]{fullShare} chunkC m (peer c (15 - (5 : Fin 15).val)))
      ∗ ((chunk (peer c (15 - (6 : Fin 15).val))).view.loc (c : Thread nD τ) ↦[(chunk (peer c (15 - (6 : Fin 15).val))).view.set]{fullShare} chunkC m (peer c (15 - (6 : Fin 15).val)))
      ∗ ((chunk (peer c (15 - (7 : Fin 15).val))).view.loc (c : Thread nD τ) ↦[(chunk (peer c (15 - (7 : Fin 15).val))).view.set]{fullShare} chunkC m (peer c (15 - (7 : Fin 15).val)))
      ∗ ((chunk (peer c (15 - (8 : Fin 15).val))).view.loc (c : Thread nD τ) ↦[(chunk (peer c (15 - (8 : Fin 15).val))).view.set]{fullShare} chunkC m (peer c (15 - (8 : Fin 15).val)))
      ∗ ((chunk (peer c (15 - (9 : Fin 15).val))).view.loc (c : Thread nD τ) ↦[(chunk (peer c (15 - (9 : Fin 15).val))).view.set]{fullShare} chunkC m (peer c (15 - (9 : Fin 15).val)))
      ∗ ((chunk (peer c (15 - (10 : Fin 15).val))).view.loc (c : Thread nD τ) ↦[(chunk (peer c (15 - (10 : Fin 15).val))).view.set]{fullShare} chunkC m (peer c (15 - (10 : Fin 15).val)))
      ∗ ((chunk (peer c (15 - (11 : Fin 15).val))).view.loc (c : Thread nD τ) ↦[(chunk (peer c (15 - (11 : Fin 15).val))).view.set]{fullShare} chunkC m (peer c (15 - (11 : Fin 15).val)))
      ∗ ((chunk (peer c (15 - (12 : Fin 15).val))).view.loc (c : Thread nD τ) ↦[(chunk (peer c (15 - (12 : Fin 15).val))).view.set]{fullShare} chunkC m (peer c (15 - (12 : Fin 15).val)))
      ∗ ((chunk (peer c (15 - (13 : Fin 15).val))).view.loc (c : Thread nD τ) ↦[(chunk (peer c (15 - (13 : Fin 15).val))).view.set]{fullShare} chunkC m (peer c (15 - (13 : Fin 15).val)))
      ∗ ((chunk (peer c (15 - (14 : Fin 15).val))).view.loc (c : Thread nD τ) ↦[(chunk (peer c (15 - (14 : Fin 15).val))).view.set]{fullShare} chunkC m (peer c (15 - (14 : Fin 15).val)))) : sProp 𝕄)
      ⊢ (((c : Thread nD τ).loc cc0_scratch0) ↦{fullShare} workFinal m) := by
  rw [chunk_own m c]
  exact (Entails.of_eq (ring_chain c
    (fun p : Dev nD => ((chunk p).view.loc (c : Thread nD τ) ↦[(chunk p).view.set]{fullShare} chunkC m p : sProp 𝕄))).symm).trans
    (work_final_join m c)

/-- The own chunk split into the share the device keeps and one read share per copy of the all-gather. -/
theorem own_to_tokens (c : Dev nD) (f : Buf (Elt F) ((c : Thread nD τ).loc cc0_scratch0)) :
    ((chunk c).view.loc (c : Thread nD τ) ↦[(chunk c).view.set]{fullShare} f : sProp 𝕄) ⊢ iprop(
      ((chunk c).view.loc (c : Thread nD τ) ↦[(chunk c).view.set]{Transfers.shareDrop fullShare 15} f)
      ∗ ((chunk c).view.loc (c : Thread nD τ) ↦[(chunk c).view.set]{Transfers.shareTok fullShare 15 (0 : Fin 15)} f)
      ∗ ((chunk c).view.loc (c : Thread nD τ) ↦[(chunk c).view.set]{Transfers.shareTok fullShare 15 (1 : Fin 15)} f)
      ∗ ((chunk c).view.loc (c : Thread nD τ) ↦[(chunk c).view.set]{Transfers.shareTok fullShare 15 (2 : Fin 15)} f)
      ∗ ((chunk c).view.loc (c : Thread nD τ) ↦[(chunk c).view.set]{Transfers.shareTok fullShare 15 (3 : Fin 15)} f)
      ∗ ((chunk c).view.loc (c : Thread nD τ) ↦[(chunk c).view.set]{Transfers.shareTok fullShare 15 (4 : Fin 15)} f)
      ∗ ((chunk c).view.loc (c : Thread nD τ) ↦[(chunk c).view.set]{Transfers.shareTok fullShare 15 (5 : Fin 15)} f)
      ∗ ((chunk c).view.loc (c : Thread nD τ) ↦[(chunk c).view.set]{Transfers.shareTok fullShare 15 (6 : Fin 15)} f)
      ∗ ((chunk c).view.loc (c : Thread nD τ) ↦[(chunk c).view.set]{Transfers.shareTok fullShare 15 (7 : Fin 15)} f)
      ∗ ((chunk c).view.loc (c : Thread nD τ) ↦[(chunk c).view.set]{Transfers.shareTok fullShare 15 (8 : Fin 15)} f)
      ∗ ((chunk c).view.loc (c : Thread nD τ) ↦[(chunk c).view.set]{Transfers.shareTok fullShare 15 (9 : Fin 15)} f)
      ∗ ((chunk c).view.loc (c : Thread nD τ) ↦[(chunk c).view.set]{Transfers.shareTok fullShare 15 (10 : Fin 15)} f)
      ∗ ((chunk c).view.loc (c : Thread nD τ) ↦[(chunk c).view.set]{Transfers.shareTok fullShare 15 (11 : Fin 15)} f)
      ∗ ((chunk c).view.loc (c : Thread nD τ) ↦[(chunk c).view.set]{Transfers.shareTok fullShare 15 (12 : Fin 15)} f)
      ∗ ((chunk c).view.loc (c : Thread nD τ) ↦[(chunk c).view.set]{Transfers.shareTok fullShare 15 (13 : Fin 15)} f)
      ∗ ((chunk c).view.loc (c : Thread nD τ) ↦[(chunk c).view.set]{Transfers.shareTok fullShare 15 (14 : Fin 15)} f)) := by
  refine (Transfers.pointsTo_toks_split fullShare 15).trans (Entails.of_eq ?_)
  rw [bigSep_fin15]

/-- The share kept and the fifteen read shares are the own chunk again. -/
theorem tokens_to_own (c : Dev nD) (f : Buf (Elt F) ((c : Thread nD τ).loc cc0_scratch0)) :
    (iprop(
      ((chunk c).view.loc (c : Thread nD τ) ↦[(chunk c).view.set]{Transfers.shareDrop fullShare 15} f)
      ∗ ((chunk c).view.loc (c : Thread nD τ) ↦[(chunk c).view.set]{Transfers.shareTok fullShare 15 (0 : Fin 15)} f)
      ∗ ((chunk c).view.loc (c : Thread nD τ) ↦[(chunk c).view.set]{Transfers.shareTok fullShare 15 (1 : Fin 15)} f)
      ∗ ((chunk c).view.loc (c : Thread nD τ) ↦[(chunk c).view.set]{Transfers.shareTok fullShare 15 (2 : Fin 15)} f)
      ∗ ((chunk c).view.loc (c : Thread nD τ) ↦[(chunk c).view.set]{Transfers.shareTok fullShare 15 (3 : Fin 15)} f)
      ∗ ((chunk c).view.loc (c : Thread nD τ) ↦[(chunk c).view.set]{Transfers.shareTok fullShare 15 (4 : Fin 15)} f)
      ∗ ((chunk c).view.loc (c : Thread nD τ) ↦[(chunk c).view.set]{Transfers.shareTok fullShare 15 (5 : Fin 15)} f)
      ∗ ((chunk c).view.loc (c : Thread nD τ) ↦[(chunk c).view.set]{Transfers.shareTok fullShare 15 (6 : Fin 15)} f)
      ∗ ((chunk c).view.loc (c : Thread nD τ) ↦[(chunk c).view.set]{Transfers.shareTok fullShare 15 (7 : Fin 15)} f)
      ∗ ((chunk c).view.loc (c : Thread nD τ) ↦[(chunk c).view.set]{Transfers.shareTok fullShare 15 (8 : Fin 15)} f)
      ∗ ((chunk c).view.loc (c : Thread nD τ) ↦[(chunk c).view.set]{Transfers.shareTok fullShare 15 (9 : Fin 15)} f)
      ∗ ((chunk c).view.loc (c : Thread nD τ) ↦[(chunk c).view.set]{Transfers.shareTok fullShare 15 (10 : Fin 15)} f)
      ∗ ((chunk c).view.loc (c : Thread nD τ) ↦[(chunk c).view.set]{Transfers.shareTok fullShare 15 (11 : Fin 15)} f)
      ∗ ((chunk c).view.loc (c : Thread nD τ) ↦[(chunk c).view.set]{Transfers.shareTok fullShare 15 (12 : Fin 15)} f)
      ∗ ((chunk c).view.loc (c : Thread nD τ) ↦[(chunk c).view.set]{Transfers.shareTok fullShare 15 (13 : Fin 15)} f)
      ∗ ((chunk c).view.loc (c : Thread nD τ) ↦[(chunk c).view.set]{Transfers.shareTok fullShare 15 (14 : Fin 15)} f)) : sProp 𝕄)
      ⊢ ((chunk c).view.loc (c : Thread nD τ) ↦[(chunk c).view.set]{fullShare} f) := by
  refine (Entails.of_eq ?_).trans (Transfers.pointsTo_toks_join fullShare 15)
  rw [bigSep_fin15]

/-- info: 'Cert.KernelIdeal.RS.chunks_to_work' depends on axioms: [propext, Classical.choice, Quot.sound] -/
#guard_msgs in #print axioms chunks_to_work
/-- info: 'Cert.KernelIdeal.RS.slots_to_comm' depends on axioms: [propext, Classical.choice, Quot.sound] -/
#guard_msgs in #print axioms slots_to_comm
/-- info: 'Cert.KernelIdeal.RS.tokens_to_own' depends on axioms: [propext, Classical.choice, Quot.sound] -/
#guard_msgs in #print axioms tokens_to_own

end Cert.KernelIdeal.RS

end
-- ==== Proof.Glue2.lean ====
import proofs.«900470_g7700000000000471_dist_rs_then_ag_i_m512_n512_v7x_i16_f32_1_alg».proof.Proof.Ring
import Idealize.ShloMosaic.Lib.Writes

/-! # The two whole-buffer stores read back

A load of a whole buffer through the rectangle of its own sizes at zero offsets reads its contents, and one full store
through that rectangle leaves the payload: so the work scratch after the first store is the block in the narrower
format, and the result's staging buffer after the last store is the widened final work scratch. -/

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem zero_off2 : (![0, 0] : Fin 2 → Nat) = fun _ => 0 := by
  funext a; fin_cases a <;> rfl

/-- The work scratch after the first store. -/
theorem work_after_store (c : Dev nD) (fw : Buf (Elt F) ((c : Thread nD τ).loc cc0_scratch0)) :
    (Memref.whole cc0_scratch0 : Memref sig .tc .vmem S512x512 .bf16).view.writes (Elt F) fw
      [⟨(Rect.unit (s := S512x512) ![0, 0] S512x512.size inb_S512x512_S512x512_0_0),
        k0_pay2 ((Memref.whole cc0_stg0_0 : Memref sig .tc .vmem S512x512 .f32).view.readAt (Elt F) (Rect.unit (s := S512x512) ![0, 0] S512x512.size inb_S512x512_S512x512_0_0).toLoadRect (xstg m c))⟩] = W m c := by
  have hr : (Memref.whole cc0_stg0_0 : Memref sig .tc .vmem S512x512 .f32).view.readAt (Elt F) (Rect.unit (s := S512x512) ![0, 0] S512x512.size inb_S512x512_S512x512_0_0).toLoadRect (xstg m c)
      = xstg m c := Memref.readAt_unit_zero (Elt F) cc0_stg0_0 zero_off2 _ (xstg m c)
  rw [hr, View.writes_singleton]
  show _ = k0_pay2 (xstg m c)
  exact Memref.write_access_unit_zero_univ (Elt F) cc0_scratch0 zero_off2 inb_S512x512_S512x512_0_0 fw (k0_pay2 (xstg m c))

/-- The result's staging buffer after the last store. -/
theorem out_after_store (c : Dev nD) (g1 : Buf (Elt F) ((c : Thread nD τ).loc cc0_stg1_0)) :
    (Memref.whole cc0_stg1_0 : Memref sig .tc .vmem S512x512 .f32).view.writes (Elt F) g1
      [⟨(Rect.unit (s := S512x512) ![0, 0] S512x512.size inb_S512x512_S512x512_0_0),
        k0_pay1 ((Memref.whole cc0_scratch0 : Memref sig .tc .vmem S512x512 .bf16).view.readAt (Elt F) (Rect.unit (s := S512x512) ![0, 0] S512x512.size inb_S512x512_S512x512_0_0).toLoadRect (workFinal m))⟩] = outAt m := by
  have hr : (Memref.whole cc0_scratch0 : Memref sig .tc .vmem S512x512 .bf16).view.readAt (Elt F) (Rect.unit (s := S512x512) ![0, 0] S512x512.size inb_S512x512_S512x512_0_0).toLoadRect (workFinal m)
      = workFinal m := Memref.readAt_unit_zero (Elt F) cc0_scratch0 zero_off2 _ (workFinal m)
  rw [hr, View.writes_singleton]
  show _ = k0_pay1 (workFinal m)
  exact Memref.write_access_unit_zero_univ (Elt F) cc0_stg1_0 zero_off2 inb_S512x512_S512x512_0_0 g1 (k0_pay1 (workFinal m))

theorem work_after_store_pt (c : Dev nD) (fw : Buf (Elt F) ((c : Thread nD τ).loc cc0_scratch0)) :
    (View.loc (c : Thread nD τ) (Memref.whole cc0_scratch0 : Memref sig .tc .vmem S512x512 .bf16).view ↦{fullShare}
      (Memref.whole cc0_scratch0 : Memref sig .tc .vmem S512x512 .bf16).view.writes (Elt F) fw
      [⟨(Rect.unit (s := S512x512) ![0, 0] S512x512.size inb_S512x512_S512x512_0_0),
        k0_pay2 ((Memref.whole cc0_stg0_0 : Memref sig .tc .vmem S512x512 .f32).view.readAt (Elt F) (Rect.unit (s := S512x512) ![0, 0] S512x512.size inb_S512x512_S512x512_0_0).toLoadRect (xstg m c))⟩] : sProp 𝕄)
      = (((c : Thread nD τ).loc cc0_scratch0) ↦{fullShare} W m c) :=
  congrArg (fun f : Buf (Elt F) ((c : Thread nD τ).loc cc0_scratch0) => (((c : Thread nD τ).loc cc0_scratch0) ↦{fullShare} f : sProp 𝕄))
    (work_after_store m c fw)

theorem out_after_store_pt (c : Dev nD) (g1 : Buf (Elt F) ((c : Thread nD τ).loc cc0_stg1_0)) :
    (View.loc (c : Thread nD τ) (Memref.whole cc0_stg1_0 : Memref sig .tc .vmem S512x512 .f32).view ↦{fullShare}
      (Memref.whole cc0_stg1_0 : Memref sig .tc .vmem S512x512 .f32).view.writes (Elt F) g1
      [⟨(Rect.unit (s := S512x512) ![0, 0] S512x512.size inb_S512x512_S512x512_0_0),
        k0_pay1 ((Memref.whole cc0_scratch0 : Memref sig .tc .vmem S512x512 .bf16).view.readAt (Elt F) (Rect.unit (s := S512x512) ![0, 0] S512x512.size inb_S512x512_S512x512_0_0).toLoadRect (workFinal m))⟩] : sProp 𝕄)
      = (((c : Thread nD τ).loc cc0_stg1_0) ↦{fullShare} outAt m) :=
  congrArg (fun f : Buf (Elt F) ((c : Thread nD τ).loc cc0_stg1_0) => (((c : Thread nD τ).loc cc0_stg1_0) ↦{fullShare} f : sProp 𝕄))
    (out_after_store m c g1)

/-- info: 'Cert.KernelIdeal.RS.work_after_store_pt' depends on axioms: [propext, Classical.choice, Quot.sound] -/
#guard_msgs in #print axioms work_after_store_pt
/-- info: 'Cert.KernelIdeal.RS.out_after_store_pt' depends on axioms: [propext, Classical.choice, Quot.sound] -/
#guard_msgs in #print axioms out_after_store_pt

end Cert.KernelIdeal.RS

end
-- ==== Proof.Body.lean ====
import proofs.«900470_g7700000000000471_dist_rs_then_ag_i_m512_n512_v7x_i16_f32_1_alg».proof.Proof.Gen.KernelIdeal
import proofs.«900470_g7700000000000471_dist_rs_then_ag_i_m512_n512_v7x_i16_f32_1_alg».proof.Proof.Gen.KernelIdeal.Skeleton
import proofs.«900470_g7700000000000471_dist_rs_then_ag_i_m512_n512_v7x_i16_f32_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.Tables
import proofs.«900470_g7700000000000471_dist_rs_then_ag_i_m512_n512_v7x_i16_f32_1_alg».proof.Proof.Glue
import proofs.«900470_g7700000000000471_dist_rs_then_ag_i_m512_n512_v7x_i16_f32_1_alg».proof.Proof.Glue2
import proofs.«900470_g7700000000000471_dist_rs_then_ag_i_m512_n512_v7x_i16_f32_1_alg».proof.Proof.Post

noncomputable section
namespace Cert.KernelIdeal.RS
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
variable {F : FTy → Type} [FloatOps F]
local notation "𝕄" => MT nD τ sig Unit (Elt F) ℕ UU ℕ
variable (m : (ℓ : Loc nD τ sig) → Buf (Elt F) ℓ)

attribute [local sl_rounds] payload_barOf_1 duties_barOf_1 amount_barOf_1 payload_barOf_2 duties_barOf_2 amount_barOf_2 payload_barOf_3 duties_barOf_3 amount_barOf_3 payload_barOf_4 duties_barOf_4 amount_barOf_4 payload_barOf_5 duties_barOf_5 amount_barOf_5 payload_barOf_6 duties_barOf_6 amount_barOf_6 payload_barOf_7 duties_barOf_7 amount_barOf_7 payload_barOf_8 duties_barOf_8 amount_barOf_8 payload_barOf_9 duties_barOf_9 amount_barOf_9 payload_barOf_10 duties_barOf_10 amount_barOf_10 payload_barOf_11 duties_barOf_11 amount_barOf_11 payload_barOf_12 duties_barOf_12 amount_barOf_12 payload_barOf_13 duties_barOf_13 amount_barOf_13 payload_barOf_14 duties_barOf_14 amount_barOf_14 payload_barOf_15 duties_barOf_15 amount_barOf_15 payload_bar_owner duties_bar amount_bar expect_bar
attribute [local sl_canon] dev1_eq dev2_eq dev3_eq dev4_eq dev5_eq dev6_eq dev7_eq dev8_eq dev9_eq dev10_eq dev11_eq dev12_eq dev13_eq dev14_eq dev15_eq

set_option maxHeartbeats 8000000 in
/-- One device's body, from what the launch hands it to what it hands back. The fifteen signals each give a peer one slot
    of the receive scratch; the wait for fifteen units brings every peer's slot; the block is stored in the narrower
    format and cut into its sixteen chunks; copy `j + 1` of the reduce-scatter sends chunk `peer c (15 - j)` into that
    device's slot `j`, the rows travelling with the landing; after the thirty waits the own chunk and the fifteen slots
    are added in order and stored; the own chunk is lent in fifteen read shares to the copies of the all-gather, which
    write it into the rows the peers handed over; after the thirty waits the sixteen chunks are the whole scratch again,
    chunk `p` holding device `p`'s sum, and the result is stored. -/
theorem sound_body (K : Dev nD × Fin 61 → ℕ) (c : Dev nD) (Kt : PUnit → sProp 𝕄) :
    iprop(bodyPre m K c ∗ (bodyPost m c -∗ Kt ⟨⟩))
      ⊢ wp frame (wpE (defs₀ (F := F)) 𝒱₀ c none) Set.univ (cc0_body (F := F) xM (Memref.isWhole_whole _) oM (Memref.isWhole_whole _) wM (Memref.isWhole_whole _) cM (Memref.isWhole_whole _) cc0_scratch2 cc0_scratch3) Kt := by
  unfold bodyPre ghost linear payToks scratch
  rw [bigSep_fin61]
  simp only [bigSep_fin15]
  iintro ⟨⟨⟨⟨#HR, ⟨Hat0, Hat1, Hat2, Hat3, Hat4, Hat5, Hat6, Hat7, Hat8, Hat9, Hat10, Hat11, Hat12, Hat13, Hat14, Hat15, Hat16, Hat17, Hat18, Hat19, Hat20, Hat21, Hat22, Hat23, Hat24, Hat25, Hat26, Hat27, Hat28, Hat29, Hat30, Hat31, Hat32, Hat33, Hat34, Hat35, Hat36, Hat37, Hat38, Hat39, Hat40, Hat41, Hat42, Hat43, Hat44, Hat45, Hat46, Hat47, Hat48, Hat49, Hat50, Hat51, Hat52, Hat53, Hat54, Hat55, Hat56, Hat57, Hat58, Hat59, Hat60⟩, ⟨HtB0, HtB1, HtB2, HtB3, HtB4, HtB5, HtB6, HtB7, HtB8, HtB9, HtB10, HtB11, HtB12, HtB13, HtB14⟩, ⟨HtS1_0, HtS1_1, HtS1_2, HtS1_3, HtS1_4, HtS1_5, HtS1_6, HtS1_7, HtS1_8, HtS1_9, HtS1_10, HtS1_11, HtS1_12, HtS1_13, HtS1_14⟩, ⟨HtS2_0, HtS2_1, HtS2_2, HtS2_3, HtS2_4, HtS2_5, HtS2_6, HtS2_7, HtS2_8, HtS2_9, HtS2_10, HtS2_11, HtS2_12, HtS2_13, HtS2_14⟩, ⟨HtR1_0, HtR1_1, HtR1_2, HtR1_3, HtR1_4, HtR1_5, HtR1_6, HtR1_7, HtR1_8, HtR1_9, HtR1_10, HtR1_11, HtR1_12, HtR1_13, HtR1_14⟩, ⟨HtR2_0, HtR2_1, HtR2_2, HtR2_3, HtR2_4, HtR2_5, HtR2_6, HtR2_7, HtR2_8, HtR2_9, HtR2_10, HtR2_11, HtR2_12, HtR2_13, HtR2_14⟩⟩, HcB, ⟨HcR1_0, HcR1_1, HcR1_2, HcR1_3, HcR1_4, HcR1_5, HcR1_6, HcR1_7, HcR1_8, HcR1_9, HcR1_10, HcR1_11, HcR1_12, HcR1_13, HcR1_14⟩, ⟨HcR2_0, HcR2_1, HcR2_2, HcR2_3, HcR2_4, HcR2_5, HcR2_6, HcR2_7, HcR2_8, HcR2_9, HcR2_10, HcR2_11, HcR2_12, HcR2_13, HcR2_14⟩, #Hlev, ⟨%fw, Hw⟩, ⟨%fc, Hc⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%Wt, %hW, HO⟩
  rw [show (dats m 0 c).owed t₀.castSucc = O₀ c from rfl]
  unfold O₀
  ihave Hsl := (Entails.of_eq ((comm_cut_eq c fullShare fc).trans (bigSep_fin15 _))) $$ Hc
  icases Hsl with ⟨Hs0, Hs1, Hs2, Hs3, Hs4, Hs5, Hs6, Hs7, Hs8, Hs9, Hs10, Hs11, Hs12, Hs13, Hs14⟩
  have ex : (((c : Thread nD τ).loc cc0_stg0_0) ↦{fullShare} xstg m c : sProp 𝕄) = (View.loc (c : Thread nD τ) (Memref.whole cc0_stg0_0 : Memref sig .tc .vmem S512x512 .f32).view ↦{fullShare} xstg m c) := rfl
  have ew : (((c : Thread nD τ).loc cc0_scratch0) ↦{fullShare} fw : sProp 𝕄) = (View.loc (c : Thread nD τ) (Memref.whole cc0_scratch0 : Memref sig .tc .vmem S512x512 .bf16).view ↦{fullShare} fw) := rfl
  have eo : (((c : Thread nD τ).loc cc0_stg1_0) ↦{fullShare} g1 : sProp 𝕄) = (View.loc (c : Thread nD τ) (Memref.whole cc0_stg1_0 : Memref sig .tc .vmem S512x512 .f32).view ↦{fullShare} g1) := rfl
  ihave Hx := (Entails.of_eq ex) $$ Hx
  ihave Hw := (Entails.of_eq ew) $$ Hw
  ihave Hout := (Entails.of_eq eo) $$ Hout
  sl_unfold [cc0_body]
  have eI1 : (records m K : sProp 𝕄) ⊢ cellInv ER (Rd m) (K (peer c 1, 0)) (barOf c 1) := inv_bar m K (peer c 1)
  have eR1 : (records m K : sProp 𝕄) ⊢ reached ER (barOf c 1) 0 := reached_bar m K (peer c 1)
  have eT1 : (dutyTok ER (barCell (peer c ((0 : Fin 15).val + 1))) 0 (0 : Fin 15) : sProp 𝕄) ⊢ dutyTok ER (barOf c 1) 0 (0 : Fin 15) := BI.Entails.refl _
  ihave #HIb1 := eI1 $$ HR
  ihave #HRb1 := eR1 $$ HR
  ihave HtB0 := eT1 $$ HtB0
  have eI2 : (records m K : sProp 𝕄) ⊢ cellInv ER (Rd m) (K (peer c 2, 0)) (barOf c 2) := inv_bar m K (peer c 2)
  have eR2 : (records m K : sProp 𝕄) ⊢ reached ER (barOf c 2) 0 := reached_bar m K (peer c 2)
  have eT2 : (dutyTok ER (barCell (peer c ((1 : Fin 15).val + 1))) 0 (1 : Fin 15) : sProp 𝕄) ⊢ dutyTok ER (barOf c 2) 0 (1 : Fin 15) := BI.Entails.refl _
  ihave #HIb2 := eI2 $$ HR
  ihave #HRb2 := eR2 $$ HR
  ihave HtB1 := eT2 $$ HtB1
  have eI3 : (records m K : sProp 𝕄) ⊢ cellInv ER (Rd m) (K (peer c 3, 0)) (barOf c 3) := inv_bar m K (peer c 3)
  have eR3 : (records m K : sProp 𝕄) ⊢ reached ER (barOf c 3) 0 := reached_bar m K (peer c 3)
  have eT3 : (dutyTok ER (barCell (peer c ((2 : Fin 15).val + 1))) 0 (2 : Fin 15) : sProp 𝕄) ⊢ dutyTok ER (barOf c 3) 0 (2 : Fin 15) := BI.Entails.refl _
  ihave #HIb3 := eI3 $$ HR
  ihave #HRb3 := eR3 $$ HR
  ihave HtB2 := eT3 $$ HtB2
  have eI4 : (records m K : sProp 𝕄) ⊢ cellInv ER (Rd m) (K (peer c 4, 0)) (barOf c 4) := inv_bar m K (peer c 4)
  have eR4 : (records m K : sProp 𝕄) ⊢ reached ER (barOf c 4) 0 := reached_bar m K (peer c 4)
  have eT4 : (dutyTok ER (barCell (peer c ((3 : Fin 15).val + 1))) 0 (3 : Fin 15) : sProp 𝕄) ⊢ dutyTok ER (barOf c 4) 0 (3 : Fin 15) := BI.Entails.refl _
  ihave #HIb4 := eI4 $$ HR
  ihave #HRb4 := eR4 $$ HR
  ihave HtB3 := eT4 $$ HtB3
  have eI5 : (records m K : sProp 𝕄) ⊢ cellInv ER (Rd m) (K (peer c 5, 0)) (barOf c 5) := inv_bar m K (peer c 5)
  have eR5 : (records m K : sProp 𝕄) ⊢ reached ER (barOf c 5) 0 := reached_bar m K (peer c 5)
  have eT5 : (dutyTok ER (barCell (peer c ((4 : Fin 15).val + 1))) 0 (4 : Fin 15) : sProp 𝕄) ⊢ dutyTok ER (barOf c 5) 0 (4 : Fin 15) := BI.Entails.refl _
  ihave #HIb5 := eI5 $$ HR
  ihave #HRb5 := eR5 $$ HR
  ihave HtB4 := eT5 $$ HtB4
  have eI6 : (records m K : sProp 𝕄) ⊢ cellInv ER (Rd m) (K (peer c 6, 0)) (barOf c 6) := inv_bar m K (peer c 6)
  have eR6 : (records m K : sProp 𝕄) ⊢ reached ER (barOf c 6) 0 := reached_bar m K (peer c 6)
  have eT6 : (dutyTok ER (barCell (peer c ((5 : Fin 15).val + 1))) 0 (5 : Fin 15) : sProp 𝕄) ⊢ dutyTok ER (barOf c 6) 0 (5 : Fin 15) := BI.Entails.refl _
  ihave #HIb6 := eI6 $$ HR
  ihave #HRb6 := eR6 $$ HR
  ihave HtB5 := eT6 $$ HtB5
  have eI7 : (records m K : sProp 𝕄) ⊢ cellInv ER (Rd m) (K (peer c 7, 0)) (barOf c 7) := inv_bar m K (peer c 7)
  have eR7 : (records m K : sProp 𝕄) ⊢ reached ER (barOf c 7) 0 := reached_bar m K (peer c 7)
  have eT7 : (dutyTok ER (barCell (peer c ((6 : Fin 15).val + 1))) 0 (6 : Fin 15) : sProp 𝕄) ⊢ dutyTok ER (barOf c 7) 0 (6 : Fin 15) := BI.Entails.refl _
  ihave #HIb7 := eI7 $$ HR
  ihave #HRb7 := eR7 $$ HR
  ihave HtB6 := eT7 $$ HtB6
  have eI8 : (records m K : sProp 𝕄) ⊢ cellInv ER (Rd m) (K (peer c 8, 0)) (barOf c 8) := inv_bar m K (peer c 8)
  have eR8 : (records m K : sProp 𝕄) ⊢ reached ER (barOf c 8) 0 := reached_bar m K (peer c 8)
  have eT8 : (dutyTok ER (barCell (peer c ((7 : Fin 15).val + 1))) 0 (7 : Fin 15) : sProp 𝕄) ⊢ dutyTok ER (barOf c 8) 0 (7 : Fin 15) := BI.Entails.refl _
  ihave #HIb8 := eI8 $$ HR
  ihave #HRb8 := eR8 $$ HR
  ihave HtB7 := eT8 $$ HtB7
  have eI9 : (records m K : sProp 𝕄) ⊢ cellInv ER (Rd m) (K (peer c 9, 0)) (barOf c 9) := inv_bar m K (peer c 9)
  have eR9 : (records m K : sProp 𝕄) ⊢ reached ER (barOf c 9) 0 := reached_bar m K (peer c 9)
  have eT9 : (dutyTok ER (barCell (peer c ((8 : Fin 15).val + 1))) 0 (8 : Fin 15) : sProp 𝕄) ⊢ dutyTok ER (barOf c 9) 0 (8 : Fin 15) := BI.Entails.refl _
  ihave #HIb9 := eI9 $$ HR
  ihave #HRb9 := eR9 $$ HR
  ihave HtB8 := eT9 $$ HtB8
  have eI10 : (records m K : sProp 𝕄) ⊢ cellInv ER (Rd m) (K (peer c 10, 0)) (barOf c 10) := inv_bar m K (peer c 10)
  have eR10 : (records m K : sProp 𝕄) ⊢ reached ER (barOf c 10) 0 := reached_bar m K (peer c 10)
  have eT10 : (dutyTok ER (barCell (peer c ((9 : Fin 15).val + 1))) 0 (9 : Fin 15) : sProp 𝕄) ⊢ dutyTok ER (barOf c 10) 0 (9 : Fin 15) := BI.Entails.refl _
  ihave #HIb10 := eI10 $$ HR
  ihave #HRb10 := eR10 $$ HR
  ihave HtB9 := eT10 $$ HtB9
  have eI11 : (records m K : sProp 𝕄) ⊢ cellInv ER (Rd m) (K (peer c 11, 0)) (barOf c 11) := inv_bar m K (peer c 11)
  have eR11 : (records m K : sProp 𝕄) ⊢ reached ER (barOf c 11) 0 := reached_bar m K (peer c 11)
  have eT11 : (dutyTok ER (barCell (peer c ((10 : Fin 15).val + 1))) 0 (10 : Fin 15) : sProp 𝕄) ⊢ dutyTok ER (barOf c 11) 0 (10 : Fin 15) := BI.Entails.refl _
  ihave #HIb11 := eI11 $$ HR
  ihave #HRb11 := eR11 $$ HR
  ihave HtB10 := eT11 $$ HtB10
  have eI12 : (records m K : sProp 𝕄) ⊢ cellInv ER (Rd m) (K (peer c 12, 0)) (barOf c 12) := inv_bar m K (peer c 12)
  have eR12 : (records m K : sProp 𝕄) ⊢ reached ER (barOf c 12) 0 := reached_bar m K (peer c 12)
  have eT12 : (dutyTok ER (barCell (peer c ((11 : Fin 15).val + 1))) 0 (11 : Fin 15) : sProp 𝕄) ⊢ dutyTok ER (barOf c 12) 0 (11 : Fin 15) := BI.Entails.refl _
  ihave #HIb12 := eI12 $$ HR
  ihave #HRb12 := eR12 $$ HR
  ihave HtB11 := eT12 $$ HtB11
  have eI13 : (records m K : sProp 𝕄) ⊢ cellInv ER (Rd m) (K (peer c 13, 0)) (barOf c 13) := inv_bar m K (peer c 13)
  have eR13 : (records m K : sProp 𝕄) ⊢ reached ER (barOf c 13) 0 := reached_bar m K (peer c 13)
  have eT13 : (dutyTok ER (barCell (peer c ((12 : Fin 15).val + 1))) 0 (12 : Fin 15) : sProp 𝕄) ⊢ dutyTok ER (barOf c 13) 0 (12 : Fin 15) := BI.Entails.refl _
  ihave #HIb13 := eI13 $$ HR
  ihave #HRb13 := eR13 $$ HR
  ihave HtB12 := eT13 $$ HtB12
  have eI14 : (records m K : sProp 𝕄) ⊢ cellInv ER (Rd m) (K (peer c 14, 0)) (barOf c 14) := inv_bar m K (peer c 14)
  have eR14 : (records m K : sProp 𝕄) ⊢ reached ER (barOf c 14) 0 := reached_bar m K (peer c 14)
  have eT14 : (dutyTok ER (barCell (peer c ((13 : Fin 15).val + 1))) 0 (13 : Fin 15) : sProp 𝕄) ⊢ dutyTok ER (barOf c 14) 0 (13 : Fin 15) := BI.Entails.refl _
  ihave #HIb14 := eI14 $$ HR
  ihave #HRb14 := eR14 $$ HR
  ihave HtB13 := eT14 $$ HtB13
  have eI15 : (records m K : sProp 𝕄) ⊢ cellInv ER (Rd m) (K (peer c 15, 0)) (barOf c 15) := inv_bar m K (peer c 15)
  have eR15 : (records m K : sProp 𝕄) ⊢ reached ER (barOf c 15) 0 := reached_bar m K (peer c 15)
  have eT15 : (dutyTok ER (barCell (peer c ((14 : Fin 15).val + 1))) 0 (14 : Fin 15) : sProp 𝕄) ⊢ dutyTok ER (barOf c 15) 0 (14 : Fin 15) := BI.Entails.refl _
  ihave #HIb15 := eI15 $$ HR
  ihave #HRb15 := eR15 $$ HR
  ihave HtB14 := eT15 $$ HtB14
  have eI0 : (records m K : sProp 𝕄) ⊢ cellInv ER (Rd m) (K (c, 0)) (barCell c) := inv_bar m K c
  ihave #HIb0 := eI0 $$ HR
  have hAb1 : Above 1 (tallyAt (r2Cell (peer c 15) 14) () N + tallyAt (r2Cell (peer c 14) 13) () N + tallyAt (r2Cell (peer c 13) 12) () N + tallyAt (r2Cell (peer c 12) 11) () N + tallyAt (r2Cell (peer c 11) 10) () N + tallyAt (r2Cell (peer c 10) 9) () N + tallyAt (r2Cell (peer c 9) 8) () N + tallyAt (r2Cell (peer c 8) 7) () N + tallyAt (r2Cell (peer c 7) 6) () N + tallyAt (r2Cell (peer c 6) 5) () N + tallyAt (r2Cell (peer c 5) 4) () N + tallyAt (r2Cell (peer c 4) 3) () N + tallyAt (r2Cell (peer c 3) 2) () N + tallyAt (r2Cell (peer c 2) 1) () N + tallyAt (r2Cell (peer c 1) 0) () N + tallyAt (r1Cell (peer c 1) 14) () N + tallyAt (r1Cell (peer c 2) 13) () N + tallyAt (r1Cell (peer c 3) 12) () N + tallyAt (r1Cell (peer c 4) 11) () N + tallyAt (r1Cell (peer c 5) 10) () N + tallyAt (r1Cell (peer c 6) 9) () N + tallyAt (r1Cell (peer c 7) 8) () N + tallyAt (r1Cell (peer c 8) 7) () N + tallyAt (r1Cell (peer c 9) 6) () N + tallyAt (r1Cell (peer c 10) 5) () N + tallyAt (r1Cell (peer c 11) 4) () N + tallyAt (r1Cell (peer c 12) 3) () N + tallyAt (r1Cell (peer c 13) 2) () N + tallyAt (r1Cell (peer c 14) 1) () N + tallyAt (r1Cell (peer c 15) 0) () N) := by repeat (first | apply Above.add | exact Above.tally _ _ rfl (by first | (rw [lv_r1]; omega) | (rw [lv_r2]; omega)))
  have hmwB : (levAts L lv : sProp 𝕄) ⊢ MayWait (c : Thread nD τ) (.reg barS) () (tallyAt (r2Cell (peer c 15) 14) () N + tallyAt (r2Cell (peer c 14) 13) () N + tallyAt (r2Cell (peer c 13) 12) () N + tallyAt (r2Cell (peer c 12) 11) () N + tallyAt (r2Cell (peer c 11) 10) () N + tallyAt (r2Cell (peer c 10) 9) () N + tallyAt (r2Cell (peer c 9) 8) () N + tallyAt (r2Cell (peer c 8) 7) () N + tallyAt (r2Cell (peer c 7) 6) () N + tallyAt (r2Cell (peer c 6) 5) () N + tallyAt (r2Cell (peer c 5) 4) () N + tallyAt (r2Cell (peer c 4) 3) () N + tallyAt (r2Cell (peer c 3) 2) () N + tallyAt (r2Cell (peer c 2) 1) () N + tallyAt (r2Cell (peer c 1) 0) () N + tallyAt (r1Cell (peer c 1) 14) () N + tallyAt (r1Cell (peer c 2) 13) () N + tallyAt (r1Cell (peer c 3) 12) () N + tallyAt (r1Cell (peer c 4) 11) () N + tallyAt (r1Cell (peer c 5) 10) () N + tallyAt (r1Cell (peer c 6) 9) () N + tallyAt (r1Cell (peer c 7) 8) () N + tallyAt (r1Cell (peer c 8) 7) () N + tallyAt (r1Cell (peer c 9) 6) () N + tallyAt (r1Cell (peer c 10) 5) () N + tallyAt (r1Cell (peer c 11) 4) () N + tallyAt (r1Cell (peer c 12) 3) () N + tallyAt (r1Cell (peer c 13) 2) () N + tallyAt (r1Cell (peer c 14) 1) () N + tallyAt (r1Cell (peer c 15) 0) () N) := mayWait_of_above c (.reg barS) (b := 1) (Nat.le_refl _) hAb1
  sl_exec
  ihave Hp := (Entails.of_eq (bigSep_fin15 _)) $$ Hat0_pay1
  icases Hp with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩, ⟨%fd11, Hd11⟩, ⟨%fd12, Hd12⟩, ⟨%fd13, Hd13⟩, ⟨%fd14, Hd14⟩⟩
  ihave Hw := (Entails.of_eq (work_after_store_pt m c fw)) $$ Hw
  ihave Hch := (work_to_chunks c (W m c)) $$ Hw
  icases Hch with ⟨Hown, Hk0, Hk1, Hk2, Hk3, Hk4, Hk5, Hk6, Hk7, Hk8, Hk9, Hk10, Hk11, Hk12, Hk13, Hk14⟩
  iapply (wp_send1 m K c _ 0 (dev16_eq c) (src1_eq c 0) rfl rfl rfl fd0 _ _) $$ [Hk0 Hd0 HO HtS1_0 HtR1_0]
  · isplitr; · iexact HR
    isplitl [Hk0]; · iexact Hk0
    isplitl [Hd0]; · iexact Hd0
    isplitl [HO]; · iexact HO
    isplitl [HtS1_0]; · iexact HtS1_0
    iexact HtR1_0
  iintro ⟨HcS1_0, HO⟩
  sl_exec
  iapply (wp_send1 m K c _ 1 (dev17_eq c) (src1_eq c 1) rfl rfl rfl fd1 _ _) $$ [Hk1 Hd1 HO HtS1_1 HtR1_1]
  · isplitr; · iexact HR
    isplitl [Hk1]; · iexact Hk1
    isplitl [Hd1]; · iexact Hd1
    isplitl [HO]; · iexact HO
    isplitl [HtS1_1]; · iexact HtS1_1
    iexact HtR1_1
  iintro ⟨HcS1_1, HO⟩
  sl_exec
  iapply (wp_send1 m K c _ 2 (dev18_eq c) (src1_eq c 2) rfl rfl rfl fd2 _ _) $$ [Hk2 Hd2 HO HtS1_2 HtR1_2]
  · isplitr; · iexact HR
    isplitl [Hk2]; · iexact Hk2
    isplitl [Hd2]; · iexact Hd2
    isplitl [HO]; · iexact HO
    isplitl [HtS1_2]; · iexact HtS1_2
    iexact HtR1_2
  iintro ⟨HcS1_2, HO⟩
  sl_exec
  iapply (wp_send1 m K c _ 3 (dev19_eq c) (src1_eq c 3) rfl rfl rfl fd3 _ _) $$ [Hk3 Hd3 HO HtS1_3 HtR1_3]
  · isplitr; · iexact HR
    isplitl [Hk3]; · iexact Hk3
    isplitl [Hd3]; · iexact Hd3
    isplitl [HO]; · iexact HO
    isplitl [HtS1_3]; · iexact HtS1_3
    iexact HtR1_3
  iintro ⟨HcS1_3, HO⟩
  sl_exec
  iapply (wp_send1 m K c _ 4 (dev20_eq c) (src1_eq c 4) rfl rfl rfl fd4 _ _) $$ [Hk4 Hd4 HO HtS1_4 HtR1_4]
  · isplitr; · iexact HR
    isplitl [Hk4]; · iexact Hk4
    isplitl [Hd4]; · iexact Hd4
    isplitl [HO]; · iexact HO
    isplitl [HtS1_4]; · iexact HtS1_4
    iexact HtR1_4
  iintro ⟨HcS1_4, HO⟩
  sl_exec
  iapply (wp_send1 m K c _ 5 (dev21_eq c) (src1_eq c 5) rfl rfl rfl fd5 _ _) $$ [Hk5 Hd5 HO HtS1_5 HtR1_5]
  · isplitr; · iexact HR
    isplitl [Hk5]; · iexact Hk5
    isplitl [Hd5]; · iexact Hd5
    isplitl [HO]; · iexact HO
    isplitl [HtS1_5]; · iexact HtS1_5
    iexact HtR1_5
  iintro ⟨HcS1_5, HO⟩
  sl_exec
  iapply (wp_send1 m K c _ 6 (dev22_eq c) (src1_eq c 6) rfl rfl rfl fd6 _ _) $$ [Hk6 Hd6 HO HtS1_6 HtR1_6]
  · isplitr; · iexact HR
    isplitl [Hk6]; · iexact Hk6
    isplitl [Hd6]; · iexact Hd6
    isplitl [HO]; · iexact HO
    isplitl [HtS1_6]; · iexact HtS1_6
    iexact HtR1_6
  iintro ⟨HcS1_6, HO⟩
  sl_exec
  iapply (wp_send1 m K c _ 7 (dev23_eq c) (src1_eq c 7) rfl rfl rfl fd7 _ _) $$ [Hk7 Hd7 HO HtS1_7 HtR1_7]
  · isplitr; · iexact HR
    isplitl [Hk7]; · iexact Hk7
    isplitl [Hd7]; · iexact Hd7
    isplitl [HO]; · iexact HO
    isplitl [HtS1_7]; · iexact HtS1_7
    iexact HtR1_7
  iintro ⟨HcS1_7, HO⟩
  sl_exec
  iapply (wp_send1 m K c _ 8 (dev24_eq c) (src1_eq c 8) rfl rfl rfl fd8 _ _) $$ [Hk8 Hd8 HO HtS1_8 HtR1_8]
  · isplitr; · iexact HR
    isplitl [Hk8]; · iexact Hk8
    isplitl [Hd8]; · iexact Hd8
    isplitl [HO]; · iexact HO
    isplitl [HtS1_8]; · iexact HtS1_8
    iexact HtR1_8
  iintro ⟨HcS1_8, HO⟩
  sl_exec
  iapply (wp_send1 m K c _ 9 (dev25_eq c) (src1_eq c 9) rfl rfl rfl fd9 _ _) $$ [Hk9 Hd9 HO HtS1_9 HtR1_9]
  · isplitr; · iexact HR
    isplitl [Hk9]; · iexact Hk9
    isplitl [Hd9]; · iexact Hd9
    isplitl [HO]; · iexact HO
    isplitl [HtS1_9]; · iexact HtS1_9
    iexact HtR1_9
  iintro ⟨HcS1_9, HO⟩
  sl_exec
  iapply (wp_send1 m K c _ 10 (dev26_eq c) (src1_eq c 10) rfl rfl rfl fd10 _ _) $$ [Hk10 Hd10 HO HtS1_10 HtR1_10]
  · isplitr; · iexact HR
    isplitl [Hk10]; · iexact Hk10
    isplitl [Hd10]; · iexact Hd10
    isplitl [HO]; · iexact HO
    isplitl [HtS1_10]; · iexact HtS1_10
    iexact HtR1_10
  iintro ⟨HcS1_10, HO⟩
  sl_exec
  iapply (wp_send1 m K c _ 11 (dev27_eq c) (src1_eq c 11) rfl rfl rfl fd11 _ _) $$ [Hk11 Hd11 HO HtS1_11 HtR1_11]
  · isplitr; · iexact HR
    isplitl [Hk11]; · iexact Hk11
    isplitl [Hd11]; · iexact Hd11
    isplitl [HO]; · iexact HO
    isplitl [HtS1_11]; · iexact HtS1_11
    iexact HtR1_11
  iintro ⟨HcS1_11, HO⟩
  sl_exec
  iapply (wp_send1 m K c _ 12 (dev28_eq c) (src1_eq c 12) rfl rfl rfl fd12 _ _) $$ [Hk12 Hd12 HO HtS1_12 HtR1_12]
  · isplitr; · iexact HR
    isplitl [Hk12]; · iexact Hk12
    isplitl [Hd12]; · iexact Hd12
    isplitl [HO]; · iexact HO
    isplitl [HtS1_12]; · iexact HtS1_12
    iexact HtR1_12
  iintro ⟨HcS1_12, HO⟩
  sl_exec
  iapply (wp_send1 m K c _ 13 (dev29_eq c) (src1_eq c 13) rfl rfl rfl fd13 _ _) $$ [Hk13 Hd13 HO HtS1_13 HtR1_13]
  · isplitr; · iexact HR
    isplitl [Hk13]; · iexact Hk13
    isplitl [Hd13]; · iexact Hd13
    isplitl [HO]; · iexact HO
    isplitl [HtS1_13]; · iexact HtS1_13
    iexact HtR1_13
  iintro ⟨HcS1_13, HO⟩
  sl_exec
  iapply (wp_send1 m K c _ 14 (dev30_eq c) (src1_eq c 14) rfl rfl rfl fd14 _ _) $$ [Hk14 Hd14 HO HtS1_14 HtR1_14]
  · isplitr; · iexact HR
    isplitl [Hk14]; · iexact Hk14
    isplitl [Hd14]; · iexact Hd14
    isplitl [HO]; · iexact HO
    isplitl [HtS1_14]; · iexact HtS1_14
    iexact HtR1_14
  iintro ⟨HcS1_14, HO⟩
  sl_exec
  have hAb2 : Above 2 (tallyAt (r2Cell (peer c 15) 14) () N + tallyAt (r2Cell (peer c 14) 13) () N + tallyAt (r2Cell (peer c 13) 12) () N + tallyAt (r2Cell (peer c 12) 11) () N + tallyAt (r2Cell (peer c 11) 10) () N + tallyAt (r2Cell (peer c 10) 9) () N + tallyAt (r2Cell (peer c 9) 8) () N + tallyAt (r2Cell (peer c 8) 7) () N + tallyAt (r2Cell (peer c 7) 6) () N + tallyAt (r2Cell (peer c 6) 5) () N + tallyAt (r2Cell (peer c 5) 4) () N + tallyAt (r2Cell (peer c 4) 3) () N + tallyAt (r2Cell (peer c 3) 2) () N + tallyAt (r2Cell (peer c 2) 1) () N + tallyAt (r2Cell (peer c 1) 0) () N) := by repeat (first | apply Above.add | exact Above.tally _ _ rfl (by first | (rw [lv_r1]; omega) | (rw [lv_r2]; omega)))
  iapply (wp_wait_s1 m K c 0 rfl rfl _ _ hAb2) $$ [HcS1_0 HO Hat1]
  · isplitr; · iexact HR
    isplitl [HcS1_0]; · iexact HcS1_0
    isplitl [HO]; · iexact HO
    isplitr; · iexact Hlev
    iexact Hat1
  iintro ⟨HO, Hat1, -⟩
  sl_exec
  iapply (wp_wait_r1 m K c 0 rfl rfl _ _ hAb2) $$ [HcR1_0 HO Hat31]
  · isplitr; · iexact HR
    isplitl [HcR1_0]; · iexact HcR1_0
    isplitl [HO]; · iexact HO
    isplitr; · iexact Hlev
    iexact Hat31
  iintro ⟨HO, Hat31, Hp1⟩
  unfold r1Pay
  icases Hp1 with ⟨Hsl0, Hpk0⟩
  sl_exec
  iapply (wp_wait_s1 m K c 1 rfl rfl _ _ hAb2) $$ [HcS1_1 HO Hat2]
  · isplitr; · iexact HR
    isplitl [HcS1_1]; · iexact HcS1_1
    isplitl [HO]; · iexact HO
    isplitr; · iexact Hlev
    iexact Hat2
  iintro ⟨HO, Hat2, -⟩
  sl_exec
  iapply (wp_wait_r1 m K c 1 rfl rfl _ _ hAb2) $$ [HcR1_1 HO Hat32]
  · isplitr; · iexact HR
    isplitl [HcR1_1]; · iexact HcR1_1
    isplitl [HO]; · iexact HO
    isplitr; · iexact Hlev
    iexact Hat32
  iintro ⟨HO, Hat32, Hp1⟩
  unfold r1Pay
  icases Hp1 with ⟨Hsl1, Hpk1⟩
  sl_exec
  iapply (wp_wait_s1 m K c 2 rfl rfl _ _ hAb2) $$ [HcS1_2 HO Hat3]
  · isplitr; · iexact HR
    isplitl [HcS1_2]; · iexact HcS1_2
    isplitl [HO]; · iexact HO
    isplitr; · iexact Hlev
    iexact Hat3
  iintro ⟨HO, Hat3, -⟩
  sl_exec
  iapply (wp_wait_r1 m K c 2 rfl rfl _ _ hAb2) $$ [HcR1_2 HO Hat33]
  · isplitr; · iexact HR
    isplitl [HcR1_2]; · iexact HcR1_2
    isplitl [HO]; · iexact HO
    isplitr; · iexact Hlev
    iexact Hat33
  iintro ⟨HO, Hat33, Hp1⟩
  unfold r1Pay
  icases Hp1 with ⟨Hsl2, Hpk2⟩
  sl_exec
  iapply (wp_wait_s1 m K c 3 rfl rfl _ _ hAb2) $$ [HcS1_3 HO Hat4]
  · isplitr; · iexact HR
    isplitl [HcS1_3]; · iexact HcS1_3
    isplitl [HO]; · iexact HO
    isplitr; · iexact Hlev
    iexact Hat4
  iintro ⟨HO, Hat4, -⟩
  sl_exec
  iapply (wp_wait_r1 m K c 3 rfl rfl _ _ hAb2) $$ [HcR1_3 HO Hat34]
  · isplitr; · iexact HR
    isplitl [HcR1_3]; · iexact HcR1_3
    isplitl [HO]; · iexact HO
    isplitr; · iexact Hlev
    iexact Hat34
  iintro ⟨HO, Hat34, Hp1⟩
  unfold r1Pay
  icases Hp1 with ⟨Hsl3, Hpk3⟩
  sl_exec
  iapply (wp_wait_s1 m K c 4 rfl rfl _ _ hAb2) $$ [HcS1_4 HO Hat5]
  · isplitr; · iexact HR
    isplitl [HcS1_4]; · iexact HcS1_4
    isplitl [HO]; · iexact HO
    isplitr; · iexact Hlev
    iexact Hat5
  iintro ⟨HO, Hat5, -⟩
  sl_exec
  iapply (wp_wait_r1 m K c 4 rfl rfl _ _ hAb2) $$ [HcR1_4 HO Hat35]
  · isplitr; · iexact HR
    isplitl [HcR1_4]; · iexact HcR1_4
    isplitl [HO]; · iexact HO
    isplitr; · iexact Hlev
    iexact Hat35
  iintro ⟨HO, Hat35, Hp1⟩
  unfold r1Pay
  icases Hp1 with ⟨Hsl4, Hpk4⟩
  sl_exec
  iapply (wp_wait_s1 m K c 5 rfl rfl _ _ hAb2) $$ [HcS1_5 HO Hat6]
  · isplitr; · iexact HR
    isplitl [HcS1_5]; · iexact HcS1_5
    isplitl [HO]; · iexact HO
    isplitr; · iexact Hlev
    iexact Hat6
  iintro ⟨HO, Hat6, -⟩
  sl_exec
  iapply (wp_wait_r1 m K c 5 rfl rfl _ _ hAb2) $$ [HcR1_5 HO Hat36]
  · isplitr; · iexact HR
    isplitl [HcR1_5]; · iexact HcR1_5
    isplitl [HO]; · iexact HO
    isplitr; · iexact Hlev
    iexact Hat36
  iintro ⟨HO, Hat36, Hp1⟩
  unfold r1Pay
  icases Hp1 with ⟨Hsl5, Hpk5⟩
  sl_exec
  iapply (wp_wait_s1 m K c 6 rfl rfl _ _ hAb2) $$ [HcS1_6 HO Hat7]
  · isplitr; · iexact HR
    isplitl [HcS1_6]; · iexact HcS1_6
    isplitl [HO]; · iexact HO
    isplitr; · iexact Hlev
    iexact Hat7
  iintro ⟨HO, Hat7, -⟩
  sl_exec
  iapply (wp_wait_r1 m K c 6 rfl rfl _ _ hAb2) $$ [HcR1_6 HO Hat37]
  · isplitr; · iexact HR
    isplitl [HcR1_6]; · iexact HcR1_6
    isplitl [HO]; · iexact HO
    isplitr; · iexact Hlev
    iexact Hat37
  iintro ⟨HO, Hat37, Hp1⟩
  unfold r1Pay
  icases Hp1 with ⟨Hsl6, Hpk6⟩
  sl_exec
  iapply (wp_wait_s1 m K c 7 rfl rfl _ _ hAb2) $$ [HcS1_7 HO Hat8]
  · isplitr; · iexact HR
    isplitl [HcS1_7]; · iexact HcS1_7
    isplitl [HO]; · iexact HO
    isplitr; · iexact Hlev
    iexact Hat8
  iintro ⟨HO, Hat8, -⟩
  sl_exec
  iapply (wp_wait_r1 m K c 7 rfl rfl _ _ hAb2) $$ [HcR1_7 HO Hat38]
  · isplitr; · iexact HR
    isplitl [HcR1_7]; · iexact HcR1_7
    isplitl [HO]; · iexact HO
    isplitr; · iexact Hlev
    iexact Hat38
  iintro ⟨HO, Hat38, Hp1⟩
  unfold r1Pay
  icases Hp1 with ⟨Hsl7, Hpk7⟩
  sl_exec
  iapply (wp_wait_s1 m K c 8 rfl rfl _ _ hAb2) $$ [HcS1_8 HO Hat9]
  · isplitr; · iexact HR
    isplitl [HcS1_8]; · iexact HcS1_8
    isplitl [HO]; · iexact HO
    isplitr; · iexact Hlev
    iexact Hat9
  iintro ⟨HO, Hat9, -⟩
  sl_exec
  iapply (wp_wait_r1 m K c 8 rfl rfl _ _ hAb2) $$ [HcR1_8 HO Hat39]
  · isplitr; · iexact HR
    isplitl [HcR1_8]; · iexact HcR1_8
    isplitl [HO]; · iexact HO
    isplitr; · iexact Hlev
    iexact Hat39
  iintro ⟨HO, Hat39, Hp1⟩
  unfold r1Pay
  icases Hp1 with ⟨Hsl8, Hpk8⟩
  sl_exec
  iapply (wp_wait_s1 m K c 9 rfl rfl _ _ hAb2) $$ [HcS1_9 HO Hat10]
  · isplitr; · iexact HR
    isplitl [HcS1_9]; · iexact HcS1_9
    isplitl [HO]; · iexact HO
    isplitr; · iexact Hlev
    iexact Hat10
  iintro ⟨HO, Hat10, -⟩
  sl_exec
  iapply (wp_wait_r1 m K c 9 rfl rfl _ _ hAb2) $$ [HcR1_9 HO Hat40]
  · isplitr; · iexact HR
    isplitl [HcR1_9]; · iexact HcR1_9
    isplitl [HO]; · iexact HO
    isplitr; · iexact Hlev
    iexact Hat40
  iintro ⟨HO, Hat40, Hp1⟩
  unfold r1Pay
  icases Hp1 with ⟨Hsl9, Hpk9⟩
  sl_exec
  iapply (wp_wait_s1 m K c 10 rfl rfl _ _ hAb2) $$ [HcS1_10 HO Hat11]
  · isplitr; · iexact HR
    isplitl [HcS1_10]; · iexact HcS1_10
    isplitl [HO]; · iexact HO
    isplitr; · iexact Hlev
    iexact Hat11
  iintro ⟨HO, Hat11, -⟩
  sl_exec
  iapply (wp_wait_r1 m K c 10 rfl rfl _ _ hAb2) $$ [HcR1_10 HO Hat41]
  · isplitr; · iexact HR
    isplitl [HcR1_10]; · iexact HcR1_10
    isplitl [HO]; · iexact HO
    isplitr; · iexact Hlev
    iexact Hat41
  iintro ⟨HO, Hat41, Hp1⟩
  unfold r1Pay
  icases Hp1 with ⟨Hsl10, Hpk10⟩
  sl_exec
  iapply (wp_wait_s1 m K c 11 rfl rfl _ _ hAb2) $$ [HcS1_11 HO Hat12]
  · isplitr; · iexact HR
    isplitl [HcS1_11]; · iexact HcS1_11
    isplitl [HO]; · iexact HO
    isplitr; · iexact Hlev
    iexact Hat12
  iintro ⟨HO, Hat12, -⟩
  sl_exec
  iapply (wp_wait_r1 m K c 11 rfl rfl _ _ hAb2) $$ [HcR1_11 HO Hat42]
  · isplitr; · iexact HR
    isplitl [HcR1_11]; · iexact HcR1_11
    isplitl [HO]; · iexact HO
    isplitr; · iexact Hlev
    iexact Hat42
  iintro ⟨HO, Hat42, Hp1⟩
  unfold r1Pay
  icases Hp1 with ⟨Hsl11, Hpk11⟩
  sl_exec
  iapply (wp_wait_s1 m K c 12 rfl rfl _ _ hAb2) $$ [HcS1_12 HO Hat13]
  · isplitr; · iexact HR
    isplitl [HcS1_12]; · iexact HcS1_12
    isplitl [HO]; · iexact HO
    isplitr; · iexact Hlev
    iexact Hat13
  iintro ⟨HO, Hat13, -⟩
  sl_exec
  iapply (wp_wait_r1 m K c 12 rfl rfl _ _ hAb2) $$ [HcR1_12 HO Hat43]
  · isplitr; · iexact HR
    isplitl [HcR1_12]; · iexact HcR1_12
    isplitl [HO]; · iexact HO
    isplitr; · iexact Hlev
    iexact Hat43
  iintro ⟨HO, Hat43, Hp1⟩
  unfold r1Pay
  icases Hp1 with ⟨Hsl12, Hpk12⟩
  sl_exec
  iapply (wp_wait_s1 m K c 13 rfl rfl _ _ hAb2) $$ [HcS1_13 HO Hat14]
  · isplitr; · iexact HR
    isplitl [HcS1_13]; · iexact HcS1_13
    isplitl [HO]; · iexact HO
    isplitr; · iexact Hlev
    iexact Hat14
  iintro ⟨HO, Hat14, -⟩
  sl_exec
  iapply (wp_wait_r1 m K c 13 rfl rfl _ _ hAb2) $$ [HcR1_13 HO Hat44]
  · isplitr; · iexact HR
    isplitl [HcR1_13]; · iexact HcR1_13
    isplitl [HO]; · iexact HO
    isplitr; · iexact Hlev
    iexact Hat44
  iintro ⟨HO, Hat44, Hp1⟩
  unfold r1Pay
  icases Hp1 with ⟨Hsl13, Hpk13⟩
  sl_exec
  iapply (wp_wait_s1 m K c 14 rfl rfl _ _ hAb2) $$ [HcS1_14 HO Hat15]
  · isplitr; · iexact HR
    isplitl [HcS1_14]; · iexact HcS1_14
    isplitl [HO]; · iexact HO
    isplitr; · iexact Hlev
    iexact Hat15
  iintro ⟨HO, Hat15, -⟩
  sl_exec
  iapply (wp_wait_r1 m K c 14 rfl rfl _ _ hAb2) $$ [HcR1_14 HO Hat45]
  · isplitr; · iexact HR
    isplitl [HcR1_14]; · iexact HcR1_14
    isplitl [HO]; · iexact HO
    isplitr; · iexact Hlev
    iexact Hat45
  iintro ⟨HO, Hat45, Hp1⟩
  unfold r1Pay
  icases Hp1 with ⟨Hsl14, Hpk14⟩
  sl_exec
  have hW' : sound_body.sl.Hown_w1 m c = W' m c := rfl
  ihave Hown := (Entails.of_eq (congrArg (fun f => (View.loc (c : Thread nD τ) (chunk c).view ↦[(chunk c).view.set]{fullShare} f : sProp 𝕄)) hW')) $$ Hown
  ihave Htk := (own_to_tokens c (W' m c)) $$ Hown
  icases Htk with ⟨Hrest, Ht0, Ht1, Ht2, Ht3, Ht4, Ht5, Ht6, Ht7, Ht8, Ht9, Ht10, Ht11, Ht12, Ht13, Ht14⟩
  iapply (wp_send2 m K c _ 0 (dev31_eq c) (read_chunk_W' m c) rfl rfl rfl rfl _ _ _) $$ [Ht0 Hpk0 HO HtS2_0 HtR2_0]
  · isplitr; · iexact HR
    isplitl [Ht0]; · iexact Ht0
    isplitl [Hpk0]; · iexact Hpk0
    isplitl [HO]; · iexact HO
    isplitl [HtS2_0]; · iexact HtS2_0
    iexact HtR2_0
  iintro ⟨HcS2_0, HO⟩
  sl_exec
  iapply (wp_send2 m K c _ 1 (dev32_eq c) (read_chunk_W' m c) rfl rfl rfl rfl _ _ _) $$ [Ht1 Hpk1 HO HtS2_1 HtR2_1]
  · isplitr; · iexact HR
    isplitl [Ht1]; · iexact Ht1
    isplitl [Hpk1]; · iexact Hpk1
    isplitl [HO]; · iexact HO
    isplitl [HtS2_1]; · iexact HtS2_1
    iexact HtR2_1
  iintro ⟨HcS2_1, HO⟩
  sl_exec
  iapply (wp_send2 m K c _ 2 (dev33_eq c) (read_chunk_W' m c) rfl rfl rfl rfl _ _ _) $$ [Ht2 Hpk2 HO HtS2_2 HtR2_2]
  · isplitr; · iexact HR
    isplitl [Ht2]; · iexact Ht2
    isplitl [Hpk2]; · iexact Hpk2
    isplitl [HO]; · iexact HO
    isplitl [HtS2_2]; · iexact HtS2_2
    iexact HtR2_2
  iintro ⟨HcS2_2, HO⟩
  sl_exec
  iapply (wp_send2 m K c _ 3 (dev34_eq c) (read_chunk_W' m c) rfl rfl rfl rfl _ _ _) $$ [Ht3 Hpk3 HO HtS2_3 HtR2_3]
  · isplitr; · iexact HR
    isplitl [Ht3]; · iexact Ht3
    isplitl [Hpk3]; · iexact Hpk3
    isplitl [HO]; · iexact HO
    isplitl [HtS2_3]; · iexact HtS2_3
    iexact HtR2_3
  iintro ⟨HcS2_3, HO⟩
  sl_exec
  iapply (wp_send2 m K c _ 4 (dev35_eq c) (read_chunk_W' m c) rfl rfl rfl rfl _ _ _) $$ [Ht4 Hpk4 HO HtS2_4 HtR2_4]
  · isplitr; · iexact HR
    isplitl [Ht4]; · iexact Ht4
    isplitl [Hpk4]; · iexact Hpk4
    isplitl [HO]; · iexact HO
    isplitl [HtS2_4]; · iexact HtS2_4
    iexact HtR2_4
  iintro ⟨HcS2_4, HO⟩
  sl_exec
  iapply (wp_send2 m K c _ 5 (dev36_eq c) (read_chunk_W' m c) rfl rfl rfl rfl _ _ _) $$ [Ht5 Hpk5 HO HtS2_5 HtR2_5]
  · isplitr; · iexact HR
    isplitl [Ht5]; · iexact Ht5
    isplitl [Hpk5]; · iexact Hpk5
    isplitl [HO]; · iexact HO
    isplitl [HtS2_5]; · iexact HtS2_5
    iexact HtR2_5
  iintro ⟨HcS2_5, HO⟩
  sl_exec
  iapply (wp_send2 m K c _ 6 (dev37_eq c) (read_chunk_W' m c) rfl rfl rfl rfl _ _ _) $$ [Ht6 Hpk6 HO HtS2_6 HtR2_6]
  · isplitr; · iexact HR
    isplitl [Ht6]; · iexact Ht6
    isplitl [Hpk6]; · iexact Hpk6
    isplitl [HO]; · iexact HO
    isplitl [HtS2_6]; · iexact HtS2_6
    iexact HtR2_6
  iintro ⟨HcS2_6, HO⟩
  sl_exec
  iapply (wp_send2 m K c _ 7 (dev38_eq c) (read_chunk_W' m c) rfl rfl rfl rfl _ _ _) $$ [Ht7 Hpk7 HO HtS2_7 HtR2_7]
  · isplitr; · iexact HR
    isplitl [Ht7]; · iexact Ht7
    isplitl [Hpk7]; · iexact Hpk7
    isplitl [HO]; · iexact HO
    isplitl [HtS2_7]; · iexact HtS2_7
    iexact HtR2_7
  iintro ⟨HcS2_7, HO⟩
  sl_exec
  iapply (wp_send2 m K c _ 8 (dev39_eq c) (read_chunk_W' m c) rfl rfl rfl rfl _ _ _) $$ [Ht8 Hpk8 HO HtS2_8 HtR2_8]
  · isplitr; · iexact HR
    isplitl [Ht8]; · iexact Ht8
    isplitl [Hpk8]; · iexact Hpk8
    isplitl [HO]; · iexact HO
    isplitl [HtS2_8]; · iexact HtS2_8
    iexact HtR2_8
  iintro ⟨HcS2_8, HO⟩
  sl_exec
  iapply (wp_send2 m K c _ 9 (dev40_eq c) (read_chunk_W' m c) rfl rfl rfl rfl _ _ _) $$ [Ht9 Hpk9 HO HtS2_9 HtR2_9]
  · isplitr; · iexact HR
    isplitl [Ht9]; · iexact Ht9
    isplitl [Hpk9]; · iexact Hpk9
    isplitl [HO]; · iexact HO
    isplitl [HtS2_9]; · iexact HtS2_9
    iexact HtR2_9
  iintro ⟨HcS2_9, HO⟩
  sl_exec
  iapply (wp_send2 m K c _ 10 (dev41_eq c) (read_chunk_W' m c) rfl rfl rfl rfl _ _ _) $$ [Ht10 Hpk10 HO HtS2_10 HtR2_10]
  · isplitr; · iexact HR
    isplitl [Ht10]; · iexact Ht10
    isplitl [Hpk10]; · iexact Hpk10
    isplitl [HO]; · iexact HO
    isplitl [HtS2_10]; · iexact HtS2_10
    iexact HtR2_10
  iintro ⟨HcS2_10, HO⟩
  sl_exec
  iapply (wp_send2 m K c _ 11 (dev42_eq c) (read_chunk_W' m c) rfl rfl rfl rfl _ _ _) $$ [Ht11 Hpk11 HO HtS2_11 HtR2_11]
  · isplitr; · iexact HR
    isplitl [Ht11]; · iexact Ht11
    isplitl [Hpk11]; · iexact Hpk11
    isplitl [HO]; · iexact HO
    isplitl [HtS2_11]; · iexact HtS2_11
    iexact HtR2_11
  iintro ⟨HcS2_11, HO⟩
  sl_exec
  iapply (wp_send2 m K c _ 12 (dev43_eq c) (read_chunk_W' m c) rfl rfl rfl rfl _ _ _) $$ [Ht12 Hpk12 HO HtS2_12 HtR2_12]
  · isplitr; · iexact HR
    isplitl [Ht12]; · iexact Ht12
    isplitl [Hpk12]; · iexact Hpk12
    isplitl [HO]; · iexact HO
    isplitl [HtS2_12]; · iexact HtS2_12
    iexact HtR2_12
  iintro ⟨HcS2_12, HO⟩
  sl_exec
  iapply (wp_send2 m K c _ 13 (dev44_eq c) (read_chunk_W' m c) rfl rfl rfl rfl _ _ _) $$ [Ht13 Hpk13 HO HtS2_13 HtR2_13]
  · isplitr; · iexact HR
    isplitl [Ht13]; · iexact Ht13
    isplitl [Hpk13]; · iexact Hpk13
    isplitl [HO]; · iexact HO
    isplitl [HtS2_13]; · iexact HtS2_13
    iexact HtR2_13
  iintro ⟨HcS2_13, HO⟩
  sl_exec
  ihave HO := (Entails.of_eq (congrArg (fun O => (owes (c : Thread nD τ) O _ : sProp 𝕄)) (zero_add (tallyAt (r2Cell (peer c 15) 14) () N)).symm)) $$ HO
  iapply (wp_send2 m K c _ 14 (dev45_eq c) (read_chunk_W' m c) rfl rfl rfl rfl _ _ _) $$ [Ht14 Hpk14 HO HtS2_14 HtR2_14]
  · isplitr; · iexact HR
    isplitl [Ht14]; · iexact Ht14
    isplitl [Hpk14]; · iexact Hpk14
    isplitl [HO]; · iexact HO
    isplitl [HtS2_14]; · iexact HtS2_14
    iexact HtR2_14
  iintro ⟨HcS2_14, HO⟩
  sl_exec
  iapply (wp_wait_s2 m K c 0 rfl rfl _ _ (Above.zero 3)) $$ [HcS2_0 HO Hat16]
  · isplitr; · iexact HR
    isplitl [HcS2_0]; · iexact HcS2_0
    isplitl [HO]; · iexact HO
    isplitr; · iexact Hlev
    iexact Hat16
  iintro ⟨HO, Hat16, Ht0⟩
  unfold s2Pay
  sl_exec
  iapply (wp_wait_r2 m K c 0 rfl rfl _ _ (Above.zero 3)) $$ [HcR2_0 HO Hat46]
  · isplitr; · iexact HR
    isplitl [HcR2_0]; · iexact HcR2_0
    isplitl [HO]; · iexact HO
    isplitr; · iexact Hlev
    iexact Hat46
  iintro ⟨HO, Hat46, Hp2⟩
  unfold r2Pay
  icases Hp2 with Hr0
  sl_exec
  iapply (wp_wait_s2 m K c 1 rfl rfl _ _ (Above.zero 3)) $$ [HcS2_1 HO Hat17]
  · isplitr; · iexact HR
    isplitl [HcS2_1]; · iexact HcS2_1
    isplitl [HO]; · iexact HO
    isplitr; · iexact Hlev
    iexact Hat17
  iintro ⟨HO, Hat17, Ht1⟩
  unfold s2Pay
  sl_exec
  iapply (wp_wait_r2 m K c 1 rfl rfl _ _ (Above.zero 3)) $$ [HcR2_1 HO Hat47]
  · isplitr; · iexact HR
    isplitl [HcR2_1]; · iexact HcR2_1
    isplitl [HO]; · iexact HO
    isplitr; · iexact Hlev
    iexact Hat47
  iintro ⟨HO, Hat47, Hp2⟩
  unfold r2Pay
  icases Hp2 with Hr1
  sl_exec
  iapply (wp_wait_s2 m K c 2 rfl rfl _ _ (Above.zero 3)) $$ [HcS2_2 HO Hat18]
  · isplitr; · iexact HR
    isplitl [HcS2_2]; · iexact HcS2_2
    isplitl [HO]; · iexact HO
    isplitr; · iexact Hlev
    iexact Hat18
  iintro ⟨HO, Hat18, Ht2⟩
  unfold s2Pay
  sl_exec
  iapply (wp_wait_r2 m K c 2 rfl rfl _ _ (Above.zero 3)) $$ [HcR2_2 HO Hat48]
  · isplitr; · iexact HR
    isplitl [HcR2_2]; · iexact HcR2_2
    isplitl [HO]; · iexact HO
    isplitr; · iexact Hlev
    iexact Hat48
  iintro ⟨HO, Hat48, Hp2⟩
  unfold r2Pay
  icases Hp2 with Hr2
  sl_exec
  iapply (wp_wait_s2 m K c 3 rfl rfl _ _ (Above.zero 3)) $$ [HcS2_3 HO Hat19]
  · isplitr; · iexact HR
    isplitl [HcS2_3]; · iexact HcS2_3
    isplitl [HO]; · iexact HO
    isplitr; · iexact Hlev
    iexact Hat19
  iintro ⟨HO, Hat19, Ht3⟩
  unfold s2Pay
  sl_exec
  iapply (wp_wait_r2 m K c 3 rfl rfl _ _ (Above.zero 3)) $$ [HcR2_3 HO Hat49]
  · isplitr; · iexact HR
    isplitl [HcR2_3]; · iexact HcR2_3
    isplitl [HO]; · iexact HO
    isplitr; · iexact Hlev
    iexact Hat49
  iintro ⟨HO, Hat49, Hp2⟩
  unfold r2Pay
  icases Hp2 with Hr3
  sl_exec
  iapply (wp_wait_s2 m K c 4 rfl rfl _ _ (Above.zero 3)) $$ [HcS2_4 HO Hat20]
  · isplitr; · iexact HR
    isplitl [HcS2_4]; · iexact HcS2_4
    isplitl [HO]; · iexact HO
    isplitr; · iexact Hlev
    iexact Hat20
  iintro ⟨HO, Hat20, Ht4⟩
  unfold s2Pay
  sl_exec
  iapply (wp_wait_r2 m K c 4 rfl rfl _ _ (Above.zero 3)) $$ [HcR2_4 HO Hat50]
  · isplitr; · iexact HR
    isplitl [HcR2_4]; · iexact HcR2_4
    isplitl [HO]; · iexact HO
    isplitr; · iexact Hlev
    iexact Hat50
  iintro ⟨HO, Hat50, Hp2⟩
  unfold r2Pay
  icases Hp2 with Hr4
  sl_exec
  iapply (wp_wait_s2 m K c 5 rfl rfl _ _ (Above.zero 3)) $$ [HcS2_5 HO Hat21]
  · isplitr; · iexact HR
    isplitl [HcS2_5]; · iexact HcS2_5
    isplitl [HO]; · iexact HO
    isplitr; · iexact Hlev
    iexact Hat21
  iintro ⟨HO, Hat21, Ht5⟩
  unfold s2Pay
  sl_exec
  iapply (wp_wait_r2 m K c 5 rfl rfl _ _ (Above.zero 3)) $$ [HcR2_5 HO Hat51]
  · isplitr; · iexact HR
    isplitl [HcR2_5]; · iexact HcR2_5
    isplitl [HO]; · iexact HO
    isplitr; · iexact Hlev
    iexact Hat51
  iintro ⟨HO, Hat51, Hp2⟩
  unfold r2Pay
  icases Hp2 with Hr5
  sl_exec
  iapply (wp_wait_s2 m K c 6 rfl rfl _ _ (Above.zero 3)) $$ [HcS2_6 HO Hat22]
  · isplitr; · iexact HR
    isplitl [HcS2_6]; · iexact HcS2_6
    isplitl [HO]; · iexact HO
    isplitr; · iexact Hlev
    iexact Hat22
  iintro ⟨HO, Hat22, Ht6⟩
  unfold s2Pay
  sl_exec
  iapply (wp_wait_r2 m K c 6 rfl rfl _ _ (Above.zero 3)) $$ [HcR2_6 HO Hat52]
  · isplitr; · iexact HR
    isplitl [HcR2_6]; · iexact HcR2_6
    isplitl [HO]; · iexact HO
    isplitr; · iexact Hlev
    iexact Hat52
  iintro ⟨HO, Hat52, Hp2⟩
  unfold r2Pay
  icases Hp2 with Hr6
  sl_exec
  iapply (wp_wait_s2 m K c 7 rfl rfl _ _ (Above.zero 3)) $$ [HcS2_7 HO Hat23]
  · isplitr; · iexact HR
    isplitl [HcS2_7]; · iexact HcS2_7
    isplitl [HO]; · iexact HO
    isplitr; · iexact Hlev
    iexact Hat23
  iintro ⟨HO, Hat23, Ht7⟩
  unfold s2Pay
  sl_exec
  iapply (wp_wait_r2 m K c 7 rfl rfl _ _ (Above.zero 3)) $$ [HcR2_7 HO Hat53]
  · isplitr; · iexact HR
    isplitl [HcR2_7]; · iexact HcR2_7
    isplitl [HO]; · iexact HO
    isplitr; · iexact Hlev
    iexact Hat53
  iintro ⟨HO, Hat53, Hp2⟩
  unfold r2Pay
  icases Hp2 with Hr7
  sl_exec
  iapply (wp_wait_s2 m K c 8 rfl rfl _ _ (Above.zero 3)) $$ [HcS2_8 HO Hat24]
  · isplitr; · iexact HR
    isplitl [HcS2_8]; · iexact HcS2_8
    isplitl [HO]; · iexact HO
    isplitr; · iexact Hlev
    iexact Hat24
  iintro ⟨HO, Hat24, Ht8⟩
  unfold s2Pay
  sl_exec
  iapply (wp_wait_r2 m K c 8 rfl rfl _ _ (Above.zero 3)) $$ [HcR2_8 HO Hat54]
  · isplitr; · iexact HR
    isplitl [HcR2_8]; · iexact HcR2_8
    isplitl [HO]; · iexact HO
    isplitr; · iexact Hlev
    iexact Hat54
  iintro ⟨HO, Hat54, Hp2⟩
  unfold r2Pay
  icases Hp2 with Hr8
  sl_exec
  iapply (wp_wait_s2 m K c 9 rfl rfl _ _ (Above.zero 3)) $$ [HcS2_9 HO Hat25]
  · isplitr; · iexact HR
    isplitl [HcS2_9]; · iexact HcS2_9
    isplitl [HO]; · iexact HO
    isplitr; · iexact Hlev
    iexact Hat25
  iintro ⟨HO, Hat25, Ht9⟩
  unfold s2Pay
  sl_exec
  iapply (wp_wait_r2 m K c 9 rfl rfl _ _ (Above.zero 3)) $$ [HcR2_9 HO Hat55]
  · isplitr; · iexact HR
    isplitl [HcR2_9]; · iexact HcR2_9
    isplitl [HO]; · iexact HO
    isplitr; · iexact Hlev
    iexact Hat55
  iintro ⟨HO, Hat55, Hp2⟩
  unfold r2Pay
  icases Hp2 with Hr9
  sl_exec
  iapply (wp_wait_s2 m K c 10 rfl rfl _ _ (Above.zero 3)) $$ [HcS2_10 HO Hat26]
  · isplitr; · iexact HR
    isplitl [HcS2_10]; · iexact HcS2_10
    isplitl [HO]; · iexact HO
    isplitr; · iexact Hlev
    iexact Hat26
  iintro ⟨HO, Hat26, Ht10⟩
  unfold s2Pay
  sl_exec
  iapply (wp_wait_r2 m K c 10 rfl rfl _ _ (Above.zero 3)) $$ [HcR2_10 HO Hat56]
  · isplitr; · iexact HR
    isplitl [HcR2_10]; · iexact HcR2_10
    isplitl [HO]; · iexact HO
    isplitr; · iexact Hlev
    iexact Hat56
  iintro ⟨HO, Hat56, Hp2⟩
  unfold r2Pay
  icases Hp2 with Hr10
  sl_exec
  iapply (wp_wait_s2 m K c 11 rfl rfl _ _ (Above.zero 3)) $$ [HcS2_11 HO Hat27]
  · isplitr; · iexact HR
    isplitl [HcS2_11]; · iexact HcS2_11
    isplitl [HO]; · iexact HO
    isplitr; · iexact Hlev
    iexact Hat27
  iintro ⟨HO, Hat27, Ht11⟩
  unfold s2Pay
  sl_exec
  iapply (wp_wait_r2 m K c 11 rfl rfl _ _ (Above.zero 3)) $$ [HcR2_11 HO Hat57]
  · isplitr; · iexact HR
    isplitl [HcR2_11]; · iexact HcR2_11
    isplitl [HO]; · iexact HO
    isplitr; · iexact Hlev
    iexact Hat57
  iintro ⟨HO, Hat57, Hp2⟩
  unfold r2Pay
  icases Hp2 with Hr11
  sl_exec
  iapply (wp_wait_s2 m K c 12 rfl rfl _ _ (Above.zero 3)) $$ [HcS2_12 HO Hat28]
  · isplitr; · iexact HR
    isplitl [HcS2_12]; · iexact HcS2_12
    isplitl [HO]; · iexact HO
    isplitr; · iexact Hlev
    iexact Hat28
  iintro ⟨HO, Hat28, Ht12⟩
  unfold s2Pay
  sl_exec
  iapply (wp_wait_r2 m K c 12 rfl rfl _ _ (Above.zero 3)) $$ [HcR2_12 HO Hat58]
  · isplitr; · iexact HR
    isplitl [HcR2_12]; · iexact HcR2_12
    isplitl [HO]; · iexact HO
    isplitr; · iexact Hlev
    iexact Hat58
  iintro ⟨HO, Hat58, Hp2⟩
  unfold r2Pay
  icases Hp2 with Hr12
  sl_exec
  iapply (wp_wait_s2 m K c 13 rfl rfl _ _ (Above.zero 3)) $$ [HcS2_13 HO Hat29]
  · isplitr; · iexact HR
    isplitl [HcS2_13]; · iexact HcS2_13
    isplitl [HO]; · iexact HO
    isplitr; · iexact Hlev
    iexact Hat29
  iintro ⟨HO, Hat29, Ht13⟩
  unfold s2Pay
  sl_exec
  iapply (wp_wait_r2 m K c 13 rfl rfl _ _ (Above.zero 3)) $$ [HcR2_13 HO Hat59]
  · isplitr; · iexact HR
    isplitl [HcR2_13]; · iexact HcR2_13
    isplitl [HO]; · iexact HO
    isplitr; · iexact Hlev
    iexact Hat59
  iintro ⟨HO, Hat59, Hp2⟩
  unfold r2Pay
  icases Hp2 with Hr13
  sl_exec
  iapply (wp_wait_s2 m K c 14 rfl rfl _ _ (Above.zero 3)) $$ [HcS2_14 HO Hat30]
  · isplitr; · iexact HR
    isplitl [HcS2_14]; · iexact HcS2_14
    isplitl [HO]; · iexact HO
    isplitr; · iexact Hlev
    iexact Hat30
  iintro ⟨HO, Hat30, Ht14⟩
  unfold s2Pay
  sl_exec
  iapply (wp_wait_r2 m K c 14 rfl rfl _ _ (Above.zero 3)) $$ [HcR2_14 HO Hat60]
  · isplitr; · iexact HR
    isplitl [HcR2_14]; · iexact HcR2_14
    isplitl [HO]; · iexact HO
    isplitr; · iexact Hlev
    iexact Hat60
  iintro ⟨HO, Hat60, Hp2⟩
  unfold r2Pay
  icases Hp2 with Hr14
  ihave Hown := (tokens_to_own c (W' m c)) $$ [Hrest Ht0 Ht1 Ht2 Ht3 Ht4 Ht5 Ht6 Ht7 Ht8 Ht9 Ht10 Ht11 Ht12 Ht13 Ht14]
  · isplitl [Hrest]; · iexact Hrest
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    iexact Ht14
  ihave Hw := (chunks_to_work m c) $$ [Hown Hr0 Hr1 Hr2 Hr3 Hr4 Hr5 Hr6 Hr7 Hr8 Hr9 Hr10 Hr11 Hr12 Hr13 Hr14]
  · isplitl [Hown]; · iexact Hown
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    iexact Hr14
  have ew2 : (((c : Thread nD τ).loc cc0_scratch0) ↦{fullShare} workFinal m : sProp 𝕄) = (View.loc (c : Thread nD τ) (Memref.whole cc0_scratch0 : Memref sig .tc .vmem S512x512 .bf16).view ↦{fullShare} workFinal m) := rfl
  ihave Hw := (Entails.of_eq ew2) $$ Hw
  sl_exec
  ihave Hout := (Entails.of_eq (out_after_store_pt m c g1)) $$ Hout
  ihave Hcm := (slots_to_comm c (fun j : Fin 15 => slotC m c j)) $$ [Hsl0 Hsl1 Hsl2 Hsl3 Hsl4 Hsl5 Hsl6 Hsl7 Hsl8 Hsl9 Hsl10 Hsl11 Hsl12 Hsl13 Hsl14]
  ·
    isplitl [Hsl0]; · iexact Hsl0
    isplitl [Hsl1]; · iexact Hsl1
    isplitl [Hsl2]; · iexact Hsl2
    isplitl [Hsl3]; · iexact Hsl3
    isplitl [Hsl4]; · iexact Hsl4
    isplitl [Hsl5]; · iexact Hsl5
    isplitl [Hsl6]; · iexact Hsl6
    isplitl [Hsl7]; · iexact Hsl7
    isplitl [Hsl8]; · iexact Hsl8
    isplitl [Hsl9]; · iexact Hsl9
    isplitl [Hsl10]; · iexact Hsl10
    isplitl [Hsl11]; · iexact Hsl11
    isplitl [Hsl12]; · iexact Hsl12
    isplitl [Hsl13]; · iexact Hsl13
    iexact Hsl14
  imod (close_cells m K c) $$ [Hat1 Hat2 Hat3 Hat4 Hat5 Hat6 Hat7 Hat8 Hat9 Hat10 Hat11 Hat12 Hat13 Hat14 Hat15 Hat16 Hat17 Hat18 Hat19 Hat20 Hat21 Hat22 Hat23 Hat24 Hat25 Hat26 Hat27 Hat28 Hat29 Hat30 Hat31 Hat32 Hat33 Hat34 Hat35 Hat36 Hat37 Hat38 Hat39 Hat40 Hat41 Hat42 Hat43 Hat44 Hat45 Hat46 Hat47 Hat48 Hat49 Hat50 Hat51 Hat52 Hat53 Hat54 Hat55 Hat56 Hat57 Hat58 Hat59 Hat60] with Hz
  · isplitr; · iexact HR
    iapply (Entails.of_eq (bigSep_fin60 (fun k : Fin 60 => (atPos ER (kcell (c, ⟨k.val + 1, by omega⟩)) 1 ∅ 0 : sProp 𝕄))).symm)
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    isplitl [Hat10]; · iexact Hat10
    isplitl [Hat11]; · iexact Hat11
    isplitl [Hat12]; · iexact Hat12
    isplitl [Hat13]; · iexact Hat13
    isplitl [Hat14]; · iexact Hat14
    isplitl [Hat15]; · iexact Hat15
    isplitl [Hat16]; · iexact Hat16
    isplitl [Hat17]; · iexact Hat17
    isplitl [Hat18]; · iexact Hat18
    isplitl [Hat19]; · iexact Hat19
    isplitl [Hat20]; · iexact Hat20
    isplitl [Hat21]; · iexact Hat21
    isplitl [Hat22]; · iexact Hat22
    isplitl [Hat23]; · iexact Hat23
    isplitl [Hat24]; · iexact Hat24
    isplitl [Hat25]; · iexact Hat25
    isplitl [Hat26]; · iexact Hat26
    isplitl [Hat27]; · iexact Hat27
    isplitl [Hat28]; · iexact Hat28
    isplitl [Hat29]; · iexact Hat29
    isplitl [Hat30]; · iexact Hat30
    isplitl [Hat31]; · iexact Hat31
    isplitl [Hat32]; · iexact Hat32
    isplitl [Hat33]; · iexact Hat33
    isplitl [Hat34]; · iexact Hat34
    isplitl [Hat35]; · iexact Hat35
    isplitl [Hat36]; · iexact Hat36
    isplitl [Hat37]; · iexact Hat37
    isplitl [Hat38]; · iexact Hat38
    isplitl [Hat39]; · iexact Hat39
    isplitl [Hat40]; · iexact Hat40
    isplitl [Hat41]; · iexact Hat41
    isplitl [Hat42]; · iexact Hat42
    isplitl [Hat43]; · iexact Hat43
    isplitl [Hat44]; · iexact Hat44
    isplitl [Hat45]; · iexact Hat45
    isplitl [Hat46]; · iexact Hat46
    isplitl [Hat47]; · iexact Hat47
    isplitl [Hat48]; · iexact Hat48
    isplitl [Hat49]; · iexact Hat49
    isplitl [Hat50]; · iexact Hat50
    isplitl [Hat51]; · iexact Hat51
    isplitl [Hat52]; · iexact Hat52
    isplitl [Hat53]; · iexact Hat53
    isplitl [Hat54]; · iexact Hat54
    isplitl [Hat55]; · iexact Hat55
    isplitl [Hat56]; · iexact Hat56
    isplitl [Hat57]; · iexact Hat57
    isplitl [Hat58]; · iexact Hat58
    isplitl [Hat59]; · iexact Hat59
    iexact Hat60
  sl_step
  iapply Hk
  unfold bodyPost Φ₁ scratch Dat.owesAt Pipeline.owesWithin
  rw [show (dats m 0 c).owed t₀.succ = 0 from rfl]
  isplitl [Hw Hcm Hz]
  · isplitl [Hw Hcm]
    · isplitl [Hw]; · iexists _; iexact Hw
      iexact Hcm
    iexact Hz
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

/-- info: 'Cert.KernelIdeal.RS.sound_body' depends on axioms: [propext, Classical.choice, Quot.sound] -/
#guard_msgs in #print axioms sound_body

end Cert.KernelIdeal.RS

end
-- ==== Proof.KSteps2.lean ====
import proofs.«900470_g7700000000000471_dist_rs_then_ag_i_m512_n512_v7x_i16_f32_1_alg».proof.Proof.Gen.Kernel
import proofs.«900470_g7700000000000471_dist_rs_then_ag_i_m512_n512_v7x_i16_f32_1_alg».proof.Proof.Gen.Kernel.Skeleton
import proofs.«900470_g7700000000000471_dist_rs_then_ag_i_m512_n512_v7x_i16_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.KBodyDefs

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The levels of the cells, by kind -/

theorem lv_bar (a : Dev nD) : lv (barCell a) () = 1 := rfl
theorem lv_s1 (a : Dev nD) (j : Fin 15) : lv (s1Cell a j) () = 2 := by
  show (if 2 + j.val < 2 then 0 else if 2 + j.val < 17 then 2 else if 2 + j.val < 32 then 3 else if 2 + j.val < 47 then 2 else 3) = 2
  rw [if_neg (by omega), if_pos (by omega)]
theorem lv_s2 (a : Dev nD) (j : Fin 15) : lv (s2Cell a j) () = 3 := by
  show (if 17 + j.val < 2 then 0 else if 17 + j.val < 17 then 2 else if 17 + j.val < 32 then 3 else if 17 + j.val < 47 then 2 else 3) = 3
  rw [if_neg (by omega), if_neg (by omega), if_pos (by omega)]
theorem lv_r1 (a : Dev nD) (j : Fin 15) : lv (r1Cell a j) () = 2 := by
  show (if 32 + j.val < 2 then 0 else if 32 + j.val < 17 then 2 else if 32 + j.val < 32 then 3 else if 32 + j.val < 47 then 2 else 3) = 2
  rw [if_neg (by omega), if_neg (by omega), if_neg (by omega), if_pos (by omega)]
theorem lv_r2 (a : Dev nD) (j : Fin 15) : lv (r2Cell a j) () = 3 := by
  show (if 47 + j.val < 2 then 0 else if 47 + j.val < 17 then 2 else if 47 + j.val < 32 then 3 else if 47 + j.val < 47 then 2 else 3) = 3
  rw [if_neg (by omega), if_neg (by omega), if_neg (by omega), if_neg (by omega)]

/-! ## The waits on the own transfer cells, by kind -/

theorem wp_wait_s1 (K : Dev nD × Fin 61 → ℕ) (c : Dev nD) (j : Fin 15) {q : DmaSem sig} (eq : q = dsem (2 + j.val) (by omega))
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above 2 O) :
    iprop(records m K ∗ cred (tallyAt (s1Cell c j) () N) ∗ owes (c : Thread nD τ) O W₀ ∗ levAts L lv ∗ atPos ER (s1Cell c j) 0 ∅ 0)
      ⊢ iprop(((owes (c : Thread nD τ) O (insert (SemLoc.dma q, ()) W₀) ∗ atPos ER (s1Cell c j) 1 ∅ 0 ∗ (iprop(emp) : sProp 𝕄))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  iintro ⟨#HR, Hc, HO, #Hlev, Hat⟩
  iapply (wp_wait_dma m c _ (K (c, kS1 j)) _ (duties_s1 m c j) (payload_s1 m c j 0) (Nat.le_of_eq (lv_s1 c j)) hcr O W₀ hO) $$ [Hc HO Hat]
  isplitr; · iapply (inv_s1 m K); iexact HR
  isplitl [Hc]; · iexact Hc
  isplitl [HO]; · iexact HO
  isplitr; · iexact Hlev
  iexact Hat

/-- info: 'Cert.Kernel.RS.wp_wait_s1' depends on axioms: [propext, Classical.choice, Quot.sound] -/
#guard_msgs in #print axioms wp_wait_s1

theorem wp_wait_r1 (K : Dev nD × Fin 61 → ℕ) (c : Dev nD) (j : Fin 15) {q : DmaSem sig} (eq : q = dsem (32 + j.val) (by omega))
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above 2 O) :
    iprop(records m K ∗ cred (tallyAt (r1Cell c j) () N) ∗ owes (c : Thread nD τ) O W₀ ∗ levAts L lv ∗ atPos ER (r1Cell c j) 0 ∅ 0)
      ⊢ iprop(((owes (c : Thread nD τ) O (insert (SemLoc.dma q, ()) W₀) ∗ atPos ER (r1Cell c j) 1 ∅ 0 ∗ r1Pay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  iintro ⟨#HR, Hc, HO, #Hlev, Hat⟩
  iapply (wp_wait_dma m c _ (K (c, kR1 j)) _ (duties_r1 m c j) (payload_r1 m c j 0) (Nat.le_of_eq (lv_r1 c j)) hcr O W₀ hO) $$ [Hc HO Hat]
  isplitr; · iapply (inv_r1 m K); iexact HR
  isplitl [Hc]; · iexact Hc
  isplitl [HO]; · iexact HO
  isplitr; · iexact Hlev
  iexact Hat

/-- info: 'Cert.Kernel.RS.wp_wait_r1' depends on axioms: [propext, Classical.choice, Quot.sound] -/
#guard_msgs in #print axioms wp_wait_r1

theorem wp_wait_s2 (K : Dev nD × Fin 61 → ℕ) (c : Dev nD) (j : Fin 15) {q : DmaSem sig} (eq : q = dsem (17 + j.val) (by omega))
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above 3 O) :
    iprop(records m K ∗ cred (tallyAt (s2Cell c j) () N) ∗ owes (c : Thread nD τ) O W₀ ∗ levAts L lv ∗ atPos ER (s2Cell c j) 0 ∅ 0)
      ⊢ iprop(((owes (c : Thread nD τ) O (insert (SemLoc.dma q, ()) W₀) ∗ atPos ER (s2Cell c j) 1 ∅ 0 ∗ s2Pay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  iintro ⟨#HR, Hc, HO, #Hlev, Hat⟩
  iapply (wp_wait_dma m c _ (K (c, kS2 j)) _ (duties_s2 m c j) (payload_s2 m c j 0) (Nat.le_of_eq (lv_s2 c j)) hcr O W₀ hO) $$ [Hc HO Hat]
  isplitr; · iapply (inv_s2 m K); iexact HR
  isplitl [Hc]; · iexact Hc
  isplitl [HO]; · iexact HO
  isplitr; · iexact Hlev
  iexact Hat

/-- info: 'Cert.Kernel.RS.wp_wait_s2' depends on axioms: [propext, Classical.choice, Quot.sound] -/
#guard_msgs in #print axioms wp_wait_s2

theorem wp_wait_r2 (K : Dev nD × Fin 61 → ℕ) (c : Dev nD) (j : Fin 15) {q : DmaSem sig} (eq : q = dsem (47 + j.val) (by omega))
    {sp' : Space} {s' : Shape} {e' : EltTy} {src : Memref sig .tc sp' s' e'} {κ' : Kind} {sp : Space} {s : Shape} {e : EltTy} {dst : Memref sig κ' sp s e}
    {hsrc : src.view.WordExact} {hdst : dst.view.WordExact} (hcr : dst.view.dmaCredit = N)
    {α : Type} {Q : α → sProp 𝕄} {k : PUnit → Prog (TpuEff nD τ sig (Elt F) Λ₀ .tc) α}
    (O : CellTallies nD τ sig Unit) (W₀ : Waits sig Unit) (hO : Above 3 O) :
    iprop(records m K ∗ cred (tallyAt (r2Cell c j) () N) ∗ owes (c : Thread nD τ) O W₀ ∗ levAts L lv ∗ atPos ER (r2Cell c j) 0 ∅ 0)
      ⊢ iprop(((owes (c : Thread nD τ) O (insert (SemLoc.dma q, ()) W₀) ∗ atPos ER (r2Cell c j) 1 ∅ 0 ∗ r2Pay m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst eq
  iintro ⟨#HR, Hc, HO, #Hlev, Hat⟩
  iapply (wp_wait_dma m c _ (K (c, kR2 j)) _ (duties_r2 m c j) (payload_r2 m c j 0) (Nat.le_of_eq (lv_r2 c j)) hcr O W₀ hO) $$ [Hc HO Hat]
  isplitr; · iapply (inv_r2 m K); iexact HR
  isplitl [Hc]; · iexact Hc
  isplitl [HO]; · iexact HO
  isplitr; · iexact Hlev
  iexact Hat

/-- info: 'Cert.Kernel.RS.wp_wait_r2' depends on axioms: [propext, Classical.choice, Quot.sound] -/
#guard_msgs in #print axioms wp_wait_r2

end Cert.Kernel.RS

end
-- ==== Proof.KTables.lean ====
import proofs.«900470_g7700000000000471_dist_rs_then_ag_i_m512_n512_v7x_i16_f32_1_alg».proof.Proof.Gen.Kernel
import proofs.«900470_g7700000000000471_dist_rs_then_ag_i_m512_n512_v7x_i16_f32_1_alg».proof.Proof.Gen.Kernel.Skeleton
import proofs.«900470_g7700000000000471_dist_rs_then_ag_i_m512_n512_v7x_i16_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.KSteps2

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The barrier cells' tables as the device that PAYS a duty reads them

Device `c` pays duty `o - 1` of the barrier cell of the device `o` places on. That cell is named here from `c`'s side, and
its table entries are stated in `c`'s own terms: the payload is slot `o - 1` of `c`'s own receive scratch (the device
`15 - (o - 1)` places on from the device `o` places on is `c` again). -/

/-- The barrier cell of the device `o` places on, as the payer names it. -/
def barOf (c : Dev nD) (o : ℕ) : GSem nD τ sig := barCell (peer c o)

theorem payload_barOf_1 (c : Dev nD) : (Rd (F := F) m).payload (barOf c 1) 0 0 = (iprop(∃ f, (slot 0).view.loc (c : Thread nD τ) ↦[(slot 0).view.set]{fullShare} f) : sProp 𝕄) := by
  show barPay (F := F) (peer c 1) 0 = _
  unfold barPay
  have h : peer (peer c 1) (15 - (0 : Fin 15).val) = c := peer_back c 0
  rw [h]
theorem duties_barOf_1 (c : Dev nD) : (Rd (F := F) m).duties (barOf c 1) 0 = Finset.univ := duties_bar m _
theorem amount_barOf_1 (c : Dev nD) (d : Fin 15) : (Rd (F := F) m).amount (barOf c 1) 0 d = 1 := rfl
theorem payload_barOf_2 (c : Dev nD) : (Rd (F := F) m).payload (barOf c 2) 0 1 = (iprop(∃ f, (slot 1).view.loc (c : Thread nD τ) ↦[(slot 1).view.set]{fullShare} f) : sProp 𝕄) := by
  show barPay (F := F) (peer c 2) 1 = _
  unfold barPay
  have h : peer (peer c 2) (15 - (1 : Fin 15).val) = c := peer_back c 1
  rw [h]
theorem duties_barOf_2 (c : Dev nD) : (Rd (F := F) m).duties (barOf c 2) 0 = Finset.univ := duties_bar m _
theorem amount_barOf_2 (c : Dev nD) (d : Fin 15) : (Rd (F := F) m).amount (barOf c 2) 0 d = 1 := rfl
theorem payload_barOf_3 (c : Dev nD) : (Rd (F := F) m).payload (barOf c 3) 0 2 = (iprop(∃ f, (slot 2).view.loc (c : Thread nD τ) ↦[(slot 2).view.set]{fullShare} f) : sProp 𝕄) := by
  show barPay (F := F) (peer c 3) 2 = _
  unfold barPay
  have h : peer (peer c 3) (15 - (2 : Fin 15).val) = c := peer_back c 2
  rw [h]
theorem duties_barOf_3 (c : Dev nD) : (Rd (F := F) m).duties (barOf c 3) 0 = Finset.univ := duties_bar m _
theorem amount_barOf_3 (c : Dev nD) (d : Fin 15) : (Rd (F := F) m).amount (barOf c 3) 0 d = 1 := rfl
theorem payload_barOf_4 (c : Dev nD) : (Rd (F := F) m).payload (barOf c 4) 0 3 = (iprop(∃ f, (slot 3).view.loc (c : Thread nD τ) ↦[(slot 3).view.set]{fullShare} f) : sProp 𝕄) := by
  show barPay (F := F) (peer c 4) 3 = _
  unfold barPay
  have h : peer (peer c 4) (15 - (3 : Fin 15).val) = c := peer_back c 3
  rw [h]
theorem duties_barOf_4 (c : Dev nD) : (Rd (F := F) m).duties (barOf c 4) 0 = Finset.univ := duties_bar m _
theorem amount_barOf_4 (c : Dev nD) (d : Fin 15) : (Rd (F := F) m).amount (barOf c 4) 0 d = 1 := rfl
theorem payload_barOf_5 (c : Dev nD) : (Rd (F := F) m).payload (barOf c 5) 0 4 = (iprop(∃ f, (slot 4).view.loc (c : Thread nD τ) ↦[(slot 4).view.set]{fullShare} f) : sProp 𝕄) := by
  show barPay (F := F) (peer c 5) 4 = _
  unfold barPay
  have h : peer (peer c 5) (15 - (4 : Fin 15).val) = c := peer_back c 4
  rw [h]
theorem duties_barOf_5 (c : Dev nD) : (Rd (F := F) m).duties (barOf c 5) 0 = Finset.univ := duties_bar m _
theorem amount_barOf_5 (c : Dev nD) (d : Fin 15) : (Rd (F := F) m).amount (barOf c 5) 0 d = 1 := rfl
theorem payload_barOf_6 (c : Dev nD) : (Rd (F := F) m).payload (barOf c 6) 0 5 = (iprop(∃ f, (slot 5).view.loc (c : Thread nD τ) ↦[(slot 5).view.set]{fullShare} f) : sProp 𝕄) := by
  show barPay (F := F) (peer c 6) 5 = _
  unfold barPay
  have h : peer (peer c 6) (15 - (5 : Fin 15).val) = c := peer_back c 5
  rw [h]
theorem duties_barOf_6 (c : Dev nD) : (Rd (F := F) m).duties (barOf c 6) 0 = Finset.univ := duties_bar m _
theorem amount_barOf_6 (c : Dev nD) (d : Fin 15) : (Rd (F := F) m).amount (barOf c 6) 0 d = 1 := rfl
theorem payload_barOf_7 (c : Dev nD) : (Rd (F := F) m).payload (barOf c 7) 0 6 = (iprop(∃ f, (slot 6).view.loc (c : Thread nD τ) ↦[(slot 6).view.set]{fullShare} f) : sProp 𝕄) := by
  show barPay (F := F) (peer c 7) 6 = _
  unfold barPay
  have h : peer (peer c 7) (15 - (6 : Fin 15).val) = c := peer_back c 6
  rw [h]
theorem duties_barOf_7 (c : Dev nD) : (Rd (F := F) m).duties (barOf c 7) 0 = Finset.univ := duties_bar m _
theorem amount_barOf_7 (c : Dev nD) (d : Fin 15) : (Rd (F := F) m).amount (barOf c 7) 0 d = 1 := rfl
theorem payload_barOf_8 (c : Dev nD) : (Rd (F := F) m).payload (barOf c 8) 0 7 = (iprop(∃ f, (slot 7).view.loc (c : Thread nD τ) ↦[(slot 7).view.set]{fullShare} f) : sProp 𝕄) := by
  show barPay (F := F) (peer c 8) 7 = _
  unfold barPay
  have h : peer (peer c 8) (15 - (7 : Fin 15).val) = c := peer_back c 7
  rw [h]
theorem duties_barOf_8 (c : Dev nD) : (Rd (F := F) m).duties (barOf c 8) 0 = Finset.univ := duties_bar m _
theorem amount_barOf_8 (c : Dev nD) (d : Fin 15) : (Rd (F := F) m).amount (barOf c 8) 0 d = 1 := rfl
theorem payload_barOf_9 (c : Dev nD) : (Rd (F := F) m).payload (barOf c 9) 0 8 = (iprop(∃ f, (slot 8).view.loc (c : Thread nD τ) ↦[(slot 8).view.set]{fullShare} f) : sProp 𝕄) := by
  show barPay (F := F) (peer c 9) 8 = _
  unfold barPay
  have h : peer (peer c 9) (15 - (8 : Fin 15).val) = c := peer_back c 8
  rw [h]
theorem duties_barOf_9 (c : Dev nD) : (Rd (F := F) m).duties (barOf c 9) 0 = Finset.univ := duties_bar m _
theorem amount_barOf_9 (c : Dev nD) (d : Fin 15) : (Rd (F := F) m).amount (barOf c 9) 0 d = 1 := rfl
theorem payload_barOf_10 (c : Dev nD) : (Rd (F := F) m).payload (barOf c 10) 0 9 = (iprop(∃ f, (slot 9).view.loc (c : Thread nD τ) ↦[(slot 9).view.set]{fullShare} f) : sProp 𝕄) := by
  show barPay (F := F) (peer c 10) 9 = _
  unfold barPay
  have h : peer (peer c 10) (15 - (9 : Fin 15).val) = c := peer_back c 9
  rw [h]
theorem duties_barOf_10 (c : Dev nD) : (Rd (F := F) m).duties (barOf c 10) 0 = Finset.univ := duties_bar m _
theorem amount_barOf_10 (c : Dev nD) (d : Fin 15) : (Rd (F := F) m).amount (barOf c 10) 0 d = 1 := rfl
theorem payload_barOf_11 (c : Dev nD) : (Rd (F := F) m).payload (barOf c 11) 0 10 = (iprop(∃ f, (slot 10).view.loc (c : Thread nD τ) ↦[(slot 10).view.set]{fullShare} f) : sProp 𝕄) := by
  show barPay (F := F) (peer c 11) 10 = _
  unfold barPay
  have h : peer (peer c 11) (15 - (10 : Fin 15).val) = c := peer_back c 10
  rw [h]
theorem duties_barOf_11 (c : Dev nD) : (Rd (F := F) m).duties (barOf c 11) 0 = Finset.univ := duties_bar m _
theorem amount_barOf_11 (c : Dev nD) (d : Fin 15) : (Rd (F := F) m).amount (barOf c 11) 0 d = 1 := rfl
theorem payload_barOf_12 (c : Dev nD) : (Rd (F := F) m).payload (barOf c 12) 0 11 = (iprop(∃ f, (slot 11).view.loc (c : Thread nD τ) ↦[(slot 11).view.set]{fullShare} f) : sProp 𝕄) := by
  show barPay (F := F) (peer c 12) 11 = _
  unfold barPay
  have h : peer (peer c 12) (15 - (11 : Fin 15).val) = c := peer_back c 11
  rw [h]
theorem duties_barOf_12 (c : Dev nD) : (Rd (F := F) m).duties (barOf c 12) 0 = Finset.univ := duties_bar m _
theorem amount_barOf_12 (c : Dev nD) (d : Fin 15) : (Rd (F := F) m).amount (barOf c 12) 0 d = 1 := rfl
theorem payload_barOf_13 (c : Dev nD) : (Rd (F := F) m).payload (barOf c 13) 0 12 = (iprop(∃ f, (slot 12).view.loc (c : Thread nD τ) ↦[(slot 12).view.set]{fullShare} f) : sProp 𝕄) := by
  show barPay (F := F) (peer c 13) 12 = _
  unfold barPay
  have h : peer (peer c 13) (15 - (12 : Fin 15).val) = c := peer_back c 12
  rw [h]
theorem duties_barOf_13 (c : Dev nD) : (Rd (F := F) m).duties (barOf c 13) 0 = Finset.univ := duties_bar m _
theorem amount_barOf_13 (c : Dev nD) (d : Fin 15) : (Rd (F := F) m).amount (barOf c 13) 0 d = 1 := rfl
theorem payload_barOf_14 (c : Dev nD) : (Rd (F := F) m).payload (barOf c 14) 0 13 = (iprop(∃ f, (slot 13).view.loc (c : Thread nD τ) ↦[(slot 13).view.set]{fullShare} f) : sProp 𝕄) := by
  show barPay (F := F) (peer c 14) 13 = _
  unfold barPay
  have h : peer (peer c 14) (15 - (13 : Fin 15).val) = c := peer_back c 13
  rw [h]
theorem duties_barOf_14 (c : Dev nD) : (Rd (F := F) m).duties (barOf c 14) 0 = Finset.univ := duties_bar m _
theorem amount_barOf_14 (c : Dev nD) (d : Fin 15) : (Rd (F := F) m).amount (barOf c 14) 0 d = 1 := rfl
theorem payload_barOf_15 (c : Dev nD) : (Rd (F := F) m).payload (barOf c 15) 0 14 = (iprop(∃ f, (slot 14).view.loc (c : Thread nD τ) ↦[(slot 14).view.set]{fullShare} f) : sProp 𝕄) := by
  show barPay (F := F) (peer c 15) 14 = _
  unfold barPay
  have h : peer (peer c 15) (15 - (14 : Fin 15).val) = c := peer_back c 14
  rw [h]
theorem duties_barOf_15 (c : Dev nD) : (Rd (F := F) m).duties (barOf c 15) 0 = Finset.univ := duties_bar m _
theorem amount_barOf_15 (c : Dev nD) (d : Fin 15) : (Rd (F := F) m).amount (barOf c 15) 0 d = 1 := rfl

/-- The owner's reading of its own barrier cell's payloads: duty `d` brings slot `d` of the device `15 - d` places on. -/
theorem payload_bar_owner (c : Dev nD) (d : Fin 15) : (Rd (F := F) m).payload (barCell c) 0 d = (iprop(∃ f, (slot d).view.loc (peer c (15 - d.val) : Thread nD τ) ↦[(slot d).view.set]{fullShare} f) : sProp 𝕄) := rfl

end Cert.Kernel.RS

end
-- ==== Proof.KCut.lean ====
import proofs.«900470_g7700000000000471_dist_rs_then_ag_i_m512_n512_v7x_i16_f32_1_alg».proof.Proof.KRing
import Idealize.ShloMosaic.Lib.Pipeline.Value

/-! # Cutting the two scratch buffers into the pieces the protocol passes around, and joining them again

Pure separation-logic facts: the fifteen slots tile the receive scratch, the sixteen 32-row chunks tile the work
scratch, the other fifteen devices of the ring are the peers at distances 1 … 15, and a write through a view is
determined on the view's own elements by its payload alone. -/

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Which elements lie in which piece -/

/-- An element of the work scratch lies in chunk `p` exactly when its row is one of the 32 rows from `32 p`. -/
theorem mem_chunk_set (p : Dev nD) (idx : (cc0_scratch0 : Ref sig .tc).ty.Idx) :
    idx ∈ (chunk p).view.set ↔ (idx 0).val / 32 = p.val := by
  have h0 : (idx 0).val < 512 := (idx 0).isLt
  have h1 : (idx 1).val < 512 := (idx 1).isLt
  have hp : p.val < 16 := p.isLt
  rw [View.set_slice_whole, Rect.mem_set_unit, k0_off3_eq]
  constructor
  · intro h
    have a : 32 * p.val ≤ (idx 0).val := (h 0).1
    have b : (idx 0).val < 32 * p.val + 32 := (h 0).2
    omega
  · intro h
    refine Fin.forall_fin_two.mpr ⟨⟨?_, ?_⟩, ⟨Nat.zero_le _, ?_⟩⟩
    · show 32 * p.val ≤ (idx 0).val; omega
    · show (idx 0).val < 32 * p.val + 32; omega
    · show (idx 1).val < 0 + 512; omega

theorem slot_set_eq (j : Fin 15) : (slot j).view.set = (cRect j).set :=
  (View.set_reshape _ _).trans (View.set_slice_whole cc0_scratch1 (cRect j))

/-- An element of the receive scratch lies in slot `j` exactly when its leading coordinate is `j`. -/
theorem mem_slot_set (j : Fin 15) (idx : (cc0_scratch1 : Ref sig .tc).ty.Idx) :
    idx ∈ (slot j).view.set ↔ (idx 0).val = j.val := by
  have h0 : (idx 0).val < 15 := (idx 0).isLt
  have h1 : (idx 1).val < 32 := (idx 1).isLt
  have h2 : (idx 2).val < 512 := (idx 2).isLt
  rw [slot_set_eq, Rect.mem_set_unit]
  constructor
  · intro h
    have a : j.val ≤ (idx 0).val := (h 0).1
    have b : (idx 0).val < j.val + 1 := (h 0).2
    omega
  · intro h
    refine Fin.forall_fin_succ.mpr ⟨⟨?_, ?_⟩, Fin.forall_fin_two.mpr ⟨⟨Nat.zero_le _, ?_⟩, ⟨Nat.zero_le _, ?_⟩⟩⟩
    · show j.val ≤ (idx 0).val; omega
    · show (idx 0).val < j.val + 1; omega
    · show (idx 1).val < 0 + 32; omega
    · show (idx 2).val < 0 + 512; omega

theorem chunk_disjoint (p p' : Dev nD) (h : p ≠ p') : Disjoint (chunk p).view.set (chunk p').view.set :=
  Finset.disjoint_left.mpr fun idx h1 h2 =>
    h (Fin.ext (((mem_chunk_set p idx).mp h1).symm.trans ((mem_chunk_set p' idx).mp h2)))

theorem slot_disjoint (j j' : Fin 15) (h : j ≠ j') : Disjoint (slot j).view.set (slot j').view.set :=
  Finset.disjoint_left.mpr fun idx h1 h2 =>
    h (Fin.ext (((mem_slot_set j idx).mp h1).symm.trans ((mem_slot_set j' idx).mp h2)))

theorem chunk_of (idx : (cc0_scratch0 : Ref sig .tc).ty.Idx) : ∃ p : Dev nD, idx ∈ (chunk p).view.set := by
  have h0 : (idx 0).val < 512 := (idx 0).isLt
  have h16 : (idx 0).val / 32 < 16 := by omega
  exact ⟨⟨(idx 0).val / 32, h16⟩, (mem_chunk_set ⟨(idx 0).val / 32, h16⟩ idx).mpr rfl⟩

theorem chunk_cover : Finset.biUnion (β := (cc0_scratch0 : Ref sig .tc).ty.Idx) (Finset.univ : Finset (Dev nD)) (fun p => (chunk p).view.set) = Finset.univ :=
  Finset.eq_univ_iff_forall.mpr fun idx =>
    let ⟨p, hp⟩ := chunk_of idx
    Finset.mem_biUnion.mpr ⟨p, Finset.mem_univ p, hp⟩

theorem slot_cover : Finset.biUnion (β := (cc0_scratch1 : Ref sig .tc).ty.Idx) (Finset.univ : Finset (Fin 15)) (fun j => (slot j).view.set) = Finset.univ := by
  ext idx
  simp only [Finset.mem_biUnion, Finset.mem_univ, true_and, iff_true]
  have h0 : (idx 0).val < 15 := (idx 0).isLt
  exact ⟨⟨(idx 0).val, h0⟩, (mem_slot_set _ idx).mpr rfl⟩

/-! ## The two buffers as the separating conjunction of their pieces -/

/-- The sixteen 32-row chunks tile the work scratch. -/
theorem work_cut_eq (c : Dev nD) (q : PosShare TreeShare) (f : Buf (Elt F) ((c : Thread nD τ).loc cc0_scratch0)) :
    (((c : Thread nD τ).loc cc0_scratch0) ↦{q} f : sProp 𝕄)
      = bigSep Finset.univ (fun p : Dev nD => (chunk p).view.loc (c : Thread nD τ) ↦[(chunk p).view.set]{q} f) := by
  have h := pointsTo_biUnion (ℓ := (c : Thread nD τ).loc cc0_scratch0) (q := q) (f := f) (Val := Elt F) (Ix := Unit) (Name := ℕ) (U := UU) (Lvl := ℕ)
    (Finset.univ : Finset (Dev nD)) (fun p => (chunk p).view.set) (fun p _ p' _ hne => chunk_disjoint p p' hne)
  exact (congrArg (fun S : Finset (Idx ((c : Thread nD τ).loc cc0_scratch0)) => (((c : Thread nD τ).loc cc0_scratch0) ↦[S]{q} f : sProp 𝕄)) chunk_cover.symm).trans h

theorem work_cut (c : Dev nD) (q : PosShare TreeShare) (f : Buf (Elt F) ((c : Thread nD τ).loc cc0_scratch0)) :
    (((c : Thread nD τ).loc cc0_scratch0) ↦{q} f : sProp 𝕄)
      ⊣⊢ bigSep Finset.univ (fun p : Dev nD => (chunk p).view.loc (c : Thread nD τ) ↦[(chunk p).view.set]{q} f) :=
  ⟨Entails.of_eq (work_cut_eq c q f), Entails.of_eq (work_cut_eq c q f).symm⟩

/-- The fifteen slots tile the receive scratch. -/
theorem comm_cut_eq (c : Dev nD) (q : PosShare TreeShare) (f : Buf (Elt F) ((c : Thread nD τ).loc cc0_scratch1)) :
    (((c : Thread nD τ).loc cc0_scratch1) ↦{q} f : sProp 𝕄)
      = bigSep Finset.univ (fun j : Fin 15 => (slot j).view.loc (c : Thread nD τ) ↦[(slot j).view.set]{q} f) := by
  have h := pointsTo_biUnion (ℓ := (c : Thread nD τ).loc cc0_scratch1) (q := q) (f := f) (Val := Elt F) (Ix := Unit) (Name := ℕ) (U := UU) (Lvl := ℕ)
    (Finset.univ : Finset (Fin 15)) (fun j => (slot j).view.set) (fun j _ j' _ hne => slot_disjoint j j' hne)
  exact (congrArg (fun S : Finset (Idx ((c : Thread nD τ).loc cc0_scratch1)) => (((c : Thread nD τ).loc cc0_scratch1) ↦[S]{q} f : sProp 𝕄)) slot_cover.symm).trans h

theorem comm_cut (c : Dev nD) (f : Buf (Elt F) ((c : Thread nD τ).loc cc0_scratch1)) :
    (((c : Thread nD τ).loc cc0_scratch1) ↦{fullShare} f : sProp 𝕄)
      ⊣⊢ bigSep Finset.univ (fun j : Fin 15 => (slot j).view.loc (c : Thread nD τ) ↦[(slot j).view.set]{fullShare} f) :=
  ⟨Entails.of_eq (comm_cut_eq c fullShare f), Entails.of_eq (comm_cut_eq c fullShare f).symm⟩

/-- Fifteen slots at contents of their own join to the whole receive scratch at some contents. -/
theorem comm_join (c : Dev nD) (g : Fin 15 → Buf (Elt F) ((c : Thread nD τ).loc cc0_scratch1)) :
    bigSep Finset.univ (fun j : Fin 15 => (slot j).view.loc (c : Thread nD τ) ↦[(slot j).view.set]{fullShare} g j)
      ⊢ (iprop(∃ f, ((c : Thread nD τ).loc cc0_scratch1) ↦{fullShare} f) : sProp 𝕄) := by
  have h := pointsTo_biUnion_join (ℓ := (c : Thread nD τ).loc cc0_scratch1) (q := fullShare) (Val := Elt F) (Ix := Unit) (Name := ℕ) (U := UU) (Lvl := ℕ)
    (Finset.univ : Finset (Fin 15)) (fun j => (slot j).view.set) g (g 0) (fun j _ j' _ hne => slot_disjoint j j' hne)
  have e : ∀ f : Buf (Elt F) ((c : Thread nD τ).loc cc0_scratch1),
      (((c : Thread nD τ).loc cc0_scratch1) ↦[Finset.biUnion (β := Idx ((c : Thread nD τ).loc cc0_scratch1)) Finset.univ fun j : Fin 15 => (slot j).view.set]{fullShare} f : sProp 𝕄)
      ⊢ (((c : Thread nD τ).loc cc0_scratch1) ↦{fullShare} f) := fun f => Entails.of_eq
    (congrArg (fun S : Finset (Idx ((c : Thread nD τ).loc cc0_scratch1)) => (((c : Thread nD τ).loc cc0_scratch1) ↦[S]{fullShare} f : sProp 𝕄)) slot_cover)
  refine h.trans ?_
  iintro ⟨%f, -, H⟩
  iexists f
  iapply (e f)
  iexact H

/-! ## The ring seen from one device -/

theorem peer_ne_self (c : Dev nD) {o : ℕ} (h1 : 1 ≤ o) (h2 : o < 16) : peer c o ≠ c := by
  intro h
  have hv : (c.val + o) % 16 = c.val := congrArg Fin.val h
  have h16 : c.val < 16 := c.isLt
  omega

/-- The sixteen devices are `c` and its peers at fifteen different distances between 1 and 15. -/
theorem ring_split_of (c : Dev nD) (g : Fin 15 → ℕ) (hg : ∀ j, 1 ≤ g j ∧ g j < 16) (hinj : Function.Injective g)
    (Φ : Dev nD → sProp 𝕄) :
    bigSep Finset.univ Φ = iprop(Φ c ∗ bigSep Finset.univ (fun j : Fin 15 => Φ (peer c (g j)))) := by
  classical
  let e : Fin 15 ↪ Dev nD := ⟨fun j => peer c (g j), fun a b h => hinj (peer_inj c (hg a).2 (hg b).2 h)⟩
  have hm : (Finset.univ : Finset (Fin 15)).map e = Finset.univ.erase c := by
    apply Finset.eq_of_subset_of_card_le
    · intro p hp
      obtain ⟨j, -, rfl⟩ := Finset.mem_map.mp hp
      exact Finset.mem_erase.mpr ⟨peer_ne_self c (hg j).1 (hg j).2, Finset.mem_univ _⟩
    · rw [Finset.card_map, Finset.card_erase_of_mem (Finset.mem_univ c), Finset.card_univ, Finset.card_univ,
        Fintype.card_fin, Fintype.card_fin]
      decide
  rw [bigSep_univ_split c, ← hm, bigSep_map]
  rfl

/-- The other fifteen devices are `peer c (15 - j)`, `j : Fin 15`. -/
theorem ring_split (c : Dev nD) (Φ : Dev nD → sProp 𝕄) :
    bigSep Finset.univ Φ = iprop(Φ c ∗ bigSep Finset.univ (fun j : Fin 15 => Φ (peer c (15 - j.val)))) :=
  ring_split_of c (fun j => 15 - j.val) (fun j => by have := j.isLt; constructor <;> omega)
    (fun a b h => by have := a.isLt; have := b.isLt; exact Fin.ext (by simp only at h; omega)) Φ

/-- The other fifteen devices are `peer c (j + 1)`, `j : Fin 15`. -/
theorem ring_split' (c : Dev nD) (Φ : Dev nD → sProp 𝕄) :
    bigSep Finset.univ Φ = iprop(Φ c ∗ bigSep Finset.univ (fun j : Fin 15 => Φ (peer c (j.val + 1)))) :=
  ring_split_of c (fun j => j.val + 1) (fun j => by have := j.isLt; constructor <;> omega)
    (fun a b h => by exact Fin.ext (by simp only at h; omega)) Φ

/-! ## A write through a view, on the view's own elements -/

/-- On the view's own elements a full write through it is its payload, whatever it is written over. -/
theorem view_write_congr_on_set {κ : Kind} {sp : Space} {s : Shape} {e : EltTy} (v : View sig κ sp s e)
    (fd fd' : v.ty.Contents (Elt F)) (x : s.Idx → Elt F e) :
    ∀ i ∈ v.set, v.write (Elt F) fd x Finset.univ i = v.write (Elt F) fd' x Finset.univ i := by
  intro i hi
  obtain ⟨y, rfl⟩ := View.exists_emb_of_mem_set v hi
  rw [View.write_emb_of_mem _ _ (Finset.mem_univ y), View.write_emb_of_mem _ _ (Finset.mem_univ y)]

theorem pointsTo_view_write_congr (t : Thread nD τ) {sp : Space} {s : Shape} {e : EltTy} (v : View sig t.2.kind sp s e)
    (q : PosShare TreeShare) (fd fd' : v.ty.Contents (Elt F)) (x : s.Idx → Elt F e) :
    (v.loc t ↦[v.set]{q} v.write (Elt F) fd x Finset.univ : sProp 𝕄)
      = (v.loc t ↦[v.set]{q} v.write (Elt F) fd' x Finset.univ) :=
  pointsTo_congr (view_write_congr_on_set v fd fd' x)

/-! ## The work scratch after the sum is stored, and after the all-gather -/

variable (m : (ℓ : Loc nD τ sig) → Buf (Elt F) ℓ)

/-- The store of the sum goes through chunk `c`'s own view: the two rectangles are the same. -/
theorem W'_eq (c : Dev nD) : W' m c = (chunk c).view.write (Elt F) (W m c) (accOf m c) Finset.univ := by
  have key : ∀ (off : Fin 2 → Nat) (h : ∀ a, off a + S32x512.size a ≤ S512x512.size a), off = k0_off3 c →
      (wM.access (Rect.unit (s := S512x512) off S32x512.size h)).write (Elt F) (W m c) (accOf m c) Finset.univ
        = (chunk c).view.write (Elt F) (W m c) (accOf m c) Finset.univ := by
    intro off h e; subst e; rfl
  exact key _ _ ((k0_off2_eq c).trans (k0_off3_eq c).symm)

theorem read_chunk_W' (c : Dev nD) : (chunk c).view.read (Elt F) (W' m c) = accOf m c := by
  rw [W'_eq]; exact View.read_write_univ _ _

/-- The own chunk after the store, stated canonically. -/
theorem chunk_own (c : Dev nD) :
    ((chunk c).view.loc (c : Thread nD τ) ↦[(chunk c).view.set]{fullShare} W' m c : sProp 𝕄)
      = ((chunk c).view.loc (c : Thread nD τ) ↦[(chunk c).view.set]{fullShare} chunkC m c) := by
  rw [W'_eq]; exact pointsTo_view_write_congr (c : Thread nD τ) (chunk c).view fullShare (W m c) junkW (accOf m c)

/-- On chunk `p`'s elements the final contents are chunk `p`'s canonical contents. -/
theorem workFinal_on_chunk (p : Dev nD) (idx : (cc0_scratch0 : Ref sig .tc).ty.Idx) (h : idx ∈ (chunk p).view.set) :
    chunkC m p idx = workFinal m idx := by
  have hp := (mem_chunk_set p idx).mp h
  have h0 : (idx 0).val < 512 := (idx 0).isLt
  exact (congrArg (fun p' : Dev nD => chunkC m p' idx)
    (Fin.ext hp : (⟨(idx 0).val / 32, by show _ < 16; omega⟩ : Dev nD) = p)).symm

/-- The sixteen chunks, each at its device's sum, are the work scratch at its final contents. -/
theorem work_final_join (c : Dev nD) :
    bigSep Finset.univ (fun p : Dev nD => (chunk p).view.loc (c : Thread nD τ) ↦[(chunk p).view.set]{fullShare} chunkC m p)
      ⊢ (((c : Thread nD τ).loc cc0_scratch0) ↦{fullShare} workFinal m : sProp 𝕄) := by
  rw [work_cut_eq c fullShare (workFinal m)]
  exact Entails.of_eq (bigSep_congr fun p _ => pointsTo_congr (workFinal_on_chunk m p))

/-! ## Loads and stores through the whole buffers at a piece's rectangle -/

/-- A load of slot `j` through the whole receive scratch reads the slot's own elements. -/
theorem slot_load_set (j : Fin 15) : cM.view.setOn (cRect j).toLoadRect.set = (slot j).view.set := by
  rw [slot_set_eq]
  exact Finset.map_refl

theorem slot_load_subset (j : Fin 15) : cM.view.setOn (cRect j).toLoadRect.set ⊆ (slot j).view.set :=
  (slot_load_set j).subset

/-- The rectangle the body loads and stores the own chunk through is chunk `c`'s. -/
theorem rect_off2_set (c : Dev nD) :
    (Rect.unit (s := S512x512) (k0_off2 c) S32x512.size (k0_off2_inb c)).set = (chunk c).view.set := by
  have key : ∀ (off : Fin 2 → Nat) (h : ∀ a, off a + S32x512.size a ≤ S512x512.size a), off = k0_off3 c →
      (Rect.unit (s := S512x512) off S32x512.size h).set = (chunk c).view.set := by
    intro off h e; subst e; exact (View.set_slice_whole cc0_scratch0 _).symm
  exact key _ _ ((k0_off2_eq c).trans (k0_off3_eq c).symm)

theorem chunk_load_set (c : Dev nD) :
    wM.view.setOn (Rect.unit (s := S512x512) (k0_off2 c) S32x512.size (k0_off2_inb c)).toLoadRect.set = (chunk c).view.set := by
  rw [← rect_off2_set]
  exact Finset.map_refl

theorem chunk_load_subset (c : Dev nD) :
    wM.view.setOn (Rect.unit (s := S512x512) (k0_off2 c) S32x512.size (k0_off2_inb c)).toLoadRect.set ⊆ (chunk c).view.set :=
  (chunk_load_set c).subset

theorem chunk_store_set (c : Dev nD) :
    (wM.access (Rect.unit (s := S512x512) (k0_off2 c) S32x512.size (k0_off2_inb c))).setOn Finset.univ = (chunk c).view.set := by
  rw [View.setOn_univ, ← rect_off2_set]
  exact View.set_slice_whole cc0_scratch0 _

theorem chunk_store_subset (c : Dev nD) :
    (wM.access (Rect.unit (s := S512x512) (k0_off2 c) S32x512.size (k0_off2_inb c))).setOn Finset.univ ⊆ (chunk c).view.set :=
  (chunk_store_set c).subset

/-- A full store through that rectangle is a full write through chunk `c`'s view, at every element. -/
theorem chunk_store_write (c : Dev nD) (f : (cc0_scratch0 : Ref sig .tc).ty.Contents (Elt F)) (w : FVec F S32x512 .bf16) :
    (wM.access (Rect.unit (s := S512x512) (k0_off2 c) S32x512.size (k0_off2_inb c))).write (Elt F) f w Finset.univ
      = (chunk c).view.write (Elt F) f w Finset.univ := by
  have key : ∀ (off : Fin 2 → Nat) (h : ∀ a, off a + S32x512.size a ≤ S512x512.size a), off = k0_off3 c →
      (wM.access (Rect.unit (s := S512x512) off S32x512.size h)).write (Elt F) f w Finset.univ
        = (chunk c).view.write (Elt F) f w Finset.univ := by
    intro off h e; subst e; rfl
  exact key _ _ ((k0_off2_eq c).trans (k0_off3_eq c).symm)

theorem chunk_store_eq (c : Dev nD) (f : (cc0_scratch0 : Ref sig .tc).ty.Contents (Elt F)) (w : FVec F S32x512 .bf16) :
    ∀ i ∈ (chunk c).view.set,
      (wM.access (Rect.unit (s := S512x512) (k0_off2 c) S32x512.size (k0_off2_inb c))).write (Elt F) f w Finset.univ i
        = (chunk c).view.write (Elt F) f w Finset.univ i :=
  fun i _ => congrFun (chunk_store_write c f w) i

/-- A piece's location is its whole buffer's. -/
theorem slot_loc (c : Dev nD) (j : Fin 15) : (slot j).view.loc (c : Thread nD τ) = cM.view.loc (c : Thread nD τ) := rfl
theorem chunk_loc (c p : Dev nD) : (chunk p).view.loc (c : Thread nD τ) = wM.view.loc (c : Thread nD τ) := rfl

/-- info: 'Cert.Kernel.RS.work_cut_eq' depends on axioms: [propext, Classical.choice, Quot.sound] -/
#guard_msgs in #print axioms work_cut_eq
/-- info: 'Cert.Kernel.RS.comm_join' depends on axioms: [propext, Classical.choice, Quot.sound] -/
#guard_msgs in #print axioms comm_join
/-- info: 'Cert.Kernel.RS.ring_split' depends on axioms: [propext, Classical.choice, Quot.sound] -/
#guard_msgs in #print axioms ring_split
/-- info: 'Cert.Kernel.RS.work_final_join' depends on axioms: [propext, Classical.choice, Quot.sound] -/
#guard_msgs in #print axioms work_final_join
/-- info: 'Cert.Kernel.RS.chunk_own' depends on axioms: [propext, Classical.choice, Quot.sound] -/
#guard_msgs in #print axioms chunk_own

end Cert.Kernel.RS

end
-- ==== Proof.KGlue.lean ====
import proofs.«900470_g7700000000000471_dist_rs_then_ag_i_m512_n512_v7x_i16_f32_1_alg».proof.Proof.KCut
import proofs.«900470_g7700000000000471_dist_rs_then_ag_i_m512_n512_v7x_i16_f32_1_alg».proof.Proof.KBodyDefs

/-! # The cuts of the two scratch buffers, written out piece by piece

Each statement is one entailment between a whole buffer (or a whole chunk) and the separating conjunction of its
fifteen or sixteen pieces, the pieces in the order of their numbers. -/

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A conjunction over the sixteen devices, written out from device `c`: `c` itself, then its peers at distances 15, 14, …, 1. -/
theorem ring_chain (c : Dev nD) (Φ : Dev nD → sProp 𝕄) :
    bigSep Finset.univ Φ = iprop(Φ c
      ∗ Φ (peer c (15 - (0 : Fin 15).val))
      ∗ Φ (peer c (15 - (1 : Fin 15).val))
      ∗ Φ (peer c (15 - (2 : Fin 15).val))
      ∗ Φ (peer c (15 - (3 : Fin 15).val))
      ∗ Φ (peer c (15 - (4 : Fin 15).val))
      ∗ Φ (peer c (15 - (5 : Fin 15).val))
      ∗ Φ (peer c (15 - (6 : Fin 15).val))
      ∗ Φ (peer c (15 - (7 : Fin 15).val))
      ∗ Φ (peer c (15 - (8 : Fin 15).val))
      ∗ Φ (peer c (15 - (9 : Fin 15).val))
      ∗ Φ (peer c (15 - (10 : Fin 15).val))
      ∗ Φ (peer c (15 - (11 : Fin 15).val))
      ∗ Φ (peer c (15 - (12 : Fin 15).val))
      ∗ Φ (peer c (15 - (13 : Fin 15).val))
      ∗ Φ (peer c (15 - (14 : Fin 15).val))) := by
  rw [ring_split c Φ, bigSep_fin15]

/-- The receive scratch as its fifteen slots. -/
theorem comm_to_slots (c : Dev nD) (f : Buf (Elt F) ((c : Thread nD τ).loc cc0_scratch1)) :
    (((c : Thread nD τ).loc cc0_scratch1) ↦{fullShare} f : sProp 𝕄) ⊢ iprop(
      ((slot (0 : Fin 15)).view.loc (c : Thread nD τ) ↦[(slot (0 : Fin 15)).view.set]{fullShare} f)
      ∗ ((slot (1 : Fin 15)).view.loc (c : Thread nD τ) ↦[(slot (1 : Fin 15)).view.set]{fullShare} f)
      ∗ ((slot (2 : Fin 15)).view.loc (c : Thread nD τ) ↦[(slot (2 : Fin 15)).view.set]{fullShare} f)
      ∗ ((slot (3 : Fin 15)).view.loc (c : Thread nD τ) ↦[(slot (3 : Fin 15)).view.set]{fullShare} f)
      ∗ ((slot (4 : Fin 15)).view.loc (c : Thread nD τ) ↦[(slot (4 : Fin 15)).view.set]{fullShare} f)
      ∗ ((slot (5 : Fin 15)).view.loc (c : Thread nD τ) ↦[(slot (5 : Fin 15)).view.set]{fullShare} f)
      ∗ ((slot (6 : Fin 15)).view.loc (c : Thread nD τ) ↦[(slot (6 : Fin 15)).view.set]{fullShare} f)
      ∗ ((slot (7 : Fin 15)).view.loc (c : Thread nD τ) ↦[(slot (7 : Fin 15)).view.set]{fullShare} f)
      ∗ ((slot (8 : Fin 15)).view.loc (c : Thread nD τ) ↦[(slot (8 : Fin 15)).view.set]{fullShare} f)
      ∗ ((slot (9 : Fin 15)).view.loc (c : Thread nD τ) ↦[(slot (9 : Fin 15)).view.set]{fullShare} f)
      ∗ ((slot (10 : Fin 15)).view.loc (c : Thread nD τ) ↦[(slot (10 : Fin 15)).view.set]{fullShare} f)
      ∗ ((slot (11 : Fin 15)).view.loc (c : Thread nD τ) ↦[(slot (11 : Fin 15)).view.set]{fullShare} f)
      ∗ ((slot (12 : Fin 15)).view.loc (c : Thread nD τ) ↦[(slot (12 : Fin 15)).view.set]{fullShare} f)
      ∗ ((slot (13 : Fin 15)).view.loc (c : Thread nD τ) ↦[(slot (13 : Fin 15)).view.set]{fullShare} f)
      ∗ ((slot (14 : Fin 15)).view.loc (c : Thread nD τ) ↦[(slot (14 : Fin 15)).view.set]{fullShare} f)) :=
  Entails.of_eq ((comm_cut_eq c fullShare f).trans (bigSep_fin15 _))

/-- Fifteen slots, each at contents of its own, as the receive scratch at some contents. -/
theorem slots_to_comm (c : Dev nD) (g : Fin 15 → Buf (Elt F) ((c : Thread nD τ).loc cc0_scratch1)) :
    (iprop(
      ((slot (0 : Fin 15)).view.loc (c : Thread nD τ) ↦[(slot (0 : Fin 15)).view.set]{fullShare} g (0 : Fin 15))
      ∗ ((slot (1 : Fin 15)).view.loc (c : Thread nD τ) ↦[(slot (1 : Fin 15)).view.set]{fullShare} g (1 : Fin 15))
      ∗ ((slot (2 : Fin 15)).view.loc (c : Thread nD τ) ↦[(slot (2 : Fin 15)).view.set]{fullShare} g (2 : Fin 15))
      ∗ ((slot (3 : Fin 15)).view.loc (c : Thread nD τ) ↦[(slot (3 : Fin 15)).view.set]{fullShare} g (3 : Fin 15))
      ∗ ((slot (4 : Fin 15)).view.loc (c : Thread nD τ) ↦[(slot (4 : Fin 15)).view.set]{fullShare} g (4 : Fin 15))
      ∗ ((slot (5 : Fin 15)).view.loc (c : Thread nD τ) ↦[(slot (5 : Fin 15)).view.set]{fullShare} g (5 : Fin 15))
      ∗ ((slot (6 : Fin 15)).view.loc (c : Thread nD τ) ↦[(slot (6 : Fin 15)).view.set]{fullShare} g (6 : Fin 15))
      ∗ ((slot (7 : Fin 15)).view.loc (c : Thread nD τ) ↦[(slot (7 : Fin 15)).view.set]{fullShare} g (7 : Fin 15))
      ∗ ((slot (8 : Fin 15)).view.loc (c : Thread nD τ) ↦[(slot (8 : Fin 15)).view.set]{fullShare} g (8 : Fin 15))
      ∗ ((slot (9 : Fin 15)).view.loc (c : Thread nD τ) ↦[(slot (9 : Fin 15)).view.set]{fullShare} g (9 : Fin 15))
      ∗ ((slot (10 : Fin 15)).view.loc (c : Thread nD τ) ↦[(slot (10 : Fin 15)).view.set]{fullShare} g (10 : Fin 15))
      ∗ ((slot (11 : Fin 15)).view.loc (c : Thread nD τ) ↦[(slot (11 : Fin 15)).view.set]{fullShare} g (11 : Fin 15))
      ∗ ((slot (12 : Fin 15)).view.loc (c : Thread nD τ) ↦[(slot (12 : Fin 15)).view.set]{fullShare} g (12 : Fin 15))
      ∗ ((slot (13 : Fin 15)).view.loc (c : Thread nD τ) ↦[(slot (13 : Fin 15)).view.set]{fullShare} g (13 : Fin 15))
      ∗ ((slot (14 : Fin 15)).view.loc (c : Thread nD τ) ↦[(slot (14 : Fin 15)).view.set]{fullShare} g (14 : Fin 15))) : sProp 𝕄)
      ⊢ iprop(∃ f, ((c : Thread nD τ).loc cc0_scratch1) ↦{fullShare} f) :=
  (Entails.of_eq (bigSep_fin15 (fun j : Fin 15 => ((slot j).view.loc (c : Thread nD τ) ↦[(slot j).view.set]{fullShare} g j : sProp 𝕄))).symm).trans
    (comm_join c g)

/-- The work scratch as the device's own chunk and the fifteen others', in the order their landings are awaited. -/
theorem work_to_chunks (c : Dev nD) (f : Buf (Elt F) ((c : Thread nD τ).loc cc0_scratch0)) :
    (((c : Thread nD τ).loc cc0_scratch0) ↦{fullShare} f : sProp 𝕄) ⊢ iprop(
      ((chunk c).view.loc (c : Thread nD τ) ↦[(chunk c).view.set]{fullShare} f)
      ∗ ((chunk (peer c (15 - (0 : Fin 15).val))).view.loc (c : Thread nD τ) ↦[(chunk (peer c (15 - (0 : Fin 15).val))).view.set]{fullShare} f)
      ∗ ((chunk (peer c (15 - (1 : Fin 15).val))).view.loc (c : Thread nD τ) ↦[(chunk (peer c (15 - (1 : Fin 15).val))).view.set]{fullShare} f)
      ∗ ((chunk (peer c (15 - (2 : Fin 15).val))).view.loc (c : Thread nD τ) ↦[(chunk (peer c (15 - (2 : Fin 15).val))).view.set]{fullShare} f)
      ∗ ((chunk (peer c (15 - (3 : Fin 15).val))).view.loc (c : Thread nD τ) ↦[(chunk (peer c (15 - (3 : Fin 15).val))).view.set]{fullShare} f)
      ∗ ((chunk (peer c (15 - (4 : Fin 15).val))).view.loc (c : Thread nD τ) ↦[(chunk (peer c (15 - (4 : Fin 15).val))).view.set]{fullShare} f)
      ∗ ((chunk (peer c (15 - (5 : Fin 15).val))).view.loc (c : Thread nD τ) ↦[(chunk (peer c (15 - (5 : Fin 15).val))).view.set]{fullShare} f)
      ∗ ((chunk (peer c (15 - (6 : Fin 15).val))).view.loc (c : Thread nD τ) ↦[(chunk (peer c (15 - (6 : Fin 15).val))).view.set]{fullShare} f)
      ∗ ((chunk (peer c (15 - (7 : Fin 15).val))).view.loc (c : Thread nD τ) ↦[(chunk (peer c (15 - (7 : Fin 15).val))).view.set]{fullShare} f)
      ∗ ((chunk (peer c (15 - (8 : Fin 15).val))).view.loc (c : Thread nD τ) ↦[(chunk (peer c (15 - (8 : Fin 15).val))).view.set]{fullShare} f)
      ∗ ((chunk (peer c (15 - (9 : Fin 15).val))).view.loc (c : Thread nD τ) ↦[(chunk (peer c (15 - (9 : Fin 15).val))).view.set]{fullShare} f)
      ∗ ((chunk (peer c (15 - (10 : Fin 15).val))).view.loc (c : Thread nD τ) ↦[(chunk (peer c (15 - (10 : Fin 15).val))).view.set]{fullShare} f)
      ∗ ((chunk (peer c (15 - (11 : Fin 15).val))).view.loc (c : Thread nD τ) ↦[(chunk (peer c (15 - (11 : Fin 15).val))).view.set]{fullShare} f)
      ∗ ((chunk (peer c (15 - (12 : Fin 15).val))).view.loc (c : Thread nD τ) ↦[(chunk (peer c (15 - (12 : Fin 15).val))).view.set]{fullShare} f)
      ∗ ((chunk (peer c (15 - (13 : Fin 15).val))).view.loc (c : Thread nD τ) ↦[(chunk (peer c (15 - (13 : Fin 15).val))).view.set]{fullShare} f)
      ∗ ((chunk (peer c (15 - (14 : Fin 15).val))).view.loc (c : Thread nD τ) ↦[(chunk (peer c (15 - (14 : Fin 15).val))).view.set]{fullShare} f)) :=
  Entails.of_eq ((work_cut_eq c fullShare f).trans
    (ring_chain c (fun p : Dev nD => ((chunk p).view.loc (c : Thread nD τ) ↦[(chunk p).view.set]{fullShare} f : sProp 𝕄))))

variable (m : (ℓ : Loc nD τ sig) → Buf (Elt F) ℓ)

/-- The own chunk after the store and the fifteen landed chunks are the work scratch at its final contents. -/
theorem chunks_to_work (c : Dev nD) :
    (iprop(
      ((chunk c).view.loc (c : Thread nD τ) ↦[(chunk c).view.set]{fullShare} W' m c)
      ∗ ((chunk (peer c (15 - (0 : Fin 15).val))).view.loc (c : Thread nD τ) ↦[(chunk (peer c (15 - (0 : Fin 15).val))).view.set]{fullShare} chunkC m (peer c (15 - (0 : Fin 15).val)))
      ∗ ((chunk (peer c (15 - (1 : Fin 15).val))).view.loc (c : Thread nD τ) ↦[(chunk (peer c (15 - (1 : Fin 15).val))).view.set]{fullShare} chunkC m (peer c (15 - (1 : Fin 15).val)))
      ∗ ((chunk (peer c (15 - (2 : Fin 15).val))).view.loc (c : Thread nD τ) ↦[(chunk (peer c (15 - (2 : Fin 15).val))).view.set]{fullShare} chunkC m (peer c (15 - (2 : Fin 15).val)))
      ∗ ((chunk (peer c (15 - (3 : Fin 15).val))).view.loc (c : Thread nD τ) ↦[(chunk (peer c (15 - (3 : Fin 15).val))).view.set]{fullShare} chunkC m (peer c (15 - (3 : Fin 15).val)))
      ∗ ((chunk (peer c (15 - (4 : Fin 15).val))).view.loc (c : Thread nD τ) ↦[(chunk (peer c (15 - (4 : Fin 15).val))).view.set]{fullShare} chunkC m (peer c (15 - (4 : Fin 15).val)))
      ∗ ((chunk (peer c (15 - (5 : Fin 15).val))).view.loc (c : Thread nD τ) ↦[(chunk (peer c (15 - (5 : Fin 15).val))).view.set]{fullShare} chunkC m (peer c (15 - (5 : Fin 15).val)))
      ∗ ((chunk (peer c (15 - (6 : Fin 15).val))).view.loc (c : Thread nD τ) ↦[(chunk (peer c (15 - (6 : Fin 15).val))).view.set]{fullShare} chunkC m (peer c (15 - (6 : Fin 15).val)))
      ∗ ((chunk (peer c (15 - (7 : Fin 15).val))).view.loc (c : Thread nD τ) ↦[(chunk (peer c (15 - (7 : Fin 15).val))).view.set]{fullShare} chunkC m (peer c (15 - (7 : Fin 15).val)))
      ∗ ((chunk (peer c (15 - (8 : Fin 15).val))).view.loc (c : Thread nD τ) ↦[(chunk (peer c (15 - (8 : Fin 15).val))).view.set]{fullShare} chunkC m (peer c (15 - (8 : Fin 15).val)))
      ∗ ((chunk (peer c (15 - (9 : Fin 15).val))).view.loc (c : Thread nD τ) ↦[(chunk (peer c (15 - (9 : Fin 15).val))).view.set]{fullShare} chunkC m (peer c (15 - (9 : Fin 15).val)))
      ∗ ((chunk (peer c (15 - (10 : Fin 15).val))).view.loc (c : Thread nD τ) ↦[(chunk (peer c (15 - (10 : Fin 15).val))).view.set]{fullShare} chunkC m (peer c (15 - (10 : Fin 15).val)))
      ∗ ((chunk (peer c (15 - (11 : Fin 15).val))).view.loc (c : Thread nD τ) ↦[(chunk (peer c (15 - (11 : Fin 15).val))).view.set]{fullShare} chunkC m (peer c (15 - (11 : Fin 15).val)))
      ∗ ((chunk (peer c (15 - (12 : Fin 15).val))).view.loc (c : Thread nD τ) ↦[(chunk (peer c (15 - (12 : Fin 15).val))).view.set]{fullShare} chunkC m (peer c (15 - (12 : Fin 15).val)))
      ∗ ((chunk (peer c (15 - (13 : Fin 15).val))).view.loc (c : Thread nD τ) ↦[(chunk (peer c (15 - (13 : Fin 15).val))).view.set]{fullShare} chunkC m (peer c (15 - (13 : Fin 15).val)))
      ∗ ((chunk (peer c (15 - (14 : Fin 15).val))).view.loc (c : Thread nD τ) ↦[(chunk (peer c (15 - (14 : Fin 15).val))).view.set]{fullShare} chunkC m (peer c (15 - (14 : Fin 15).val)))) : sProp 𝕄)
      ⊢ (((c : Thread nD τ).loc cc0_scratch0) ↦{fullShare} workFinal m) := by
  rw [chunk_own m c]
  exact (Entails.of_eq (ring_chain c
    (fun p : Dev nD => ((chunk p).view.loc (c : Thread nD τ) ↦[(chunk p).view.set]{fullShare} chunkC m p : sProp 𝕄))).symm).trans
    (work_final_join m c)

/-- The own chunk split into the share the device keeps and one read share per copy of the all-gather. -/
theorem own_to_tokens (c : Dev nD) (f : Buf (Elt F) ((c : Thread nD τ).loc cc0_scratch0)) :
    ((chunk c).view.loc (c : Thread nD τ) ↦[(chunk c).view.set]{fullShare} f : sProp 𝕄) ⊢ iprop(
      ((chunk c).view.loc (c : Thread nD τ) ↦[(chunk c).view.set]{Transfers.shareDrop fullShare 15} f)
      ∗ ((chunk c).view.loc (c : Thread nD τ) ↦[(chunk c).view.set]{Transfers.shareTok fullShare 15 (0 : Fin 15)} f)
      ∗ ((chunk c).view.loc (c : Thread nD τ) ↦[(chunk c).view.set]{Transfers.shareTok fullShare 15 (1 : Fin 15)} f)
      ∗ ((chunk c).view.loc (c : Thread nD τ) ↦[(chunk c).view.set]{Transfers.shareTok fullShare 15 (2 : Fin 15)} f)
      ∗ ((chunk c).view.loc (c : Thread nD τ) ↦[(chunk c).view.set]{Transfers.shareTok fullShare 15 (3 : Fin 15)} f)
      ∗ ((chunk c).view.loc (c : Thread nD τ) ↦[(chunk c).view.set]{Transfers.shareTok fullShare 15 (4 : Fin 15)} f)
      ∗ ((chunk c).view.loc (c : Thread nD τ) ↦[(chunk c).view.set]{Transfers.shareTok fullShare 15 (5 : Fin 15)} f)
      ∗ ((chunk c).view.loc (c : Thread nD τ) ↦[(chunk c).view.set]{Transfers.shareTok fullShare 15 (6 : Fin 15)} f)
      ∗ ((chunk c).view.loc (c : Thread nD τ) ↦[(chunk c).view.set]{Transfers.shareTok fullShare 15 (7 : Fin 15)} f)
      ∗ ((chunk c).view.loc (c : Thread nD τ) ↦[(chunk c).view.set]{Transfers.shareTok fullShare 15 (8 : Fin 15)} f)
      ∗ ((chunk c).view.loc (c : Thread nD τ) ↦[(chunk c).view.set]{Transfers.shareTok fullShare 15 (9 : Fin 15)} f)
      ∗ ((chunk c).view.loc (c : Thread nD τ) ↦[(chunk c).view.set]{Transfers.shareTok fullShare 15 (10 : Fin 15)} f)
      ∗ ((chunk c).view.loc (c : Thread nD τ) ↦[(chunk c).view.set]{Transfers.shareTok fullShare 15 (11 : Fin 15)} f)
      ∗ ((chunk c).view.loc (c : Thread nD τ) ↦[(chunk c).view.set]{Transfers.shareTok fullShare 15 (12 : Fin 15)} f)
      ∗ ((chunk c).view.loc (c : Thread nD τ) ↦[(chunk c).view.set]{Transfers.shareTok fullShare 15 (13 : Fin 15)} f)
      ∗ ((chunk c).view.loc (c : Thread nD τ) ↦[(chunk c).view.set]{Transfers.shareTok fullShare 15 (14 : Fin 15)} f)) := by
  refine (Transfers.pointsTo_toks_split fullShare 15).trans (Entails.of_eq ?_)
  rw [bigSep_fin15]

/-- The share kept and the fifteen read shares are the own chunk again. -/
theorem tokens_to_own (c : Dev nD) (f : Buf (Elt F) ((c : Thread nD τ).loc cc0_scratch0)) :
    (iprop(
      ((chunk c).view.loc (c : Thread nD τ) ↦[(chunk c).view.set]{Transfers.shareDrop fullShare 15} f)
      ∗ ((chunk c).view.loc (c : Thread nD τ) ↦[(chunk c).view.set]{Transfers.shareTok fullShare 15 (0 : Fin 15)} f)
      ∗ ((chunk c).view.loc (c : Thread nD τ) ↦[(chunk c).view.set]{Transfers.shareTok fullShare 15 (1 : Fin 15)} f)
      ∗ ((chunk c).view.loc (c : Thread nD τ) ↦[(chunk c).view.set]{Transfers.shareTok fullShare 15 (2 : Fin 15)} f)
      ∗ ((chunk c).view.loc (c : Thread nD τ) ↦[(chunk c).view.set]{Transfers.shareTok fullShare 15 (3 : Fin 15)} f)
      ∗ ((chunk c).view.loc (c : Thread nD τ) ↦[(chunk c).view.set]{Transfers.shareTok fullShare 15 (4 : Fin 15)} f)
      ∗ ((chunk c).view.loc (c : Thread nD τ) ↦[(chunk c).view.set]{Transfers.shareTok fullShare 15 (5 : Fin 15)} f)
      ∗ ((chunk c).view.loc (c : Thread nD τ) ↦[(chunk c).view.set]{Transfers.shareTok fullShare 15 (6 : Fin 15)} f)
      ∗ ((chunk c).view.loc (c : Thread nD τ) ↦[(chunk c).view.set]{Transfers.shareTok fullShare 15 (7 : Fin 15)} f)
      ∗ ((chunk c).view.loc (c : Thread nD τ) ↦[(chunk c).view.set]{Transfers.shareTok fullShare 15 (8 : Fin 15)} f)
      ∗ ((chunk c).view.loc (c : Thread nD τ) ↦[(chunk c).view.set]{Transfers.shareTok fullShare 15 (9 : Fin 15)} f)
      ∗ ((chunk c).view.loc (c : Thread nD τ) ↦[(chunk c).view.set]{Transfers.shareTok fullShare 15 (10 : Fin 15)} f)
      ∗ ((chunk c).view.loc (c : Thread nD τ) ↦[(chunk c).view.set]{Transfers.shareTok fullShare 15 (11 : Fin 15)} f)
      ∗ ((chunk c).view.loc (c : Thread nD τ) ↦[(chunk c).view.set]{Transfers.shareTok fullShare 15 (12 : Fin 15)} f)
      ∗ ((chunk c).view.loc (c : Thread nD τ) ↦[(chunk c).view.set]{Transfers.shareTok fullShare 15 (13 : Fin 15)} f)
      ∗ ((chunk c).view.loc (c : Thread nD τ) ↦[(chunk c).view.set]{Transfers.shareTok fullShare 15 (14 : Fin 15)} f)) : sProp 𝕄)
      ⊢ ((chunk c).view.loc (c : Thread nD τ) ↦[(chunk c).view.set]{fullShare} f) := by
  refine (Entails.of_eq ?_).trans (Transfers.pointsTo_toks_join fullShare 15)
  rw [bigSep_fin15]

/-- info: 'Cert.Kernel.RS.chunks_to_work' depends on axioms: [propext, Classical.choice, Quot.sound] -/
#guard_msgs in #print axioms chunks_to_work
/-- info: 'Cert.Kernel.RS.slots_to_comm' depends on axioms: [propext, Classical.choice, Quot.sound] -/
#guard_msgs in #print axioms slots_to_comm
/-- info: 'Cert.Kernel.RS.tokens_to_own' depends on axioms: [propext, Classical.choice, Quot.sound] -/
#guard_msgs in #print axioms tokens_to_own

end Cert.Kernel.RS

end
-- ==== Proof.KGlue2.lean ====
import proofs.«900470_g7700000000000471_dist_rs_then_ag_i_m512_n512_v7x_i16_f32_1_alg».proof.Proof.KRing
import Idealize.ShloMosaic.Lib.Writes

/-! # The two whole-buffer stores read back

A load of a whole buffer through the rectangle of its own sizes at zero offsets reads its contents, and one full store
through that rectangle leaves the payload: so the work scratch after the first store is the block in the narrower
format, and the result's staging buffer after the last store is the widened final work scratch. -/

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

theorem zero_off2 : (![0, 0] : Fin 2 → Nat) = fun _ => 0 := by
  funext a; fin_cases a <;> rfl

/-- The work scratch after the first store. -/
theorem work_after_store (c : Dev nD) (fw : Buf (Elt F) ((c : Thread nD τ).loc cc0_scratch0)) :
    (Memref.whole cc0_scratch0 : Memref sig .tc .vmem S512x512 .bf16).view.writes (Elt F) fw
      [⟨(Rect.unit (s := S512x512) ![0, 0] S512x512.size inb_S512x512_S512x512_0_0),
        k0_pay2 ((Memref.whole cc0_stg0_0 : Memref sig .tc .vmem S512x512 .f32).view.readAt (Elt F) (Rect.unit (s := S512x512) ![0, 0] S512x512.size inb_S512x512_S512x512_0_0).toLoadRect (xstg m c))⟩] = W m c := by
  have hr : (Memref.whole cc0_stg0_0 : Memref sig .tc .vmem S512x512 .f32).view.readAt (Elt F) (Rect.unit (s := S512x512) ![0, 0] S512x512.size inb_S512x512_S512x512_0_0).toLoadRect (xstg m c)
      = xstg m c := Memref.readAt_unit_zero (Elt F) cc0_stg0_0 zero_off2 _ (xstg m c)
  rw [hr, View.writes_singleton]
  show _ = k0_pay2 (xstg m c)
  exact Memref.write_access_unit_zero_univ (Elt F) cc0_scratch0 zero_off2 inb_S512x512_S512x512_0_0 fw (k0_pay2 (xstg m c))

/-- The result's staging buffer after the last store. -/
theorem out_after_store (c : Dev nD) (g1 : Buf (Elt F) ((c : Thread nD τ).loc cc0_stg1_0)) :
    (Memref.whole cc0_stg1_0 : Memref sig .tc .vmem S512x512 .f32).view.writes (Elt F) g1
      [⟨(Rect.unit (s := S512x512) ![0, 0] S512x512.size inb_S512x512_S512x512_0_0),
        k0_pay1 ((Memref.whole cc0_scratch0 : Memref sig .tc .vmem S512x512 .bf16).view.readAt (Elt F) (Rect.unit (s := S512x512) ![0, 0] S512x512.size inb_S512x512_S512x512_0_0).toLoadRect (workFinal m))⟩] = outAt m := by
  have hr : (Memref.whole cc0_scratch0 : Memref sig .tc .vmem S512x512 .bf16).view.readAt (Elt F) (Rect.unit (s := S512x512) ![0, 0] S512x512.size inb_S512x512_S512x512_0_0).toLoadRect (workFinal m)
      = workFinal m := Memref.readAt_unit_zero (Elt F) cc0_scratch0 zero_off2 _ (workFinal m)
  rw [hr, View.writes_singleton]
  show _ = k0_pay1 (workFinal m)
  exact Memref.write_access_unit_zero_univ (Elt F) cc0_stg1_0 zero_off2 inb_S512x512_S512x512_0_0 g1 (k0_pay1 (workFinal m))

theorem work_after_store_pt (c : Dev nD) (fw : Buf (Elt F) ((c : Thread nD τ).loc cc0_scratch0)) :
    (View.loc (c : Thread nD τ) (Memref.whole cc0_scratch0 : Memref sig .tc .vmem S512x512 .bf16).view ↦{fullShare}
      (Memref.whole cc0_scratch0 : Memref sig .tc .vmem S512x512 .bf16).view.writes (Elt F) fw
      [⟨(Rect.unit (s := S512x512) ![0, 0] S512x512.size inb_S512x512_S512x512_0_0),
        k0_pay2 ((Memref.whole cc0_stg0_0 : Memref sig .tc .vmem S512x512 .f32).view.readAt (Elt F) (Rect.unit (s := S512x512) ![0, 0] S512x512.size inb_S512x512_S512x512_0_0).toLoadRect (xstg m c))⟩] : sProp 𝕄)
      = (((c : Thread nD τ).loc cc0_scratch0) ↦{fullShare} W m c) :=
  congrArg (fun f : Buf (Elt F) ((c : Thread nD τ).loc cc0_scratch0) => (((c : Thread nD τ).loc cc0_scratch0) ↦{fullShare} f : sProp 𝕄))
    (work_after_store m c fw)

theorem out_after_store_pt (c : Dev nD) (g1 : Buf (Elt F) ((c : Thread nD τ).loc cc0_stg1_0)) :
    (View.loc (c : Thread nD τ) (Memref.whole cc0_stg1_0 : Memref sig .tc .vmem S512x512 .f32).view ↦{fullShare}
      (Memref.whole cc0_stg1_0 : Memref sig .tc .vmem S512x512 .f32).view.writes (Elt F) g1
      [⟨(Rect.unit (s := S512x512) ![0, 0] S512x512.size inb_S512x512_S512x512_0_0),
        k0_pay1 ((Memref.whole cc0_scratch0 : Memref sig .tc .vmem S512x512 .bf16).view.readAt (Elt F) (Rect.unit (s := S512x512) ![0, 0] S512x512.size inb_S512x512_S512x512_0_0).toLoadRect (workFinal m))⟩] : sProp 𝕄)
      = (((c : Thread nD τ).loc cc0_stg1_0) ↦{fullShare} outAt m) :=
  congrArg (fun f : Buf (Elt F) ((c : Thread nD τ).loc cc0_stg1_0) => (((c : Thread nD τ).loc cc0_stg1_0) ↦{fullShare} f : sProp 𝕄))
    (out_after_store m c g1)

/-- info: 'Cert.Kernel.RS.work_after_store_pt' depends on axioms: [propext, Classical.choice, Quot.sound] -/
#guard_msgs in #print axioms work_after_store_pt
/-- info: 'Cert.Kernel.RS.out_after_store_pt' depends on axioms: [propext, Classical.choice, Quot.sound] -/
#guard_msgs in #print axioms out_after_store_pt

end Cert.Kernel.RS

end
-- ==== Proof.KBody.lean ====
import proofs.«900470_g7700000000000471_dist_rs_then_ag_i_m512_n512_v7x_i16_f32_1_alg».proof.Proof.Gen.Kernel
import proofs.«900470_g7700000000000471_dist_rs_then_ag_i_m512_n512_v7x_i16_f32_1_alg».proof.Proof.Gen.Kernel.Skeleton
import proofs.«900470_g7700000000000471_dist_rs_then_ag_i_m512_n512_v7x_i16_f32_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Tactic
import proofs.«900470_g7700000000000471_dist_rs_then_ag_i_m512_n512_v7x_i16_f32_1_alg».proof.Proof.KTables
import proofs.«900470_g7700000000000471_dist_rs_then_ag_i_m512_n512_v7x_i16_f32_1_alg».proof.Proof.KGlue
import proofs.«900470_g7700000000000471_dist_rs_then_ag_i_m512_n512_v7x_i16_f32_1_alg».proof.Proof.KGlue2
import proofs.«900470_g7700000000000471_dist_rs_then_ag_i_m512_n512_v7x_i16_f32_1_alg».proof.Proof.KPost

noncomputable section
namespace Cert.Kernel.RS
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic
variable {F : FTy → Type} [FloatOps F]
local notation "𝕄" => MT nD τ sig Unit (Elt F) ℕ UU ℕ
variable (m : (ℓ : Loc nD τ sig) → Buf (Elt F) ℓ)

attribute [local sl_rounds] payload_barOf_1 duties_barOf_1 amount_barOf_1 payload_barOf_2 duties_barOf_2 amount_barOf_2 payload_barOf_3 duties_barOf_3 amount_barOf_3 payload_barOf_4 duties_barOf_4 amount_barOf_4 payload_barOf_5 duties_barOf_5 amount_barOf_5 payload_barOf_6 duties_barOf_6 amount_barOf_6 payload_barOf_7 duties_barOf_7 amount_barOf_7 payload_barOf_8 duties_barOf_8 amount_barOf_8 payload_barOf_9 duties_barOf_9 amount_barOf_9 payload_barOf_10 duties_barOf_10 amount_barOf_10 payload_barOf_11 duties_barOf_11 amount_barOf_11 payload_barOf_12 duties_barOf_12 amount_barOf_12 payload_barOf_13 duties_barOf_13 amount_barOf_13 payload_barOf_14 duties_barOf_14 amount_barOf_14 payload_barOf_15 duties_barOf_15 amount_barOf_15 payload_bar_owner duties_bar amount_bar expect_bar
attribute [local sl_canon] dev1_eq dev2_eq dev3_eq dev4_eq dev5_eq dev6_eq dev7_eq dev8_eq dev9_eq dev10_eq dev11_eq dev12_eq dev13_eq dev14_eq dev15_eq

set_option maxHeartbeats 8000000 in
/-- One device's body, from what the launch hands it to what it hands back. The fifteen signals each give a peer one slot
    of the receive scratch; the wait for fifteen units brings every peer's slot; the block is stored in the narrower
    format and cut into its sixteen chunks; copy `j + 1` of the reduce-scatter sends chunk `peer c (15 - j)` into that
    device's slot `j`, the rows travelling with the landing; after the thirty waits the own chunk and the fifteen slots
    are added in order and stored; the own chunk is lent in fifteen read shares to the copies of the all-gather, which
    write it into the rows the peers handed over; after the thirty waits the sixteen chunks are the whole scratch again,
    chunk `p` holding device `p`'s sum, and the result is stored. -/
theorem sound_body (K : Dev nD × Fin 61 → ℕ) (c : Dev nD) (Kt : PUnit → sProp 𝕄) :
    iprop(bodyPre m K c ∗ (bodyPost m c -∗ Kt ⟨⟩))
      ⊢ wp frame (wpE (defs₀ (F := F)) 𝒱₀ c none) Set.univ (cc0_body (F := F) xM (Memref.isWhole_whole _) oM (Memref.isWhole_whole _) wM (Memref.isWhole_whole _) cM (Memref.isWhole_whole _) cc0_scratch2 cc0_scratch3) Kt := by
  unfold bodyPre ghost linear payToks scratch
  rw [bigSep_fin61]
  simp only [bigSep_fin15]
  iintro ⟨⟨⟨⟨#HR, ⟨Hat0, Hat1, Hat2, Hat3, Hat4, Hat5, Hat6, Hat7, Hat8, Hat9, Hat10, Hat11, Hat12, Hat13, Hat14, Hat15, Hat16, Hat17, Hat18, Hat19, Hat20, Hat21, Hat22, Hat23, Hat24, Hat25, Hat26, Hat27, Hat28, Hat29, Hat30, Hat31, Hat32, Hat33, Hat34, Hat35, Hat36, Hat37, Hat38, Hat39, Hat40, Hat41, Hat42, Hat43, Hat44, Hat45, Hat46, Hat47, Hat48, Hat49, Hat50, Hat51, Hat52, Hat53, Hat54, Hat55, Hat56, Hat57, Hat58, Hat59, Hat60⟩, ⟨HtB0, HtB1, HtB2, HtB3, HtB4, HtB5, HtB6, HtB7, HtB8, HtB9, HtB10, HtB11, HtB12, HtB13, HtB14⟩, ⟨HtS1_0, HtS1_1, HtS1_2, HtS1_3, HtS1_4, HtS1_5, HtS1_6, HtS1_7, HtS1_8, HtS1_9, HtS1_10, HtS1_11, HtS1_12, HtS1_13, HtS1_14⟩, ⟨HtS2_0, HtS2_1, HtS2_2, HtS2_3, HtS2_4, HtS2_5, HtS2_6, HtS2_7, HtS2_8, HtS2_9, HtS2_10, HtS2_11, HtS2_12, HtS2_13, HtS2_14⟩, ⟨HtR1_0, HtR1_1, HtR1_2, HtR1_3, HtR1_4, HtR1_5, HtR1_6, HtR1_7, HtR1_8, HtR1_9, HtR1_10, HtR1_11, HtR1_12, HtR1_13, HtR1_14⟩, ⟨HtR2_0, HtR2_1, HtR2_2, HtR2_3, HtR2_4, HtR2_5, HtR2_6, HtR2_7, HtR2_8, HtR2_9, HtR2_10, HtR2_11, HtR2_12, HtR2_13, HtR2_14⟩⟩, HcB, ⟨HcR1_0, HcR1_1, HcR1_2, HcR1_3, HcR1_4, HcR1_5, HcR1_6, HcR1_7, HcR1_8, HcR1_9, HcR1_10, HcR1_11, HcR1_12, HcR1_13, HcR1_14⟩, ⟨HcR2_0, HcR2_1, HcR2_2, HcR2_3, HcR2_4, HcR2_5, HcR2_6, HcR2_7, HcR2_8, HcR2_9, HcR2_10, HcR2_11, HcR2_12, HcR2_13, HcR2_14⟩, #Hlev, ⟨%fw, Hw⟩, ⟨%fc, Hc⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%Wt, %hW, HO⟩
  rw [show (dats m 0 c).owed t₀.castSucc = O₀ c from rfl]
  unfold O₀
  ihave Hsl := (Entails.of_eq ((comm_cut_eq c fullShare fc).trans (bigSep_fin15 _))) $$ Hc
  icases Hsl with ⟨Hs0, Hs1, Hs2, Hs3, Hs4, Hs5, Hs6, Hs7, Hs8, Hs9, Hs10, Hs11, Hs12, Hs13, Hs14⟩
  have ex : (((c : Thread nD τ).loc cc0_stg0_0) ↦{fullShare} xstg m c : sProp 𝕄) = (View.loc (c : Thread nD τ) (Memref.whole cc0_stg0_0 : Memref sig .tc .vmem S512x512 .f32).view ↦{fullShare} xstg m c) := rfl
  have ew : (((c : Thread nD τ).loc cc0_scratch0) ↦{fullShare} fw : sProp 𝕄) = (View.loc (c : Thread nD τ) (Memref.whole cc0_scratch0 : Memref sig .tc .vmem S512x512 .bf16).view ↦{fullShare} fw) := rfl
  have eo : (((c : Thread nD τ).loc cc0_stg1_0) ↦{fullShare} g1 : sProp 𝕄) = (View.loc (c : Thread nD τ) (Memref.whole cc0_stg1_0 : Memref sig .tc .vmem S512x512 .f32).view ↦{fullShare} g1) := rfl
  ihave Hx := (Entails.of_eq ex) $$ Hx
  ihave Hw := (Entails.of_eq ew) $$ Hw
  ihave Hout := (Entails.of_eq eo) $$ Hout
  sl_unfold [cc0_body]
  have eI1 : (records m K : sProp 𝕄) ⊢ cellInv ER (Rd m) (K (peer c 1, 0)) (barOf c 1) := inv_bar m K (peer c 1)
  have eR1 : (records m K : sProp 𝕄) ⊢ reached ER (barOf c 1) 0 := reached_bar m K (peer c 1)
  have eT1 : (dutyTok ER (barCell (peer c ((0 : Fin 15).val + 1))) 0 (0 : Fin 15) : sProp 𝕄) ⊢ dutyTok ER (barOf c 1) 0 (0 : Fin 15) := BI.Entails.refl _
  ihave #HIb1 := eI1 $$ HR
  ihave #HRb1 := eR1 $$ HR
  ihave HtB0 := eT1 $$ HtB0
  have eI2 : (records m K : sProp 𝕄) ⊢ cellInv ER (Rd m) (K (peer c 2, 0)) (barOf c 2) := inv_bar m K (peer c 2)
  have eR2 : (records m K : sProp 𝕄) ⊢ reached ER (barOf c 2) 0 := reached_bar m K (peer c 2)
  have eT2 : (dutyTok ER (barCell (peer c ((1 : Fin 15).val + 1))) 0 (1 : Fin 15) : sProp 𝕄) ⊢ dutyTok ER (barOf c 2) 0 (1 : Fin 15) := BI.Entails.refl _
  ihave #HIb2 := eI2 $$ HR
  ihave #HRb2 := eR2 $$ HR
  ihave HtB1 := eT2 $$ HtB1
  have eI3 : (records m K : sProp 𝕄) ⊢ cellInv ER (Rd m) (K (peer c 3, 0)) (barOf c 3) := inv_bar m K (peer c 3)
  have eR3 : (records m K : sProp 𝕄) ⊢ reached ER (barOf c 3) 0 := reached_bar m K (peer c 3)
  have eT3 : (dutyTok ER (barCell (peer c ((2 : Fin 15).val + 1))) 0 (2 : Fin 15) : sProp 𝕄) ⊢ dutyTok ER (barOf c 3) 0 (2 : Fin 15) := BI.Entails.refl _
  ihave #HIb3 := eI3 $$ HR
  ihave #HRb3 := eR3 $$ HR
  ihave HtB2 := eT3 $$ HtB2
  have eI4 : (records m K : sProp 𝕄) ⊢ cellInv ER (Rd m) (K (peer c 4, 0)) (barOf c 4) := inv_bar m K (peer c 4)
  have eR4 : (records m K : sProp 𝕄) ⊢ reached ER (barOf c 4) 0 := reached_bar m K (peer c 4)
  have eT4 : (dutyTok ER (barCell (peer c ((3 : Fin 15).val + 1))) 0 (3 : Fin 15) : sProp 𝕄) ⊢ dutyTok ER (barOf c 4) 0 (3 : Fin 15) := BI.Entails.refl _
  ihave #HIb4 := eI4 $$ HR
  ihave #HRb4 := eR4 $$ HR
  ihave HtB3 := eT4 $$ HtB3
  have eI5 : (records m K : sProp 𝕄) ⊢ cellInv ER (Rd m) (K (peer c 5, 0)) (barOf c 5) := inv_bar m K (peer c 5)
  have eR5 : (records m K : sProp 𝕄) ⊢ reached ER (barOf c 5) 0 := reached_bar m K (peer c 5)
  have eT5 : (dutyTok ER (barCell (peer c ((4 : Fin 15).val + 1))) 0 (4 : Fin 15) : sProp 𝕄) ⊢ dutyTok ER (barOf c 5) 0 (4 : Fin 15) := BI.Entails.refl _
  ihave #HIb5 := eI5 $$ HR
  ihave #HRb5 := eR5 $$ HR
  ihave HtB4 := eT5 $$ HtB4
  have eI6 : (records m K : sProp 𝕄) ⊢ cellInv ER (Rd m) (K (peer c 6, 0)) (barOf c 6) := inv_bar m K (peer c 6)
  have eR6 : (records m K : sProp 𝕄) ⊢ reached ER (barOf c 6) 0 := reached_bar m K (peer c 6)
  have eT6 : (dutyTok ER (barCell (peer c ((5 : Fin 15).val + 1))) 0 (5 : Fin 15) : sProp 𝕄) ⊢ dutyTok ER (barOf c 6) 0 (5 : Fin 15) := BI.Entails.refl _
  ihave #HIb6 := eI6 $$ HR
  ihave #HRb6 := eR6 $$ HR
  ihave HtB5 := eT6 $$ HtB5
  have eI7 : (records m K : sProp 𝕄) ⊢ cellInv ER (Rd m) (K (peer c 7, 0)) (barOf c 7) := inv_bar m K (peer c 7)
  have eR7 : (records m K : sProp 𝕄) ⊢ reached ER (barOf c 7) 0 := reached_bar m K (peer c 7)
  have eT7 : (dutyTok ER (barCell (peer c ((6 : Fin 15).val + 1))) 0 (6 : Fin 15) : sProp 𝕄) ⊢ dutyTok ER (barOf c 7) 0 (6 : Fin 15) := BI.Entails.refl _
  ihave #HIb7 := eI7 $$ HR
  ihave #HRb7 := eR7 $$ HR
  ihave HtB6 := eT7 $$ HtB6
  have eI8 : (records m K : sProp 𝕄) ⊢ cellInv ER (Rd m) (K (peer c 8, 0)) (barOf c 8) := inv_bar m K (peer c 8)
  have eR8 : (records m K : sProp 𝕄) ⊢ reached ER (barOf c 8) 0 := reached_bar m K (peer c 8)
  have eT8 : (dutyTok ER (barCell (peer c ((7 : Fin 15).val + 1))) 0 (7 : Fin 15) : sProp 𝕄) ⊢ dutyTok ER (barOf c 8) 0 (7 : Fin 15) := BI.Entails.refl _
  ihave #HIb8 := eI8 $$ HR
  ihave #HRb8 := eR8 $$ HR
  ihave HtB7 := eT8 $$ HtB7
  have eI9 : (records m K : sProp 𝕄) ⊢ cellInv ER (Rd m) (K (peer c 9, 0)) (barOf c 9) := inv_bar m K (peer c 9)
  have eR9 : (records m K : sProp 𝕄) ⊢ reached ER (barOf c 9) 0 := reached_bar m K (peer c 9)
  have eT9 : (dutyTok ER (barCell (peer c ((8 : Fin 15).val + 1))) 0 (8 : Fin 15) : sProp 𝕄) ⊢ dutyTok ER (barOf c 9) 0 (8 : Fin 15) := BI.Entails.refl _
  ihave #HIb9 := eI9 $$ HR
  ihave #HRb9 := eR9 $$ HR
  ihave HtB8 := eT9 $$ HtB8
  have eI10 : (records m K : sProp 𝕄) ⊢ cellInv ER (Rd m) (K (peer c 10, 0)) (barOf c 10) := inv_bar m K (peer c 10)
  have eR10 : (records m K : sProp 𝕄) ⊢ reached ER (barOf c 10) 0 := reached_bar m K (peer c 10)
  have eT10 : (dutyTok ER (barCell (peer c ((9 : Fin 15).val + 1))) 0 (9 : Fin 15) : sProp 𝕄) ⊢ dutyTok ER (barOf c 10) 0 (9 : Fin 15) := BI.Entails.refl _
  ihave #HIb10 := eI10 $$ HR
  ihave #HRb10 := eR10 $$ HR
  ihave HtB9 := eT10 $$ HtB9
  have eI11 : (records m K : sProp 𝕄) ⊢ cellInv ER (Rd m) (K (peer c 11, 0)) (barOf c 11) := inv_bar m K (peer c 11)
  have eR11 : (records m K : sProp 𝕄) ⊢ reached ER (barOf c 11) 0 := reached_bar m K (peer c 11)
  have eT11 : (dutyTok ER (barCell (peer c ((10 : Fin 15).val + 1))) 0 (10 : Fin 15) : sProp 𝕄) ⊢ dutyTok ER (barOf c 11) 0 (10 : Fin 15) := BI.Entails.refl _
  ihave #HIb11 := eI11 $$ HR
  ihave #HRb11 := eR11 $$ HR
  ihave HtB10 := eT11 $$ HtB10
  have eI12 : (records m K : sProp 𝕄) ⊢ cellInv ER (Rd m) (K (peer c 12, 0)) (barOf c 12) := inv_bar m K (peer c 12)
  have eR12 : (records m K : sProp 𝕄) ⊢ reached ER (barOf c 12) 0 := reached_bar m K (peer c 12)
  have eT12 : (dutyTok ER (barCell (peer c ((11 : Fin 15).val + 1))) 0 (11 : Fin 15) : sProp 𝕄) ⊢ dutyTok ER (barOf c 12) 0 (11 : Fin 15) := BI.Entails.refl _
  ihave #HIb12 := eI12 $$ HR
  ihave #HRb12 := eR12 $$ HR
  ihave HtB11 := eT12 $$ HtB11
  have eI13 : (records m K : sProp 𝕄) ⊢ cellInv ER (Rd m) (K (peer c 13, 0)) (barOf c 13) := inv_bar m K (peer c 13)
  have eR13 : (records m K : sProp 𝕄) ⊢ reached ER (barOf c 13) 0 := reached_bar m K (peer c 13)
  have eT13 : (dutyTok ER (barCell (peer c ((12 : Fin 15).val + 1))) 0 (12 : Fin 15) : sProp 𝕄) ⊢ dutyTok ER (barOf c 13) 0 (12 : Fin 15) := BI.Entails.refl _
  ihave #HIb13 := eI13 $$ HR
  ihave #HRb13 := eR13 $$ HR
  ihave HtB12 := eT13 $$ HtB12
  have eI14 : (records m K : sProp 𝕄) ⊢ cellInv ER (Rd m) (K (peer c 14, 0)) (barOf c 14) := inv_bar m K (peer c 14)
  have eR14 : (records m K : sProp 𝕄) ⊢ reached ER (barOf c 14) 0 := reached_bar m K (peer c 14)
  have eT14 : (dutyTok ER (barCell (peer c ((13 : Fin 15).val + 1))) 0 (13 : Fin 15) : sProp 𝕄) ⊢ dutyTok ER (barOf c 14) 0 (13 : Fin 15) := BI.Entails.refl _
  ihave #HIb14 := eI14 $$ HR
  ihave #HRb14 := eR14 $$ HR
  ihave HtB13 := eT14 $$ HtB13
  have eI15 : (records m K : sProp 𝕄) ⊢ cellInv ER (Rd m) (K (peer c 15, 0)) (barOf c 15) := inv_bar m K (peer c 15)
  have eR15 : (records m K : sProp 𝕄) ⊢ reached ER (barOf c 15) 0 := reached_bar m K (peer c 15)
  have eT15 : (dutyTok ER (barCell (peer c ((14 : Fin 15).val + 1))) 0 (14 : Fin 15) : sProp 𝕄) ⊢ dutyTok ER (barOf c 15) 0 (14 : Fin 15) := BI.Entails.refl _
  ihave #HIb15 := eI15 $$ HR
  ihave #HRb15 := eR15 $$ HR
  ihave HtB14 := eT15 $$ HtB14
  have eI0 : (records m K : sProp 𝕄) ⊢ cellInv ER (Rd m) (K (c, 0)) (barCell c) := inv_bar m K c
  ihave #HIb0 := eI0 $$ HR
  have hAb1 : Above 1 (tallyAt (r2Cell (peer c 15) 14) () N + tallyAt (r2Cell (peer c 14) 13) () N + tallyAt (r2Cell (peer c 13) 12) () N + tallyAt (r2Cell (peer c 12) 11) () N + tallyAt (r2Cell (peer c 11) 10) () N + tallyAt (r2Cell (peer c 10) 9) () N + tallyAt (r2Cell (peer c 9) 8) () N + tallyAt (r2Cell (peer c 8) 7) () N + tallyAt (r2Cell (peer c 7) 6) () N + tallyAt (r2Cell (peer c 6) 5) () N + tallyAt (r2Cell (peer c 5) 4) () N + tallyAt (r2Cell (peer c 4) 3) () N + tallyAt (r2Cell (peer c 3) 2) () N + tallyAt (r2Cell (peer c 2) 1) () N + tallyAt (r2Cell (peer c 1) 0) () N + tallyAt (r1Cell (peer c 1) 14) () N + tallyAt (r1Cell (peer c 2) 13) () N + tallyAt (r1Cell (peer c 3) 12) () N + tallyAt (r1Cell (peer c 4) 11) () N + tallyAt (r1Cell (peer c 5) 10) () N + tallyAt (r1Cell (peer c 6) 9) () N + tallyAt (r1Cell (peer c 7) 8) () N + tallyAt (r1Cell (peer c 8) 7) () N + tallyAt (r1Cell (peer c 9) 6) () N + tallyAt (r1Cell (peer c 10) 5) () N + tallyAt (r1Cell (peer c 11) 4) () N + tallyAt (r1Cell (peer c 12) 3) () N + tallyAt (r1Cell (peer c 13) 2) () N + tallyAt (r1Cell (peer c 14) 1) () N + tallyAt (r1Cell (peer c 15) 0) () N) := by repeat (first | apply Above.add | exact Above.tally _ _ rfl (by first | (rw [lv_r1]; omega) | (rw [lv_r2]; omega)))
  have hmwB : (levAts L lv : sProp 𝕄) ⊢ MayWait (c : Thread nD τ) (.reg barS) () (tallyAt (r2Cell (peer c 15) 14) () N + tallyAt (r2Cell (peer c 14) 13) () N + tallyAt (r2Cell (peer c 13) 12) () N + tallyAt (r2Cell (peer c 12) 11) () N + tallyAt (r2Cell (peer c 11) 10) () N + tallyAt (r2Cell (peer c 10) 9) () N + tallyAt (r2Cell (peer c 9) 8) () N + tallyAt (r2Cell (peer c 8) 7) () N + tallyAt (r2Cell (peer c 7) 6) () N + tallyAt (r2Cell (peer c 6) 5) () N + tallyAt (r2Cell (peer c 5) 4) () N + tallyAt (r2Cell (peer c 4) 3) () N + tallyAt (r2Cell (peer c 3) 2) () N + tallyAt (r2Cell (peer c 2) 1) () N + tallyAt (r2Cell (peer c 1) 0) () N + tallyAt (r1Cell (peer c 1) 14) () N + tallyAt (r1Cell (peer c 2) 13) () N + tallyAt (r1Cell (peer c 3) 12) () N + tallyAt (r1Cell (peer c 4) 11) () N + tallyAt (r1Cell (peer c 5) 10) () N + tallyAt (r1Cell (peer c 6) 9) () N + tallyAt (r1Cell (peer c 7) 8) () N + tallyAt (r1Cell (peer c 8) 7) () N + tallyAt (r1Cell (peer c 9) 6) () N + tallyAt (r1Cell (peer c 10) 5) () N + tallyAt (r1Cell (peer c 11) 4) () N + tallyAt (r1Cell (peer c 12) 3) () N + tallyAt (r1Cell (peer c 13) 2) () N + tallyAt (r1Cell (peer c 14) 1) () N + tallyAt (r1Cell (peer c 15) 0) () N) := mayWait_of_above c (.reg barS) (b := 1) (Nat.le_refl _) hAb1
  sl_exec
  ihave Hp := (Entails.of_eq (bigSep_fin15 _)) $$ Hat0_pay1
  icases Hp with ⟨⟨%fd0, Hd0⟩, ⟨%fd1, Hd1⟩, ⟨%fd2, Hd2⟩, ⟨%fd3, Hd3⟩, ⟨%fd4, Hd4⟩, ⟨%fd5, Hd5⟩, ⟨%fd6, Hd6⟩, ⟨%fd7, Hd7⟩, ⟨%fd8, Hd8⟩, ⟨%fd9, Hd9⟩, ⟨%fd10, Hd10⟩, ⟨%fd11, Hd11⟩, ⟨%fd12, Hd12⟩, ⟨%fd13, Hd13⟩, ⟨%fd14, Hd14⟩⟩
  ihave Hw := (Entails.of_eq (work_after_store_pt m c fw)) $$ Hw
  ihave Hch := (work_to_chunks c (W m c)) $$ Hw
  icases Hch with ⟨Hown, Hk0, Hk1, Hk2, Hk3, Hk4, Hk5, Hk6, Hk7, Hk8, Hk9, Hk10, Hk11, Hk12, Hk13, Hk14⟩
  iapply (wp_send1 m K c _ 0 (dev16_eq c) (src1_eq c 0) rfl rfl rfl fd0 _ _) $$ [Hk0 Hd0 HO HtS1_0 HtR1_0]
  · isplitr; · iexact HR
    isplitl [Hk0]; · iexact Hk0
    isplitl [Hd0]; · iexact Hd0
    isplitl [HO]; · iexact HO
    isplitl [HtS1_0]; · iexact HtS1_0
    iexact HtR1_0
  iintro ⟨HcS1_0, HO⟩
  sl_exec
  iapply (wp_send1 m K c _ 1 (dev17_eq c) (src1_eq c 1) rfl rfl rfl fd1 _ _) $$ [Hk1 Hd1 HO HtS1_1 HtR1_1]
  · isplitr; · iexact HR
    isplitl [Hk1]; · iexact Hk1
    isplitl [Hd1]; · iexact Hd1
    isplitl [HO]; · iexact HO
    isplitl [HtS1_1]; · iexact HtS1_1
    iexact HtR1_1
  iintro ⟨HcS1_1, HO⟩
  sl_exec
  iapply (wp_send1 m K c _ 2 (dev18_eq c) (src1_eq c 2) rfl rfl rfl fd2 _ _) $$ [Hk2 Hd2 HO HtS1_2 HtR1_2]
  · isplitr; · iexact HR
    isplitl [Hk2]; · iexact Hk2
    isplitl [Hd2]; · iexact Hd2
    isplitl [HO]; · iexact HO
    isplitl [HtS1_2]; · iexact HtS1_2
    iexact HtR1_2
  iintro ⟨HcS1_2, HO⟩
  sl_exec
  iapply (wp_send1 m K c _ 3 (dev19_eq c) (src1_eq c 3) rfl rfl rfl fd3 _ _) $$ [Hk3 Hd3 HO HtS1_3 HtR1_3]
  · isplitr; · iexact HR
    isplitl [Hk3]; · iexact Hk3
    isplitl [Hd3]; · iexact Hd3
    isplitl [HO]; · iexact HO
    isplitl [HtS1_3]; · iexact HtS1_3
    iexact HtR1_3
  iintro ⟨HcS1_3, HO⟩
  sl_exec
  iapply (wp_send1 m K c _ 4 (dev20_eq c) (src1_eq c 4) rfl rfl rfl fd4 _ _) $$ [Hk4 Hd4 HO HtS1_4 HtR1_4]
  · isplitr; · iexact HR
    isplitl [Hk4]; · iexact Hk4
    isplitl [Hd4]; · iexact Hd4
    isplitl [HO]; · iexact HO
    isplitl [HtS1_4]; · iexact HtS1_4
    iexact HtR1_4
  iintro ⟨HcS1_4, HO⟩
  sl_exec
  iapply (wp_send1 m K c _ 5 (dev21_eq c) (src1_eq c 5) rfl rfl rfl fd5 _ _) $$ [Hk5 Hd5 HO HtS1_5 HtR1_5]
  · isplitr; · iexact HR
    isplitl [Hk5]; · iexact Hk5
    isplitl [Hd5]; · iexact Hd5
    isplitl [HO]; · iexact HO
    isplitl [HtS1_5]; · iexact HtS1_5
    iexact HtR1_5
  iintro ⟨HcS1_5, HO⟩
  sl_exec
  iapply (wp_send1 m K c _ 6 (dev22_eq c) (src1_eq c 6) rfl rfl rfl fd6 _ _) $$ [Hk6 Hd6 HO HtS1_6 HtR1_6]
  · isplitr; · iexact HR
    isplitl [Hk6]; · iexact Hk6
    isplitl [Hd6]; · iexact Hd6
    isplitl [HO]; · iexact HO
    isplitl [HtS1_6]; · iexact HtS1_6
    iexact HtR1_6
  iintro ⟨HcS1_6, HO⟩
  sl_exec
  iapply (wp_send1 m K c _ 7 (dev23_eq c) (src1_eq c 7) rfl rfl rfl fd7 _ _) $$ [Hk7 Hd7 HO HtS1_7 HtR1_7]
  · isplitr; · iexact HR
    isplitl [Hk7]; · iexact Hk7
    isplitl [Hd7]; · iexact Hd7
    isplitl [HO]; · iexact HO
    isplitl [HtS1_7]; · iexact HtS1_7
    iexact HtR1_7
  iintro ⟨HcS1_7, HO⟩
  sl_exec
  iapply (wp_send1 m K c _ 8 (dev24_eq c) (src1_eq c 8) rfl rfl rfl fd8 _ _) $$ [Hk8 Hd8 HO HtS1_8 HtR1_8]
  · isplitr; · iexact HR
    isplitl [Hk8]; · iexact Hk8
    isplitl [Hd8]; · iexact Hd8
    isplitl [HO]; · iexact HO
    isplitl [HtS1_8]; · iexact HtS1_8
    iexact HtR1_8
  iintro ⟨HcS1_8, HO⟩
  sl_exec
  iapply (wp_send1 m K c _ 9 (dev25_eq c) (src1_eq c 9) rfl rfl rfl fd9 _ _) $$ [Hk9 Hd9 HO HtS1_9 HtR1_9]
  · isplitr; · iexact HR
    isplitl [Hk9]; · iexact Hk9
    isplitl [Hd9]; · iexact Hd9
    isplitl [HO]; · iexact HO
    isplitl [HtS1_9]; · iexact HtS1_9
    iexact HtR1_9
  iintro ⟨HcS1_9, HO⟩
  sl_exec
  iapply (wp_send1 m K c _ 10 (dev26_eq c) (src1_eq c 10) rfl rfl rfl fd10 _ _) $$ [Hk10 Hd10 HO HtS1_10 HtR1_10]
  · isplitr; · iexact HR
    isplitl [Hk10]; · iexact Hk10
    isplitl [Hd10]; · iexact Hd10
    isplitl [HO]; · iexact HO
    isplitl [HtS1_10]; · iexact HtS1_10
    iexact HtR1_10
  iintro ⟨HcS1_10, HO⟩
  sl_exec
  iapply (wp_send1 m K c _ 11 (dev27_eq c) (src1_eq c 11) rfl rfl rfl fd11 _ _) $$ [Hk11 Hd11 HO HtS1_11 HtR1_11]
  · isplitr; · iexact HR
    isplitl [Hk11]; · iexact Hk11
    isplitl [Hd11]; · iexact Hd11
    isplitl [HO]; · iexact HO
    isplitl [HtS1_11]; · iexact HtS1_11
    iexact HtR1_11
  iintro ⟨HcS1_11, HO⟩
  sl_exec
  iapply (wp_send1 m K c _ 12 (dev28_eq c) (src1_eq c 12) rfl rfl rfl fd12 _ _) $$ [Hk12 Hd12 HO HtS1_12 HtR1_12]
  · isplitr; · iexact HR
    isplitl [Hk12]; · iexact Hk12
    isplitl [Hd12]; · iexact Hd12
    isplitl [HO]; · iexact HO
    isplitl [HtS1_12]; · iexact HtS1_12
    iexact HtR1_12
  iintro ⟨HcS1_12, HO⟩
  sl_exec
  iapply (wp_send1 m K c _ 13 (dev29_eq c) (src1_eq c 13) rfl rfl rfl fd13 _ _) $$ [Hk13 Hd13 HO HtS1_13 HtR1_13]
  · isplitr; · iexact HR
    isplitl [Hk13]; · iexact Hk13
    isplitl [Hd13]; · iexact Hd13
    isplitl [HO]; · iexact HO
    isplitl [HtS1_13]; · iexact HtS1_13
    iexact HtR1_13
  iintro ⟨HcS1_13, HO⟩
  sl_exec
  iapply (wp_send1 m K c _ 14 (dev30_eq c) (src1_eq c 14) rfl rfl rfl fd14 _ _) $$ [Hk14 Hd14 HO HtS1_14 HtR1_14]
  · isplitr; · iexact HR
    isplitl [Hk14]; · iexact Hk14
    isplitl [Hd14]; · iexact Hd14
    isplitl [HO]; · iexact HO
    isplitl [HtS1_14]; · iexact HtS1_14
    iexact HtR1_14
  iintro ⟨HcS1_14, HO⟩
  sl_exec
  have hAb2 : Above 2 (tallyAt (r2Cell (peer c 15) 14) () N + tallyAt (r2Cell (peer c 14) 13) () N + tallyAt (r2Cell (peer c 13) 12) () N + tallyAt (r2Cell (peer c 12) 11) () N + tallyAt (r2Cell (peer c 11) 10) () N + tallyAt (r2Cell (peer c 10) 9) () N + tallyAt (r2Cell (peer c 9) 8) () N + tallyAt (r2Cell (peer c 8) 7) () N + tallyAt (r2Cell (peer c 7) 6) () N + tallyAt (r2Cell (peer c 6) 5) () N + tallyAt (r2Cell (peer c 5) 4) () N + tallyAt (r2Cell (peer c 4) 3) () N + tallyAt (r2Cell (peer c 3) 2) () N + tallyAt (r2Cell (peer c 2) 1) () N + tallyAt (r2Cell (peer c 1) 0) () N) := by repeat (first | apply Above.add | exact Above.tally _ _ rfl (by first | (rw [lv_r1]; omega) | (rw [lv_r2]; omega)))
  iapply (wp_wait_s1 m K c 0 rfl rfl _ _ hAb2) $$ [HcS1_0 HO Hat1]
  · isplitr; · iexact HR
    isplitl [HcS1_0]; · iexact HcS1_0
    isplitl [HO]; · iexact HO
    isplitr; · iexact Hlev
    iexact Hat1
  iintro ⟨HO, Hat1, -⟩
  sl_exec
  iapply (wp_wait_r1 m K c 0 rfl rfl _ _ hAb2) $$ [HcR1_0 HO Hat31]
  · isplitr; · iexact HR
    isplitl [HcR1_0]; · iexact HcR1_0
    isplitl [HO]; · iexact HO
    isplitr; · iexact Hlev
    iexact Hat31
  iintro ⟨HO, Hat31, Hp1⟩
  unfold r1Pay
  icases Hp1 with ⟨Hsl0, Hpk0⟩
  sl_exec
  iapply (wp_wait_s1 m K c 1 rfl rfl _ _ hAb2) $$ [HcS1_1 HO Hat2]
  · isplitr; · iexact HR
    isplitl [HcS1_1]; · iexact HcS1_1
    isplitl [HO]; · iexact HO
    isplitr; · iexact Hlev
    iexact Hat2
  iintro ⟨HO, Hat2, -⟩
  sl_exec
  iapply (wp_wait_r1 m K c 1 rfl rfl _ _ hAb2) $$ [HcR1_1 HO Hat32]
  · isplitr; · iexact HR
    isplitl [HcR1_1]; · iexact HcR1_1
    isplitl [HO]; · iexact HO
    isplitr; · iexact Hlev
    iexact Hat32
  iintro ⟨HO, Hat32, Hp1⟩
  unfold r1Pay
  icases Hp1 with ⟨Hsl1, Hpk1⟩
  sl_exec
  iapply (wp_wait_s1 m K c 2 rfl rfl _ _ hAb2) $$ [HcS1_2 HO Hat3]
  · isplitr; · iexact HR
    isplitl [HcS1_2]; · iexact HcS1_2
    isplitl [HO]; · iexact HO
    isplitr; · iexact Hlev
    iexact Hat3
  iintro ⟨HO, Hat3, -⟩
  sl_exec
  iapply (wp_wait_r1 m K c 2 rfl rfl _ _ hAb2) $$ [HcR1_2 HO Hat33]
  · isplitr; · iexact HR
    isplitl [HcR1_2]; · iexact HcR1_2
    isplitl [HO]; · iexact HO
    isplitr; · iexact Hlev
    iexact Hat33
  iintro ⟨HO, Hat33, Hp1⟩
  unfold r1Pay
  icases Hp1 with ⟨Hsl2, Hpk2⟩
  sl_exec
  iapply (wp_wait_s1 m K c 3 rfl rfl _ _ hAb2) $$ [HcS1_3 HO Hat4]
  · isplitr; · iexact HR
    isplitl [HcS1_3]; · iexact HcS1_3
    isplitl [HO]; · iexact HO
    isplitr; · iexact Hlev
    iexact Hat4
  iintro ⟨HO, Hat4, -⟩
  sl_exec
  iapply (wp_wait_r1 m K c 3 rfl rfl _ _ hAb2) $$ [HcR1_3 HO Hat34]
  · isplitr; · iexact HR
    isplitl [HcR1_3]; · iexact HcR1_3
    isplitl [HO]; · iexact HO
    isplitr; · iexact Hlev
    iexact Hat34
  iintro ⟨HO, Hat34, Hp1⟩
  unfold r1Pay
  icases Hp1 with ⟨Hsl3, Hpk3⟩
  sl_exec
  iapply (wp_wait_s1 m K c 4 rfl rfl _ _ hAb2) $$ [HcS1_4 HO Hat5]
  · isplitr; · iexact HR
    isplitl [HcS1_4]; · iexact HcS1_4
    isplitl [HO]; · iexact HO
    isplitr; · iexact Hlev
    iexact Hat5
  iintro ⟨HO, Hat5, -⟩
  sl_exec
  iapply (wp_wait_r1 m K c 4 rfl rfl _ _ hAb2) $$ [HcR1_4 HO Hat35]
  · isplitr; · iexact HR
    isplitl [HcR1_4]; · iexact HcR1_4
    isplitl [HO]; · iexact HO
    isplitr; · iexact Hlev
    iexact Hat35
  iintro ⟨HO, Hat35, Hp1⟩
  unfold r1Pay
  icases Hp1 with ⟨Hsl4, Hpk4⟩
  sl_exec
  iapply (wp_wait_s1 m K c 5 rfl rfl _ _ hAb2) $$ [HcS1_5 HO Hat6]
  · isplitr; · iexact HR
    isplitl [HcS1_5]; · iexact HcS1_5
    isplitl [HO]; · iexact HO
    isplitr; · iexact Hlev
    iexact Hat6
  iintro ⟨HO, Hat6, -⟩
  sl_exec
  iapply (wp_wait_r1 m K c 5 rfl rfl _ _ hAb2) $$ [HcR1_5 HO Hat36]
  · isplitr; · iexact HR
    isplitl [HcR1_5]; · iexact HcR1_5
    isplitl [HO]; · iexact HO
    isplitr; · iexact Hlev
    iexact Hat36
  iintro ⟨HO, Hat36, Hp1⟩
  unfold r1Pay
  icases Hp1 with ⟨Hsl5, Hpk5⟩
  sl_exec
  iapply (wp_wait_s1 m K c 6 rfl rfl _ _ hAb2) $$ [HcS1_6 HO Hat7]
  · isplitr; · iexact HR
    isplitl [HcS1_6]; · iexact HcS1_6
    isplitl [HO]; · iexact HO
    isplitr; · iexact Hlev
    iexact Hat7
  iintro ⟨HO, Hat7, -⟩
  sl_exec
  iapply (wp_wait_r1 m K c 6 rfl rfl _ _ hAb2) $$ [HcR1_6 HO Hat37]
  · isplitr; · iexact HR
    isplitl [HcR1_6]; · iexact HcR1_6
    isplitl [HO]; · iexact HO
    isplitr; · iexact Hlev
    iexact Hat37
  iintro ⟨HO, Hat37, Hp1⟩
  unfold r1Pay
  icases Hp1 with ⟨Hsl6, Hpk6⟩
  sl_exec
  iapply (wp_wait_s1 m K c 7 rfl rfl _ _ hAb2) $$ [HcS1_7 HO Hat8]
  · isplitr; · iexact HR
    isplitl [HcS1_7]; · iexact HcS1_7
    isplitl [HO]; · iexact HO
    isplitr; · iexact Hlev
    iexact Hat8
  iintro ⟨HO, Hat8, -⟩
  sl_exec
  iapply (wp_wait_r1 m K c 7 rfl rfl _ _ hAb2) $$ [HcR1_7 HO Hat38]
  · isplitr; · iexact HR
    isplitl [HcR1_7]; · iexact HcR1_7
    isplitl [HO]; · iexact HO
    isplitr; · iexact Hlev
    iexact Hat38
  iintro ⟨HO, Hat38, Hp1⟩
  unfold r1Pay
  icases Hp1 with ⟨Hsl7, Hpk7⟩
  sl_exec
  iapply (wp_wait_s1 m K c 8 rfl rfl _ _ hAb2) $$ [HcS1_8 HO Hat9]
  · isplitr; · iexact HR
    isplitl [HcS1_8]; · iexact HcS1_8
    isplitl [HO]; · iexact HO
    isplitr; · iexact Hlev
    iexact Hat9
  iintro ⟨HO, Hat9, -⟩
  sl_exec
  iapply (wp_wait_r1 m K c 8 rfl rfl _ _ hAb2) $$ [HcR1_8 HO Hat39]
  · isplitr; · iexact HR
    isplitl [HcR1_8]; · iexact HcR1_8
    isplitl [HO]; · iexact HO
    isplitr; · iexact Hlev
    iexact Hat39
  iintro ⟨HO, Hat39, Hp1⟩
  unfold r1Pay
  icases Hp1 with ⟨Hsl8, Hpk8⟩
  sl_exec
  iapply (wp_wait_s1 m K c 9 rfl rfl _ _ hAb2) $$ [HcS1_9 HO Hat10]
  · isplitr; · iexact HR
    isplitl [HcS1_9]; · iexact HcS1_9
    isplitl [HO]; · iexact HO
    isplitr; · iexact Hlev
    iexact Hat10
  iintro ⟨HO, Hat10, -⟩
  sl_exec
  iapply (wp_wait_r1 m K c 9 rfl rfl _ _ hAb2) $$ [HcR1_9 HO Hat40]
  · isplitr; · iexact HR
    isplitl [HcR1_9]; · iexact HcR1_9
    isplitl [HO]; · iexact HO
    isplitr; · iexact Hlev
    iexact Hat40
  iintro ⟨HO, Hat40, Hp1⟩
  unfold r1Pay
  icases Hp1 with ⟨Hsl9, Hpk9⟩
  sl_exec
  iapply (wp_wait_s1 m K c 10 rfl rfl _ _ hAb2) $$ [HcS1_10 HO Hat11]
  · isplitr; · iexact HR
    isplitl [HcS1_10]; · iexact HcS1_10
    isplitl [HO]; · iexact HO
    isplitr; · iexact Hlev
    iexact Hat11
  iintro ⟨HO, Hat11, -⟩
  sl_exec
  iapply (wp_wait_r1 m K c 10 rfl rfl _ _ hAb2) $$ [HcR1_10 HO Hat41]
  · isplitr; · iexact HR
    isplitl [HcR1_10]; · iexact HcR1_10
    isplitl [HO]; · iexact HO
    isplitr; · iexact Hlev
    iexact Hat41
  iintro ⟨HO, Hat41, Hp1⟩
  unfold r1Pay
  icases Hp1 with ⟨Hsl10, Hpk10⟩
  sl_exec
  iapply (wp_wait_s1 m K c 11 rfl rfl _ _ hAb2) $$ [HcS1_11 HO Hat12]
  · isplitr; · iexact HR
    isplitl [HcS1_11]; · iexact HcS1_11
    isplitl [HO]; · iexact HO
    isplitr; · iexact Hlev
    iexact Hat12
  iintro ⟨HO, Hat12, -⟩
  sl_exec
  iapply (wp_wait_r1 m K c 11 rfl rfl _ _ hAb2) $$ [HcR1_11 HO Hat42]
  · isplitr; · iexact HR
    isplitl [HcR1_11]; · iexact HcR1_11
    isplitl [HO]; · iexact HO
    isplitr; · iexact Hlev
    iexact Hat42
  iintro ⟨HO, Hat42, Hp1⟩
  unfold r1Pay
  icases Hp1 with ⟨Hsl11, Hpk11⟩
  sl_exec
  iapply (wp_wait_s1 m K c 12 rfl rfl _ _ hAb2) $$ [HcS1_12 HO Hat13]
  · isplitr; · iexact HR
    isplitl [HcS1_12]; · iexact HcS1_12
    isplitl [HO]; · iexact HO
    isplitr; · iexact Hlev
    iexact Hat13
  iintro ⟨HO, Hat13, -⟩
  sl_exec
  iapply (wp_wait_r1 m K c 12 rfl rfl _ _ hAb2) $$ [HcR1_12 HO Hat43]
  · isplitr; · iexact HR
    isplitl [HcR1_12]; · iexact HcR1_12
    isplitl [HO]; · iexact HO
    isplitr; · iexact Hlev
    iexact Hat43
  iintro ⟨HO, Hat43, Hp1⟩
  unfold r1Pay
  icases Hp1 with ⟨Hsl12, Hpk12⟩
  sl_exec
  iapply (wp_wait_s1 m K c 13 rfl rfl _ _ hAb2) $$ [HcS1_13 HO Hat14]
  · isplitr; · iexact HR
    isplitl [HcS1_13]; · iexact HcS1_13
    isplitl [HO]; · iexact HO
    isplitr; · iexact Hlev
    iexact Hat14
  iintro ⟨HO, Hat14, -⟩
  sl_exec
  iapply (wp_wait_r1 m K c 13 rfl rfl _ _ hAb2) $$ [HcR1_13 HO Hat44]
  · isplitr; · iexact HR
    isplitl [HcR1_13]; · iexact HcR1_13
    isplitl [HO]; · iexact HO
    isplitr; · iexact Hlev
    iexact Hat44
  iintro ⟨HO, Hat44, Hp1⟩
  unfold r1Pay
  icases Hp1 with ⟨Hsl13, Hpk13⟩
  sl_exec
  iapply (wp_wait_s1 m K c 14 rfl rfl _ _ hAb2) $$ [HcS1_14 HO Hat15]
  · isplitr; · iexact HR
    isplitl [HcS1_14]; · iexact HcS1_14
    isplitl [HO]; · iexact HO
    isplitr; · iexact Hlev
    iexact Hat15
  iintro ⟨HO, Hat15, -⟩
  sl_exec
  iapply (wp_wait_r1 m K c 14 rfl rfl _ _ hAb2) $$ [HcR1_14 HO Hat45]
  · isplitr; · iexact HR
    isplitl [HcR1_14]; · iexact HcR1_14
    isplitl [HO]; · iexact HO
    isplitr; · iexact Hlev
    iexact Hat45
  iintro ⟨HO, Hat45, Hp1⟩
  unfold r1Pay
  icases Hp1 with ⟨Hsl14, Hpk14⟩
  sl_exec
  have hW' : sound_body.sl.Hown_w1 m c = W' m c := rfl
  ihave Hown := (Entails.of_eq (congrArg (fun f => (View.loc (c : Thread nD τ) (chunk c).view ↦[(chunk c).view.set]{fullShare} f : sProp 𝕄)) hW')) $$ Hown
  ihave Htk := (own_to_tokens c (W' m c)) $$ Hown
  icases Htk with ⟨Hrest, Ht0, Ht1, Ht2, Ht3, Ht4, Ht5, Ht6, Ht7, Ht8, Ht9, Ht10, Ht11, Ht12, Ht13, Ht14⟩
  iapply (wp_send2 m K c _ 0 (dev31_eq c) (read_chunk_W' m c) rfl rfl rfl rfl _ _ _) $$ [Ht0 Hpk0 HO HtS2_0 HtR2_0]
  · isplitr; · iexact HR
    isplitl [Ht0]; · iexact Ht0
    isplitl [Hpk0]; · iexact Hpk0
    isplitl [HO]; · iexact HO
    isplitl [HtS2_0]; · iexact HtS2_0
    iexact HtR2_0
  iintro ⟨HcS2_0, HO⟩
  sl_exec
  iapply (wp_send2 m K c _ 1 (dev32_eq c) (read_chunk_W' m c) rfl rfl rfl rfl _ _ _) $$ [Ht1 Hpk1 HO HtS2_1 HtR2_1]
  · isplitr; · iexact HR
    isplitl [Ht1]; · iexact Ht1
    isplitl [Hpk1]; · iexact Hpk1
    isplitl [HO]; · iexact HO
    isplitl [HtS2_1]; · iexact HtS2_1
    iexact HtR2_1
  iintro ⟨HcS2_1, HO⟩
  sl_exec
  iapply (wp_send2 m K c _ 2 (dev33_eq c) (read_chunk_W' m c) rfl rfl rfl rfl _ _ _) $$ [Ht2 Hpk2 HO HtS2_2 HtR2_2]
  · isplitr; · iexact HR
    isplitl [Ht2]; · iexact Ht2
    isplitl [Hpk2]; · iexact Hpk2
    isplitl [HO]; · iexact HO
    isplitl [HtS2_2]; · iexact HtS2_2
    iexact HtR2_2
  iintro ⟨HcS2_2, HO⟩
  sl_exec
  iapply (wp_send2 m K c _ 3 (dev34_eq c) (read_chunk_W' m c) rfl rfl rfl rfl _ _ _) $$ [Ht3 Hpk3 HO HtS2_3 HtR2_3]
  · isplitr; · iexact HR
    isplitl [Ht3]; · iexact Ht3
    isplitl [Hpk3]; · iexact Hpk3
    isplitl [HO]; · iexact HO
    isplitl [HtS2_3]; · iexact HtS2_3
    iexact HtR2_3
  iintro ⟨HcS2_3, HO⟩
  sl_exec
  iapply (wp_send2 m K c _ 4 (dev35_eq c) (read_chunk_W' m c) rfl rfl rfl rfl _ _ _) $$ [Ht4 Hpk4 HO HtS2_4 HtR2_4]
  · isplitr; · iexact HR
    isplitl [Ht4]; · iexact Ht4
    isplitl [Hpk4]; · iexact Hpk4
    isplitl [HO]; · iexact HO
    isplitl [HtS2_4]; · iexact HtS2_4
    iexact HtR2_4
  iintro ⟨HcS2_4, HO⟩
  sl_exec
  iapply (wp_send2 m K c _ 5 (dev36_eq c) (read_chunk_W' m c) rfl rfl rfl rfl _ _ _) $$ [Ht5 Hpk5 HO HtS2_5 HtR2_5]
  · isplitr; · iexact HR
    isplitl [Ht5]; · iexact Ht5
    isplitl [Hpk5]; · iexact Hpk5
    isplitl [HO]; · iexact HO
    isplitl [HtS2_5]; · iexact HtS2_5
    iexact HtR2_5
  iintro ⟨HcS2_5, HO⟩
  sl_exec
  iapply (wp_send2 m K c _ 6 (dev37_eq c) (read_chunk_W' m c) rfl rfl rfl rfl _ _ _) $$ [Ht6 Hpk6 HO HtS2_6 HtR2_6]
  · isplitr; · iexact HR
    isplitl [Ht6]; · iexact Ht6
    isplitl [Hpk6]; · iexact Hpk6
    isplitl [HO]; · iexact HO
    isplitl [HtS2_6]; · iexact HtS2_6
    iexact HtR2_6
  iintro ⟨HcS2_6, HO⟩
  sl_exec
  iapply (wp_send2 m K c _ 7 (dev38_eq c) (read_chunk_W' m c) rfl rfl rfl rfl _ _ _) $$ [Ht7 Hpk7 HO HtS2_7 HtR2_7]
  · isplitr; · iexact HR
    isplitl [Ht7]; · iexact Ht7
    isplitl [Hpk7]; · iexact Hpk7
    isplitl [HO]; · iexact HO
    isplitl [HtS2_7]; · iexact HtS2_7
    iexact HtR2_7
  iintro ⟨HcS2_7, HO⟩
  sl_exec
  iapply (wp_send2 m K c _ 8 (dev39_eq c) (read_chunk_W' m c) rfl rfl rfl rfl _ _ _) $$ [Ht8 Hpk8 HO HtS2_8 HtR2_8]
  · isplitr; · iexact HR
    isplitl [Ht8]; · iexact Ht8
    isplitl [Hpk8]; · iexact Hpk8
    isplitl [HO]; · iexact HO
    isplitl [HtS2_8]; · iexact HtS2_8
    iexact HtR2_8
  iintro ⟨HcS2_8, HO⟩
  sl_exec
  iapply (wp_send2 m K c _ 9 (dev40_eq c) (read_chunk_W' m c) rfl rfl rfl rfl _ _ _) $$ [Ht9 Hpk9 HO HtS2_9 HtR2_9]
  · isplitr; · iexact HR
    isplitl [Ht9]; · iexact Ht9
    isplitl [Hpk9]; · iexact Hpk9
    isplitl [HO]; · iexact HO
    isplitl [HtS2_9]; · iexact HtS2_9
    iexact HtR2_9
  iintro ⟨HcS2_9, HO⟩
  sl_exec
  iapply (wp_send2 m K c _ 10 (dev41_eq c) (read_chunk_W' m c) rfl rfl rfl rfl _ _ _) $$ [Ht10 Hpk10 HO HtS2_10 HtR2_10]
  · isplitr; · iexact HR
    isplitl [Ht10]; · iexact Ht10
    isplitl [Hpk10]; · iexact Hpk10
    isplitl [HO]; · iexact HO
    isplitl [HtS2_10]; · iexact HtS2_10
    iexact HtR2_10
  iintro ⟨HcS2_10, HO⟩
  sl_exec
  iapply (wp_send2 m K c _ 11 (dev42_eq c) (read_chunk_W' m c) rfl rfl rfl rfl _ _ _) $$ [Ht11 Hpk11 HO HtS2_11 HtR2_11]
  · isplitr; · iexact HR
    isplitl [Ht11]; · iexact Ht11
    isplitl [Hpk11]; · iexact Hpk11
    isplitl [HO]; · iexact HO
    isplitl [HtS2_11]; · iexact HtS2_11
    iexact HtR2_11
  iintro ⟨HcS2_11, HO⟩
  sl_exec
  iapply (wp_send2 m K c _ 12 (dev43_eq c) (read_chunk_W' m c) rfl rfl rfl rfl _ _ _) $$ [Ht12 Hpk12 HO HtS2_12 HtR2_12]
  · isplitr; · iexact HR
    isplitl [Ht12]; · iexact Ht12
    isplitl [Hpk12]; · iexact Hpk12
    isplitl [HO]; · iexact HO
    isplitl [HtS2_12]; · iexact HtS2_12
    iexact HtR2_12
  iintro ⟨HcS2_12, HO⟩
  sl_exec
  iapply (wp_send2 m K c _ 13 (dev44_eq c) (read_chunk_W' m c) rfl rfl rfl rfl _ _ _) $$ [Ht13 Hpk13 HO HtS2_13 HtR2_13]
  · isplitr; · iexact HR
    isplitl [Ht13]; · iexact Ht13
    isplitl [Hpk13]; · iexact Hpk13
    isplitl [HO]; · iexact HO
    isplitl [HtS2_13]; · iexact HtS2_13
    iexact HtR2_13
  iintro ⟨HcS2_13, HO⟩
  sl_exec
  ihave HO := (Entails.of_eq (congrArg (fun O => (owes (c : Thread nD τ) O _ : sProp 𝕄)) (zero_add (tallyAt (r2Cell (peer c 15) 14) () N)).symm)) $$ HO
  iapply (wp_send2 m K c _ 14 (dev45_eq c) (read_chunk_W' m c) rfl rfl rfl rfl _ _ _) $$ [Ht14 Hpk14 HO HtS2_14 HtR2_14]
  · isplitr; · iexact HR
    isplitl [Ht14]; · iexact Ht14
    isplitl [Hpk14]; · iexact Hpk14
    isplitl [HO]; · iexact HO
    isplitl [HtS2_14]; · iexact HtS2_14
    iexact HtR2_14
  iintro ⟨HcS2_14, HO⟩
  sl_exec
  iapply (wp_wait_s2 m K c 0 rfl rfl _ _ (Above.zero 3)) $$ [HcS2_0 HO Hat16]
  · isplitr; · iexact HR
    isplitl [HcS2_0]; · iexact HcS2_0
    isplitl [HO]; · iexact HO
    isplitr; · iexact Hlev
    iexact Hat16
  iintro ⟨HO, Hat16, Ht0⟩
  unfold s2Pay
  sl_exec
  iapply (wp_wait_r2 m K c 0 rfl rfl _ _ (Above.zero 3)) $$ [HcR2_0 HO Hat46]
  · isplitr; · iexact HR
    isplitl [HcR2_0]; · iexact HcR2_0
    isplitl [HO]; · iexact HO
    isplitr; · iexact Hlev
    iexact Hat46
  iintro ⟨HO, Hat46, Hp2⟩
  unfold r2Pay
  icases Hp2 with Hr0
  sl_exec
  iapply (wp_wait_s2 m K c 1 rfl rfl _ _ (Above.zero 3)) $$ [HcS2_1 HO Hat17]
  · isplitr; · iexact HR
    isplitl [HcS2_1]; · iexact HcS2_1
    isplitl [HO]; · iexact HO
    isplitr; · iexact Hlev
    iexact Hat17
  iintro ⟨HO, Hat17, Ht1⟩
  unfold s2Pay
  sl_exec
  iapply (wp_wait_r2 m K c 1 rfl rfl _ _ (Above.zero 3)) $$ [HcR2_1 HO Hat47]
  · isplitr; · iexact HR
    isplitl [HcR2_1]; · iexact HcR2_1
    isplitl [HO]; · iexact HO
    isplitr; · iexact Hlev
    iexact Hat47
  iintro ⟨HO, Hat47, Hp2⟩
  unfold r2Pay
  icases Hp2 with Hr1
  sl_exec
  iapply (wp_wait_s2 m K c 2 rfl rfl _ _ (Above.zero 3)) $$ [HcS2_2 HO Hat18]
  · isplitr; · iexact HR
    isplitl [HcS2_2]; · iexact HcS2_2
    isplitl [HO]; · iexact HO
    isplitr; · iexact Hlev
    iexact Hat18
  iintro ⟨HO, Hat18, Ht2⟩
  unfold s2Pay
  sl_exec
  iapply (wp_wait_r2 m K c 2 rfl rfl _ _ (Above.zero 3)) $$ [HcR2_2 HO Hat48]
  · isplitr; · iexact HR
    isplitl [HcR2_2]; · iexact HcR2_2
    isplitl [HO]; · iexact HO
    isplitr; · iexact Hlev
    iexact Hat48
  iintro ⟨HO, Hat48, Hp2⟩
  unfold r2Pay
  icases Hp2 with Hr2
  sl_exec
  iapply (wp_wait_s2 m K c 3 rfl rfl _ _ (Above.zero 3)) $$ [HcS2_3 HO Hat19]
  · isplitr; · iexact HR
    isplitl [HcS2_3]; · iexact HcS2_3
    isplitl [HO]; · iexact HO
    isplitr; · iexact Hlev
    iexact Hat19
  iintro ⟨HO, Hat19, Ht3⟩
  unfold s2Pay
  sl_exec
  iapply (wp_wait_r2 m K c 3 rfl rfl _ _ (Above.zero 3)) $$ [HcR2_3 HO Hat49]
  · isplitr; · iexact HR
    isplitl [HcR2_3]; · iexact HcR2_3
    isplitl [HO]; · iexact HO
    isplitr; · iexact Hlev
    iexact Hat49
  iintro ⟨HO, Hat49, Hp2⟩
  unfold r2Pay
  icases Hp2 with Hr3
  sl_exec
  iapply (wp_wait_s2 m K c 4 rfl rfl _ _ (Above.zero 3)) $$ [HcS2_4 HO Hat20]
  · isplitr; · iexact HR
    isplitl [HcS2_4]; · iexact HcS2_4
    isplitl [HO]; · iexact HO
    isplitr; · iexact Hlev
    iexact Hat20
  iintro ⟨HO, Hat20, Ht4⟩
  unfold s2Pay
  sl_exec
  iapply (wp_wait_r2 m K c 4 rfl rfl _ _ (Above.zero 3)) $$ [HcR2_4 HO Hat50]
  · isplitr; · iexact HR
    isplitl [HcR2_4]; · iexact HcR2_4
    isplitl [HO]; · iexact HO
    isplitr; · iexact Hlev
    iexact Hat50
  iintro ⟨HO, Hat50, Hp2⟩
  unfold r2Pay
  icases Hp2 with Hr4
  sl_exec
  iapply (wp_wait_s2 m K c 5 rfl rfl _ _ (Above.zero 3)) $$ [HcS2_5 HO Hat21]
  · isplitr; · iexact HR
    isplitl [HcS2_5]; · iexact HcS2_5
    isplitl [HO]; · iexact HO
    isplitr; · iexact Hlev
    iexact Hat21
  iintro ⟨HO, Hat21, Ht5⟩
  unfold s2Pay
  sl_exec
  iapply (wp_wait_r2 m K c 5 rfl rfl _ _ (Above.zero 3)) $$ [HcR2_5 HO Hat51]
  · isplitr; · iexact HR
    isplitl [HcR2_5]; · iexact HcR2_5
    isplitl [HO]; · iexact HO
    isplitr; · iexact Hlev
    iexact Hat51
  iintro ⟨HO, Hat51, Hp2⟩
  unfold r2Pay
  icases Hp2 with Hr5
  sl_exec
  iapply (wp_wait_s2 m K c 6 rfl rfl _ _ (Above.zero 3)) $$ [HcS2_6 HO Hat22]
  · isplitr; · iexact HR
    isplitl [HcS2_6]; · iexact HcS2_6
    isplitl [HO]; · iexact HO
    isplitr; · iexact Hlev
    iexact Hat22
  iintro ⟨HO, Hat22, Ht6⟩
  unfold s2Pay
  sl_exec
  iapply (wp_wait_r2 m K c 6 rfl rfl _ _ (Above.zero 3)) $$ [HcR2_6 HO Hat52]
  · isplitr; · iexact HR
    isplitl [HcR2_6]; · iexact HcR2_6
    isplitl [HO]; · iexact HO
    isplitr; · iexact Hlev
    iexact Hat52
  iintro ⟨HO, Hat52, Hp2⟩
  unfold r2Pay
  icases Hp2 with Hr6
  sl_exec
  iapply (wp_wait_s2 m K c 7 rfl rfl _ _ (Above.zero 3)) $$ [HcS2_7 HO Hat23]
  · isplitr; · iexact HR
    isplitl [HcS2_7]; · iexact HcS2_7
    isplitl [HO]; · iexact HO
    isplitr; · iexact Hlev
    iexact Hat23
  iintro ⟨HO, Hat23, Ht7⟩
  unfold s2Pay
  sl_exec
  iapply (wp_wait_r2 m K c 7 rfl rfl _ _ (Above.zero 3)) $$ [HcR2_7 HO Hat53]
  · isplitr; · iexact HR
    isplitl [HcR2_7]; · iexact HcR2_7
    isplitl [HO]; · iexact HO
    isplitr; · iexact Hlev
    iexact Hat53
  iintro ⟨HO, Hat53, Hp2⟩
  unfold r2Pay
  icases Hp2 with Hr7
  sl_exec
  iapply (wp_wait_s2 m K c 8 rfl rfl _ _ (Above.zero 3)) $$ [HcS2_8 HO Hat24]
  · isplitr; · iexact HR
    isplitl [HcS2_8]; · iexact HcS2_8
    isplitl [HO]; · iexact HO
    isplitr; · iexact Hlev
    iexact Hat24
  iintro ⟨HO, Hat24, Ht8⟩
  unfold s2Pay
  sl_exec
  iapply (wp_wait_r2 m K c 8 rfl rfl _ _ (Above.zero 3)) $$ [HcR2_8 HO Hat54]
  · isplitr; · iexact HR
    isplitl [HcR2_8]; · iexact HcR2_8
    isplitl [HO]; · iexact HO
    isplitr; · iexact Hlev
    iexact Hat54
  iintro ⟨HO, Hat54, Hp2⟩
  unfold r2Pay
  icases Hp2 with Hr8
  sl_exec
  iapply (wp_wait_s2 m K c 9 rfl rfl _ _ (Above.zero 3)) $$ [HcS2_9 HO Hat25]
  · isplitr; · iexact HR
    isplitl [HcS2_9]; · iexact HcS2_9
    isplitl [HO]; · iexact HO
    isplitr; · iexact Hlev
    iexact Hat25
  iintro ⟨HO, Hat25, Ht9⟩
  unfold s2Pay
  sl_exec
  iapply (wp_wait_r2 m K c 9 rfl rfl _ _ (Above.zero 3)) $$ [HcR2_9 HO Hat55]
  · isplitr; · iexact HR
    isplitl [HcR2_9]; · iexact HcR2_9
    isplitl [HO]; · iexact HO
    isplitr; · iexact Hlev
    iexact Hat55
  iintro ⟨HO, Hat55, Hp2⟩
  unfold r2Pay
  icases Hp2 with Hr9
  sl_exec
  iapply (wp_wait_s2 m K c 10 rfl rfl _ _ (Above.zero 3)) $$ [HcS2_10 HO Hat26]
  · isplitr; · iexact HR
    isplitl [HcS2_10]; · iexact HcS2_10
    isplitl [HO]; · iexact HO
    isplitr; · iexact Hlev
    iexact Hat26
  iintro ⟨HO, Hat26, Ht10⟩
  unfold s2Pay
  sl_exec
  iapply (wp_wait_r2 m K c 10 rfl rfl _ _ (Above.zero 3)) $$ [HcR2_10 HO Hat56]
  · isplitr; · iexact HR
    isplitl [HcR2_10]; · iexact HcR2_10
    isplitl [HO]; · iexact HO
    isplitr; · iexact Hlev
    iexact Hat56
  iintro ⟨HO, Hat56, Hp2⟩
  unfold r2Pay
  icases Hp2 with Hr10
  sl_exec
  iapply (wp_wait_s2 m K c 11 rfl rfl _ _ (Above.zero 3)) $$ [HcS2_11 HO Hat27]
  · isplitr; · iexact HR
    isplitl [HcS2_11]; · iexact HcS2_11
    isplitl [HO]; · iexact HO
    isplitr; · iexact Hlev
    iexact Hat27
  iintro ⟨HO, Hat27, Ht11⟩
  unfold s2Pay
  sl_exec
  iapply (wp_wait_r2 m K c 11 rfl rfl _ _ (Above.zero 3)) $$ [HcR2_11 HO Hat57]
  · isplitr; · iexact HR
    isplitl [HcR2_11]; · iexact HcR2_11
    isplitl [HO]; · iexact HO
    isplitr; · iexact Hlev
    iexact Hat57
  iintro ⟨HO, Hat57, Hp2⟩
  unfold r2Pay
  icases Hp2 with Hr11
  sl_exec
  iapply (wp_wait_s2 m K c 12 rfl rfl _ _ (Above.zero 3)) $$ [HcS2_12 HO Hat28]
  · isplitr; · iexact HR
    isplitl [HcS2_12]; · iexact HcS2_12
    isplitl [HO]; · iexact HO
    isplitr; · iexact Hlev
    iexact Hat28
  iintro ⟨HO, Hat28, Ht12⟩
  unfold s2Pay
  sl_exec
  iapply (wp_wait_r2 m K c 12 rfl rfl _ _ (Above.zero 3)) $$ [HcR2_12 HO Hat58]
  · isplitr; · iexact HR
    isplitl [HcR2_12]; · iexact HcR2_12
    isplitl [HO]; · iexact HO
    isplitr; · iexact Hlev
    iexact Hat58
  iintro ⟨HO, Hat58, Hp2⟩
  unfold r2Pay
  icases Hp2 with Hr12
  sl_exec
  iapply (wp_wait_s2 m K c 13 rfl rfl _ _ (Above.zero 3)) $$ [HcS2_13 HO Hat29]
  · isplitr; · iexact HR
    isplitl [HcS2_13]; · iexact HcS2_13
    isplitl [HO]; · iexact HO
    isplitr; · iexact Hlev
    iexact Hat29
  iintro ⟨HO, Hat29, Ht13⟩
  unfold s2Pay
  sl_exec
  iapply (wp_wait_r2 m K c 13 rfl rfl _ _ (Above.zero 3)) $$ [HcR2_13 HO Hat59]
  · isplitr; · iexact HR
    isplitl [HcR2_13]; · iexact HcR2_13
    isplitl [HO]; · iexact HO
    isplitr; · iexact Hlev
    iexact Hat59
  iintro ⟨HO, Hat59, Hp2⟩
  unfold r2Pay
  icases Hp2 with Hr13
  sl_exec
  iapply (wp_wait_s2 m K c 14 rfl rfl _ _ (Above.zero 3)) $$ [HcS2_14 HO Hat30]
  · isplitr; · iexact HR
    isplitl [HcS2_14]; · iexact HcS2_14
    isplitl [HO]; · iexact HO
    isplitr; · iexact Hlev
    iexact Hat30
  iintro ⟨HO, Hat30, Ht14⟩
  unfold s2Pay
  sl_exec
  iapply (wp_wait_r2 m K c 14 rfl rfl _ _ (Above.zero 3)) $$ [HcR2_14 HO Hat60]
  · isplitr; · iexact HR
    isplitl [HcR2_14]; · iexact HcR2_14
    isplitl [HO]; · iexact HO
    isplitr; · iexact Hlev
    iexact Hat60
  iintro ⟨HO, Hat60, Hp2⟩
  unfold r2Pay
  icases Hp2 with Hr14
  ihave Hown := (tokens_to_own c (W' m c)) $$ [Hrest Ht0 Ht1 Ht2 Ht3 Ht4 Ht5 Ht6 Ht7 Ht8 Ht9 Ht10 Ht11 Ht12 Ht13 Ht14]
  · isplitl [Hrest]; · iexact Hrest
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Ht8]; · iexact Ht8
    isplitl [Ht9]; · iexact Ht9
    isplitl [Ht10]; · iexact Ht10
    isplitl [Ht11]; · iexact Ht11
    isplitl [Ht12]; · iexact Ht12
    isplitl [Ht13]; · iexact Ht13
    iexact Ht14
  ihave Hw := (chunks_to_work m c) $$ [Hown Hr0 Hr1 Hr2 Hr3 Hr4 Hr5 Hr6 Hr7 Hr8 Hr9 Hr10 Hr11 Hr12 Hr13 Hr14]
  · isplitl [Hown]; · iexact Hown
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [Hr11]; · iexact Hr11
    isplitl [Hr12]; · iexact Hr12
    isplitl [Hr13]; · iexact Hr13
    iexact Hr14
  have ew2 : (((c : Thread nD τ).loc cc0_scratch0) ↦{fullShare} workFinal m : sProp 𝕄) = (View.loc (c : Thread nD τ) (Memref.whole cc0_scratch0 : Memref sig .tc .vmem S512x512 .bf16).view ↦{fullShare} workFinal m) := rfl
  ihave Hw := (Entails.of_eq ew2) $$ Hw
  sl_exec
  ihave Hout := (Entails.of_eq (out_after_store_pt m c g1)) $$ Hout
  ihave Hcm := (slots_to_comm c (fun j : Fin 15 => slotC m c j)) $$ [Hsl0 Hsl1 Hsl2 Hsl3 Hsl4 Hsl5 Hsl6 Hsl7 Hsl8 Hsl9 Hsl10 Hsl11 Hsl12 Hsl13 Hsl14]
  ·
    isplitl [Hsl0]; · iexact Hsl0
    isplitl [Hsl1]; · iexact Hsl1
    isplitl [Hsl2]; · iexact Hsl2
    isplitl [Hsl3]; · iexact Hsl3
    isplitl [Hsl4]; · iexact Hsl4
    isplitl [Hsl5]; · iexact Hsl5
    isplitl [Hsl6]; · iexact Hsl6
    isplitl [Hsl7]; · iexact Hsl7
    isplitl [Hsl8]; · iexact Hsl8
    isplitl [Hsl9]; · iexact Hsl9
    isplitl [Hsl10]; · iexact Hsl10
    isplitl [Hsl11]; · iexact Hsl11
    isplitl [Hsl12]; · iexact Hsl12
    isplitl [Hsl13]; · iexact Hsl13
    iexact Hsl14
  imod (close_cells m K c) $$ [Hat1 Hat2 Hat3 Hat4 Hat5 Hat6 Hat7 Hat8 Hat9 Hat10 Hat11 Hat12 Hat13 Hat14 Hat15 Hat16 Hat17 Hat18 Hat19 Hat20 Hat21 Hat22 Hat23 Hat24 Hat25 Hat26 Hat27 Hat28 Hat29 Hat30 Hat31 Hat32 Hat33 Hat34 Hat35 Hat36 Hat37 Hat38 Hat39 Hat40 Hat41 Hat42 Hat43 Hat44 Hat45 Hat46 Hat47 Hat48 Hat49 Hat50 Hat51 Hat52 Hat53 Hat54 Hat55 Hat56 Hat57 Hat58 Hat59 Hat60] with Hz
  · isplitr; · iexact HR
    iapply (Entails.of_eq (bigSep_fin60 (fun k : Fin 60 => (atPos ER (kcell (c, ⟨k.val + 1, by omega⟩)) 1 ∅ 0 : sProp 𝕄))).symm)
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    isplitl [Hat9]; · iexact Hat9
    isplitl [Hat10]; · iexact Hat10
    isplitl [Hat11]; · iexact Hat11
    isplitl [Hat12]; · iexact Hat12
    isplitl [Hat13]; · iexact Hat13
    isplitl [Hat14]; · iexact Hat14
    isplitl [Hat15]; · iexact Hat15
    isplitl [Hat16]; · iexact Hat16
    isplitl [Hat17]; · iexact Hat17
    isplitl [Hat18]; · iexact Hat18
    isplitl [Hat19]; · iexact Hat19
    isplitl [Hat20]; · iexact Hat20
    isplitl [Hat21]; · iexact Hat21
    isplitl [Hat22]; · iexact Hat22
    isplitl [Hat23]; · iexact Hat23
    isplitl [Hat24]; · iexact Hat24
    isplitl [Hat25]; · iexact Hat25
    isplitl [Hat26]; · iexact Hat26
    isplitl [Hat27]; · iexact Hat27
    isplitl [Hat28]; · iexact Hat28
    isplitl [Hat29]; · iexact Hat29
    isplitl [Hat30]; · iexact Hat30
    isplitl [Hat31]; · iexact Hat31
    isplitl [Hat32]; · iexact Hat32
    isplitl [Hat33]; · iexact Hat33
    isplitl [Hat34]; · iexact Hat34
    isplitl [Hat35]; · iexact Hat35
    isplitl [Hat36]; · iexact Hat36
    isplitl [Hat37]; · iexact Hat37
    isplitl [Hat38]; · iexact Hat38
    isplitl [Hat39]; · iexact Hat39
    isplitl [Hat40]; · iexact Hat40
    isplitl [Hat41]; · iexact Hat41
    isplitl [Hat42]; · iexact Hat42
    isplitl [Hat43]; · iexact Hat43
    isplitl [Hat44]; · iexact Hat44
    isplitl [Hat45]; · iexact Hat45
    isplitl [Hat46]; · iexact Hat46
    isplitl [Hat47]; · iexact Hat47
    isplitl [Hat48]; · iexact Hat48
    isplitl [Hat49]; · iexact Hat49
    isplitl [Hat50]; · iexact Hat50
    isplitl [Hat51]; · iexact Hat51
    isplitl [Hat52]; · iexact Hat52
    isplitl [Hat53]; · iexact Hat53
    isplitl [Hat54]; · iexact Hat54
    isplitl [Hat55]; · iexact Hat55
    isplitl [Hat56]; · iexact Hat56
    isplitl [Hat57]; · iexact Hat57
    isplitl [Hat58]; · iexact Hat58
    isplitl [Hat59]; · iexact Hat59
    iexact Hat60
  sl_step
  iapply Hk
  unfold bodyPost Φ₁ scratch Dat.owesAt Pipeline.owesWithin
  rw [show (dats m 0 c).owed t₀.succ = 0 from rfl]
  isplitl [Hw Hcm Hz]
  · isplitl [Hw Hcm]
    · isplitl [Hw]; · iexists _; iexact Hw
      iexact Hcm
    iexact Hz
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

/-- info: 'Cert.Kernel.RS.sound_body' depends on axioms: [propext, Classical.choice, Quot.sound] -/
#guard_msgs in #print axioms sound_body

end Cert.Kernel.RS

end
-- ==== Proof.RefValue.lean ====
/-
  The reference, read at an index.

  The reference reshapes the whole argument X : [8192, 512] to [16, 512, 512] (row-major: entry
  (d, i, j) of the reshaped array is entry (512 d + i, j) of X) and adds the 16 slabs along the
  first axis, starting from the zero word.  So the result at (i, j) is
      0 + ∑ d : Fin 16, X (512 d + i, j),
  and, the zero word being the real number 0, it is that sum itself.
-/
import proofs.«900470_g7700000000000471_dist_rs_then_ag_i_m512_n512_v7x_i16_f32_1_alg».proof.Proof.Gen.ReferenceIdeal.Read
import Idealize.ShloMosaic.Lib.ValueIdx

noncomputable section

open scoped BigOperators

namespace Cert.ReferenceIdeal.RefValue

open Cert.ReferenceIdeal Idealize.ShloMosaic Idealize.ShloMosaic.ValueIdx

/-- Row `512 d + i` of the whole argument: row `i` of its `d`-th block of 512 rows. -/
abbrev rowOf (d : Fin 16) (i : Fin 512) : Fin 8192 := ⟨512 * d.val + i.val, by omega⟩

/-- The reshape followed by the choice of slab `d` reads the whole argument at row `512 d + i`. -/
theorem idx_comp (i j : Fin 512) (d : Fin 16) :
    Read.idx_main_v0 (Read.idx_main_v1 (ix2 i j) d) = ix2 (rowOf d i) j := by
  funext a
  refine Fin.ext ?_
  match a with
  | ⟨0, _⟩ =>
    show (((d.val * 512 + i.val) * 512 + j.val) / 512) = 512 * d.val + i.val
    omega
  | ⟨1, _⟩ =>
    show (((d.val * 512 + i.val) * 512 + j.val) % 512) = j.val
    omega

/-- The reference's result at `(i, j)`: the initial value (the zero word) plus the sum over the 16
    blocks of rows of the whole argument at row `512 d + i`, column `j`. -/
theorem ref_apply₀ (X : (⟨S8192x512, .f32⟩ : BufTy).Contents (Elt Ideal)) (i j : Fin 512) :
    Read.val_main_v1 (F := Ideal) X (ix2 i j)
      = Ideal.ofBits .f32 0x00000000#32 + ∑ d : Fin 16, X (ix2 (rowOf d i) j) := by
  rw [Read.val_main_v1_apply]
  refine congrArg₂ (· + ·) rfl (Finset.sum_congr rfl fun d _ => ?_)
  rw [Read.val_main_v0_apply, idx_comp]

/-- The same with the zero word evaluated: the reference's result at `(i, j)` is the sum over the 16
    blocks of rows. -/
theorem ref_apply (X : (⟨S8192x512, .f32⟩ : BufTy).Contents (Elt Ideal)) (i j : Fin 512) :
    Read.val_main_v1 (F := Ideal) X (ix2 i j) = ∑ d : Fin 16, X (ix2 (rowOf d i) j) := by
  rw [ref_apply₀, Ideal.ofBits_zero_f32, zero_add]

end Cert.ReferenceIdeal.RefValue

end
-- ==== Proof.PayValue.lean ====
/-
  The kernel's arithmetic read at an index, at the ideal instance.

  At the ideal instance a change of float format is the identity and a shape cast between equal
  shapes is the identity, so the first two payloads (the widening of the work buffer to the result,
  the narrowing of the argument into the work buffer) return their operand unchanged.  The other
  three are the accumulation of one chunk: the accumulator, a [32, 512] block, plus received slots,
  each a [1, 32, 512] block read through the cast that drops its leading unit axis, so that entry
  (t, j) of the cast is entry (0, t, j) of the slot.  Read at (t, j) each is a left-nested sum of
  extended reals.
-/
import proofs.«900470_g7700000000000471_dist_rs_then_ag_i_m512_n512_v7x_i16_f32_1_alg».proof.Proof.Gen.KernelIdeal.Skeleton
import Idealize.ShloMosaic.Lib.ValueIdx
import Idealize.ShloMosaic.Lib.ValueLayout

noncomputable section

namespace Cert.KernelIdeal.PayValue

open Cert.KernelIdeal Cert.KernelIdeal.Gen Idealize.ShloMosaic Idealize.ShloMosaic.ValueIdx

/-- Entry `(t, j)` of a received slot, a `[1, 32, 512]` block. -/
abbrev slotAt (s : Vec Ideal S1x32x512 .bf16) (t : Fin 32) (j : Fin 512) : EReal :=
  s (ix3 (0 : Fin 1) t j)

/-- The slot's cast to `[32, 512]` reads the slot at `(0, t, j)`. -/
theorem cast_slot (s : Vec Ideal S1x32x512 .bf16) (t : Fin 32) (j : Fin 512) :
    (shapeCast S32x512 s shapeCasts_S1x32x512_S32x512 : Vec Ideal S32x512 .bf16) (ix2 t j) = slotAt s t j :=
  shapeCast_1ab_ab_apply s shapeCasts_S1x32x512_S32x512 t j

/-- Widening the work buffer to the result changes no entry. -/
theorem pay1_eq (v : Vec Ideal S512x512 .bf16) : k0_pay1 (F := Ideal) v = v := rfl

/-- Narrowing the argument into the work buffer changes no entry. -/
theorem pay2_eq (v : Vec Ideal S512x512 .f32) : k0_pay2 (F := Ideal) v = v := by
  unfold k0_pay2
  funext i
  refine (congrFun (shapeCast_self
    (truncf (F := Ideal) .bf16 (shapeCast S512x512 v shapeCasts_S512x512_S512x512) bitsLt_bf16_f32)
    shapeCasts_S512x512_S512x512) i).trans ?_
  exact congrFun (shapeCast_self v shapeCasts_S512x512_S512x512) i

/-- The first three received slots added to the device's own chunk. -/
theorem pay3_apply (v : Vec Ideal S32x512 .bf16) (s0 s1 s2 : Vec Ideal S1x32x512 .bf16)
    (t : Fin 32) (j : Fin 512) :
    (k0_pay3 (F := Ideal) v s0 s1 s2 (ix2 t j) : EReal)
      = (v (ix2 t j) : EReal) + slotAt s0 t j + slotAt s1 t j + slotAt s2 t j := by
  unfold k0_pay3
  show ((v (ix2 t j) : EReal)
      + (shapeCast S32x512 s0 shapeCasts_S1x32x512_S32x512 : Vec Ideal S32x512 .bf16) (ix2 t j)
      + (shapeCast S32x512 s1 shapeCasts_S1x32x512_S32x512 : Vec Ideal S32x512 .bf16) (ix2 t j)
      + (shapeCast S32x512 s2 shapeCasts_S1x32x512_S32x512 : Vec Ideal S32x512 .bf16) (ix2 t j)) = _
  rw [cast_slot, cast_slot, cast_slot]

/-- The next ten received slots added to the running sum. -/
theorem pay4_apply (acc : FVec Ideal S32x512 .bf16)
    (s3 s4 s5 s6 s7 s8 s9 s10 s11 s12 : Vec Ideal S1x32x512 .bf16) (t : Fin 32) (j : Fin 512) :
    (k0_pay4 (F := Ideal) acc s3 s4 s5 s6 s7 s8 s9 s10 s11 s12 (ix2 t j) : EReal)
      = (acc (ix2 t j) : EReal) + slotAt s3 t j + slotAt s4 t j + slotAt s5 t j + slotAt s6 t j
        + slotAt s7 t j + slotAt s8 t j + slotAt s9 t j + slotAt s10 t j + slotAt s11 t j
        + slotAt s12 t j := by
  unfold k0_pay4
  show ((acc (ix2 t j) : EReal)
      + (shapeCast S32x512 s3 shapeCasts_S1x32x512_S32x512 : Vec Ideal S32x512 .bf16) (ix2 t j)
      + (shapeCast S32x512 s4 shapeCasts_S1x32x512_S32x512 : Vec Ideal S32x512 .bf16) (ix2 t j)
      + (shapeCast S32x512 s5 shapeCasts_S1x32x512_S32x512 : Vec Ideal S32x512 .bf16) (ix2 t j)
      + (shapeCast S32x512 s6 shapeCasts_S1x32x512_S32x512 : Vec Ideal S32x512 .bf16) (ix2 t j)
      + (shapeCast S32x512 s7 shapeCasts_S1x32x512_S32x512 : Vec Ideal S32x512 .bf16) (ix2 t j)
      + (shapeCast S32x512 s8 shapeCasts_S1x32x512_S32x512 : Vec Ideal S32x512 .bf16) (ix2 t j)
      + (shapeCast S32x512 s9 shapeCasts_S1x32x512_S32x512 : Vec Ideal S32x512 .bf16) (ix2 t j)
      + (shapeCast S32x512 s10 shapeCasts_S1x32x512_S32x512 : Vec Ideal S32x512 .bf16) (ix2 t j)
      + (shapeCast S32x512 s11 shapeCasts_S1x32x512_S32x512 : Vec Ideal S32x512 .bf16) (ix2 t j)
      + (shapeCast S32x512 s12 shapeCasts_S1x32x512_S32x512 : Vec Ideal S32x512 .bf16) (ix2 t j)) = _
  rw [cast_slot, cast_slot, cast_slot, cast_slot, cast_slot, cast_slot, cast_slot, cast_slot, cast_slot,
    cast_slot]

/-- The last two received slots added to the running sum; the closing cast keeps the shape. -/
theorem pay5_apply (acc : FVec Ideal S32x512 .bf16) (s13 s14 : Vec Ideal S1x32x512 .bf16)
    (t : Fin 32) (j : Fin 512) :
    (k0_pay5 (F := Ideal) acc s13 s14 (ix2 t j) : EReal)
      = (acc (ix2 t j) : EReal) + slotAt s13 t j + slotAt s14 t j := by
  unfold k0_pay5
  show (shapeCast S32x512
      (addf (addf acc (shapeCast S32x512 s13 shapeCasts_S1x32x512_S32x512))
        (shapeCast S32x512 s14 shapeCasts_S1x32x512_S32x512))
      shapeCasts_S32x512_S32x512 : Vec Ideal S32x512 .bf16) (ix2 t j) = _
  rw [shapeCast_self]
  show ((acc (ix2 t j) : EReal)
      + (shapeCast S32x512 s13 shapeCasts_S1x32x512_S32x512 : Vec Ideal S32x512 .bf16) (ix2 t j)
      + (shapeCast S32x512 s14 shapeCasts_S1x32x512_S32x512 : Vec Ideal S32x512 .bf16) (ix2 t j)) = _
  rw [cast_slot, cast_slot]

/-- One chunk's accumulation as a whole: the device's own chunk and the fifteen received slots, added
    left to right. -/
theorem acc_apply (v : Vec Ideal S32x512 .bf16)
    (s0 s1 s2 s3 s4 s5 s6 s7 s8 s9 s10 s11 s12 s13 s14 : Vec Ideal S1x32x512 .bf16)
    (t : Fin 32) (j : Fin 512) :
    (k0_pay5 (F := Ideal) (k0_pay4 (F := Ideal) (k0_pay3 (F := Ideal) v s0 s1 s2)
        s3 s4 s5 s6 s7 s8 s9 s10 s11 s12) s13 s14 (ix2 t j) : EReal)
      = (v (ix2 t j) : EReal) + slotAt s0 t j + slotAt s1 t j + slotAt s2 t j + slotAt s3 t j
        + slotAt s4 t j + slotAt s5 t j + slotAt s6 t j + slotAt s7 t j + slotAt s8 t j
        + slotAt s9 t j + slotAt s10 t j + slotAt s11 t j + slotAt s12 t j + slotAt s13 t j
        + slotAt s14 t j := by
  rw [pay5_apply, pay4_apply, pay3_apply]

end Cert.KernelIdeal.PayValue

end
-- ==== Proof.SumValue.lean ====
/-
  The arithmetic that joins the two sides: a sum of sixteen terms taken in rotated order.

  One device holds, for its chunk of rows, its own contribution and the fifteen contributions it
  received, and adds them one after another starting from its own: with the devices numbered
  mod 16 and the device itself numbered p, the terms come in the order p, p+1, …, p+15.  The
  reference adds the same sixteen terms in the order 0, 1, …, 15.  Addition of extended reals is
  commutative and associative without any finiteness assumption (only distributivity and
  cancellation fail at infinities), so the two sums agree: the rotation k ↦ p + k is a bijection
  of Fin 16 and a finite sum is invariant under a bijection of its index set.
-/
import Idealize.ShloMosaic.PureOps.Ideal
import Mathlib.Algebra.BigOperators.Fin

noncomputable section

open scoped BigOperators

namespace Cert.SumValue

variable {M : Type*} [AddCommMonoid M]

/-- A sum over `Fin 16` written out, left-nested, in the order 0, 1, …, 15. -/
theorem sum16 (b : Fin 16 → M) :
    ∑ k, b k = b 0 + b 1 + b 2 + b 3 + b 4 + b 5 + b 6 + b 7 + b 8 + b 9 + b 10 + b 11 + b 12 + b 13
      + b 14 + b 15 := by
  simp only [Fin.sum_univ_castSucc, Finset.univ_eq_empty, Finset.sum_empty, zero_add]
  rfl

/-- The rotation by `p` is a bijection of `Fin 16`: the sum over it is the sum. -/
theorem sum_rot (a : Fin 16 → M) (p : Fin 16) : ∑ k : Fin 16, a (p + k) = ∑ d, a d :=
  Equiv.sum_comp (Equiv.addLeft p) a

/-- Sixteen terms added left to right in the rotated order `q 0, q 1, …, q 15`, where `q k = p + k`
    (mod 16), make the sum over all sixteen indices. -/
theorem rot_sum (a : Fin 16 → M) (p : Fin 16) (q : Fin 16 → Fin 16) (hq : ∀ k, q k = p + k) :
    a (q 0) + a (q 1) + a (q 2) + a (q 3) + a (q 4) + a (q 5) + a (q 6) + a (q 7) + a (q 8) + a (q 9)
      + a (q 10) + a (q 11) + a (q 12) + a (q 13) + a (q 14) + a (q 15) = ∑ d, a d := by
  rw [← sum_rot a p, sum16 fun k => a (p + k)]
  simp only [hq]

/-- The same with the first index written `p` itself. -/
theorem rot_sum_self (a : Fin 16 → M) (p : Fin 16) (q : Fin 16 → Fin 16) (hq : ∀ k, q k = p + k) :
    a p + a (q 1) + a (q 2) + a (q 3) + a (q 4) + a (q 5) + a (q 6) + a (q 7) + a (q 8) + a (q 9)
      + a (q 10) + a (q 11) + a (q 12) + a (q 13) + a (q 14) + a (q 15) = ∑ d, a d := by
  have h0 : q 0 = p := by rw [hq, add_zero]
  rw [← rot_sum a p q hq, h0]

/-- The rotation in the arithmetic of naturals: `(p + k) % 16` is `p + k` in `Fin 16`. -/
theorem fin_add_val (p k : Fin 16) : (p + k).val = (p.val + k.val) % 16 := Fin.val_add p k

/-- A row `r` below 512 is row `r % 32` of chunk `r / 32`. -/
theorem row_split (r : Fin 512) : 32 * (r.val / 32) + r.val % 32 = r.val := Nat.div_add_mod r.val 32

theorem row_chunk_lt (r : Fin 512) : r.val / 32 < 16 := by omega

theorem row_in_chunk_lt (r : Fin 512) : r.val % 32 < 32 := Nat.mod_lt _ (by decide)

end Cert.SumValue

end
-- ==== Proof.Join.lean ====
/-
  The kernel's result is the reference's.

  Every device ends with the same [512, 512] array: row r of it lies in chunk p = r / 32, and
  chunk p is what device p accumulated for its own chunk — its own rows 32 p … 32 p + 31 of its
  block, plus the same rows of the blocks of the devices p + 1, …, p + 15 (mod 16), received in
  slots 0 … 14 and added in that order.  Device d's block is rows 512 d … 512 d + 511 of the whole
  argument X, so entry (r, j) of the result is
      X (512 p + r, j) + X (512 (p+1) + r, j) + … + X (512 (p+15) + r, j)      (device numbers mod 16),
  the sixteen terms of the reference's sum ∑ d, X (512 d + r, j) taken in rotated order.  Addition of
  extended reals is commutative and associative, so the two agree, whatever the entries are.

  The first half of this file reads the contents through the views they are stated with: a slice of
  32 rows at offset 32 p places (t, j) at (32 p + t, j); slot k of the receive buffer, squeezed to
  [32, 512], places (t, j) at (k, t, j); a write through a view is read back at the image of an
  index as the value written there.
-/
import proofs.«900470_g7700000000000471_dist_rs_then_ag_i_m512_n512_v7x_i16_f32_1_alg».proof.Proof.Ring
import proofs.«900470_g7700000000000471_dist_rs_then_ag_i_m512_n512_v7x_i16_f32_1_alg».proof.Proof.RefValue
import proofs.«900470_g7700000000000471_dist_rs_then_ag_i_m512_n512_v7x_i16_f32_1_alg».proof.Proof.PayValue
import proofs.«900470_g7700000000000471_dist_rs_then_ag_i_m512_n512_v7x_i16_f32_1_alg».proof.Proof.SumValue
import Idealize.ShloMosaic.Lib.Layout
import Idealize.ShloMosaic.Lib.ValueIdx
import Idealize.ShloMosaic.Lib.ValueLayout

noncomputable section

open scoped BigOperators

namespace Cert.KernelIdeal.Join

open Cert.KernelIdeal Cert.KernelIdeal.Gen Cert.KernelIdeal.RS Cert.KernelIdeal.PayValue
open Idealize.ShloMosaic Idealize.ShloMosaic.TcCoe Idealize.ShloMosaic.ValueIdx

variable (m : (ℓ : Loc nD τ sig) → Buf (Elt Ideal) ℓ)

/-! ## Indices -/

/-- Row `t` of chunk `p`: row `32 p + t` of the work buffer. -/
abbrev rowIn (p : Dev nD) (t : Fin 32) : Fin 512 :=
  ⟨32 * p.val + t.val, by have h : p.val < 16 := p.isLt; omega⟩

/-- The chunk a row lies in, and its row inside the chunk. -/
abbrev chunkOf (r : Fin 512) : Dev nD := ⟨r.val / 32, by show r.val / 32 < 16; omega⟩
abbrev inChunk (r : Fin 512) : Fin 32 := ⟨r.val % 32, Nat.mod_lt _ (by decide)⟩

theorem rowIn_chunkOf (r : Fin 512) : rowIn (chunkOf r) (inChunk r) = r :=
  Fin.ext (Nat.div_add_mod r.val 32)

/-- The slice of 32 rows at chunk `p` places `(t, j)` at `(32 p + t, j)`. -/
theorem chunk_emb (p : Dev nD) (t : Fin 32) (j : Fin 512) :
    ((chunk p).view.emb (ix2 t j) : S512x512.Idx) = ix2 (rowIn p t) j := by
  have h0 : k0_off3 p = ![32 * p.val, 0] := k0_off3_eq p
  funext a
  refine Fin.ext ?_
  match a with
  | ⟨0, _⟩ =>
    show k0_off3 p 0 + 1 * t.val = 32 * p.val + t.val
    rw [h0]; show 32 * p.val + 1 * t.val = 32 * p.val + t.val; omega
  | ⟨1, _⟩ =>
    show k0_off3 p 1 + 1 * j.val = j.val
    rw [h0]; show 0 + 1 * j.val = j.val; omega

/-- Slot `k` of the receive buffer, squeezed to `[32, 512]`, places `(t, j)` at `(k, t, j)`. -/
theorem slot_emb (k : Fin 15) (t : Fin 32) (j : Fin 512) :
    ((slot k).view.emb (ix2 t j) : S15x32x512.Idx) = ix3 k t j := by
  show (cRect k).emb (Shape.reshapeEquiv squeezes_S1x32x512_S32x512.numel_eq (ix2 t j)) = _
  rw [reshapeEquiv_ix2_1ab]
  funext a
  refine Fin.ext ?_
  match a with
  | ⟨0, _⟩ => show k.val + 1 * 0 = k.val; omega
  | ⟨1, _⟩ => show 0 + 1 * t.val = t.val; omega
  | ⟨2, _⟩ => show 0 + 1 * j.val = j.val; omega

/-! ## Contents read through the views -/

/-- Reading chunk `p` of a work buffer's contents. -/
theorem chunk_read (p : Dev nD) (f : (cc0_scratch0 : Ref sig .tc).ty.Contents (Elt Ideal)) (t : Fin 32) (j : Fin 512) :
    (chunk p).view.read (Elt Ideal) f (ix2 t j) = f (ix2 (rowIn p t) j) := by
  rw [View.read_apply]
  exact (cast_eq _ _).trans (congrArg f (chunk_emb p t j))

/-- Contents written over chunk `p`, read inside the chunk. -/
theorem chunk_write (p : Dev nD) (f : (cc0_scratch0 : Ref sig .tc).ty.Contents (Elt Ideal))
    (w : S32x512.Idx → Elt Ideal .bf16) (t : Fin 32) (j : Fin 512) :
    (chunk p).view.write (Elt Ideal) f w Finset.univ (ix2 (rowIn p t) j) = w (ix2 t j) := by
  have h := View.write_emb_of_mem (v := (chunk p).view) (Val := Elt Ideal) f w (M := Finset.univ) (x := ix2 t j)
    (Finset.mem_univ _)
  rw [chunk_emb] at h
  exact h.trans (cast_eq _ _)

/-- Contents written over slot `k`, read inside the slot. -/
theorem slot_write (k : Fin 15) (f : (cc0_scratch1 : Ref sig .tc).ty.Contents (Elt Ideal))
    (w : S32x512.Idx → Elt Ideal .bf16) (t : Fin 32) (j : Fin 512) :
    (slot k).view.write (Elt Ideal) f w Finset.univ (ix3 k t j) = w (ix2 t j) := by
  have h := View.write_emb_of_mem (v := (slot k).view) (Val := Elt Ideal) f w (M := Finset.univ) (x := ix2 t j)
    (Finset.mem_univ _)
  rw [slot_emb] at h
  exact h.trans (cast_eq _ _)

/-- The staged block of the argument is the argument array itself: the window is the whole array. -/
theorem xstg_apply (c : Dev nD) (r j : Fin 512) :
    xstg m c (ix2 r j) = m ((c : Thread nD τ).loc main_arg0) (ix2 r j) := by
  unfold xstg
  rw [View.read_apply]
  refine (cast_eq _ _).trans (congrArg (m ((c : Thread nD τ).loc main_arg0)) (funext fun a => Fin.ext ?_))
  match a with
  | ⟨0, _⟩ => show 0 * 512 + 1 * r.val = r.val; omega
  | ⟨1, _⟩ => show 0 * 512 + 1 * j.val = j.val; omega

/-- The work buffer after the first store holds the device's block of the argument, entry by entry. -/
theorem W_apply (c : Dev nD) (r j : Fin 512) :
    (W m c (ix2 r j) : EReal) = m ((c : Thread nD τ).loc main_arg0) (ix2 r j) := by
  unfold W
  rw [pay2_eq]
  exact xstg_apply m c r j

/-- The device's own chunk as the body loads it. -/
theorem ownV_apply (c : Dev nD) (t : Fin 32) (j : Fin 512) :
    ownV m c (ix2 t j) = W m c (ix2 (rowIn c t) j) := by
  have h0 : k0_off2 c = ![32 * c.val, 0] := k0_off2_eq c
  unfold ownV
  rw [View.readAt_apply]
  show W m c ((Rect.unit (s := S512x512) (k0_off2 c) S32x512.size (k0_off2_inb c)).toLoadRect.idx (ix2 t j)) = _
  refine congrArg (W m c) (funext fun a => Fin.ext ?_)
  match a with
  | ⟨0, _⟩ =>
    show k0_off2 c 0 + 1 * t.val = 32 * c.val + t.val
    rw [h0]; show 32 * c.val + 1 * t.val = 32 * c.val + t.val; omega
  | ⟨1, _⟩ =>
    show k0_off2 c 1 + 1 * j.val = j.val
    rw [h0]; show 0 + 1 * j.val = j.val; omega

/-- Slot `k` as the body loads it holds rows `32 c … 32 c + 31` of the block of the device `k + 1` places on. -/
theorem slotV_apply (c : Dev nD) (k : Fin 15) (t : Fin 32) (j : Fin 512) :
    slotAt (slotV m c k) t j = (m ((peer c (k.val + 1) : Thread nD τ).loc main_arg0) (ix2 (rowIn c t) j) : EReal) := by
  unfold slotAt slotV
  rw [View.readAt_apply]
  show slotC m c k ((cRect k).toLoadRect.idx (ix3 (0 : Fin 1) t j)) = _
  have hidx : ((cRect k).toLoadRect.idx (ix3 (0 : Fin 1) t j) : S15x32x512.Idx) = ix3 k t j := by
    funext a
    refine Fin.ext ?_
    match a with
    | ⟨0, _⟩ => show k.val + 1 * 0 = k.val; omega
    | ⟨1, _⟩ => show 0 + 1 * t.val = t.val; omega
    | ⟨2, _⟩ => show 0 + 1 * j.val = j.val; omega
  rw [hidx]
  unfold slotC
  rw [slot_write, chunk_read]
  exact W_apply m (peer c (k.val + 1)) (rowIn c t) j

/-! ## One chunk's accumulation -/

/-- Entry `(r, j)` of device `d`'s block of the argument, as an extended real. -/
abbrev blkAt (d : Dev nD) (r j : Fin 512) : EReal := m ((d : Thread nD τ).loc main_arg0) (ix2 r j)

/-- Device `p`'s sum for its chunk: the sixteen blocks' entries at row `32 p + t`, added in the order
    `p, p + 1, …, p + 15`. -/
theorem accOf_apply (p : Dev nD) (t : Fin 32) (j : Fin 512) :
    (accOf m p (ix2 t j) : EReal)
      = blkAt m p (rowIn p t) j + blkAt m (peer p 1) (rowIn p t) j + blkAt m (peer p 2) (rowIn p t) j
        + blkAt m (peer p 3) (rowIn p t) j + blkAt m (peer p 4) (rowIn p t) j + blkAt m (peer p 5) (rowIn p t) j
        + blkAt m (peer p 6) (rowIn p t) j + blkAt m (peer p 7) (rowIn p t) j + blkAt m (peer p 8) (rowIn p t) j
        + blkAt m (peer p 9) (rowIn p t) j + blkAt m (peer p 10) (rowIn p t) j + blkAt m (peer p 11) (rowIn p t) j
        + blkAt m (peer p 12) (rowIn p t) j + blkAt m (peer p 13) (rowIn p t) j + blkAt m (peer p 14) (rowIn p t) j
        + blkAt m (peer p 15) (rowIn p t) j := by
  unfold accOf
  rw [acc_apply, ownV_apply, W_apply]
  simp only [slotV_apply]
  rfl

/-- The final work buffer at `(r, j)` is the sum device `r / 32` made for its chunk, at row `r % 32`. -/
theorem workFinal_apply (r j : Fin 512) :
    workFinal m (ix2 r j) = accOf m (chunkOf r) (ix2 (inChunk r) j) := by
  show chunkC m (chunkOf r) (ix2 r j) = _
  unfold chunkC
  have hr : (ix2 r j : S512x512.Idx) = ix2 (rowIn (chunkOf r) (inChunk r)) j := by rw [rowIn_chunkOf]
  exact (congrArg _ hr).trans (chunk_write (chunkOf r) junkW (accOf m (chunkOf r)) (inChunk r) j)

/-- The result at `(r, j)`: the sixteen blocks' entries at row `r`, added in the rotated order. -/
theorem outAt_apply (r j : Fin 512) :
    (outAt m (ix2 r j) : EReal)
      = blkAt m (chunkOf r) r j + blkAt m (peer (chunkOf r) 1) r j + blkAt m (peer (chunkOf r) 2) r j
        + blkAt m (peer (chunkOf r) 3) r j + blkAt m (peer (chunkOf r) 4) r j + blkAt m (peer (chunkOf r) 5) r j
        + blkAt m (peer (chunkOf r) 6) r j + blkAt m (peer (chunkOf r) 7) r j + blkAt m (peer (chunkOf r) 8) r j
        + blkAt m (peer (chunkOf r) 9) r j + blkAt m (peer (chunkOf r) 10) r j + blkAt m (peer (chunkOf r) 11) r j
        + blkAt m (peer (chunkOf r) 12) r j + blkAt m (peer (chunkOf r) 13) r j + blkAt m (peer (chunkOf r) 14) r j
        + blkAt m (peer (chunkOf r) 15) r j := by
  unfold outAt
  rw [pay1_eq, workFinal_apply, accOf_apply, rowIn_chunkOf]

/-! ## The blocks of the whole argument, and the rotation -/

/-- Entry `(r, j)` of block `d` of the whole argument is its entry `(512 d + r, j)`. -/
theorem block_apply_ix2 (X : (⟨2, ![8192, 512]⟩ : Shape).Idx → EReal) (d : Fin 16) (r j : Fin 512) :
    (Layout.block ⟨2, ![512, 512]⟩ ⟨2, ![8192, 512]⟩ 0 16 d X) (ix2 r j)
      = X (ix2 (Cert.ReferenceIdeal.RefValue.rowOf d r) j) := by
  rw [Layout.block_apply]
  refine congrArg X (funext fun a => Fin.ext ?_)
  match a with
  | ⟨0, _⟩ => show d.val * 512 + r.val = 512 * d.val + r.val; omega
  | ⟨1, _⟩ => rfl

/-- The device `k` places on from `p` is `p + k` in the arithmetic of `Fin 16`. -/
theorem peer_eq_add (p : Dev nD) (k : Fin 16) : peer p k.val = p + k :=
  Fin.ext (by rw [Fin.val_add]; rfl)

/-- THE VALUE: from memories where each device's argument buffer holds its block of the whole argument
    `X`, the kernel's result on every device is the reference's result of `X`. -/
theorem result_eq (X : (⟨Cert.ReferenceIdeal.S8192x512, .f32⟩ : BufTy).Contents (Elt Ideal))
    (hX : ∀ c : Dev nD, m ((c.tc : Thread nD τ).loc main_arg0)
      = Layout.block ⟨2, ![512, 512]⟩ ⟨2, ![8192, 512]⟩ 0 16 c X) :
    outAt m = Cert.ReferenceIdeal.Read.val_main_v1 (F := Ideal) X := by
  funext i
  obtain ⟨r, j, rfl⟩ : ∃ (r : Fin 512) (j : Fin 512), i = ix2 r j := ⟨i 0, i 1, eq_ix2 i⟩
  have hb : ∀ d : Dev nD, blkAt m d r j = X (ix2 (Cert.ReferenceIdeal.RefValue.rowOf d r) j) := fun d => by
    show m ((d.tc : Thread nD τ).loc main_arg0) (ix2 r j) = _
    rw [hX d]
    exact block_apply_ix2 X d r j
  refine (outAt_apply m r j).trans ?_
  rw [Cert.ReferenceIdeal.RefValue.ref_apply]
  simp only [hb]
  exact Cert.SumValue.rot_sum_self (fun d : Fin 16 => X (ix2 (Cert.ReferenceIdeal.RefValue.rowOf d r) j)) (chunkOf r)
    (fun k => peer (chunkOf r) k.val) (peer_eq_add (chunkOf r))

/-- The same against the term the reference's run states for its result: the sum over the first axis of
    the whole argument reshaped to `[16, 512, 512]`, from the zero word. `m'` is the reference's memory;
    its argument array is the whole argument. -/
theorem result_eq_run
    (m' : (ℓ : Loc Cert.ReferenceIdeal.nD Cert.ReferenceIdeal.τ Cert.ReferenceIdeal.sig) → Buf (Elt Ideal) ℓ)
    (hX : ∀ c : Dev nD, m ((c.tc : Thread nD τ).loc main_arg0)
      = Layout.block ⟨2, ![512, 512]⟩ ⟨2, ![8192, 512]⟩ 0 16 c
          (m' (((0 : Dev Cert.ReferenceIdeal.nD).tc : Thread Cert.ReferenceIdeal.nD Cert.ReferenceIdeal.τ).loc
            Cert.ReferenceIdeal.main_arg0))) :
    outAt m = (Host.reduceAdd (F := Ideal)
      (shapeCast _ (m' (((0 : Dev Cert.ReferenceIdeal.nD).tc : Thread Cert.ReferenceIdeal.nD Cert.ReferenceIdeal.τ).loc
          Cert.ReferenceIdeal.main_arg0)) Cert.ReferenceIdeal.Gen.shapeCasts_S8192x512_S16x512x512)
      (constant (F := Ideal) Cert.ReferenceIdeal.S_ .f32 0x00000000#32)
      Cert.ReferenceIdeal.Gen.reducesTo_S16x512x512_S512x512_d0 Cert.ReferenceIdeal.Gen.h_S_
        : (⟨Cert.ReferenceIdeal.S512x512, .f32⟩ : BufTy).Contents (Elt Ideal)) :=
  (result_eq m _ hX).trans (Cert.ReferenceIdeal.Read.val_main_v1_eq _).symm

/-- info: 'Cert.KernelIdeal.Join.result_eq_run' depends on axioms: [propext, Classical.choice, Quot.sound] -/
#guard_msgs in #print axioms result_eq_run

end Cert.KernelIdeal.Join

end
-- ==== Proof.Claims.lean ====
/-
  The claims, each from its pieces.

  The reference's frame is its run with the result forgotten.  The idealized kernel's frame is the
  launch's run with the result forgotten.  The kernel and its idealization are the same text read at
  two instances (no rewrite was applied), so the preservation claim asks nothing.  The value claim
  pairs two runs: the kernel's, whose result buffer on every device ends holding the array in which
  chunk p is the sum device p made, and the reference's, whose result is the sum of the sixteen
  blocks of rows of the whole argument; the two arrays are equal entry by entry because a sum of
  extended reals does not depend on the order of its terms.
-/
import proofs.«900470_g7700000000000471_dist_rs_then_ag_i_m512_n512_v7x_i16_f32_1_alg».proof.Defs
import proofs.«900470_g7700000000000471_dist_rs_then_ag_i_m512_n512_v7x_i16_f32_1_alg».proof.Proof.Gen.KernelIdeal
import proofs.«900470_g7700000000000471_dist_rs_then_ag_i_m512_n512_v7x_i16_f32_1_alg».proof.Proof.Gen.ReferenceIdeal
import proofs.«900470_g7700000000000471_dist_rs_then_ag_i_m512_n512_v7x_i16_f32_1_alg».proof.Proof.Gen.ReferenceIdeal.Run
import proofs.«900470_g7700000000000471_dist_rs_then_ag_i_m512_n512_v7x_i16_f32_1_alg».proof.Proof.Gen.Pre_finite_inputs_Kernel
import proofs.«900470_g7700000000000471_dist_rs_then_ag_i_m512_n512_v7x_i16_f32_1_alg».proof.Proof.Gen.Pre_finite_inputs_ReferenceIdeal
import proofs.«900470_g7700000000000471_dist_rs_then_ag_i_m512_n512_v7x_i16_f32_1_alg».proof.Proof.Ring
import proofs.«900470_g7700000000000471_dist_rs_then_ag_i_m512_n512_v7x_i16_f32_1_alg».proof.Proof.FrameOf
import proofs.«900470_g7700000000000471_dist_rs_then_ag_i_m512_n512_v7x_i16_f32_1_alg».proof.Proof.Join

noncomputable section

namespace Cert.Proof.Claims

open Cert.KernelIdeal Cert.KernelIdeal.Gen
open Idealize.ShloMosaic Idealize.ShloMosaic.TcCoe Idealize.SL.Sem

/-- The reference runs to the end, faults nowhere and leaves its argument unchanged: its run, the result
    forgotten. -/
theorem frame_ri :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run Cert.ReferenceIdeal.defs _ _).mono (fun _ h c => (h c).2)
    (Cert.ReferenceIdeal.Value.run (F := Ideal) m ρ)

/-- The idealized kernel's frame from the launch's run. -/
theorem frame_ki_of_run
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩
        (fun r => ∀ c : Dev nD, ∀ w : Fin cfg0.W,
          r.2.mem ((cfg0.win w).arr.view.loc (c : Thread nD τ)) = (RS.dats m 0 c).arrAt w cfg0.N))
    (hin : ∀ (m : (ℓ : Loc nD τ sig) → Buf (Elt Ideal) ℓ) (c : Dev nD),
      (RS.dats m 0 c).arrAt (0 : Fin 2) cfg0.N = m ((c : Thread nD τ).loc main_arg0)) :
    Cert.frame_KernelIdeal (hKernelIdeal := Cert.KernelIdeal.Gen.facts)
      (hPre_finite_inputs_Kernel := Cert.Pre_finite_inputs_Kernel.Gen.facts) :=
  fun m ρ _ => RS.frame_of_run m ρ (hrun m ρ) (hin m)

/-- The kernel and its idealization are one text read at two instances. -/
theorem preserves : Cert.preserves_Kernel_KernelIdeal := trivial

/-- The value claim from the launch's run, the two facts about the final arrays (the argument's is the
    argument, the result's is the array of the sixteen devices' sums) and the equality of that array
    with the reference's result. -/
theorem algebraic_of_run
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩
        (fun r => ∀ c : Dev nD, ∀ w : Fin cfg0.W,
          r.2.mem ((cfg0.win w).arr.view.loc (c : Thread nD τ)) = (RS.dats m 0 c).arrAt w cfg0.N))
    (hin : ∀ (m : (ℓ : Loc nD τ sig) → Buf (Elt Ideal) ℓ) (c : Dev nD),
      (RS.dats m 0 c).arrAt (0 : Fin 2) cfg0.N = m ((c : Thread nD τ).loc main_arg0))
    (hout : ∀ (m : (ℓ : Loc nD τ sig) → Buf (Elt Ideal) ℓ) (c : Dev nD),
      (RS.dats m 0 c).arrAt (1 : Fin 2) cfg0.N = RS.outAt m) :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) :=
  fun m g m' g' _ hagree =>
    ⟨RS.outAt m,
      (θ_run (defs (F := Ideal)) _ _).mono
        (fun r h c => ⟨(h c (1 : Fin 2)).trans (hout m c), (h c (0 : Fin 2)).trans (hin m c)⟩) (hrun m g),
      (θ_run Cert.ReferenceIdeal.defs _ _).mono
        (fun r h => ⟨((h 0).1).trans (Cert.KernelIdeal.Join.result_eq_run m m' hagree).symm, (h 0).2⟩)
        (Cert.ReferenceIdeal.Value.run (F := Ideal) m' g')⟩

/-- info: 'Cert.Proof.Claims.algebraic_of_run' depends on axioms: [propext, Classical.choice, Quot.sound] -/
#guard_msgs in #print axioms algebraic_of_run

end Cert.Proof.Claims

end
-- ==== Proof.lean ====
/- The five conjuncts assembled. On sixteen devices each holding a [512, 512] block of the argument, the kernel first
   meets every other device on the barrier semaphore, then scatters and reduces: chunk r of each device's block, in the
   narrower format, is copied into a slot of device r, which adds its own chunk and the fifteen it received; then gathers:
   every device copies its sum into the same rows of every other device's scratch, so that each ends with the sum of the
   sixteen blocks. The reference adds the sixteen blocks of the whole argument. At the exact instance the change of format
   is the identity and a sum does not depend on its order, so the two results are one function of the argument; no
   finiteness is used. The word-level kernel's frame and the idealized kernel's frame are each the launch's run of that
   program with the result forgotten; the launch's run takes the body of every device, stepped once at a symbolic device;
   the reference's frame is its run with the result forgotten; the kernel and its idealization are one text, so
   preservation asks nothing; the value claim pairs the idealized kernel's run, its result array named, with the
   reference's run. -/
import proofs.«900470_g7700000000000471_dist_rs_then_ag_i_m512_n512_v7x_i16_f32_1_alg».proof.Defs
import proofs.«900470_g7700000000000471_dist_rs_then_ag_i_m512_n512_v7x_i16_f32_1_alg».proof.Proof.Gen.Kernel
import proofs.«900470_g7700000000000471_dist_rs_then_ag_i_m512_n512_v7x_i16_f32_1_alg».proof.Proof.Gen.Kernel.Skeleton
import proofs.«900470_g7700000000000471_dist_rs_then_ag_i_m512_n512_v7x_i16_f32_1_alg».proof.Proof.Gen.Kernel.Launch
import proofs.«900470_g7700000000000471_dist_rs_then_ag_i_m512_n512_v7x_i16_f32_1_alg».proof.Proof.Gen.Kernel.Points
import proofs.«900470_g7700000000000471_dist_rs_then_ag_i_m512_n512_v7x_i16_f32_1_alg».proof.Proof.Gen.Kernel.Frame
import proofs.«900470_g7700000000000471_dist_rs_then_ag_i_m512_n512_v7x_i16_f32_1_alg».proof.Proof.Gen.KernelIdeal
import proofs.«900470_g7700000000000471_dist_rs_then_ag_i_m512_n512_v7x_i16_f32_1_alg».proof.Proof.Gen.KernelIdeal.Skeleton
import proofs.«900470_g7700000000000471_dist_rs_then_ag_i_m512_n512_v7x_i16_f32_1_alg».proof.Proof.Gen.KernelIdeal.Launch
import proofs.«900470_g7700000000000471_dist_rs_then_ag_i_m512_n512_v7x_i16_f32_1_alg».proof.Proof.Gen.KernelIdeal.Points
import proofs.«900470_g7700000000000471_dist_rs_then_ag_i_m512_n512_v7x_i16_f32_1_alg».proof.Proof.Gen.KernelIdeal.Frame
import proofs.«900470_g7700000000000471_dist_rs_then_ag_i_m512_n512_v7x_i16_f32_1_alg».proof.Proof.Gen.ReferenceIdeal
import proofs.«900470_g7700000000000471_dist_rs_then_ag_i_m512_n512_v7x_i16_f32_1_alg».proof.Proof.Gen.ReferenceIdeal.Run
import proofs.«900470_g7700000000000471_dist_rs_then_ag_i_m512_n512_v7x_i16_f32_1_alg».proof.Proof.Gen.ReferenceIdeal.Read
import proofs.«900470_g7700000000000471_dist_rs_then_ag_i_m512_n512_v7x_i16_f32_1_alg».proof.Proof.Gen.Pre_finite_inputs_Kernel
import proofs.«900470_g7700000000000471_dist_rs_then_ag_i_m512_n512_v7x_i16_f32_1_alg».proof.Proof.Gen.Pre_finite_inputs_ReferenceIdeal
import proofs.«900470_g7700000000000471_dist_rs_then_ag_i_m512_n512_v7x_i16_f32_1_alg».proof.Proof.Launch
import proofs.«900470_g7700000000000471_dist_rs_then_ag_i_m512_n512_v7x_i16_f32_1_alg».proof.Proof.KLaunch
import proofs.«900470_g7700000000000471_dist_rs_then_ag_i_m512_n512_v7x_i16_f32_1_alg».proof.Proof.FrameOf
import proofs.«900470_g7700000000000471_dist_rs_then_ag_i_m512_n512_v7x_i16_f32_1_alg».proof.Proof.KFrameOf
import proofs.«900470_g7700000000000471_dist_rs_then_ag_i_m512_n512_v7x_i16_f32_1_alg».proof.Proof.Post
import proofs.«900470_g7700000000000471_dist_rs_then_ag_i_m512_n512_v7x_i16_f32_1_alg».proof.Proof.KPost
import proofs.«900470_g7700000000000471_dist_rs_then_ag_i_m512_n512_v7x_i16_f32_1_alg».proof.Proof.Body
import proofs.«900470_g7700000000000471_dist_rs_then_ag_i_m512_n512_v7x_i16_f32_1_alg».proof.Proof.KBody
import proofs.«900470_g7700000000000471_dist_rs_then_ag_i_m512_n512_v7x_i16_f32_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    fun m g _ => Cert.Kernel.RS.frame_of_run m g
      (Cert.Kernel.RS.run_main m g (Cert.Kernel.RS.body_obligation m (Cert.Kernel.RS.sound_body m))) (Cert.Kernel.RS.finalA_x m),
    Claims.frame_ki_of_run
      (fun m ρ => Cert.KernelIdeal.RS.run_main m ρ (Cert.KernelIdeal.RS.body_obligation m (Cert.KernelIdeal.RS.sound_body m)))
      (fun m c => Cert.KernelIdeal.RS.finalA_x m c),
    Claims.frame_ri,
    Claims.preserves,
    Claims.algebraic_of_run
      (fun m ρ => Cert.KernelIdeal.RS.run_main m ρ (Cert.KernelIdeal.RS.body_obligation m (Cert.KernelIdeal.RS.sound_body m)))
      (fun m c => Cert.KernelIdeal.RS.finalA_x m c) (fun m c => Cert.KernelIdeal.RS.finalA_out m c)⟩

end Cert.Proof

end
